-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v57)) (v1 : (c : Dev Cert.KernelIdeal.nD) → Buf (Elt Ideal) ((c.tc : Thread Cert.KernelIdeal.nD Cert.KernelIdeal.τ).loc Cert.KernelIdeal.main_v64)) (v2 : (c : Dev Cert.KernelIdeal.nD) → Buf (Elt Ideal) ((c.tc : Thread Cert.KernelIdeal.nD Cert.KernelIdeal.τ).loc Cert.KernelIdeal.main_v50_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_v64) = v1 c
          ∧ r.2.mem ((c.tc : Thread Cert.KernelIdeal.nD Cert.KernelIdeal.τ).loc Cert.KernelIdeal.main_v50_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v185) = v0 c
          ∧ r.2.mem ((c.tc : Thread Cert.ReferenceIdeal.nD Cert.ReferenceIdeal.τ).loc Cert.ReferenceIdeal.main_v192) = v1 c
          ∧ r.2.mem ((c.tc : Thread Cert.ReferenceIdeal.nD Cert.ReferenceIdeal.τ).loc Cert.ReferenceIdeal.main_v114) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x10 : Shape := ⟨2, ![100000, 10]⟩
abbrev S3200000 : Shape := ⟨1, ![3200000]⟩
abbrev S3200000x8 : Shape := ⟨2, ![3200000, 8]⟩
abbrev S3200000x4 : Shape := ⟨2, ![3200000, 4]⟩
abbrev S100000x1 : Shape := ⟨2, ![100000, 1]⟩
abbrev S20000 : Shape := ⟨1, ![20000]⟩
abbrev S1x10 : Shape := ⟨2, ![1, 10]⟩
abbrev S256x34 : Shape := ⟨2, ![256, 34]⟩
abbrev S256 : Shape := ⟨1, ![256]⟩
abbrev S512x280 : Shape := ⟨2, ![512, 280]⟩
abbrev S512 : Shape := ⟨1, ![512]⟩
abbrev S256x536 : Shape := ⟨2, ![256, 536]⟩
abbrev S10x280 : Shape := ⟨2, ![10, 280]⟩
abbrev S10 : Shape := ⟨1, ![10]⟩
abbrev S512x512 : Shape := ⟨2, ![512, 512]⟩
abbrev S16x512 : Shape := ⟨2, ![16, 512]⟩
abbrev S16 : Shape := ⟨1, ![16]⟩
abbrev S_ : Shape := ⟨0, ![]⟩

class Facts : Prop where
  bcast_S_S100000x10 : S_.BroadcastsInDim S100000x10 (![] : Fin 0 → Fin S100000x10.rank)
  reducesTo_S100000x10_S_d0_1 : S100000x10.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S3200000x8 : S_.BroadcastsInDim S3200000x8 (![] : Fin 0 → Fin S3200000x8.rank)
  reducesTo_S3200000x8_S_d0_1 : S3200000x8.ReducesTo [0, 1] S_
  bcast_S_S3200000x4 : S_.BroadcastsInDim S3200000x4 (![] : Fin 0 → Fin S3200000x4.rank)
  reducesTo_S3200000x4_S_d0_1 : S3200000x4.ReducesTo [0, 1] S_
  bcast_S_S100000x1 : S_.BroadcastsInDim S100000x1 (![] : Fin 0 → Fin S100000x1.rank)
  reducesTo_S100000x1_S_d0_1 : S100000x1.ReducesTo [0, 1] S_
  bcast_S_S1x10 : S_.BroadcastsInDim S1x10 (![] : Fin 0 → Fin S1x10.rank)
  reducesTo_S1x10_S_d0_1 : S1x10.ReducesTo [0, 1] S_
  bcast_S_S256x34 : S_.BroadcastsInDim S256x34 (![] : Fin 0 → Fin S256x34.rank)
  reducesTo_S256x34_S_d0_1 : S256x34.ReducesTo [0, 1] S_
  bcast_S_S256 : S_.BroadcastsInDim S256 (![] : Fin 0 → Fin S256.rank)
  reducesTo_S256_S_d0 : S256.ReducesTo [0] S_
  bcast_S_S512x280 : S_.BroadcastsInDim S512x280 (![] : Fin 0 → Fin S512x280.rank)
  reducesTo_S512x280_S_d0_1 : S512x280.ReducesTo [0, 1] S_
  bcast_S_S512 : S_.BroadcastsInDim S512 (![] : Fin 0 → Fin S512.rank)
  reducesTo_S512_S_d0 : S512.ReducesTo [0] S_
  bcast_S_S256x536 : S_.BroadcastsInDim S256x536 (![] : Fin 0 → Fin S256x536.rank)
  reducesTo_S256x536_S_d0_1 : S256x536.ReducesTo [0, 1] S_
  bcast_S_S10x280 : S_.BroadcastsInDim S10x280 (![] : Fin 0 → Fin S10x280.rank)
  reducesTo_S10x280_S_d0_1 : S10x280.ReducesTo [0, 1] S_
  bcast_S_S10 : S_.BroadcastsInDim S10 (![] : Fin 0 → Fin S10.rank)
  reducesTo_S10_S_d0 : S10.ReducesTo [0] S_
  bcast_S_S512x512 : S_.BroadcastsInDim S512x512 (![] : Fin 0 → Fin S512x512.rank)
  reducesTo_S512x512_S_d0_1 : S512x512.ReducesTo [0, 1] S_
  bcast_S_S16x512 : S_.BroadcastsInDim S16x512 (![] : Fin 0 → Fin S16x512.rank)
  reducesTo_S16x512_S_d0_1 : S16x512.ReducesTo [0, 1] S_
  bcast_S_S16 : S_.BroadcastsInDim S16 (![] : Fin 0 → Fin S16.rank)
  reducesTo_S16_S_d0 : S16.ReducesTo [0] S_

variable [Facts]

def fn_part8 {F : FTy → Type} [FloatOps F] (main_v133 : IVec S_ 1) (main_v136 : IVec S16 1) : IVec S_ 1 :=
  let main_c_53 : IVec S_ 1 := constantI S_ 1 1#1
  let main_v137 : IVec S_ 1 := (fun x v => Host.reduce IntOp.andi x v reducesTo_S16_S_d0 h_S_) main_v136 main_c_53
  let main_v138 : IVec S_ 1 := andi main_v133 main_v137
  main_v138

def fn_part7 {F : FTy → Type} [FloatOps F] (main_arg28 : FVec F S16 .f32) (main_arg29 : FVec F S16 .f32) (main_arg30 : FVec F S16 .f32) (main_v118 : IVec S_ 1) (main_v119 : FVec F S16x512 .f32) : IVec S_ 1 :=
  let main_cst_46 : FVec F S_ .f32 := constant S_ .f32 0x7F800000#32
  let main_v120 : FVec F S16x512 .f32 := broadcastInDim S16x512 ![] bcast_S_S16x512 main_cst_46
  let main_v121 : IVec S16x512 1 := cmpf .olt main_v119 main_v120
  let main_c_47 : IVec S_ 1 := constantI S_ 1 1#1
  let main_v122 : IVec S_ 1 := (fun x v => Host.reduce IntOp.andi x v reducesTo_S16x512_S_d0_1 h_S_) main_v121 main_c_47
  let main_v123 : IVec S_ 1 := andi main_v118 main_v122
  let main_v124 : FVec F S16 .f32 := Host.absf main_arg28
  let main_cst_48 : FVec F S_ .f32 := constant S_ .f32 0x7F800000#32
  let main_v125 : FVec F S16 .f32 := broadcastInDim S16 ![] bcast_S_S16 main_cst_48
  let main_v126 : IVec S16 1 := cmpf .olt main_v124 main_v125
  let main_c_49 : IVec S_ 1 := constantI S_ 1 1#1
  let main_v127 : IVec S_ 1 := (fun x v => Host.reduce IntOp.andi x v reducesTo_S16_S_d0 h_S_) main_v126 main_c_49
  let main_v128 : IVec S_ 1 := andi main_v123 main_v127
  let main_v129 : FVec F S16 .f32 := Host.absf main_arg29
  let main_cst_50 : FVec F S_ .f32 := constant S_ .f32 0x7F800000#32
  let main_v130 : FVec F S16 .f32 := broadcastInDim S16 ![] bcast_S_S16 main_cst_50
  let main_v131 : IVec S16 1 := cmpf .olt main_v129 main_v130
  let main_c_51 : IVec S_ 1 := constantI S_ 1 1#1
  let main_v132 : IVec S_ 1 := (fun x v => Host.reduce IntOp.andi x v reducesTo_S16_S_d0 h_S_) main_v131 main_c_51
  let main_v133 : IVec S_ 1 := andi main_v128 main_v132
  let main_v134 : FVec F S16 .f32 := Host.absf main_arg30
  let main_cst_52 : FVec F S_ .f32 := constant S_ .f32 0x7F800000#32
  let main_v135 : FVec F S16 .f32 := broadcastInDim S16 ![] bcast_S_S16 main_cst_52
  let main_v136 : IVec S16 1 := cmpf .olt main_v134 main_v135
  fn_part8 (F := F) main_v133 main_v136

def fn_part6 {F : FTy → Type} [FloatOps F] (main_arg24 : FVec F S10 .f32) (main_arg25 : FVec F S10 .f32) (main_arg26 : FVec F S512x512 .f32) (main_arg27 : FVec F S16x512 .f32) (main_arg28 : FVec F S16 .f32) (main_arg29 : FVec F S16 .f32) (main_arg30 : FVec F S16 .f32) (main_v98 : IVec S_ 1) (main_v101 : IVec S10 1) (main_c_39 : IVec S_ 1) : IVec S_ 1 :=
  let main_v102 : IVec S_ 1 := (fun x v => Host.reduce IntOp.andi x v reducesTo_S10_S_d0 h_S_) main_v101 main_c_39
  let main_v103 : IVec S_ 1 := andi main_v98 main_v102
  let main_v104 : FVec F S10 .f32 := Host.absf main_arg24
  let main_cst_40 : FVec F S_ .f32 := constant S_ .f32 0x7F800000#32
  let main_v105 : FVec F S10 .f32 := broadcastInDim S10 ![] bcast_S_S10 main_cst_40
  let main_v106 : IVec S10 1 := cmpf .olt main_v104 main_v105
  let main_c_41 : IVec S_ 1 := constantI S_ 1 1#1
  let main_v107 : IVec S_ 1 := (fun x v => Host.reduce IntOp.andi x v reducesTo_S10_S_d0 h_S_) main_v106 main_c_41
  let main_v108 : IVec S_ 1 := andi main_v103 main_v107
  let main_v109 : FVec F S10 .f32 := Host.absf main_arg25
  let main_cst_42 : FVec F S_ .f32 := constant S_ .f32 0x7F800000#32
  let main_v110 : FVec F S10 .f32 := broadcastInDim S10 ![] bcast_S_S10 main_cst_42
  let main_v111 : IVec S10 1 := cmpf .olt main_v109 main_v110
  let main_c_43 : IVec S_ 1 := constantI S_ 1 1#1
  let main_v112 : IVec S_ 1 := (fun x v => Host.reduce IntOp.andi x v reducesTo_S10_S_d0 h_S_) main_v111 main_c_43
  let main_v113 : IVec S_ 1 := andi main_v108 main_v112
  let main_v114 : FVec F S512x512 .f32 := Host.absf main_arg26
  let main_cst_44 : FVec F S_ .f32 := constant S_ .f32 0x7F800000#32
  let main_v115 : FVec F S512x512 .f32 := broadcastInDim S512x512 ![] bcast_S_S512x512 main_cst_44
  let main_v116 : IVec S512x512 1 := cmpf .olt main_v114 main_v115
  let main_c_45 : IVec S_ 1 := constantI S_ 1 1#1
  let main_v117 : IVec S_ 1 := (fun x v => Host.reduce IntOp.andi x v reducesTo_S512x512_S_d0_1 h_S_) main_v116 main_c_45
  let main_v118 : IVec S_ 1 := andi main_v113 main_v117
  let main_v119 : FVec F S16x512 .f32 := Host.absf main_arg27
  fn_part7 (F := F) main_arg28 main_arg29 main_arg30 main_v118 main_v119

def fn_part5 {F : FTy → Type} [FloatOps F] (main_arg21 : FVec F S256 .f32) (main_arg22 : FVec F S10x280 .f32) (main_arg23 : FVec F S10 .f32) (main_arg24 : FVec F S10 .f32) (main_arg25 : FVec F S10 .f32) (main_arg26 : FVec F S512x512 .f32) (main_arg27 : FVec F S16x512 .f32) (main_arg28 : FVec F S16 .f32) (main_arg29 : FVec F S16 .f32) (main_arg30 : FVec F S16 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256 .f32 := Host.absf main_arg21
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S10x280 .f32 := Host.absf main_arg22
  let main_cst_36 : FVec F S_ .f32 := constant S_ .f32 0x7F800000#32
  let main_v95 : FVec F S10x280 .f32 := broadcastInDim S10x280 ![] bcast_S_S10x280 main_cst_36
  let main_v96 : IVec S10x280 1 := cmpf .olt main_v94 main_v95
  let main_c_37 : IVec S_ 1 := constantI S_ 1 1#1
  let main_v97 : IVec S_ 1 := (fun x v => Host.reduce IntOp.andi x v reducesTo_S10x280_S_d0_1 h_S_) main_v96 main_c_37
  let main_v98 : IVec S_ 1 := andi main_v93 main_v97
  let main_v99 : FVec F S10 .f32 := Host.absf main_arg23
  let main_cst_38 : FVec F S_ .f32 := constant S_ .f32 0x7F800000#32
  let main_v100 : FVec F S10 .f32 := broadcastInDim S10 ![] bcast_S_S10 main_cst_38
  let main_v101 : IVec S10 1 := cmpf .olt main_v99 main_v100
  let main_c_39 : IVec S_ 1 := constantI S_ 1 1#1
  fn_part6 (F := F) main_arg24 main_arg25 main_arg26 main_arg27 main_arg28 main_arg29 main_arg30 main_v98 main_v101 main_c_39

def fn_part4 {F : FTy → Type} [FloatOps F] (main_arg17 : FVec F S512 .f32) (main_arg18 : FVec F S256x536 .f32) (main_arg19 : FVec F S256 .f32) (main_arg20 : FVec F S256 .f32) (main_arg21 : FVec F S256 .f32) (main_arg22 : FVec F S10x280 .f32) (main_arg23 : FVec F S10 .f32) (main_arg24 : FVec F S10 .f32) (main_arg25 : FVec F S10 .f32) (main_arg26 : FVec F S512x512 .f32) (main_arg27 : FVec F S16x512 .f32) (main_arg28 : FVec F S16 .f32) (main_arg29 : FVec F S16 .f32) (main_arg30 : FVec F S16 .f32) (main_v63 : IVec S_ 1) (main_v67 : IVec S_ 1) : IVec S_ 1 :=
  let main_v68 : IVec S_ 1 := andi main_v63 main_v67
  let main_v69 : FVec F S512 .f32 := Host.absf main_arg17
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S256x536 .f32 := Host.absf main_arg18
  let main_cst_28 : FVec F S_ .f32 := constant S_ .f32 0x7F800000#32
  let main_v75 : FVec F S256x536 .f32 := broadcastInDim S256x536 ![] bcast_S_S256x536 main_cst_28
  let main_v76 : IVec S256x536 1 := cmpf .olt main_v74 main_v75
  let main_c_29 : IVec S_ 1 := constantI S_ 1 1#1
  let main_v77 : IVec S_ 1 := (fun x v => Host.reduce IntOp.andi x v reducesTo_S256x536_S_d0_1 h_S_) main_v76 main_c_29
  let main_v78 : IVec S_ 1 := andi main_v73 main_v77
  let main_v79 : FVec F S256 .f32 := Host.absf main_arg19
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256 .f32 := Host.absf main_arg20
  let main_cst_32 : FVec F S_ .f32 := constant S_ .f32 0x7F800000#32
  fn_part5 (F := F) main_arg21 main_arg22 main_arg23 main_arg24 main_arg25 main_arg26 main_arg27 main_arg28 main_arg29 main_arg30 main_v83 main_v84 main_cst_32

def fn_part3 {F : FTy → Type} [FloatOps F] (main_arg14 : FVec F S512x280 .f32) (main_arg15 : FVec F S512 .f32) (main_arg16 : FVec F S512 .f32) (main_arg17 : FVec F S512 .f32) (main_arg18 : FVec F S256x536 .f32) (main_arg19 : FVec F S256 .f32) (main_arg20 : FVec F S256 .f32) (main_arg21 : FVec F S256 .f32) (main_arg22 : FVec F S10x280 .f32) (main_arg23 : FVec F S10 .f32) (main_arg24 : FVec F S10 .f32) (main_arg25 : FVec F S10 .f32) (main_arg26 : FVec F S512x512 .f32) (main_arg27 : FVec F S16x512 .f32) (main_arg28 : FVec F S16 .f32) (main_arg29 : FVec F S16 .f32) (main_arg30 : FVec F S16 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S512x280 .f32 := Host.absf main_arg14
  let main_cst_20 : FVec F S_ .f32 := constant S_ .f32 0x7F800000#32
  let main_v55 : FVec F S512x280 .f32 := broadcastInDim S512x280 ![] bcast_S_S512x280 main_cst_20
  let main_v56 : IVec S512x280 1 := cmpf .olt main_v54 main_v55
  let main_c_21 : IVec S_ 1 := constantI S_ 1 1#1
  let main_v57 : IVec S_ 1 := (fun x v => Host.reduce IntOp.andi x v reducesTo_S512x280_S_d0_1 h_S_) main_v56 main_c_21
  let main_v58 : IVec S_ 1 := andi main_v53 main_v57
  let main_v59 : FVec F S512 .f32 := Host.absf main_arg15
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512 .f32 := Host.absf main_arg16
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg17 main_arg18 main_arg19 main_arg20 main_arg21 main_arg22 main_arg23 main_arg24 main_arg25 main_arg26 main_arg27 main_arg28 main_arg29 main_arg30 main_v63 main_v67

def fn_part2 {F : FTy → Type} [FloatOps F] (main_arg10 : FVec F S256x34 .f32) (main_arg11 : FVec F S256 .f32) (main_arg12 : FVec F S256 .f32) (main_arg13 : FVec F S256 .f32) (main_arg14 : FVec F S512x280 .f32) (main_arg15 : FVec F S512 .f32) (main_arg16 : FVec F S512 .f32) (main_arg17 : FVec F S512 .f32) (main_arg18 : FVec F S256x536 .f32) (main_arg19 : FVec F S256 .f32) (main_arg20 : FVec F S256 .f32) (main_arg21 : FVec F S256 .f32) (main_arg22 : FVec F S10x280 .f32) (main_arg23 : FVec F S10 .f32) (main_arg24 : FVec F S10 .f32) (main_arg25 : FVec F S10 .f32) (main_arg26 : FVec F S512x512 .f32) (main_arg27 : FVec F S16x512 .f32) (main_arg28 : FVec F S16 .f32) (main_arg29 : FVec F S16 .f32) (main_arg30 : FVec F S16 .f32) (main_v33 : IVec S_ 1) : IVec S_ 1 :=
  let main_v34 : FVec F S256x34 .f32 := Host.absf main_arg10
  let main_cst_12 : FVec F S_ .f32 := constant S_ .f32 0x7F800000#32
  let main_v35 : FVec F S256x34 .f32 := broadcastInDim S256x34 ![] bcast_S_S256x34 main_cst_12
  let main_v36 : IVec S256x34 1 := cmpf .olt main_v34 main_v35
  let main_c_13 : IVec S_ 1 := constantI S_ 1 1#1
  let main_v37 : IVec S_ 1 := (fun x v => Host.reduce IntOp.andi x v reducesTo_S256x34_S_d0_1 h_S_) main_v36 main_c_13
  let main_v38 : IVec S_ 1 := andi main_v33 main_v37
  let main_v39 : FVec F S256 .f32 := Host.absf main_arg11
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg12
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg13
  let main_cst_18 : FVec F S_ .f32 := constant S_ .f32 0x7F800000#32
  let main_v50 : FVec F S256 .f32 := broadcastInDim S256 ![] bcast_S_S256 main_cst_18
  fn_part3 (F := F) main_arg14 main_arg15 main_arg16 main_arg17 main_arg18 main_arg19 main_arg20 main_arg21 main_arg22 main_arg23 main_arg24 main_arg25 main_arg26 main_arg27 main_arg28 main_arg29 main_arg30 main_v48 main_v49 main_v50

def fn_part1 {F : FTy → Type} [FloatOps F] (main_arg4 : FVec F S3200000x4 .f32) (main_arg5 : FVec F S100000x1 .f32) (main_arg9 : FVec F S1x10 .f32) (main_arg10 : FVec F S256x34 .f32) (main_arg11 : FVec F S256 .f32) (main_arg12 : FVec F S256 .f32) (main_arg13 : FVec F S256 .f32) (main_arg14 : FVec F S512x280 .f32) (main_arg15 : FVec F S512 .f32) (main_arg16 : FVec F S512 .f32) (main_arg17 : FVec F S512 .f32) (main_arg18 : FVec F S256x536 .f32) (main_arg19 : FVec F S256 .f32) (main_arg20 : FVec F S256 .f32) (main_arg21 : FVec F S256 .f32) (main_arg22 : FVec F S10x280 .f32) (main_arg23 : FVec F S10 .f32) (main_arg24 : FVec F S10 .f32) (main_arg25 : FVec F S10 .f32) (main_arg26 : FVec F S512x512 .f32) (main_arg27 : FVec F S16x512 .f32) (main_arg28 : FVec F S16 .f32) (main_arg29 : FVec F S16 .f32) (main_arg30 : FVec F S16 .f32) (main_v13 : IVec S_ 1) (main_v16 : IVec S3200000x8 1) : IVec S_ 1 :=
  let main_c_5 : IVec S_ 1 := constantI S_ 1 1#1
  let main_v17 : IVec S_ 1 := (fun x v => Host.reduce IntOp.andi x v reducesTo_S3200000x8_S_d0_1 h_S_) main_v16 main_c_5
  let main_v18 : IVec S_ 1 := andi main_v13 main_v17
  let main_v19 : FVec F S3200000x4 .f32 := Host.absf main_arg4
  let main_cst_6 : FVec F S_ .f32 := constant S_ .f32 0x7F800000#32
  let main_v20 : FVec F S3200000x4 .f32 := broadcastInDim S3200000x4 ![] bcast_S_S3200000x4 main_cst_6
  let main_v21 : IVec S3200000x4 1 := cmpf .olt main_v19 main_v20
  let main_c_7 : IVec S_ 1 := constantI S_ 1 1#1
  let main_v22 : IVec S_ 1 := (fun x v => Host.reduce IntOp.andi x v reducesTo_S3200000x4_S_d0_1 h_S_) main_v21 main_c_7
  let main_v23 : IVec S_ 1 := andi main_v18 main_v22
  let main_v24 : FVec F S100000x1 .f32 := Host.absf main_arg5
  let main_cst_8 : FVec F S_ .f32 := constant S_ .f32 0x7F800000#32
  let main_v25 : FVec F S100000x1 .f32 := broadcastInDim S100000x1 ![] bcast_S_S100000x1 main_cst_8
  let main_v26 : IVec S100000x1 1 := cmpf .olt main_v24 main_v25
  let main_c_9 : IVec S_ 1 := constantI S_ 1 1#1
  let main_v27 : IVec S_ 1 := (fun x v => Host.reduce IntOp.andi x v reducesTo_S100000x1_S_d0_1 h_S_) main_v26 main_c_9
  let main_v28 : IVec S_ 1 := andi main_v23 main_v27
  let main_v29 : FVec F S1x10 .f32 := Host.absf main_arg9
  let main_cst_10 : FVec F S_ .f32 := constant S_ .f32 0x7F800000#32
  let main_v30 : FVec F S1x10 .f32 := broadcastInDim S1x10 ![] bcast_S_S1x10 main_cst_10
  let main_v31 : IVec S1x10 1 := cmpf .olt main_v29 main_v30
  let main_c_11 : IVec S_ 1 := constantI S_ 1 1#1
  let main_v32 : IVec S_ 1 := (fun x v => Host.reduce IntOp.andi x v reducesTo_S1x10_S_d0_1 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v33

def fn {F : FTy → Type} [FloatOps F] (main_arg0 : FVec F S100000x10 .f32) (main_arg1 : FVec F S3200000 .f32) (main_arg2 : FVec F S3200000 .f32) (main_arg3 : FVec F S3200000x8 .f32) (main_arg4 : FVec F S3200000x4 .f32) (main_arg5 : FVec F S100000x1 .f32) (main_arg6 : IVec S3200000 32) (main_arg7 : IVec S3200000 32) (main_arg8 : IVec S20000 32) (main_arg9 : FVec F S1x10 .f32) (main_arg10 : FVec F S256x34 .f32) (main_arg11 : FVec F S256 .f32) (main_arg12 : FVec F S256 .f32) (main_arg13 : FVec F S256 .f32) (main_arg14 : FVec F S512x280 .f32) (main_arg15 : FVec F S512 .f32) (main_arg16 : FVec F S512 .f32) (main_arg17 : FVec F S512 .f32) (main_arg18 : FVec F S256x536 .f32) (main_arg19 : FVec F S256 .f32) (main_arg20 : FVec F S256 .f32) (main_arg21 : FVec F S256 .f32) (main_arg22 : FVec F S10x280 .f32) (main_arg23 : FVec F S10 .f32) (main_arg24 : FVec F S10 .f32) (main_arg25 : FVec F S10 .f32) (main_arg26 : FVec F S512x512 .f32) (main_arg27 : FVec F S16x512 .f32) (main_arg28 : FVec F S16 .f32) (main_arg29 : FVec F S16 .f32) (main_arg30 : FVec F S16 .f32) : IVec S_ 1 :=
  let main_v0 : FVec F S100000x10 .f32 := Host.absf main_arg0
  let main_cst : FVec F S_ .f32 := constant S_ .f32 0x7F800000#32
  let main_v1 : FVec F S100000x10 .f32 := broadcastInDim S100000x10 ![] bcast_S_S100000x10 main_cst
  let main_v2 : IVec S100000x10 1 := cmpf .olt main_v0 main_v1
  let main_c : IVec S_ 1 := constantI S_ 1 1#1
  let main_v3 : IVec S_ 1 := (fun x v => Host.reduce IntOp.andi x v reducesTo_S100000x10_S_d0_1 h_S_) main_v2 main_c
  let main_v4 : FVec F S3200000 .f32 := Host.absf main_arg1
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S3200000 .f32 := Host.absf main_arg2
  let main_cst_2 : FVec F S_ .f32 := constant S_ .f32 0x7F800000#32
  let main_v10 : FVec F S3200000 .f32 := broadcastInDim S3200000 ![] bcast_S_S3200000 main_cst_2
  let main_v11 : IVec S3200000 1 := cmpf .olt main_v9 main_v10
  let main_c_3 : IVec S_ 1 := constantI S_ 1 1#1
  let main_v12 : IVec S_ 1 := (fun x v => Host.reduce IntOp.andi x v reducesTo_S3200000_S_d0 h_S_) main_v11 main_c_3
  let main_v13 : IVec S_ 1 := andi main_v8 main_v12
  let main_v14 : FVec F S3200000x8 .f32 := Host.absf main_arg3
  let main_cst_4 : FVec F S_ .f32 := constant S_ .f32 0x7F800000#32
  let main_v15 : FVec F S3200000x8 .f32 := broadcastInDim S3200000x8 ![] bcast_S_S3200000x8 main_cst_4
  let main_v16 : IVec S3200000x8 1 := cmpf .olt main_v14 main_v15
  fn_part1 (F := F) main_arg4 main_arg5 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v13 main_v16
-- ==== Kernel.lean ====
abbrev S100000x10 : Shape := ⟨2, ![100000, 10]⟩
abbrev S3200000 : Shape := ⟨1, ![3200000]⟩
abbrev S3200000x8 : Shape := ⟨2, ![3200000, 8]⟩
abbrev S3200000x4 : Shape := ⟨2, ![3200000, 4]⟩
abbrev S100000x1 : Shape := ⟨2, ![100000, 1]⟩
abbrev S20000 : Shape := ⟨1, ![20000]⟩
abbrev S1x10 : Shape := ⟨2, ![1, 10]⟩
abbrev S256x34 : Shape := ⟨2, ![256, 34]⟩
abbrev S256 : Shape := ⟨1, ![256]⟩
abbrev S512x280 : Shape := ⟨2, ![512, 280]⟩
abbrev S512 : Shape := ⟨1, ![512]⟩
abbrev S256x536 : Shape := ⟨2, ![256, 536]⟩
abbrev S10x280 : Shape := ⟨2, ![10, 280]⟩
abbrev S10 : Shape := ⟨1, ![10]⟩
abbrev S512x512 : Shape := ⟨2, ![512, 512]⟩
abbrev S16x512 : Shape := ⟨2, ![16, 512]⟩
abbrev S16 : Shape := ⟨1, ![16]⟩
abbrev S_ : Shape := ⟨0, ![]⟩
abbrev S3200000x1 : Shape := ⟨2, ![3200000, 1]⟩
abbrev S3200000x10 : Shape := ⟨2, ![3200000, 10]⟩
abbrev S100000x8 : Shape := ⟨2, ![100000, 8]⟩
abbrev S100000x4 : Shape := ⟨2, ![100000, 4]⟩
abbrev S100000x24 : Shape := ⟨2, ![100000, 24]⟩
abbrev S20000x1 : Shape := ⟨2, ![20000, 1]⟩
abbrev S20000x10 : Shape := ⟨2, ![20000, 10]⟩
abbrev S34x256 : Shape := ⟨2, ![34, 256]⟩
abbrev S10x256 : Shape := ⟨2, ![10, 256]⟩
abbrev S24x256 : Shape := ⟨2, ![24, 256]⟩
abbrev S280x512 : Shape := ⟨2, ![280, 512]⟩
abbrev S256x512 : Shape := ⟨2, ![256, 512]⟩
abbrev S24x512 : Shape := ⟨2, ![24, 512]⟩
abbrev S536x256 : Shape := ⟨2, ![536, 256]⟩
abbrev S512x256 : Shape := ⟨2, ![512, 256]⟩
abbrev S280x10 : Shape := ⟨2, ![280, 10]⟩
abbrev S256x10 : Shape := ⟨2, ![256, 10]⟩
abbrev S24x10 : Shape := ⟨2, ![24, 10]⟩
abbrev S512x16 : Shape := ⟨2, ![512, 16]⟩
abbrev S100000x16 : Shape := ⟨2, ![100000, 16]⟩
abbrev S2000x10 : Shape := ⟨2, ![2000, 10]⟩
abbrev S2000x24 : Shape := ⟨2, ![2000, 24]⟩
abbrev S2000x16 : Shape := ⟨2, ![2000, 16]⟩
abbrev S2000x256 : Shape := ⟨2, ![2000, 256]⟩
abbrev S1x256 : Shape := ⟨2, ![1, 256]⟩
abbrev S2000 : Shape := ⟨1, ![2000]⟩
abbrev S2000x1 : Shape := ⟨2, ![2000, 1]⟩
abbrev S2000x512 : Shape := ⟨2, ![2000, 512]⟩
abbrev S1x512 : Shape := ⟨2, ![1, 512]⟩
abbrev S1x16 : Shape := ⟨2, ![1, 16]⟩

abbrev nBuf : Space → Nat
  | .hbm => 110
  | .vmem => 33
  | .smem => 0
  | _ => 0

abbrev bufTy : (tb : Table) → Fin (tcTables nBuf tb) → BufTy
  | .hbm, ⟨0, _⟩ => ⟨S100000x10, .f32⟩
  | .hbm, ⟨1, _⟩ => ⟨S3200000, .f32⟩
  | .hbm, ⟨2, _⟩ => ⟨S3200000, .f32⟩
  | .hbm, ⟨3, _⟩ => ⟨S3200000x8, .f32⟩
  | .hbm, ⟨4, _⟩ => ⟨S3200000x4, .f32⟩
  | .hbm, ⟨5, _⟩ => ⟨S100000x1, .f32⟩
  | .hbm, ⟨6, _⟩ => ⟨S3200000, .i32⟩
  | .hbm, ⟨7, _⟩ => ⟨S3200000, .i32⟩
  | .hbm, ⟨8, _⟩ => ⟨S20000, .i32⟩
  | .hbm, ⟨9, _⟩ => ⟨S1x10, .f32⟩
  | .hbm, ⟨10, _⟩ => ⟨S256x34, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S512x280, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S256x536, .f32⟩
  | .hbm, ⟨19, _⟩ => ⟨S256, .f32⟩
  | .hbm, ⟨20, _⟩ => ⟨S256, .f32⟩
  | .hbm, ⟨21, _⟩ => ⟨S256, .f32⟩
  | .hbm, ⟨22, _⟩ => ⟨S10x280, .f32⟩
  | .hbm, ⟨23, _⟩ => ⟨S10, .f32⟩
  | .hbm, ⟨24, _⟩ => ⟨S10, .f32⟩
  | .hbm, ⟨25, _⟩ => ⟨S10, .f32⟩
  | .hbm, ⟨26, _⟩ => ⟨S512x512, .f32⟩
  | .hbm, ⟨27, _⟩ => ⟨S16x512, .f32⟩
  | .hbm, ⟨28, _⟩ => ⟨S16, .f32⟩
  | .hbm, ⟨29, _⟩ => ⟨S16, .f32⟩
  | .hbm, ⟨30, _⟩ => ⟨S16, .f32⟩
  | .hbm, ⟨31, _⟩ => ⟨S_, .i32⟩
  | .hbm, ⟨32, _⟩ => ⟨S3200000, .i32⟩
  | .hbm, ⟨33, _⟩ => ⟨S3200000, .i1⟩
  | .hbm, ⟨34, _⟩ => ⟨S_, .i32⟩
  | .hbm, ⟨35, _⟩ => ⟨S3200000, .i32⟩
  | .hbm, ⟨36, _⟩ => ⟨S3200000, .i32⟩
  | .hbm, ⟨37, _⟩ => ⟨S3200000, .i32⟩
  | .hbm, ⟨38, _⟩ => ⟨S3200000x1, .i32⟩
  | .hbm, ⟨39, _⟩ => ⟨S3200000x10, .f32⟩
  | .hbm, ⟨40, _⟩ => ⟨S_, .f32⟩
  | .hbm, ⟨41, _⟩ => ⟨S100000x10, .f32⟩
  | .hbm, ⟨42, _⟩ => ⟨S3200000x1, .i32⟩
  | .hbm, ⟨43, _⟩ => ⟨S100000x10, .f32⟩
  | .hbm, ⟨44, _⟩ => ⟨S3200000x1, .f32⟩
  | .hbm, ⟨45, _⟩ => ⟨S_, .f32⟩
  | .hbm, ⟨46, _⟩ => ⟨S100000x1, .f32⟩
  | .hbm, ⟨47, _⟩ => ⟨S3200000x1, .i32⟩
  | .hbm, ⟨48, _⟩ => ⟨S100000x1, .f32⟩
  | .hbm, ⟨49, _⟩ => ⟨S3200000x1, .f32⟩
  | .hbm, ⟨50, _⟩ => ⟨S_, .f32⟩
  | .hbm, ⟨51, _⟩ => ⟨S100000x1, .f32⟩
  | .hbm, ⟨52, _⟩ => ⟨S3200000x1, .i32⟩
  | .hbm, ⟨53, _⟩ => ⟨S100000x1, .f32⟩
  | .hbm, ⟨54, _⟩ => ⟨S_, .f32⟩
  | .hbm, ⟨55, _⟩ => ⟨S100000x8, .f32⟩
  | .hbm, ⟨56, _⟩ => ⟨S3200000x1, .i32⟩
  | .hbm, ⟨57, _⟩ => ⟨S100000x8, .f32⟩
  | .hbm, ⟨58, _⟩ => ⟨S_, .f32⟩
  | .hbm, ⟨59, _⟩ => ⟨S100000x4, .f32⟩
  | .hbm, ⟨60, _⟩ => ⟨S3200000x1, .i32⟩
  | .hbm, ⟨61, _⟩ => ⟨S100000x4, .f32⟩
  | .hbm, ⟨62, _⟩ => ⟨S100000x24, .f32⟩
  | .hbm, ⟨63, _⟩ => ⟨S100000x24, .f32⟩
  | .hbm, ⟨64, _⟩ => ⟨S100000x24, .f32⟩
  | .hbm, ⟨65, _⟩ => ⟨S10, .f32⟩
  | .hbm, ⟨66, _⟩ => ⟨S_, .i32⟩
  | .hbm, ⟨67, _⟩ => ⟨S20000, .i32⟩
  | .hbm, ⟨68, _⟩ => ⟨S20000, .i1⟩
  | .hbm, ⟨69, _⟩ => ⟨S_, .i32⟩
  | .hbm, ⟨70, _⟩ => ⟨S20000, .i32⟩
  | .hbm, ⟨71, _⟩ => ⟨S20000, .i32⟩
  | .hbm, ⟨72, _⟩ => ⟨S20000, .i32⟩
  | .hbm, ⟨73, _⟩ => ⟨S20000x1, .i32⟩
  | .hbm, ⟨74, _⟩ => ⟨S20000x10, .f32⟩
  | .hbm, ⟨75, _⟩ => ⟨S100000x10, .f32⟩
  | .hbm, ⟨76, _⟩ => ⟨S34x256, .f32⟩
  | .hbm, ⟨77, _⟩ => ⟨S10x256, .f32⟩
  | .hbm, ⟨78, _⟩ => ⟨S24x256, .f32⟩
  | .hbm, ⟨79, _⟩ => ⟨S280x512, .f32⟩
  | .hbm, ⟨80, _⟩ => ⟨S256x512, .f32⟩
  | .hbm, ⟨81, _⟩ => ⟨S24x512, .f32⟩
  | .hbm, ⟨82, _⟩ => ⟨S536x256, .f32⟩
  | .hbm, ⟨83, _⟩ => ⟨S512x256, .f32⟩
  | .hbm, ⟨84, _⟩ => ⟨S24x256, .f32⟩
  | .hbm, ⟨85, _⟩ => ⟨S280x10, .f32⟩
  | .hbm, ⟨86, _⟩ => ⟨S256x10, .f32⟩
  | .hbm, ⟨87, _⟩ => ⟨S24x10, .f32⟩
  | .hbm, ⟨88, _⟩ => ⟨S512x512, .f32⟩
  | .hbm, ⟨89, _⟩ => ⟨S512x16, .f32⟩
  | .hbm, ⟨90, _⟩ => ⟨S100000x16, .f32⟩
  | .hbm, ⟨91, _⟩ => ⟨S100000x10, .f32⟩
  | .hbm, ⟨92, _⟩ => ⟨S_, .i32⟩
  | .hbm, ⟨93, _⟩ => ⟨S20000, .i32⟩
  | .hbm, ⟨94, _⟩ => ⟨S20000, .i1⟩
  | .hbm, ⟨95, _⟩ => ⟨S_, .i32⟩
  | .hbm, ⟨96, _⟩ => ⟨S20000, .i32⟩
  | .hbm, ⟨97, _⟩ => ⟨S20000, .i32⟩
  | .hbm, ⟨98, _⟩ => ⟨S20000, .i32⟩
  | .hbm, ⟨99, _⟩ => ⟨S20000x1, .i32⟩
  | .hbm, ⟨100, _⟩ => ⟨S20000x10, .f32⟩
  | .hbm, ⟨101, _⟩ => ⟨S_, .i32⟩
  | .hbm, ⟨102, _⟩ => ⟨S20000, .i32⟩
  | .hbm, ⟨103, _⟩ => ⟨S20000, .i1⟩
  | .hbm, ⟨104, _⟩ => ⟨S_, .i32⟩
  | .hbm, ⟨105, _⟩ => ⟨S20000, .i32⟩
  | .hbm, ⟨106, _⟩ => ⟨S20000, .i32⟩
  | .hbm, ⟨107, _⟩ => ⟨S20000, .i32⟩
  | .hbm, ⟨108, _⟩ => ⟨S20000x1, .i32⟩
  | .hbm, ⟨109, _⟩ => ⟨S20000x10, .f32⟩
  | .local _ .vmem, ⟨0, _⟩ => ⟨S2000x10, .f32⟩
  | .local _ .vmem, ⟨1, _⟩ => ⟨S2000x10, .f32⟩
  | .local _ .vmem, ⟨2, _⟩ => ⟨S2000x24, .f32⟩
  | .local _ .vmem, ⟨3, _⟩ => ⟨S2000x24, .f32⟩
  | .local _ .vmem, ⟨4, _⟩ => ⟨S10x256, .f32⟩
  | .local _ .vmem, ⟨5, _⟩ => ⟨S24x256, .f32⟩
  | .local _ .vmem, ⟨6, _⟩ => ⟨S256, .f32⟩
  | .local _ .vmem, ⟨7, _⟩ => ⟨S256, .f32⟩
  | .local _ .vmem, ⟨8, _⟩ => ⟨S256, .f32⟩
  | .local _ .vmem, ⟨9, _⟩ => ⟨S256x512, .f32⟩
  | .local _ .vmem, ⟨10, _⟩ => ⟨S24x512, .f32⟩
  | .local _ .vmem, ⟨11, _⟩ => ⟨S512, .f32⟩
  | .local _ .vmem, ⟨12, _⟩ => ⟨S512, .f32⟩
  | .local _ .vmem, ⟨13, _⟩ => ⟨S512, .f32⟩
  | .local _ .vmem, ⟨14, _⟩ => ⟨S512x256, .f32⟩
  | .local _ .vmem, ⟨15, _⟩ => ⟨S24x256, .f32⟩
  | .local _ .vmem, ⟨16, _⟩ => ⟨S256, .f32⟩
  | .local _ .vmem, ⟨17, _⟩ => ⟨S256, .f32⟩
  | .local _ .vmem, ⟨18, _⟩ => ⟨S256, .f32⟩
  | .local _ .vmem, ⟨19, _⟩ => ⟨S256x10, .f32⟩
  | .local _ .vmem, ⟨20, _⟩ => ⟨S24x10, .f32⟩
  | .local _ .vmem, ⟨21, _⟩ => ⟨S10, .f32⟩
  | .local _ .vmem, ⟨22, _⟩ => ⟨S10, .f32⟩
  | .local _ .vmem, ⟨23, _⟩ => ⟨S10, .f32⟩
  | .local _ .vmem, ⟨24, _⟩ => ⟨S512x512, .f32⟩
  | .local _ .vmem, ⟨25, _⟩ => ⟨S512x16, .f32⟩
  | .local _ .vmem, ⟨26, _⟩ => ⟨S16, .f32⟩
  | .local _ .vmem, ⟨27, _⟩ => ⟨S16, .f32⟩
  | .local _ .vmem, ⟨28, _⟩ => ⟨S16, .f32⟩
  | .local _ .vmem, ⟨29, _⟩ => ⟨S2000x16, .f32⟩
  | .local _ .vmem, ⟨30, _⟩ => ⟨S2000x16, .f32⟩
  | .local _ .vmem, ⟨31, _⟩ => ⟨S2000x10, .f32⟩
  | .local _ .vmem, ⟨32, _⟩ => ⟨S2000x10, .f32⟩
  | _, _ => ⟨S100000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_c : Ref sig .tc := ⟨.hbm, 31, rfl⟩
abbrev main_v0 : Ref sig .tc := ⟨.hbm, 32, rfl⟩
abbrev main_v1 : Ref sig .tc := ⟨.hbm, 33, rfl⟩
abbrev main_c_0 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_cst : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_cst_1 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_cst_2 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_cst_3 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_cst_4 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_c_5 : Ref sig .tc := ⟨.hbm, 66, rfl⟩
abbrev main_v28 : Ref sig .tc := ⟨.hbm, 67, rfl⟩
abbrev main_v29 : Ref sig .tc := ⟨.hbm, 68, rfl⟩
abbrev main_c_6 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50_0 : Ref sig .tc := ⟨.hbm, 90, rfl⟩
abbrev main_v50_1 : Ref sig .tc := ⟨.hbm, 91, rfl⟩
abbrev main_c_7 : Ref sig .tc := ⟨.hbm, 92, rfl⟩
abbrev main_v51 : Ref sig .tc := ⟨.hbm, 93, rfl⟩
abbrev main_v52 : Ref sig .tc := ⟨.hbm, 94, rfl⟩
abbrev main_c_8 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_c_9 : Ref sig .tc := ⟨.hbm, 101, rfl⟩
abbrev main_v58 : Ref sig .tc := ⟨.hbm, 102, rfl⟩
abbrev main_v59 : Ref sig .tc := ⟨.hbm, 103, rfl⟩
abbrev main_c_10 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg24_0 : Ref sig .tc := ⟨.vmem, 26, rfl⟩
abbrev cc0_stg25_0 : Ref sig .tc := ⟨.vmem, 27, rfl⟩
abbrev cc0_stg26_0 : Ref sig .tc := ⟨.vmem, 28, rfl⟩
abbrev cc0_stg27_0 : Ref sig .tc := ⟨.vmem, 29, rfl⟩
abbrev cc0_stg27_1 : Ref sig .tc := ⟨.vmem, 30, rfl⟩
abbrev cc0_stg28_0 : Ref sig .tc := ⟨.vmem, 31, rfl⟩
abbrev cc0_stg28_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem24_0 : DmaSem sig := 26
abbrev cc0_sem25_0 : DmaSem sig := 27
abbrev cc0_sem26_0 : DmaSem sig := 28
abbrev cc0_sem27_0 : DmaSem sig := 29
abbrev cc0_sem27_1 : DmaSem sig := 30
abbrev cc0_sem28_0 : DmaSem sig := 31
abbrev cc0_sem28_1 : DmaSem sig := 32

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_25 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_26 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x24 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S24x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S24x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S24x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x10 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S24x10 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S10 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S10 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S10 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S512x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S512x16 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S16 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S16 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S16 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 2 → Memref sig .tc .vmem S2000x16 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S2000x10 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x10 : S_.BroadcastsInDim S100000x10 (![] : Fin 0 → Fin S100000x10.rank)
  bcast_S_S100000x1 : S_.BroadcastsInDim S100000x1 (![] : Fin 0 → Fin S100000x1.rank)
  bcast_S_S100000x8 : S_.BroadcastsInDim S100000x8 (![] : Fin 0 → Fin S100000x8.rank)
  bcast_S_S100000x4 : S_.BroadcastsInDim S100000x4 (![] : Fin 0 → Fin S100000x4.rank)
  concatenates_S100000x10_S100000x1_S100000x1_S100000x8_S100000x4_S100000x24_d1 : Shape.Concatenates [S100000x10, S100000x1, S100000x1, S100000x8, S100000x4] S100000x24 1
  bcast_S100000x1_S100000x24_0_1 : S100000x1.BroadcastsInDim S100000x24 (![0, 1] : Fin 2 → Fin S100000x24.rank)
  shapeCasts_S1x10_S10 : S1x10.ShapeCasts S10
  bcast_S_S20000 : S_.BroadcastsInDim S20000 (![] : Fin 0 → Fin S20000.rank)
  bcast_S20000_S20000x1_0 : S20000.BroadcastsInDim S20000x1 (![0] : Fin 1 → Fin S20000x1.rank)
  bcast_S10_S20000x10_1 : S10.BroadcastsInDim S20000x10 (![1] : Fin 1 → Fin S20000x10.rank)
  transposes_S256x34_S34x256_1_0 : S256x34.Transposes [1, 0] S34x256
  slices_S34x256_S10x256_0_0 : S34x256.Slices ![0, 0] S10x256
  slices_S34x256_S24x256_10_0 : S34x256.Slices ![10, 0] S24x256
  transposes_S512x280_S280x512_1_0 : S512x280.Transposes [1, 0] S280x512
  slices_S280x512_S256x512_0_0 : S280x512.Slices ![0, 0] S256x512
  slices_S280x512_S24x512_256_0 : S280x512.Slices ![256, 0] S24x512
  transposes_S256x536_S536x256_1_0 : S256x536.Transposes [1, 0] S536x256
  slices_S536x256_S512x256_0_0 : S536x256.Slices ![0, 0] S512x256
  slices_S536x256_S24x256_512_0 : S536x256.Slices ![512, 0] S24x256
  transposes_S10x280_S280x10_1_0 : S10x280.Transposes [1, 0] S280x10
  slices_S280x10_S256x10_0_0 : S280x10.Slices ![0, 0] S256x10
  slices_S280x10_S24x10_256_0 : S280x10.Slices ![256, 0] S24x10
  transposes_S512x512_S512x512_1_0 : S512x512.Transposes [1, 0] S512x512
  transposes_S16x512_S512x16_1_0 : S16x512.Transposes [1, 0] S512x16
  inb_S2000x24_S2000x24_0_0 : ∀ a, (![0, 0] : Fin 2 → Nat) a + S2000x24.size a ≤ S2000x24.size a
  h_S2000x24 : 0 < S2000x24.numel
  shapeCasts_S2000x24_S2000x24 : S2000x24.ShapeCasts S2000x24
  bitsLt_bf16_f32 : FTy.bits .bf16 < FTy.bits .f32
  inb_S2000x10_S2000x10_0_0 : ∀ a, (![0, 0] : Fin 2 → Nat) a + S2000x10.size a ≤ S2000x10.size a
  h_S2000x10 : 0 < S2000x10.numel
  shapeCasts_S2000x10_S2000x10 : S2000x10.ShapeCasts S2000x10
  inb_S10x256_S10x256_0_0 : ∀ a, (![0, 0] : Fin 2 → Nat) a + S10x256.size a ≤ S10x256.size a
  h_S10x256 : 0 < S10x256.numel
  shapeCasts_S10x256_S10x256 : S10x256.ShapeCasts S10x256
  inb_S24x256_S24x256_0_0 : ∀ a, (![0, 0] : Fin 2 → Nat) a + S24x256.size a ≤ S24x256.size a
  h_S24x256 : 0 < S24x256.numel
  shapeCasts_S24x256_S24x256 : S24x256.ShapeCasts S24x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  reduces_S2000x256_S2000 : S2000x256.Reduces [1] S2000
  shapeCasts_S2000_S2000x1 : S2000.ShapeCasts S2000x1
  broadcasts_S2000x1_S2000x256 : S2000x1.Broadcasts S2000x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S24x512_S24x512_0_0 : ∀ a, (![0, 0] : Fin 2 → Nat) a + S24x512.size a ≤ S24x512.size a
  h_S24x512 : 0 < S24x512.numel
  shapeCasts_S24x512_S24x512 : S24x512.ShapeCasts S24x512
  inb_S512_S512_0 : ∀ a, (![0] : Fin 1 → Nat) a + S512.size a ≤ S512.size a
  h_S512 : 0 < S512.numel
  shapeCasts_S512_S1x512 : S512.ShapeCasts S1x512
  broadcasts_S1x512_S2000x512 : S1x512.Broadcasts S2000x512
  reduces_S2000x512_S2000 : S2000x512.Reduces [1] S2000
  broadcasts_S2000x1_S2000x512 : S2000x1.Broadcasts S2000x512
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S16_S16_0 : ∀ a, (![0] : Fin 1 → Nat) a + S16.size a ≤ S16.size a
  h_S16 : 0 < S16.numel
  shapeCasts_S16_S1x16 : S16.ShapeCasts S1x16
  broadcasts_S1x16_S2000x16 : S1x16.Broadcasts S2000x16
  reduces_S2000x16_S2000 : S2000x16.Reduces [1] S2000
  broadcasts_S2000x1_S2000x16 : S2000x1.Broadcasts S2000x16
  inb_S2000x16_S2000x16_0_0 : ∀ a, (![0, 0] : Fin 2 → Nat) a + S2000x16.size a ≤ S2000x16.size a
  h_S2000x16 : 0 < S2000x16.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x10_S256x10_0_0 : ∀ a, (![0, 0] : Fin 2 → Nat) a + S256x10.size a ≤ S256x10.size a
  h_S256x10 : 0 < S256x10.numel
  shapeCasts_S256x10_S256x10 : S256x10.ShapeCasts S256x10
  inb_S24x10_S24x10_0_0 : ∀ a, (![0, 0] : Fin 2 → Nat) a + S24x10.size a ≤ S24x10.size a
  h_S24x10 : 0 < S24x10.numel
  shapeCasts_S24x10_S24x10 : S24x10.ShapeCasts S24x10
  inb_S10_S10_0 : ∀ a, (![0] : Fin 1 → Nat) a + S10.size a ≤ S10.size a
  h_S10 : 0 < S10.numel
  shapeCasts_S10_S1x10 : S10.ShapeCasts S1x10
  broadcasts_S1x10_S2000x10 : S1x10.Broadcasts S2000x10
  reduces_S2000x10_S2000 : S2000x10.Reduces [1] S2000
  broadcasts_S2000x1_S2000x10 : S2000x1.Broadcasts S2000x10
  gather_S100000x10_S3200000x1_S3200000x10_1_0_n_n_0_1_110_wf : GatherDims.WF S100000x10 S3200000x1 S3200000x10 [1] [0] [] [0] [] 1 ![1, 10]
  scatter_S100000x10_S3200000x1_S3200000x10_1_0_0_1_wf : ScatterDims.WF S100000x10 S3200000x1 S3200000x10 [1] [0] [0] 1
  scatter_S100000x1_S3200000x1_S3200000x1_1_0_0_1_wf : ScatterDims.WF S100000x1 S3200000x1 S3200000x1 [1] [0] [0] 1
  scatter_S100000x8_S3200000x1_S3200000x8_1_0_0_1_wf : ScatterDims.WF S100000x8 S3200000x1 S3200000x8 [1] [0] [0] 1
  scatter_S100000x4_S3200000x1_S3200000x4_1_0_0_1_wf : ScatterDims.WF S100000x4 S3200000x1 S3200000x4 [1] [0] [0] 1
  scatter_S100000x10_S20000x1_S20000x10_1_0_0_1_wf : ScatterDims.WF S100000x10 S20000x1 S20000x10 [1] [0] [0] 1
  dot_S2000x10_S10x256_S2000x256_1_0_0_1_n_n_wf : DotDims.WF S2000x10 S10x256 S2000x256 [1] [0] [0] [1] [] []
  dot_S2000x24_S24x256_S2000x256_1_0_0_1_n_n_wf : DotDims.WF S2000x24 S24x256 S2000x256 [1] [0] [0] [1] [] []
  dot_S2000x256_S256x512_S2000x512_1_0_0_1_n_n_wf : DotDims.WF S2000x256 S256x512 S2000x512 [1] [0] [0] [1] [] []
  dot_S2000x24_S24x512_S2000x512_1_0_0_1_n_n_wf : DotDims.WF S2000x24 S24x512 S2000x512 [1] [0] [0] [1] [] []
  dot_S2000x512_S512x16_S2000x16_1_0_0_1_n_n_wf : DotDims.WF S2000x512 S512x16 S2000x16 [1] [0] [0] [1] [] []
  dot_S2000x512_S512x512_S2000x512_1_0_0_1_n_n_wf : DotDims.WF S2000x512 S512x512 S2000x512 [1] [0] [0] [1] [] []
  dot_S2000x512_S512x256_S2000x256_1_0_0_1_n_n_wf : DotDims.WF S2000x512 S512x256 S2000x256 [1] [0] [0] [1] [] []
  dot_S2000x256_S256x10_S2000x10_1_0_0_1_n_n_wf : DotDims.WF S2000x256 S256x10 S2000x10 [1] [0] [0] [1] [] []
  dot_S2000x24_S24x10_S2000x10_1_0_0_1_n_n_wf : DotDims.WF S2000x24 S24x10 S2000x10 [1] [0] [0] [1] [] []
  gather_S100000x10_S20000x1_S20000x10_1_0_n_n_0_1_110_wf : GatherDims.WF S100000x10 S20000x1 S20000x10 [1] [0] [] [0] [] 1 ![1, 10]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x10.size a ≤ S100000x10.size a
  hwx0_0 : ∀ i : grid0.Coords, EltTy.bits .f32 = 32 ∨ (Rect.block (s := S100000x10) S2000x10.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x24.size a ≤ S100000x24.size a
  hwx0_1 : ∀ i : grid0.Coords, EltTy.bits .f32 = 32 ∨ (Rect.block (s := S100000x24) S2000x24.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x256.size a ≤ S10x256.size a
  hwx0_2 : ∀ i : grid0.Coords, EltTy.bits .f32 = 32 ∨ (Rect.block (s := S10x256) S10x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S24x256.size a ≤ S24x256.size a
  hwx0_3 : ∀ i : grid0.Coords, EltTy.bits .f32 = 32 ∨ (Rect.block (s := S24x256) S24x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x512.size a ≤ S256x512.size a
  hwx0_7 : ∀ i : grid0.Coords, EltTy.bits .f32 = 32 ∨ (Rect.block (s := S256x512) S256x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S24x512.size a ≤ S24x512.size a
  hwx0_8 : ∀ i : grid0.Coords, EltTy.bits .f32 = 32 ∨ (Rect.block (s := S24x512) S24x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512.size a ≤ S512.size a
  hwx0_9 : ∀ i : grid0.Coords, EltTy.bits .f32 = 32 ∨ (Rect.block (s := S512) S512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512.size a ≤ S512.size a
  hwx0_10 : ∀ i : grid0.Coords, EltTy.bits .f32 = 32 ∨ (Rect.block (s := S512) S512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512.size a ≤ S512.size a
  hwx0_11 : ∀ i : grid0.Coords, EltTy.bits .f32 = 32 ∨ (Rect.block (s := S512) S512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x256.size a ≤ S512x256.size a
  hwx0_12 : ∀ i : grid0.Coords, EltTy.bits .f32 = 32 ∨ (Rect.block (s := S512x256) S512x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S24x256.size a ≤ S24x256.size a
  hwx0_13 : ∀ i : grid0.Coords, EltTy.bits .f32 = 32 ∨ (Rect.block (s := S24x256) S24x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256.size a ≤ S256.size a
  hwx0_14 : ∀ i : grid0.Coords, EltTy.bits .f32 = 32 ∨ (Rect.block (s := S256) S256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256.size a ≤ S256.size a
  hwx0_15 : ∀ i : grid0.Coords, EltTy.bits .f32 = 32 ∨ (Rect.block (s := S256) S256.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S256.size a ≤ S256.size a
  hwx0_16 : ∀ i : grid0.Coords, EltTy.bits .f32 = 32 ∨ (Rect.block (s := S256) S256.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S256x10.size a ≤ S256x10.size a
  hwx0_17 : ∀ i : grid0.Coords, EltTy.bits .f32 = 32 ∨ (Rect.block (s := S256x10) S256x10.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S24x10.size a ≤ S24x10.size a
  hwx0_18 : ∀ i : grid0.Coords, EltTy.bits .f32 = 32 ∨ (Rect.block (s := S24x10) S24x10.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S10.size a ≤ S10.size a
  hwx0_19 : ∀ i : grid0.Coords, EltTy.bits .f32 = 32 ∨ (Rect.block (s := S10) S10.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S10.size a ≤ S10.size a
  hwx0_20 : ∀ i : grid0.Coords, EltTy.bits .f32 = 32 ∨ (Rect.block (s := S10) S10.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S10.size a ≤ S10.size a
  hwx0_21 : ∀ i : grid0.Coords, EltTy.bits .f32 = 32 ∨ (Rect.block (s := S10) S10.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S512x512.size a ≤ S512x512.size a
  hwx0_22 : ∀ i : grid0.Coords, EltTy.bits .f32 = 32 ∨ (Rect.block (s := S512x512) S512x512.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S512x16.size a ≤ S512x16.size a
  hwx0_23 : ∀ i : grid0.Coords, EltTy.bits .f32 = 32 ∨ (Rect.block (s := S512x16) S512x16.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S16.size a ≤ S16.size a
  hwx0_24 : ∀ i : grid0.Coords, EltTy.bits .f32 = 32 ∨ (Rect.block (s := S16) S16.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S16.size a ≤ S16.size a
  hwx0_25 : ∀ i : grid0.Coords, EltTy.bits .f32 = 32 ∨ (Rect.block (s := S16) S16.size (cc0_transform_25 i) (hinb0_25 i)).WholeWords (EltTy.packing .f32)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S16.size a ≤ S16.size a
  hwx0_26 : ∀ i : grid0.Coords, EltTy.bits .f32 = 32 ∨ (Rect.block (s := S16) S16.size (cc0_transform_26 i) (hinb0_26 i)).WholeWords (EltTy.packing .f32)
  hstage0_27 : ∀ j, (stage0_27 j).IsWhole
  nbuf0_27 : grid0.bufCount reads0_27 false = 2
  hreads0_27 : ∀ i i' : grid0.Coords, (∀ a, reads0_27 a = true → i a = i' a) → cc0_transform_27 i = cc0_transform_27 i'
  hinb0_27 : ∀ (i : grid0.Coords) a, (cc0_transform_27 i a + 1) * S2000x16.size a ≤ S100000x16.size a
  hwx0_27 : ∀ i : grid0.Coords, EltTy.bits .f32 = 32 ∨ (Rect.block (s := S100000x16) S2000x16.size (cc0_transform_27 i) (hinb0_27 i)).WholeWords (EltTy.packing .f32)
  hstage0_28 : ∀ j, (stage0_28 j).IsWhole
  nbuf0_28 : grid0.bufCount reads0_28 false = 2
  hreads0_28 : ∀ i i' : grid0.Coords, (∀ a, reads0_28 a = true → i a = i' a) → cc0_transform_28 i = cc0_transform_28 i'
  hinb0_28 : ∀ (i : grid0.Coords) a, (cc0_transform_28 i a + 1) * S2000x10.size a ≤ S100000x10.size a
  hwx0_28 : ∀ i : grid0.Coords, EltTy.bits .f32 = 32 ∨ (Rect.block (s := S100000x10) S2000x10.size (cc0_transform_28 i) (hinb0_28 i)).WholeWords (EltTy.packing .f32)

variable [Facts₀]

def gather_S100000x10_S3200000x1_S3200000x10_1_0_n_n_0_1_110 : GatherDims S100000x10 S3200000x1 S3200000x10 where
  offsetDims := [1]
  collapsedSliceDims := [0]
  operandBatchingDims := []
  startIndicesBatchingDims := []
  startIndexMap := [0]
  indexVectorDim := 1
  sliceSizes := ![1, 10]
  wf := gather_S100000x10_S3200000x1_S3200000x10_1_0_n_n_0_1_110_wf
def scatter_S100000x10_S3200000x1_S3200000x10_1_0_0_1 : ScatterDims S100000x10 S3200000x1 S3200000x10 where
  updateWindowDims := [1]
  insertedWindowDims := [0]
  scatterDimsToOperandDims := [0]
  indexVectorDim := 1
  wf := scatter_S100000x10_S3200000x1_S3200000x10_1_0_0_1_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def scatter_S100000x8_S3200000x1_S3200000x8_1_0_0_1 : ScatterDims S100000x8 S3200000x1 S3200000x8 where
  updateWindowDims := [1]
  insertedWindowDims := [0]
  scatterDimsToOperandDims := [0]
  indexVectorDim := 1
  wf := scatter_S100000x8_S3200000x1_S3200000x8_1_0_0_1_wf
def scatter_S100000x4_S3200000x1_S3200000x4_1_0_0_1 : ScatterDims S100000x4 S3200000x1 S3200000x4 where
  updateWindowDims := [1]
  insertedWindowDims := [0]
  scatterDimsToOperandDims := [0]
  indexVectorDim := 1
  wf := scatter_S100000x4_S3200000x1_S3200000x4_1_0_0_1_wf
def scatter_S100000x10_S20000x1_S20000x10_1_0_0_1 : ScatterDims S100000x10 S20000x1 S20000x10 where
  updateWindowDims := [1]
  insertedWindowDims := [0]
  scatterDimsToOperandDims := [0]
  indexVectorDim := 1
  wf := scatter_S100000x10_S20000x1_S20000x10_1_0_0_1_wf
def dot_S2000x10_S10x256_S2000x256_1_0_0_1_n_n : DotDims S2000x10 S10x256 S2000x256 where
  lhsContracting := [1]
  rhsContracting := [0]
  lhsNonContracting := [0]
  rhsNonContracting := [1]
  lhsBatch := []
  rhsBatch := []
  wf := dot_S2000x10_S10x256_S2000x256_1_0_0_1_n_n_wf
def dot_S2000x24_S24x256_S2000x256_1_0_0_1_n_n : DotDims S2000x24 S24x256 S2000x256 where
  lhsContracting := [1]
  rhsContracting := [0]
  lhsNonContracting := [0]
  rhsNonContracting := [1]
  lhsBatch := []
  rhsBatch := []
  wf := dot_S2000x24_S24x256_S2000x256_1_0_0_1_n_n_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def dot_S2000x24_S24x512_S2000x512_1_0_0_1_n_n : DotDims S2000x24 S24x512 S2000x512 where
  lhsContracting := [1]
  rhsContracting := [0]
  lhsNonContracting := [0]
  rhsNonContracting := [1]
  lhsBatch := []
  rhsBatch := []
  wf := dot_S2000x24_S24x512_S2000x512_1_0_0_1_n_n_wf
def dot_S2000x512_S512x16_S2000x16_1_0_0_1_n_n : DotDims S2000x512 S512x16 S2000x16 where
  lhsContracting := [1]
  rhsContracting := [0]
  lhsNonContracting := [0]
  rhsNonContracting := [1]
  lhsBatch := []
  rhsBatch := []
  wf := dot_S2000x512_S512x16_S2000x16_1_0_0_1_n_n_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def dot_S2000x256_S256x10_S2000x10_1_0_0_1_n_n : DotDims S2000x256 S256x10 S2000x10 where
  lhsContracting := [1]
  rhsContracting := [0]
  lhsNonContracting := [0]
  rhsNonContracting := [1]
  lhsBatch := []
  rhsBatch := []
  wf := dot_S2000x256_S256x10_S2000x10_1_0_0_1_n_n_wf
def dot_S2000x24_S24x10_S2000x10_1_0_0_1_n_n : DotDims S2000x24 S24x10 S2000x10 where
  lhsContracting := [1]
  rhsContracting := [0]
  lhsNonContracting := [0]
  rhsNonContracting := [1]
  lhsBatch := []
  rhsBatch := []
  wf := dot_S2000x24_S24x10_S2000x10_1_0_0_1_n_n_wf
def gather_S100000x10_S20000x1_S20000x10_1_0_n_n_0_1_110 : GatherDims S100000x10 S20000x1 S20000x10 where
  offsetDims := [1]
  collapsedSliceDims := [0]
  operandBatchingDims := []
  startIndicesBatchingDims := []
  startIndexMap := [0]
  indexVectorDim := 1
  sliceSizes := ![1, 10]
  wf := gather_S100000x10_S20000x1_S20000x10_1_0_n_n_0_1_110_wf

abbrev win0_0 : Pipeline.Window sig grid0 :=
  Pipeline.Window.ofSpec (Memref.whole main_v35) S2000x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S2000x24.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S10x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v38) S24x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg11) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg12) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg13) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v40) S256x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v41) S24x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg15) S512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg16) S512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg17) S512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v43) S512x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v44) S24x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg19) S256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg20) S256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg21) S256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v46) S256x10.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v47) S24x10.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg23) S10.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg24) S10.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg25) S10.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v48) S512x512.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v49) S512x16.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_arg28) S16.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_arg29) S16.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_arg30) S16.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_v50_0) S2000x16.size cc0_transform_27 reads0_27 true false 2 stage0_27 sem0_27
    hrank0 hreads0_27 hinb0_27 nbuf0_27 (Memref.isWhole_whole _) hwx0_27 hstage0_27

abbrev win0_28 : Pipeline.Window sig grid0 :=
  Pipeline.Window.ofSpec (Memref.whole main_v50_1) S2000x10.size cc0_transform_28 reads0_28 true false 2 stage0_28 sem0_28
    hrank0 hreads0_28 hinb0_28 nbuf0_28 (Memref.isWhole_whole _) hwx0_28 hstage0_28

abbrev win0 : Fin 29 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | ⟨_ + 29, h⟩ => absurd h (Nat.not_lt.2 (Nat.le_add_left _ _))
abbrev spec0 : Fin 29 → Pipeline.WinSpec sig grid0.rank := fun w => (win0 w).toWinSpec

class Facts : Prop extends Facts₀ where

variable [Facts]
-- ==== ReferenceIdeal.lean ====
abbrev S100000x10 : Shape := ⟨2, ![100000, 10]⟩
abbrev S3200000 : Shape := ⟨1, ![3200000]⟩
abbrev S3200000x8 : Shape := ⟨2, ![3200000, 8]⟩
abbrev S3200000x4 : Shape := ⟨2, ![3200000, 4]⟩
abbrev S100000x1 : Shape := ⟨2, ![100000, 1]⟩
abbrev S20000 : Shape := ⟨1, ![20000]⟩
abbrev S1x10 : Shape := ⟨2, ![1, 10]⟩
abbrev S256x34 : Shape := ⟨2, ![256, 34]⟩
abbrev S256 : Shape := ⟨1, ![256]⟩
abbrev S512x280 : Shape := ⟨2, ![512, 280]⟩
abbrev S512 : Shape := ⟨1, ![512]⟩
abbrev S256x536 : Shape := ⟨2, ![256, 536]⟩
abbrev S10x280 : Shape := ⟨2, ![10, 280]⟩
abbrev S10 : Shape := ⟨1, ![10]⟩
abbrev S512x512 : Shape := ⟨2, ![512, 512]⟩
abbrev S16x512 : Shape := ⟨2, ![16, 512]⟩
abbrev S16 : Shape := ⟨1, ![16]⟩
abbrev S_ : Shape := ⟨0, ![]⟩
abbrev S3200000x1 : Shape := ⟨2, ![3200000, 1]⟩
abbrev S3200000x10 : Shape := ⟨2, ![3200000, 10]⟩
abbrev S3200000x24 : Shape := ⟨2, ![3200000, 24]⟩
abbrev S100000x24 : Shape := ⟨2, ![100000, 24]⟩
abbrev S20000x1 : Shape := ⟨2, ![20000, 1]⟩
abbrev S20000x10 : Shape := ⟨2, ![20000, 10]⟩
abbrev S100000x34 : Shape := ⟨2, ![100000, 34]⟩
abbrev S34x256 : Shape := ⟨2, ![34, 256]⟩
abbrev S100000x256 : Shape := ⟨2, ![100000, 256]⟩
abbrev S1x256 : Shape := ⟨2, ![1, 256]⟩
abbrev S100000 : Shape := ⟨1, ![100000]⟩
abbrev S100000x280 : Shape := ⟨2, ![100000, 280]⟩
abbrev S280x512 : Shape := ⟨2, ![280, 512]⟩
abbrev S100000x512 : Shape := ⟨2, ![100000, 512]⟩
abbrev S1x512 : Shape := ⟨2, ![1, 512]⟩
abbrev S512x16 : Shape := ⟨2, ![512, 16]⟩
abbrev S100000x16 : Shape := ⟨2, ![100000, 16]⟩
abbrev S1x16 : Shape := ⟨2, ![1, 16]⟩
abbrev S100000x536 : Shape := ⟨2, ![100000, 536]⟩
abbrev S536x256 : Shape := ⟨2, ![536, 256]⟩
abbrev S280x10 : Shape := ⟨2, ![280, 10]⟩

abbrev nBuf : Space → Nat
  | .hbm => 266
  | .vmem => 0
  | .smem => 0
  | _ => 0

abbrev hbmTy0_0 (i : Nat) : BufTy := match i % 128 with
  | 0 => ⟨S100000x10, .f32⟩
  | 1 => ⟨S3200000, .f32⟩
  | 2 => ⟨S3200000, .f32⟩
  | 3 => ⟨S3200000x8, .f32⟩
  | 4 => ⟨S3200000x4, .f32⟩
  | 5 => ⟨S100000x1, .f32⟩
  | 6 => ⟨S3200000, .i32⟩
  | 7 => ⟨S3200000, .i32⟩
  | 8 => ⟨S20000, .i32⟩
  | 9 => ⟨S1x10, .f32⟩
  | 10 => ⟨S256x34, .f32⟩
  | 11 => ⟨S256, .f32⟩
  | 12 => ⟨S256, .f32⟩
  | 13 => ⟨S256, .f32⟩
  | 14 => ⟨S512x280, .f32⟩
  | 15 => ⟨S512, .f32⟩
  | 16 => ⟨S512, .f32⟩
  | 17 => ⟨S512, .f32⟩
  | 18 => ⟨S256x536, .f32⟩
  | 19 => ⟨S256, .f32⟩
  | 20 => ⟨S256, .f32⟩
  | 21 => ⟨S256, .f32⟩
  | 22 => ⟨S10x280, .f32⟩
  | 23 => ⟨S10, .f32⟩
  | 24 => ⟨S10, .f32⟩
  | 25 => ⟨S10, .f32⟩
  | 26 => ⟨S512x512, .f32⟩
  | 27 => ⟨S16x512, .f32⟩
  | 28 => ⟨S16, .f32⟩
  | 29 => ⟨S16, .f32⟩
  | 30 => ⟨S16, .f32⟩
  | 31 => ⟨S_, .i32⟩
  | 32 => ⟨S3200000, .i32⟩
  | 33 => ⟨S3200000, .i1⟩
  | 34 => ⟨S_, .i32⟩
  | 35 => ⟨S3200000, .i32⟩
  | 36 => ⟨S3200000, .i32⟩
  | 37 => ⟨S3200000, .i32⟩
  | 38 => ⟨S3200000x1, .i32⟩
  | 39 => ⟨S3200000x10, .f32⟩
  | 40 => ⟨S3200000x1, .f32⟩
  | 41 => ⟨S3200000x1, .f32⟩
  | 42 => ⟨S3200000x24, .f32⟩
  | 43 => ⟨S_, .f32⟩
  | 44 => ⟨S100000x24, .f32⟩
  | 45 => ⟨S3200000x1, .i32⟩
  | 46 => ⟨S100000x24, .f32⟩
  | 47 => ⟨S100000x24, .f32⟩
  | 48 => ⟨S100000x24, .f32⟩
  | 49 => ⟨S10, .f32⟩
  | 50 => ⟨S_, .i32⟩
  | 51 => ⟨S20000, .i32⟩
  | 52 => ⟨S20000, .i1⟩
  | 53 => ⟨S_, .i32⟩
  | 54 => ⟨S20000, .i32⟩
  | 55 => ⟨S20000, .i32⟩
  | 56 => ⟨S20000, .i32⟩
  | 57 => ⟨S20000x1, .i32⟩
  | 58 => ⟨S20000x10, .f32⟩
  | 59 => ⟨S100000x10, .f32⟩
  | 60 => ⟨S100000x34, .f32⟩
  | 61 => ⟨S34x256, .f32⟩
  | 62 => ⟨S100000x256, .f32⟩
  | 63 => ⟨S1x256, .f32⟩
  | 64 => ⟨S100000x256, .f32⟩
  | 65 => ⟨S100000x256, .f32⟩
  | 66 => ⟨S_, .f32⟩
  | 67 => ⟨S100000, .f32⟩
  | 68 => ⟨S100000x1, .f32⟩
  | 69 => ⟨S_, .f32⟩
  | 70 => ⟨S100000x1, .f32⟩
  | 71 => ⟨S100000x1, .f32⟩
  | 72 => ⟨S100000x256, .f32⟩
  | 73 => ⟨S100000x256, .f32⟩
  | 74 => ⟨S100000x256, .f32⟩
  | 75 => ⟨S_, .f32⟩
  | 76 => ⟨S100000, .f32⟩
  | 77 => ⟨S100000x1, .f32⟩
  | 78 => ⟨S_, .f32⟩
  | 79 => ⟨S100000x1, .f32⟩
  | 80 => ⟨S100000x1, .f32⟩
  | 81 => ⟨S100000x256, .f32⟩
  | 82 => ⟨S100000x256, .f32⟩
  | 83 => ⟨S_, .f32⟩
  | 84 => ⟨S100000x1, .f32⟩
  | 85 => ⟨S100000x1, .f32⟩
  | 86 => ⟨S100000x1, .f32⟩
  | 87 => ⟨S100000x256, .f32⟩
  | 88 => ⟨S100000x256, .f32⟩
  | 89 => ⟨S1x256, .f32⟩
  | 90 => ⟨S100000x256, .f32⟩
  | 91 => ⟨S100000x256, .f32⟩
  | 92 => ⟨S1x256, .f32⟩
  | 93 => ⟨S100000x256, .f32⟩
  | 94 => ⟨S100000x256, .f32⟩
  | 95 => ⟨S_, .f32⟩
  | 96 => ⟨S100000x256, .f32⟩
  | 97 => ⟨S100000x256, .f32⟩
  | 98 => ⟨S100000x280, .f32⟩
  | 99 => ⟨S280x512, .f32⟩
  | 100 => ⟨S100000x512, .f32⟩
  | 101 => ⟨S1x512, .f32⟩
  | 102 => ⟨S100000x512, .f32⟩
  | 103 => ⟨S100000x512, .f32⟩
  | 104 => ⟨S_, .f32⟩
  | 105 => ⟨S100000, .f32⟩
  | 106 => ⟨S100000x1, .f32⟩
  | 107 => ⟨S_, .f32⟩
  | 108 => ⟨S100000x1, .f32⟩
  | 109 => ⟨S100000x1, .f32⟩
  | 110 => ⟨S100000x512, .f32⟩
  | 111 => ⟨S100000x512, .f32⟩
  | 112 => ⟨S100000x512, .f32⟩
  | 113 => ⟨S_, .f32⟩
  | 114 => ⟨S100000, .f32⟩
  | 115 => ⟨S100000x1, .f32⟩
  | 116 => ⟨S_, .f32⟩
  | 117 => ⟨S100000x1, .f32⟩
  | 118 => ⟨S100000x1, .f32⟩
  | 119 => ⟨S100000x512, .f32⟩
  | 120 => ⟨S100000x512, .f32⟩
  | 121 => ⟨S_, .f32⟩
  | 122 => ⟨S100000x1, .f32⟩
  | 123 => ⟨S100000x1, .f32⟩
  | 124 => ⟨S100000x1, .f32⟩
  | 125 => ⟨S100000x512, .f32⟩
  | 126 => ⟨S100000x512, .f32⟩
  | 127 => ⟨S1x512, .f32⟩
  | _ => ⟨S100000x10, .f32⟩

abbrev hbmTy0_1 (i : Nat) : BufTy := match i % 128 with
  | 0 => ⟨S100000x512, .f32⟩
  | 1 => ⟨S100000x512, .f32⟩
  | 2 => ⟨S1x512, .f32⟩
  | 3 => ⟨S100000x512, .f32⟩
  | 4 => ⟨S100000x512, .f32⟩
  | 5 => ⟨S_, .f32⟩
  | 6 => ⟨S100000x512, .f32⟩
  | 7 => ⟨S100000x512, .f32⟩
  | 8 => ⟨S512x16, .f32⟩
  | 9 => ⟨S100000x16, .f32⟩
  | 10 => ⟨S1x16, .f32⟩
  | 11 => ⟨S100000x16, .f32⟩
  | 12 => ⟨S100000x16, .f32⟩
  | 13 => ⟨S_, .f32⟩
  | 14 => ⟨S100000, .f32⟩
  | 15 => ⟨S100000x1, .f32⟩
  | 16 => ⟨S_, .f32⟩
  | 17 => ⟨S100000x1, .f32⟩
  | 18 => ⟨S100000x1, .f32⟩
  | 19 => ⟨S100000x16, .f32⟩
  | 20 => ⟨S100000x16, .f32⟩
  | 21 => ⟨S100000x16, .f32⟩
  | 22 => ⟨S_, .f32⟩
  | 23 => ⟨S100000, .f32⟩
  | 24 => ⟨S100000x1, .f32⟩
  | 25 => ⟨S_, .f32⟩
  | 26 => ⟨S100000x1, .f32⟩
  | 27 => ⟨S100000x1, .f32⟩
  | 28 => ⟨S100000x16, .f32⟩
  | 29 => ⟨S100000x16, .f32⟩
  | 30 => ⟨S_, .f32⟩
  | 31 => ⟨S100000x1, .f32⟩
  | 32 => ⟨S100000x1, .f32⟩
  | 33 => ⟨S100000x1, .f32⟩
  | 34 => ⟨S100000x16, .f32⟩
  | 35 => ⟨S100000x16, .f32⟩
  | 36 => ⟨S1x16, .f32⟩
  | 37 => ⟨S100000x16, .f32⟩
  | 38 => ⟨S100000x16, .f32⟩
  | 39 => ⟨S1x16, .f32⟩
  | 40 => ⟨S100000x16, .f32⟩
  | 41 => ⟨S100000x16, .f32⟩
  | 42 => ⟨S512x512, .f32⟩
  | 43 => ⟨S100000x512, .f32⟩
  | 44 => ⟨S100000x536, .f32⟩
  | 45 => ⟨S536x256, .f32⟩
  | 46 => ⟨S100000x256, .f32⟩
  | 47 => ⟨S1x256, .f32⟩
  | 48 => ⟨S100000x256, .f32⟩
  | 49 => ⟨S100000x256, .f32⟩
  | 50 => ⟨S_, .f32⟩
  | 51 => ⟨S100000, .f32⟩
  | 52 => ⟨S100000x1, .f32⟩
  | 53 => ⟨S_, .f32⟩
  | 54 => ⟨S100000x1, .f32⟩
  | 55 => ⟨S100000x1, .f32⟩
  | 56 => ⟨S100000x256, .f32⟩
  | 57 => ⟨S100000x256, .f32⟩
  | 58 => ⟨S100000x256, .f32⟩
  | 59 => ⟨S_, .f32⟩
  | 60 => ⟨S100000, .f32⟩
  | 61 => ⟨S100000x1, .f32⟩
  | 62 => ⟨S_, .f32⟩
  | 63 => ⟨S100000x1, .f32⟩
  | 64 => ⟨S100000x1, .f32⟩
  | 65 => ⟨S100000x256, .f32⟩
  | 66 => ⟨S100000x256, .f32⟩
  | 67 => ⟨S_, .f32⟩
  | 68 => ⟨S100000x1, .f32⟩
  | 69 => ⟨S100000x1, .f32⟩
  | 70 => ⟨S100000x1, .f32⟩
  | 71 => ⟨S100000x256, .f32⟩
  | 72 => ⟨S100000x256, .f32⟩
  | 73 => ⟨S1x256, .f32⟩
  | 74 => ⟨S100000x256, .f32⟩
  | 75 => ⟨S100000x256, .f32⟩
  | 76 => ⟨S1x256, .f32⟩
  | 77 => ⟨S100000x256, .f32⟩
  | 78 => ⟨S100000x256, .f32⟩
  | 79 => ⟨S_, .f32⟩
  | 80 => ⟨S100000x256, .f32⟩
  | 81 => ⟨S100000x256, .f32⟩
  | 82 => ⟨S100000x280, .f32⟩
  | 83 => ⟨S280x10, .f32⟩
  | 84 => ⟨S100000x10, .f32⟩
  | 85 => ⟨S1x10, .f32⟩
  | 86 => ⟨S100000x10, .f32⟩
  | 87 => ⟨S100000x10, .f32⟩
  | 88 => ⟨S_, .f32⟩
  | 89 => ⟨S100000, .f32⟩
  | 90 => ⟨S100000x1, .f32⟩
  | 91 => ⟨S_, .f32⟩
  | 92 => ⟨S100000x1, .f32⟩
  | 93 => ⟨S100000x1, .f32⟩
  | 94 => ⟨S100000x10, .f32⟩
  | 95 => ⟨S100000x10, .f32⟩
  | 96 => ⟨S100000x10, .f32⟩
  | 97 => ⟨S_, .f32⟩
  | 98 => ⟨S100000, .f32⟩
  | 99 => ⟨S100000x1, .f32⟩
  | 100 => ⟨S_, .f32⟩
  | 101 => ⟨S100000x1, .f32⟩
  | 102 => ⟨S100000x1, .f32⟩
  | 103 => ⟨S100000x10, .f32⟩
  | 104 => ⟨S100000x10, .f32⟩
  | 105 => ⟨S_, .f32⟩
  | 106 => ⟨S100000x1, .f32⟩
  | 107 => ⟨S100000x1, .f32⟩
  | 108 => ⟨S100000x1, .f32⟩
  | 109 => ⟨S100000x10, .f32⟩
  | 110 => ⟨S100000x10, .f32⟩
  | 111 => ⟨S1x10, .f32⟩
  | 112 => ⟨S100000x10, .f32⟩
  | 113 => ⟨S100000x10, .f32⟩
  | 114 => ⟨S1x10, .f32⟩
  | 115 => ⟨S100000x10, .f32⟩
  | 116 => ⟨S100000x10, .f32⟩
  | 117 => ⟨S_, .f32⟩
  | 118 => ⟨S100000x10, .f32⟩
  | 119 => ⟨S100000x10, .f32⟩
  | 120 => ⟨S_, .i32⟩
  | 121 => ⟨S20000, .i32⟩
  | 122 => ⟨S20000, .i1⟩
  | 123 => ⟨S_, .i32⟩
  | 124 => ⟨S20000, .i32⟩
  | 125 => ⟨S20000, .i32⟩
  | 126 => ⟨S20000, .i32⟩
  | 127 => ⟨S20000x1, .i32⟩
  | _ => ⟨S100000x10, .f32⟩

abbrev hbmTy0_2 (i : Nat) : BufTy := match i % 128 with
  | 0 => ⟨S20000x10, .f32⟩
  | 1 => ⟨S_, .i32⟩
  | 2 => ⟨S20000, .i32⟩
  | 3 => ⟨S20000, .i1⟩
  | 4 => ⟨S_, .i32⟩
  | 5 => ⟨S20000, .i32⟩
  | 6 => ⟨S20000, .i32⟩
  | 7 => ⟨S20000, .i32⟩
  | 8 => ⟨S20000x1, .i32⟩
  | 9 => ⟨S20000x10, .f32⟩
  | _ => ⟨S100000x10, .f32⟩

abbrev hbmTy (i : Nat) : BufTy := match i / 128 with
  | 0 => hbmTy0_0 i
  | 1 => hbmTy0_1 i
  | 2 => hbmTy0_2 i
  | _ => ⟨S100000x10, .f32⟩

abbrev bufTy : (tb : Table) → Fin (tcTables nBuf tb) → BufTy
  | .hbm, ⟨i, _⟩ => hbmTy i
  | _, _ => ⟨S100000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_c : Ref sig .tc := ⟨.hbm, 31, rfl⟩
abbrev main_v0 : Ref sig .tc := ⟨.hbm, 32, rfl⟩
abbrev main_v1 : Ref sig .tc := ⟨.hbm, 33, rfl⟩
abbrev main_c_0 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_cst : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_c_1 : Ref sig .tc := ⟨.hbm, 50, rfl⟩
abbrev main_v16 : Ref sig .tc := ⟨.hbm, 51, rfl⟩
abbrev main_v17 : Ref sig .tc := ⟨.hbm, 52, rfl⟩
abbrev main_c_2 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_cst_3 : Ref sig .tc := ⟨.hbm, 66, rfl⟩
abbrev main_v30 : Ref sig .tc := ⟨.hbm, 67, rfl⟩
abbrev main_v31 : Ref sig .tc := ⟨.hbm, 68, rfl⟩
abbrev main_cst_4 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_cst_5 : Ref sig .tc := ⟨.hbm, 75, rfl⟩
abbrev main_v37 : Ref sig .tc := ⟨.hbm, 76, rfl⟩
abbrev main_v38 : Ref sig .tc := ⟨.hbm, 77, rfl⟩
abbrev main_cst_6 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_7 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_call0_cst : Ref sig .tc := ⟨.hbm, 95, rfl⟩
abbrev main_call0_v0 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_cst_8 : Ref sig .tc := ⟨.hbm, 104, rfl⟩
abbrev main_v61 : Ref sig .tc := ⟨.hbm, 105, rfl⟩
abbrev main_v62 : Ref sig .tc := ⟨.hbm, 106, rfl⟩
abbrev main_cst_9 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_cst_10 : Ref sig .tc := ⟨.hbm, 113, rfl⟩
abbrev main_v68 : Ref sig .tc := ⟨.hbm, 114, rfl⟩
abbrev main_v69 : Ref sig .tc := ⟨.hbm, 115, rfl⟩
abbrev main_cst_11 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_cst_12 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_call1_cst : Ref sig .tc := ⟨.hbm, 133, rfl⟩
abbrev main_call1_v0 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_13 : Ref sig .tc := ⟨.hbm, 141, rfl⟩
abbrev main_v91 : Ref sig .tc := ⟨.hbm, 142, rfl⟩
abbrev main_v92 : Ref sig .tc := ⟨.hbm, 143, rfl⟩
abbrev main_cst_14 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_cst_15 : Ref sig .tc := ⟨.hbm, 150, rfl⟩
abbrev main_v98 : Ref sig .tc := ⟨.hbm, 151, rfl⟩
abbrev main_v99 : Ref sig .tc := ⟨.hbm, 152, rfl⟩
abbrev main_cst_16 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_cst_17 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_cst_18 : Ref sig .tc := ⟨.hbm, 178, rfl⟩
abbrev main_v123 : Ref sig .tc := ⟨.hbm, 179, rfl⟩
abbrev main_v124 : Ref sig .tc := ⟨.hbm, 180, rfl⟩
abbrev main_cst_19 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_cst_20 : Ref sig .tc := ⟨.hbm, 187, rfl⟩
abbrev main_v130 : Ref sig .tc := ⟨.hbm, 188, rfl⟩
abbrev main_v131 : Ref sig .tc := ⟨.hbm, 189, rfl⟩
abbrev main_cst_21 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_cst_22 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_call2_cst : Ref sig .tc := ⟨.hbm, 207, rfl⟩
abbrev main_call2_v0 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_cst_23 : Ref sig .tc := ⟨.hbm, 216, rfl⟩
abbrev main_v154 : Ref sig .tc := ⟨.hbm, 217, rfl⟩
abbrev main_v155 : Ref sig .tc := ⟨.hbm, 218, rfl⟩
abbrev main_cst_24 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_cst_25 : Ref sig .tc := ⟨.hbm, 225, rfl⟩
abbrev main_v161 : Ref sig .tc := ⟨.hbm, 226, rfl⟩
abbrev main_v162 : Ref sig .tc := ⟨.hbm, 227, rfl⟩
abbrev main_cst_26 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_cst_27 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_call3_cst : Ref sig .tc := ⟨.hbm, 245, rfl⟩
abbrev main_call3_v0 : Ref sig .tc := ⟨.hbm, 246, rfl⟩
abbrev main_v178 : Ref sig .tc := ⟨.hbm, 247, rfl⟩
abbrev main_c_28 : Ref sig .tc := ⟨.hbm, 248, rfl⟩
abbrev main_v179 : Ref sig .tc := ⟨.hbm, 249, rfl⟩
abbrev main_v180 : Ref sig .tc := ⟨.hbm, 250, rfl⟩
abbrev main_c_29 : Ref sig .tc := ⟨.hbm, 251, rfl⟩
abbrev main_v181 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_c_30 : Ref sig .tc := ⟨.hbm, 257, rfl⟩
abbrev main_v186 : Ref sig .tc := ⟨.hbm, 258, rfl⟩
abbrev main_v187 : Ref sig .tc := ⟨.hbm, 259, rfl⟩
abbrev main_c_31 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  concatenates_S3200000x10_S3200000x1_S3200000x1_S3200000x8_S3200000x4_S3200000x24_d1 : Shape.Concatenates [S3200000x10, S3200000x1, S3200000x1, S3200000x8, S3200000x4] S3200000x24 1
  bcast_S_S100000x24 : S_.BroadcastsInDim S100000x24 (![] : Fin 0 → Fin S100000x24.rank)
  bcast_S100000x1_S100000x24_0_1 : S100000x1.BroadcastsInDim S100000x24 (![0, 1] : Fin 2 → Fin S100000x24.rank)
  shapeCasts_S1x10_S10 : S1x10.ShapeCasts S10
  bcast_S_S20000 : S_.BroadcastsInDim S20000 (![] : Fin 0 → Fin S20000.rank)
  bcast_S20000_S20000x1_0 : S20000.BroadcastsInDim S20000x1 (![0] : Fin 1 → Fin S20000x1.rank)
  bcast_S10_S20000x10_1 : S10.BroadcastsInDim S20000x10 (![1] : Fin 1 → Fin S20000x10.rank)
  concatenates_S100000x10_S100000x24_S100000x34_d1 : Shape.Concatenates [S100000x10, S100000x24] S100000x34 1
  transposes_S256x34_S34x256_1_0 : S256x34.Transposes [1, 0] S34x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  reducesTo_S100000x256_S100000_d1 : S100000x256.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x256_0_1 : S100000x1.BroadcastsInDim S100000x256 (![0, 1] : Fin 2 → Fin S100000x256.rank)
  bcast_S_S100000x256 : S_.BroadcastsInDim S100000x256 (![] : Fin 0 → Fin S100000x256.rank)
  concatenates_S100000x256_S100000x24_S100000x280_d1 : Shape.Concatenates [S100000x256, S100000x24] S100000x280 1
  transposes_S512x280_S280x512_1_0 : S512x280.Transposes [1, 0] S280x512
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  reducesTo_S100000x512_S100000_d1 : S100000x512.ReducesTo [1] S100000
  bcast_S100000x1_S100000x512_0_1 : S100000x1.BroadcastsInDim S100000x512 (![0, 1] : Fin 2 → Fin S100000x512.rank)
  bcast_S_S100000x512 : S_.BroadcastsInDim S100000x512 (![] : Fin 0 → Fin S100000x512.rank)
  transposes_S16x512_S512x16_1_0 : S16x512.Transposes [1, 0] S512x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  bcast_S100000x1_S100000x16_0_1 : S100000x1.BroadcastsInDim S100000x16 (![0, 1] : Fin 2 → Fin S100000x16.rank)
  transposes_S512x512_S512x512_1_0 : S512x512.Transposes [1, 0] S512x512
  concatenates_S100000x512_S100000x24_S100000x536_d1 : Shape.Concatenates [S100000x512, S100000x24] S100000x536 1
  transposes_S256x536_S536x256_1_0 : S256x536.Transposes [1, 0] S536x256
  transposes_S10x280_S280x10_1_0 : S10x280.Transposes [1, 0] S280x10
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  bcast_S100000x1_S100000x10_0_1 : S100000x1.BroadcastsInDim S100000x10 (![0, 1] : Fin 2 → Fin S100000x10.rank)
  bcast_S_S100000x10 : S_.BroadcastsInDim S100000x10 (![] : Fin 0 → Fin S100000x10.rank)
  gather_S100000x10_S3200000x1_S3200000x10_1_0_n_n_0_1_110_wf : GatherDims.WF S100000x10 S3200000x1 S3200000x10 [1] [0] [] [0] [] 1 ![1, 10]
  scatter_S100000x24_S3200000x1_S3200000x24_1_0_0_1_wf : ScatterDims.WF S100000x24 S3200000x1 S3200000x24 [1] [0] [0] 1
  scatter_S100000x10_S20000x1_S20000x10_1_0_0_1_wf : ScatterDims.WF S100000x10 S20000x1 S20000x10 [1] [0] [0] 1
  dot_S100000x34_S34x256_S100000x256_1_0_0_1_n_n_wf : DotDims.WF S100000x34 S34x256 S100000x256 [1] [0] [0] [1] [] []
  dot_S100000x280_S280x512_S100000x512_1_0_0_1_n_n_wf : DotDims.WF S100000x280 S280x512 S100000x512 [1] [0] [0] [1] [] []
  dot_S100000x512_S512x16_S100000x16_1_0_0_1_n_n_wf : DotDims.WF S100000x512 S512x16 S100000x16 [1] [0] [0] [1] [] []
  dot_S100000x512_S512x512_S100000x512_1_0_0_1_n_n_wf : DotDims.WF S100000x512 S512x512 S100000x512 [1] [0] [0] [1] [] []
  dot_S100000x536_S536x256_S100000x256_1_0_0_1_n_n_wf : DotDims.WF S100000x536 S536x256 S100000x256 [1] [0] [0] [1] [] []
  dot_S100000x280_S280x10_S100000x10_1_0_0_1_n_n_wf : DotDims.WF S100000x280 S280x10 S100000x10 [1] [0] [0] [1] [] []
  gather_S100000x10_S20000x1_S20000x10_1_0_n_n_0_1_110_wf : GatherDims.WF S100000x10 S20000x1 S20000x10 [1] [0] [] [0] [] 1 ![1, 10]

variable [Facts₀]

def gather_S100000x10_S3200000x1_S3200000x10_1_0_n_n_0_1_110 : GatherDims S100000x10 S3200000x1 S3200000x10 where
  offsetDims := [1]
  collapsedSliceDims := [0]
  operandBatchingDims := []
  startIndicesBatchingDims := []
  startIndexMap := [0]
  indexVectorDim := 1
  sliceSizes := ![1, 10]
  wf := gather_S100000x10_S3200000x1_S3200000x10_1_0_n_n_0_1_110_wf
def scatter_S100000x24_S3200000x1_S3200000x24_1_0_0_1 : ScatterDims S100000x24 S3200000x1 S3200000x24 where
  updateWindowDims := [1]
  insertedWindowDims := [0]
  scatterDimsToOperandDims := [0]
  indexVectorDim := 1
  wf := scatter_S100000x24_S3200000x1_S3200000x24_1_0_0_1_wf
def scatter_S100000x10_S20000x1_S20000x10_1_0_0_1 : ScatterDims S100000x10 S20000x1 S20000x10 where
  updateWindowDims := [1]
  insertedWindowDims := [0]
  scatterDimsToOperandDims := [0]
  indexVectorDim := 1
  wf := scatter_S100000x10_S20000x1_S20000x10_1_0_0_1_wf
def dot_S100000x34_S34x256_S100000x256_1_0_0_1_n_n : DotDims S100000x34 S34x256 S100000x256 where
  lhsContracting := [1]
  rhsContracting := [0]
  lhsNonContracting := [0]
  rhsNonContracting := [1]
  lhsBatch := []
  rhsBatch := []
  wf := dot_S100000x34_S34x256_S100000x256_1_0_0_1_n_n_wf
def dot_S100000x280_S280x512_S100000x512_1_0_0_1_n_n : DotDims S100000x280 S280x512 S100000x512 where
  lhsContracting := [1]
  rhsContracting := [0]
  lhsNonContracting := [0]
  rhsNonContracting := [1]
  lhsBatch := []
  rhsBatch := []
  wf := dot_S100000x280_S280x512_S100000x512_1_0_0_1_n_n_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def dot_S100000x512_S512x512_S100000x512_1_0_0_1_n_n : DotDims S100000x512 S512x512 S100000x512 where
  lhsContracting := [1]
  rhsContracting := [0]
  lhsNonContracting := [0]
  rhsNonContracting := [1]
  lhsBatch := []
  rhsBatch := []
  wf := dot_S100000x512_S512x512_S100000x512_1_0_0_1_n_n_wf
def dot_S100000x536_S536x256_S100000x256_1_0_0_1_n_n : DotDims S100000x536 S536x256 S100000x256 where
  lhsContracting := [1]
  rhsContracting := [0]
  lhsNonContracting := [0]
  rhsNonContracting := [1]
  lhsBatch := []
  rhsBatch := []
  wf := dot_S100000x536_S536x256_S100000x256_1_0_0_1_n_n_wf
def dot_S100000x280_S280x10_S100000x10_1_0_0_1_n_n : DotDims S100000x280 S280x10 S100000x10 where
  lhsContracting := [1]
  rhsContracting := [0]
  lhsNonContracting := [0]
  rhsNonContracting := [1]
  lhsBatch := []
  rhsBatch := []
  wf := dot_S100000x280_S280x10_S100000x10_1_0_0_1_n_n_wf
def gather_S100000x10_S20000x1_S20000x10_1_0_n_n_0_1_110 : GatherDims S100000x10 S20000x1 S20000x10 where
  offsetDims := [1]
  collapsedSliceDims := [0]
  operandBatchingDims := []
  startIndicesBatchingDims := []
  startIndexMap := [0]
  indexVectorDim := 1
  sliceSizes := ![1, 10]
  wf := gather_S100000x10_S20000x1_S20000x10_1_0_n_n_0_1_110_wf

class Facts : Prop extends Facts₀ where

variable [Facts]
-- ==== Proof.KernelAround.lean ====
/-
  The program around its one pallas_call. Before the call the host computes the two node tables the call tiles over
  (the masked node features and the normalised neighbourhood sums, the latter a five-way column concatenation of
  per-destination edge sums) and the transposed, split weight matrices; after it the host gathers the masked rows.
  Here: the buffer contents when the call is entered (`V`), that @main is "host lines, the call, host lines",
  that the later lines touch no array the call tiles over, that no host line writes an argument array, and each
  tiled input's block at a grid point.
-/
import proofs.«106524_j47382079209805_2_alg».proof.Proof.Gen.Kernel.Launch
import proofs.«106524_j47382079209805_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the call is entered -/

/-- Core `c`'s buffer contents after the host lines that precede the call. -/
abbrev V0 (c : Dev nD) : Valuation τ sig (Elt F) := StableHlo.after (List.flatten [hostOps0]) (fun b => m (c, b))
/-- The same, read at one reference. -/
abbrev V (c : Dev nD) (b : Ref sig .tc) : Buf (Elt F) ((c : Thread nD τ).loc b) := V0 m c (Proc.devRef .tc b)

/-- No host line allocates. -/
theorem before_fresh : (hostOps0 : List (HloOp τ sig (Elt F))).Forall fun op => op.fresh = ∅ := by
  simp only [List.Forall]; repeat' constructor
theorem later_fresh : (hostOps1 : List (HloOp τ sig (Elt F))).Forall fun op => op.fresh = ∅ := by
  simp only [List.Forall]; repeat' constructor

/-- @main is the earlier host lines, the call, the later host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The later lines touch only unscoped buffers: arrays of the call, or buffers that bypass it. -/
theorem later_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
theorem later_alloc : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp later_fresh) op hop
/-- Each later line writes its own result buffer only, and none of those is an array the call tiles over. -/
theorem later_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl | rfl | rfl | rfl
  all_goals (intro w; simp only [StableHlo.nullary_writes, StableHlo.unary_writes, StableHlo.binary_writes, StableHlo.ternary_writes, StableHlo.quaternary_writes, StableHlo.reshape_writes, StableHlo.binaryIndexed_writes, StableHlo.nary_writes, Finset.mem_singleton]; refine StableHlo.devRef_ne_of_ne ?_; revert w; decide)

/-! ## No host line writes an argument array -/

theorem entry_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg23 (c : Dev nD) : V m c main_arg23 = m ((c : Thread nD τ).loc main_arg23) :=
  StableHlo.after_of_forall_not_mem (b := Proc.devRef .tc main_arg23) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg24 (c : Dev nD) : V m c main_arg24 = m ((c : Thread nD τ).loc main_arg24) :=
  StableHlo.after_of_forall_not_mem (b := Proc.devRef .tc main_arg24) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg25 (c : Dev nD) : V m c main_arg25 = m ((c : Thread nD τ).loc main_arg25) :=
  StableHlo.after_of_forall_not_mem (b := Proc.devRef .tc main_arg25) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg26 (c : Dev nD) : V m c main_arg26 = m ((c : Thread nD τ).loc main_arg26) :=
  StableHlo.after_of_forall_not_mem (b := Proc.devRef .tc main_arg26) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg27 (c : Dev nD) : V m c main_arg27 = m ((c : Thread nD τ).loc main_arg27) :=
  StableHlo.after_of_forall_not_mem (b := Proc.devRef .tc main_arg27) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg28 (c : Dev nD) : V m c main_arg28 = m ((c : Thread nD τ).loc main_arg28) :=
  StableHlo.after_of_forall_not_mem (b := Proc.devRef .tc main_arg28) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg29 (c : Dev nD) : V m c main_arg29 = m ((c : Thread nD τ).loc main_arg29) :=
  StableHlo.after_of_forall_not_mem (b := Proc.devRef .tc main_arg29) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg30 (c : Dev nD) : V m c main_arg30 = m ((c : Thread nD τ).loc main_arg30) :=
  StableHlo.after_of_forall_not_mem (b := Proc.devRef .tc main_arg30) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem exit_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact entry_main_arg0 m c
theorem exit_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact entry_main_arg1 m c
theorem exit_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact entry_main_arg2 m c
theorem exit_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact entry_main_arg3 m c
theorem exit_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact entry_main_arg4 m c
theorem exit_main_arg5 (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact entry_main_arg5 m c
theorem exit_main_arg6 (dats : (p : Fin 1) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact entry_main_arg6 m c
theorem exit_main_arg7 (dats : (p : Fin 1) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact entry_main_arg7 m c
theorem exit_main_arg8 (dats : (p : Fin 1) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact entry_main_arg8 m c
theorem exit_main_arg9 (dats : (p : Fin 1) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact entry_main_arg9 m c
theorem exit_main_arg10 (dats : (p : Fin 1) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact entry_main_arg10 m c
theorem exit_main_arg14 (dats : (p : Fin 1) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact entry_main_arg14 m c
theorem exit_main_arg18 (dats : (p : Fin 1) → (c : Dev nD) → Dat τ (Elt F) Unit ℕ (UR sig nD τ) ℕ (cfgs p) c) (c : Dev nD) :
    Pipeline.afterTail₀ cfgs dats 0 (V0 m) [hostOps1] c main_arg18 = m ((c : Thread nD τ).loc main_arg18) := by
  unfold Pipeline.afterTail₀
  rw [StableHlo.after_of_forall_not_mem (b := Proc.devRef .tc main_arg18) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg18 (by exact (by decide : ∀ w, Pipeline.arrRef spec0 w ≠ main_arg18))]
  exact entry_main_arg18 m c
theorem exit_main_arg22 (dats : (p : Fin 1) → (c : Dev nD) → Dat τ (Elt F) Unit ℕ (UR sig nD τ) ℕ (cfgs p) c) (c : Dev nD) :
    Pipeline.afterTail₀ cfgs dats 0 (V0 m) [hostOps1] c main_arg22 = m ((c : Thread nD τ).loc main_arg22) := by
  unfold Pipeline.afterTail₀
  rw [StableHlo.after_of_forall_not_mem (b := Proc.devRef .tc main_arg22) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg22 (by exact (by decide : ∀ w, Pipeline.arrRef spec0 w ≠ main_arg22))]
  exact entry_main_arg22 m c
theorem exit_main_arg26 (dats : (p : Fin 1) → (c : Dev nD) → Dat τ (Elt F) Unit ℕ (UR sig nD τ) ℕ (cfgs p) c) (c : Dev nD) :
    Pipeline.afterTail₀ cfgs dats 0 (V0 m) [hostOps1] c main_arg26 = m ((c : Thread nD τ).loc main_arg26) := by
  unfold Pipeline.afterTail₀
  rw [StableHlo.after_of_forall_not_mem (b := Proc.devRef .tc main_arg26) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg26 (by exact (by decide : ∀ w, Pipeline.arrRef spec0 w ≠ main_arg26))]
  exact entry_main_arg26 m c
theorem exit_main_arg27 (dats : (p : Fin 1) → (c : Dev nD) → Dat τ (Elt F) Unit ℕ (UR sig nD τ) ℕ (cfgs p) c) (c : Dev nD) :
    Pipeline.afterTail₀ cfgs dats 0 (V0 m) [hostOps1] c main_arg27 = m ((c : Thread nD τ).loc main_arg27) := by
  unfold Pipeline.afterTail₀
  rw [StableHlo.after_of_forall_not_mem (b := Proc.devRef .tc main_arg27) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg27 (by exact (by decide : ∀ w, Pipeline.arrRef spec0 w ≠ main_arg27))]
  exact entry_main_arg27 m c

/-! ## A tiled input's block at a grid point -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input's staging buffer holds that block when the body starts, whether the block was fetched at this
    point or has stayed since an earlier one (the weights and biases are fetched once). -/
theorem held0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem held1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem held2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem held3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem held4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem held5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem held6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem held7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem held8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem held9 {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem held10 {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem held11 {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem held12 {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem held13 {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem held14 {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem held15 {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem held16 {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem held17 {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem held18 {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
theorem held19 {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
theorem held20 {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
theorem held21 {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
theorem held22 {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
theorem held23 {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)
theorem held24 {c : Dev nD} (dat : Dat τ (Elt F) Unit ℕ (UR sig nD τ) ℕ cfg0 c) (hA : dat.A 24 = V m c (Pipeline.arrRef spec0 24))
    (hafter : ∀ t, dat.after 24 t = iblk m c 24 t) (t : Fin cfg0.N) (d) : dat.before 24 t d = iblk m c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)
theorem held25 {c : Dev nD} (dat : Dat τ (Elt F) Unit ℕ (UR sig nD τ) ℕ cfg0 c) (hA : dat.A 25 = V m c (Pipeline.arrRef spec0 25))
    (hafter : ∀ t, dat.after 25 t = iblk m c 25 t) (t : Fin cfg0.N) (d) : dat.before 25 t d = iblk m c 25 t :=
  (dat.before_in_eq_fetched 25 rfl (fun _ => rfl) (fun _ _ _ => rfl) (fun t => by rw [hafter]; unfold Dat.blockOf iblk; rw [hA]; try rfl) t d).trans
    (by unfold Dat.fetched Dat.blockOf iblk; rw [hA]; try rfl)
theorem held26 {c : Dev nD} (dat : Dat τ (Elt F) Unit ℕ (UR sig nD τ) ℕ cfg0 c) (hA : dat.A 26 = V m c (Pipeline.arrRef spec0 26))
    (hafter : ∀ t, dat.after 26 t = iblk m c 26 t) (t : Fin cfg0.N) (d) : dat.before 26 t d = iblk m c 26 t :=
  (dat.before_in_eq_fetched 26 rfl (fun _ => rfl) (fun _ _ _ => rfl) (fun t => by rw [hafter]; unfold Dat.blockOf iblk; rw [hA]; try rfl) t d).trans
    (by unfold Dat.fetched Dat.blockOf iblk; rw [hA]; try rfl)

end Cert.Kernel.Around

end
-- ==== Proof.KernelBody.lean ====
/-
  One grid point of the node kernel. The body reads a tile of 2000 rows of masked node features and of normalised
  neighbourhood sums and the resident weights, and writes two tiles: the node-class scores and the reconstruction.
  Two encoder layers (linear in [h, a], layer normalisation, relu) give h; the scores are the layer normalisation of a
  linear map of h; the reconstruction is two decoder layers applied to a linear map of h. Every layer's linear map is
  the sum of two matrix products, one contracting h's columns and one the 24 neighbourhood columns.
  Here: the two written tiles as functions of the tiles read, and the body's triple.
-/
import proofs.«106524_j47382079209805_2_alg».proof.Proof.Gen.Kernel.Launch
import proofs.«106524_j47382079209805_2_alg».proof.Proof.Gen.Kernel.Skeleton
import proofs.«106524_j47382079209805_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The rectangles the body loads and stores through: every one is a whole buffer -/

abbrev wholeS2000x10 : Rect S2000x10 := Rect.unit (s := S2000x10) ![0, 0] S2000x10.size inb_S2000x10_S2000x10_0_0
abbrev wholeS2000x24 : Rect S2000x24 := Rect.unit (s := S2000x24) ![0, 0] S2000x24.size inb_S2000x24_S2000x24_0_0
abbrev wholeS10x256 : Rect S10x256 := Rect.unit (s := S10x256) ![0, 0] S10x256.size inb_S10x256_S10x256_0_0
abbrev wholeS24x256 : Rect S24x256 := Rect.unit (s := S24x256) ![0, 0] S24x256.size inb_S24x256_S24x256_0_0
abbrev wholeS256 : Rect S256 := Rect.unit (s := S256) ![0] S256.size inb_S256_S256_0
abbrev wholeS256x512 : Rect S256x512 := Rect.unit (s := S256x512) ![0, 0] S256x512.size inb_S256x512_S256x512_0_0
abbrev wholeS24x512 : Rect S24x512 := Rect.unit (s := S24x512) ![0, 0] S24x512.size inb_S24x512_S24x512_0_0
abbrev wholeS512 : Rect S512 := Rect.unit (s := S512) ![0] S512.size inb_S512_S512_0
abbrev wholeS512x256 : Rect S512x256 := Rect.unit (s := S512x256) ![0, 0] S512x256.size inb_S512x256_S512x256_0_0
abbrev wholeS256x10 : Rect S256x10 := Rect.unit (s := S256x10) ![0, 0] S256x10.size inb_S256x10_S256x10_0_0
abbrev wholeS24x10 : Rect S24x10 := Rect.unit (s := S24x10) ![0, 0] S24x10.size inb_S24x10_S24x10_0_0
abbrev wholeS10 : Rect S10 := Rect.unit (s := S10) ![0] S10.size inb_S10_S10_0
abbrev wholeS512x512 : Rect S512x512 := Rect.unit (s := S512x512) ![0, 0] S512x512.size inb_S512x512_S512x512_0_0
abbrev wholeS512x16 : Rect S512x16 := Rect.unit (s := S512x16) ![0, 0] S512x16.size inb_S512x16_S512x16_0_0
abbrev wholeS16 : Rect S16 := Rect.unit (s := S16) ![0] S16.size inb_S16_S16_0
abbrev wholeS2000x16 : Rect S2000x16 := Rect.unit (s := S2000x16) ![0, 0] S2000x16.size inb_S2000x16_S2000x16_0_0

/-! ## What the body writes, from what it loads -/

/-- The second encoder layer before its shift and relu: normalised pre-activation times the gain. -/
def enc2Scaled (y0 : Vec F S2000x10 .f32) (y1 : Vec F S2000x24 .f32) (y2 : Vec F S10x256 .f32) (y3 : Vec F S24x256 .f32) (y4 : Vec F S256 .f32) (y5 : Vec F S256 .f32) (y6 : Vec F S256 .f32) (y7 : Vec F S256x512 .f32) (y8 : Vec F S24x512 .f32) (y9 : Vec F S512 .f32) (y10 : Vec F S512 .f32) : FVec F S2000x512 .f32 :=
  k0_pay9 (k0_pay1 y1) (k0_pay4 y5) (k0_pay5 y6) (k0_pay6 y1 y0 y2 y3 y4) (k0_pay7 y1 y0 y2 y3 y4) y7 y8 y9 y10

/-- The node-class scores of the tile. -/
def scoresPayload (y0 : Vec F S2000x10 .f32) (y1 : Vec F S2000x24 .f32) (y2 : Vec F S10x256 .f32) (y3 : Vec F S24x256 .f32) (y4 : Vec F S256 .f32) (y5 : Vec F S256 .f32) (y6 : Vec F S256 .f32) (y7 : Vec F S256x512 .f32) (y8 : Vec F S24x512 .f32) (y9 : Vec F S512 .f32) (y10 : Vec F S512 .f32) (y11 : Vec F S512 .f32) (y23 : Vec F S512x16 .f32) (y24 : Vec F S16 .f32) (y25 : Vec F S16 .f32) (y26 : Vec F S16 .f32) : FVec F S2000x16 .f32 :=
  k0_pay11 (k0_pay8 y11) (enc2Scaled y0 y1 y2 y3 y4 y5 y6 y7 y8 y9 y10) y23 y24 y25 y26

/-- The reconstructed node features of the tile. -/
def reconPayload (y0 : Vec F S2000x10 .f32) (y1 : Vec F S2000x24 .f32) (y2 : Vec F S10x256 .f32) (y3 : Vec F S24x256 .f32) (y4 : Vec F S256 .f32) (y5 : Vec F S256 .f32) (y6 : Vec F S256 .f32) (y7 : Vec F S256x512 .f32) (y8 : Vec F S24x512 .f32) (y9 : Vec F S512 .f32) (y10 : Vec F S512 .f32) (y11 : Vec F S512 .f32) (y12 : Vec F S512x256 .f32) (y13 : Vec F S24x256 .f32) (y14 : Vec F S256 .f32) (y15 : Vec F S256 .f32) (y16 : Vec F S256 .f32) (y17 : Vec F S256x10 .f32) (y18 : Vec F S24x10 .f32) (y19 : Vec F S10 .f32) (y20 : Vec F S10 .f32) (y21 : Vec F S10 .f32) (y22 : Vec F S512x512 .f32) : FVec F S2000x10 .f32 :=
  k0_pay15 (k0_pay1 y1)
    (k0_pay14 (k0_pay1 y1) (k0_pay12 y22) (k0_pay13 (k0_pay8 y11) (enc2Scaled y0 y1 y2 y3 y4 y5 y6 y7 y8 y9 y10)) y12 y13 y14 y15 y16)
    y17 y18 y19 y20 y21

/-- The scores buffer after the body: its one store, of the whole tile. -/
def scoresOut (x0 : Vec F S2000x10 .f32) (x1 : Vec F S2000x24 .f32) (x2 : Vec F S10x256 .f32) (x3 : Vec F S24x256 .f32) (x4 : Vec F S256 .f32) (x5 : Vec F S256 .f32) (x6 : Vec F S256 .f32) (x7 : Vec F S256x512 .f32) (x8 : Vec F S24x512 .f32) (x9 : Vec F S512 .f32) (x10 : Vec F S512 .f32) (x11 : Vec F S512 .f32) (x23 : Vec F S512x16 .f32) (x24 : Vec F S16 .f32) (x25 : Vec F S16 .f32) (x26 : Vec F S16 .f32) : Vec F S2000x16 .f32 :=
  View.canon [⟨wholeS2000x16, scoresPayload (View.ld x0 wholeS2000x10) (View.ld x1 wholeS2000x24) (View.ld x2 wholeS10x256) (View.ld x3 wholeS24x256) (View.ld x4 wholeS256) (View.ld x5 wholeS256) (View.ld x6 wholeS256) (View.ld x7 wholeS256x512) (View.ld x8 wholeS24x512) (View.ld x9 wholeS512) (View.ld x10 wholeS512) (View.ld x11 wholeS512) (View.ld x23 wholeS512x16) (View.ld x24 wholeS16) (View.ld x25 wholeS16) (View.ld x26 wholeS16)⟩]

/-- The reconstruction buffer after the body: its one store, of the whole tile. -/
def reconOut (x0 : Vec F S2000x10 .f32) (x1 : Vec F S2000x24 .f32) (x2 : Vec F S10x256 .f32) (x3 : Vec F S24x256 .f32) (x4 : Vec F S256 .f32) (x5 : Vec F S256 .f32) (x6 : Vec F S256 .f32) (x7 : Vec F S256x512 .f32) (x8 : Vec F S24x512 .f32) (x9 : Vec F S512 .f32) (x10 : Vec F S512 .f32) (x11 : Vec F S512 .f32) (x12 : Vec F S512x256 .f32) (x13 : Vec F S24x256 .f32) (x14 : Vec F S256 .f32) (x15 : Vec F S256 .f32) (x16 : Vec F S256 .f32) (x17 : Vec F S256x10 .f32) (x18 : Vec F S24x10 .f32) (x19 : Vec F S10 .f32) (x20 : Vec F S10 .f32) (x21 : Vec F S10 .f32) (x22 : Vec F S512x512 .f32) : Vec F S2000x10 .f32 :=
  View.canon [⟨wholeS2000x10, reconPayload (View.ld x0 wholeS2000x10) (View.ld x1 wholeS2000x24) (View.ld x2 wholeS10x256) (View.ld x3 wholeS24x256) (View.ld x4 wholeS256) (View.ld x5 wholeS256) (View.ld x6 wholeS256) (View.ld x7 wholeS256x512) (View.ld x8 wholeS24x512) (View.ld x9 wholeS512) (View.ld x10 wholeS512) (View.ld x11 wholeS512) (View.ld x12 wholeS512x256) (View.ld x13 wholeS24x256) (View.ld x14 wholeS256) (View.ld x15 wholeS256) (View.ld x16 wholeS256) (View.ld x17 wholeS256x10) (View.ld x18 wholeS24x10) (View.ld x19 wholeS10) (View.ld x20 wholeS10) (View.ld x21 wholeS10) (View.ld x22 wholeS512x512)⟩]

theorem scores_cover (p0 : Vec F S2000x16 .f32) (y : S2000x16.Idx) :
    ∃ pc ∈ ([⟨wholeS2000x16, p0⟩] : List (View.Piece (Elt F) S2000x16 .f32)), y ∈ pc.1.set :=
  View.cover_of_tiled [⟨wholeS2000x16, p0⟩] S2000x16.size (by rfl) y
theorem recon_cover (p0 : Vec F S2000x10 .f32) (y : S2000x10.Idx) :
    ∃ pc ∈ ([⟨wholeS2000x10, p0⟩] : List (View.Piece (Elt F) S2000x10 .f32)), y ∈ pc.1.set :=
  View.cover_of_tiled [⟨wholeS2000x10, p0⟩] S2000x10.size (by rfl) y

/-! ## The body's triple -/

set_option maxHeartbeats 4000000 in
/-- On whole staging buffers, the inputs at contents `xW` and the two outputs at anything, the body runs to the end
    leaving the inputs as they were and the outputs at `scoresOut` and `reconOut` of the inputs. (The body loads each
    output tile before storing it; the loaded value is not used.) -/
theorem sound_kernel (c : Dev nD) (E : Set ℕ) (i : grid0.Coords) (a0 : Memref sig .tc .vmem S2000x10 .f32) (h0 : a0.IsWhole) (a1 : Memref sig .tc .vmem S2000x24 .f32) (h1 : a1.IsWhole) (a2 : Memref sig .tc .vmem S10x256 .f32) (h2 : a2.IsWhole) (a3 : Memref sig .tc .vmem S24x256 .f32) (h3 : a3.IsWhole) (a4 : Memref sig .tc .vmem S256 .f32) (h4 : a4.IsWhole) (a5 : Memref sig .tc .vmem S256 .f32) (h5 : a5.IsWhole) (a6 : Memref sig .tc .vmem S256 .f32) (h6 : a6.IsWhole) (a7 : Memref sig .tc .vmem S256x512 .f32) (h7 : a7.IsWhole) (a8 : Memref sig .tc .vmem S24x512 .f32) (h8 : a8.IsWhole) (a9 : Memref sig .tc .vmem S512 .f32) (h9 : a9.IsWhole) (a10 : Memref sig .tc .vmem S512 .f32) (h10 : a10.IsWhole) (a11 : Memref sig .tc .vmem S512 .f32) (h11 : a11.IsWhole) (a12 : Memref sig .tc .vmem S512x256 .f32) (h12 : a12.IsWhole) (a13 : Memref sig .tc .vmem S24x256 .f32) (h13 : a13.IsWhole) (a14 : Memref sig .tc .vmem S256 .f32) (h14 : a14.IsWhole) (a15 : Memref sig .tc .vmem S256 .f32) (h15 : a15.IsWhole) (a16 : Memref sig .tc .vmem S256 .f32) (h16 : a16.IsWhole) (a17 : Memref sig .tc .vmem S256x10 .f32) (h17 : a17.IsWhole) (a18 : Memref sig .tc .vmem S24x10 .f32) (h18 : a18.IsWhole) (a19 : Memref sig .tc .vmem S10 .f32) (h19 : a19.IsWhole) (a20 : Memref sig .tc .vmem S10 .f32) (h20 : a20.IsWhole) (a21 : Memref sig .tc .vmem S10 .f32) (h21 : a21.IsWhole) (a22 : Memref sig .tc .vmem S512x512 .f32) (h22 : a22.IsWhole) (a23 : Memref sig .tc .vmem S512x16 .f32) (h23 : a23.IsWhole) (a24 : Memref sig .tc .vmem S16 .f32) (h24 : a24.IsWhole) (a25 : Memref sig .tc .vmem S16 .f32) (h25 : a25.IsWhole) (a26 : Memref sig .tc .vmem S16 .f32) (h26 : a26.IsWhole) (a27 : Memref sig .tc .vmem S2000x16 .f32) (h27 : a27.IsWhole) (a28 : Memref sig .tc .vmem S2000x10 .f32) (h28 : a28.IsWhole)
    (x0 : Vec F S2000x10 .f32) (x1 : Vec F S2000x24 .f32) (x2 : Vec F S10x256 .f32) (x3 : Vec F S24x256 .f32) (x4 : Vec F S256 .f32) (x5 : Vec F S256 .f32) (x6 : Vec F S256 .f32) (x7 : Vec F S256x512 .f32) (x8 : Vec F S24x512 .f32) (x9 : Vec F S512 .f32) (x10 : Vec F S512 .f32) (x11 : Vec F S512 .f32) (x12 : Vec F S512x256 .f32) (x13 : Vec F S24x256 .f32) (x14 : Vec F S256 .f32) (x15 : Vec F S256 .f32) (x16 : Vec F S256 .f32) (x17 : Vec F S256x10 .f32) (x18 : Vec F S24x10 .f32) (x19 : Vec F S10 .f32) (x20 : Vec F S10 .f32) (x21 : Vec F S10 .f32) (x22 : Vec F S512x512 .f32) (x23 : Vec F S512x16 .f32) (x24 : Vec F S16 .f32) (x25 : Vec F S16 .f32) (x26 : Vec F S16 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16 ∗ owns (c : Thread nD τ) a17 fullShare x17 ∗ owns (c : Thread nD τ) a18 fullShare x18 ∗ owns (c : Thread nD τ) a19 fullShare x19 ∗ owns (c : Thread nD τ) a20 fullShare x20 ∗ owns (c : Thread nD τ) a21 fullShare x21 ∗ owns (c : Thread nD τ) a22 fullShare x22 ∗ owns (c : Thread nD τ) a23 fullShare x23 ∗ owns (c : Thread nD τ) a24 fullShare x24 ∗ owns (c : Thread nD τ) a25 fullShare x25 ∗ owns (c : Thread nD τ) a26 fullShare x26 ∗ (∃ d, owns (c : Thread nD τ) a27 fullShare d) ∗ (∃ d, owns (c : Thread nD τ) a28 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16 ∗ owns (c : Thread nD τ) a17 fullShare x17 ∗ owns (c : Thread nD τ) a18 fullShare x18 ∗ owns (c : Thread nD τ) a19 fullShare x19 ∗ owns (c : Thread nD τ) a20 fullShare x20 ∗ owns (c : Thread nD τ) a21 fullShare x21 ∗ owns (c : Thread nD τ) a22 fullShare x22 ∗ owns (c : Thread nD τ) a23 fullShare x23 ∗ owns (c : Thread nD τ) a24 fullShare x24 ∗ owns (c : Thread nD τ) a25 fullShare x25 ∗ owns (c : Thread nD τ) a26 fullShare x26
            ∗ owns (c : Thread nD τ) a27 fullShare (scoresOut x0 x1 x2 x3 x4 x5 x6 x7 x8 x9 x10 x11 x23 x24 x25 x26)
            ∗ owns (c : Thread nD τ) a28 fullShare (reconOut x0 x1 x2 x3 x4 x5 x6 x7 x8 x9 x10 x11 x12 x13 x14 x15 x16 x17 x18 x19 x20 x21 x22)) -∗ K ⟨⟩))
      ⊢ wp frame (wpE (defs₀ (F := F)) Variants.none c none) E (cc0__node_kernel i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28) K := by
  simp only [cc0__node_kernel_eq_skeleton]; unfold cc0__node_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%d27, %f27, -, H27⟩, ⟨%d28, %f28, -, H28⟩, Hk⟩
  subst hf0; subst hf1; subst hf2; subst hf3; subst hf4; subst hf5; subst hf6; subst hf7; subst hf8; subst hf9; subst hf10; subst hf11; subst hf12; subst hf13; subst hf14; subst hf15; subst hf16; subst hf17; subst hf18; subst hf19; subst hf20; subst hf21; subst hf22; subst hf23; subst hf24; subst hf25; subst hf26
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists _; isplitr
    swap; · iexact H27
    ipureintro
    exact View.read_writes_eq_canon _ _ _ (scores_cover _)
  iexists _; isplitr
  swap; · iexact H28
  ipureintro
  exact View.read_writes_eq_canon _ _ _ (recon_cover _)

end Cert.Kernel.Around

end
-- ==== Proof.KernelFrame.lean ====
/-
  The whole run of the program: the call's proof data over its 50 grid points (an input's staging buffer keeps its
  block; the two outputs' buffers hold the body's two tiles of that point's input blocks), the body obligation at every
  point, the run of @main, and the frame: every argument array ends as it was launched.
-/
import proofs.«106524_j47382079209805_2_alg».proof.Proof.KernelAround
import proofs.«106524_j47382079209805_2_alg».proof.Proof.KernelBody

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
/-- In a final state of the run every argument array is as launched: one the call tiles over is an input window,
    never written back; any other is untouched by the call and by the host lines on either side. -/
theorem kept_of_post (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30) :=
  ⟨((h c).2 main_arg0 (Pipeline.mem_restRefs_of main_arg0 (by decide) (by decide))).trans (exit_main_arg0 m dats c),
      ((h c).2 main_arg1 (Pipeline.mem_restRefs_of main_arg1 (by decide) (by decide))).trans (exit_main_arg1 m dats c),
      ((h c).2 main_arg2 (Pipeline.mem_restRefs_of main_arg2 (by decide) (by decide))).trans (exit_main_arg2 m dats c),
      ((h c).2 main_arg3 (Pipeline.mem_restRefs_of main_arg3 (by decide) (by decide))).trans (exit_main_arg3 m dats c),
      ((h c).2 main_arg4 (Pipeline.mem_restRefs_of main_arg4 (by decide) (by decide))).trans (exit_main_arg4 m dats c),
      ((h c).2 main_arg5 (Pipeline.mem_restRefs_of main_arg5 (by decide) (by decide))).trans (exit_main_arg5 m dats c),
      ((h c).2 main_arg6 (Pipeline.mem_restRefs_of main_arg6 (by decide) (by decide))).trans (exit_main_arg6 m dats c),
      ((h c).2 main_arg7 (Pipeline.mem_restRefs_of main_arg7 (by decide) (by decide))).trans (exit_main_arg7 m dats c),
      ((h c).2 main_arg8 (Pipeline.mem_restRefs_of main_arg8 (by decide) (by decide))).trans (exit_main_arg8 m dats c),
      ((h c).2 main_arg9 (Pipeline.mem_restRefs_of main_arg9 (by decide) (by decide))).trans (exit_main_arg9 m dats c),
      ((h c).2 main_arg10 (Pipeline.mem_restRefs_of main_arg10 (by decide) (by decide))).trans (exit_main_arg10 m dats c),
      ((h c).1 4).trans (((dats 0 c).arrAt_in 4 rfl _).trans ((hA c 4).trans (entry_main_arg11 m c))),
      ((h c).1 5).trans (((dats 0 c).arrAt_in 5 rfl _).trans ((hA c 5).trans (entry_main_arg12 m c))),
      ((h c).1 6).trans (((dats 0 c).arrAt_in 6 rfl _).trans ((hA c 6).trans (entry_main_arg13 m c))),
      ((h c).2 main_arg14 (Pipeline.mem_restRefs_of main_arg14 (by decide) (by decide))).trans (exit_main_arg14 m dats c),
      ((h c).1 9).trans (((dats 0 c).arrAt_in 9 rfl _).trans ((hA c 9).trans (entry_main_arg15 m c))),
      ((h c).1 10).trans (((dats 0 c).arrAt_in 10 rfl _).trans ((hA c 10).trans (entry_main_arg16 m c))),
      ((h c).1 11).trans (((dats 0 c).arrAt_in 11 rfl _).trans ((hA c 11).trans (entry_main_arg17 m c))),
      ((h c).2 main_arg18 (Pipeline.mem_restRefs_of main_arg18 (by decide) (by decide))).trans (exit_main_arg18 m dats c),
      ((h c).1 14).trans (((dats 0 c).arrAt_in 14 rfl _).trans ((hA c 14).trans (entry_main_arg19 m c))),
      ((h c).1 15).trans (((dats 0 c).arrAt_in 15 rfl _).trans ((hA c 15).trans (entry_main_arg20 m c))),
      ((h c).1 16).trans (((dats 0 c).arrAt_in 16 rfl _).trans ((hA c 16).trans (entry_main_arg21 m c))),
      ((h c).2 main_arg22 (Pipeline.mem_restRefs_of main_arg22 (by decide) (by decide))).trans (exit_main_arg22 m dats c),
      ((h c).1 19).trans (((dats 0 c).arrAt_in 19 rfl _).trans ((hA c 19).trans (entry_main_arg23 m c))),
      ((h c).1 20).trans (((dats 0 c).arrAt_in 20 rfl _).trans ((hA c 20).trans (entry_main_arg24 m c))),
      ((h c).1 21).trans (((dats 0 c).arrAt_in 21 rfl _).trans ((hA c 21).trans (entry_main_arg25 m c))),
      ((h c).2 main_arg26 (Pipeline.mem_restRefs_of main_arg26 (by decide) (by decide))).trans (exit_main_arg26 m dats c),
      ((h c).2 main_arg27 (Pipeline.mem_restRefs_of main_arg27 (by decide) (by decide))).trans (exit_main_arg27 m dats c),
      ((h c).1 24).trans (((dats 0 c).arrAt_in 24 rfl _).trans ((hA c 24).trans (entry_main_arg28 m c))),
      ((h c).1 25).trans (((dats 0 c).arrAt_in 25 rfl _).trans ((hA c 25).trans (entry_main_arg29 m c))),
      ((h c).1 26).trans (((dats 0 c).arrAt_in 26 rfl _).trans ((hA c 26).trans (entry_main_arg30 m c)))⟩

/-- The frame's post from the run's. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  (θ_run defs _ _).mono (fun r h c => kept_of_post m dats hA r h c) h

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => scoresOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 23 t) (iblk m c 24 t) (iblk m c 25 t) (iblk m c 26 t)
    | ⟨28, _⟩ => reconOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    | ⟨_ + 29, h⟩ => absurd h (Nat.not_lt.2 (Nat.le_add_left _ _))
  Φ _ := Pipeline.ΦA spec0 c
  q _ := fullShare
  owed _ := 0

/-- The arrays are the contents at the call's entry (read off the definition, never by unfolding `V`). -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = iblk m c 17 t := by dsimp only [dats]
theorem after18 (c : Dev nD) (t : Fin cfg0.N) : (dats m 0 c).after 18 t = iblk m c 18 t := by dsimp only [dats]
theorem after19 (c : Dev nD) (t : Fin cfg0.N) : (dats m 0 c).after 19 t = iblk m c 19 t := by dsimp only [dats]
theorem after20 (c : Dev nD) (t : Fin cfg0.N) : (dats m 0 c).after 20 t = iblk m c 20 t := by dsimp only [dats]
theorem after21 (c : Dev nD) (t : Fin cfg0.N) : (dats m 0 c).after 21 t = iblk m c 21 t := by dsimp only [dats]
theorem after22 (c : Dev nD) (t : Fin cfg0.N) : (dats m 0 c).after 22 t = iblk m c 22 t := by dsimp only [dats]
theorem after23 (c : Dev nD) (t : Fin cfg0.N) : (dats m 0 c).after 23 t = iblk m c 23 t := by dsimp only [dats]
theorem after24 (c : Dev nD) (t : Fin cfg0.N) : (dats m 0 c).after 24 t = iblk m c 24 t := by dsimp only [dats]
theorem after25 (c : Dev nD) (t : Fin cfg0.N) : (dats m 0 c).after 25 t = iblk m c 25 t := by dsimp only [dats]
theorem after26 (c : Dev nD) (t : Fin cfg0.N) : (dats m 0 c).after 26 t = iblk m c 26 t := by dsimp only [dats]
theorem after27 (c : Dev nD) (t : Fin cfg0.N) : (dats m 0 c).after 27 t = scoresOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 23 t) (iblk m c 24 t) (iblk m c 25 t) (iblk m c 26 t) := by dsimp only [dats]
theorem after28 (c : Dev nD) (t : Fin cfg0.N) : (dats m 0 c).after 28 t = reconOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) := by dsimp only [dats]

theorem before0 (c : Dev nD) (t : Fin cfg0.N) (d) : (dats m 0 c).before 0 t d = iblk m c 0 t :=
  held0 m (dats m 0 c) (A_eq m c 0) (after0 m c) t d
theorem before1 (c : Dev nD) (t : Fin cfg0.N) (d) : (dats m 0 c).before 1 t d = iblk m c 1 t :=
  held1 m (dats m 0 c) (A_eq m c 1) (after1 m c) t d
theorem before2 (c : Dev nD) (t : Fin cfg0.N) (d) : (dats m 0 c).before 2 t d = iblk m c 2 t :=
  held2 m (dats m 0 c) (A_eq m c 2) (after2 m c) t d
theorem before3 (c : Dev nD) (t : Fin cfg0.N) (d) : (dats m 0 c).before 3 t d = iblk m c 3 t :=
  held3 m (dats m 0 c) (A_eq m c 3) (after3 m c) t d
theorem before4 (c : Dev nD) (t : Fin cfg0.N) (d) : (dats m 0 c).before 4 t d = iblk m c 4 t :=
  held4 m (dats m 0 c) (A_eq m c 4) (after4 m c) t d
theorem before5 (c : Dev nD) (t : Fin cfg0.N) (d) : (dats m 0 c).before 5 t d = iblk m c 5 t :=
  held5 m (dats m 0 c) (A_eq m c 5) (after5 m c) t d
theorem before6 (c : Dev nD) (t : Fin cfg0.N) (d) : (dats m 0 c).before 6 t d = iblk m c 6 t :=
  held6 m (dats m 0 c) (A_eq m c 6) (after6 m c) t d
theorem before7 (c : Dev nD) (t : Fin cfg0.N) (d) : (dats m 0 c).before 7 t d = iblk m c 7 t :=
  held7 m (dats m 0 c) (A_eq m c 7) (after7 m c) t d
theorem before8 (c : Dev nD) (t : Fin cfg0.N) (d) : (dats m 0 c).before 8 t d = iblk m c 8 t :=
  held8 m (dats m 0 c) (A_eq m c 8) (after8 m c) t d
theorem before9 (c : Dev nD) (t : Fin cfg0.N) (d) : (dats m 0 c).before 9 t d = iblk m c 9 t :=
  held9 m (dats m 0 c) (A_eq m c 9) (after9 m c) t d
theorem before10 (c : Dev nD) (t : Fin cfg0.N) (d) : (dats m 0 c).before 10 t d = iblk m c 10 t :=
  held10 m (dats m 0 c) (A_eq m c 10) (after10 m c) t d
theorem before11 (c : Dev nD) (t : Fin cfg0.N) (d) : (dats m 0 c).before 11 t d = iblk m c 11 t :=
  held11 m (dats m 0 c) (A_eq m c 11) (after11 m c) t d
theorem before12 (c : Dev nD) (t : Fin cfg0.N) (d) : (dats m 0 c).before 12 t d = iblk m c 12 t :=
  held12 m (dats m 0 c) (A_eq m c 12) (after12 m c) t d
theorem before13 (c : Dev nD) (t : Fin cfg0.N) (d) : (dats m 0 c).before 13 t d = iblk m c 13 t :=
  held13 m (dats m 0 c) (A_eq m c 13) (after13 m c) t d
theorem before14 (c : Dev nD) (t : Fin cfg0.N) (d) : (dats m 0 c).before 14 t d = iblk m c 14 t :=
  held14 m (dats m 0 c) (A_eq m c 14) (after14 m c) t d
theorem before15 (c : Dev nD) (t : Fin cfg0.N) (d) : (dats m 0 c).before 15 t d = iblk m c 15 t :=
  held15 m (dats m 0 c) (A_eq m c 15) (after15 m c) t d
theorem before16 (c : Dev nD) (t : Fin cfg0.N) (d) : (dats m 0 c).before 16 t d = iblk m c 16 t :=
  held16 m (dats m 0 c) (A_eq m c 16) (after16 m c) t d
theorem before17 (c : Dev nD) (t : Fin cfg0.N) (d) : (dats m 0 c).before 17 t d = iblk m c 17 t :=
  held17 m (dats m 0 c) (A_eq m c 17) (after17 m c) t d
theorem before18 (c : Dev nD) (t : Fin cfg0.N) (d) : (dats m 0 c).before 18 t d = iblk m c 18 t :=
  held18 m (dats m 0 c) (A_eq m c 18) (after18 m c) t d
theorem before19 (c : Dev nD) (t : Fin cfg0.N) (d) : (dats m 0 c).before 19 t d = iblk m c 19 t :=
  held19 m (dats m 0 c) (A_eq m c 19) (after19 m c) t d
theorem before20 (c : Dev nD) (t : Fin cfg0.N) (d) : (dats m 0 c).before 20 t d = iblk m c 20 t :=
  held20 m (dats m 0 c) (A_eq m c 20) (after20 m c) t d
theorem before21 (c : Dev nD) (t : Fin cfg0.N) (d) : (dats m 0 c).before 21 t d = iblk m c 21 t :=
  held21 m (dats m 0 c) (A_eq m c 21) (after21 m c) t d
theorem before22 (c : Dev nD) (t : Fin cfg0.N) (d) : (dats m 0 c).before 22 t d = iblk m c 22 t :=
  held22 m (dats m 0 c) (A_eq m c 22) (after22 m c) t d
theorem before23 (c : Dev nD) (t : Fin cfg0.N) (d) : (dats m 0 c).before 23 t d = iblk m c 23 t :=
  held23 m (dats m 0 c) (A_eq m c 23) (after23 m c) t d
theorem before24 (c : Dev nD) (t : Fin cfg0.N) (d) : (dats m 0 c).before 24 t d = iblk m c 24 t :=
  held24 m (dats m 0 c) (A_eq m c 24) (after24 m c) t d
theorem before25 (c : Dev nD) (t : Fin cfg0.N) (d) : (dats m 0 c).before 25 t d = iblk m c 25 t :=
  held25 m (dats m 0 c) (A_eq m c 25) (after25 m c) t d
theorem before26 (c : Dev nD) (t : Fin cfg0.N) (d) : (dats m 0 c).before 26 t d = iblk m c 26 t :=
  held26 m (dats m 0 c) (A_eq m c 26) (after26 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t))

set_option maxHeartbeats 4000000 in
/-- At any point the inputs' buffers hold their blocks, so the body's triple applies; the invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before16, before17, before18, before19, before20, before21, before22, before23, before24, before25, before26]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17, after18, after19, after20, after21, after22, after23, after24, after25, after26, after27, after28]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexists _; iexact H27
  isplitl [H28]; · iexists _; iexact H28
  iintro ⟨H0, H1, H2, H3, H4, H5, H6, H7, H8, H9, H10, H11, H12, H13, H14, H15, H16, H17, H18, H19, H20, H21, H22, H23, H24, H25, H26, H27, H28⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iexact H28

set_option maxHeartbeats 8000000 in
theorem body_obligation (c : Dev nD) : BodyObligation (dats (F := F) m 0 c) (defs₀ (F := F)) Variants.none () Set.univ := fun t => by
  rw [bigSep_W0, bigSep_W0]
  show bodyPre m c t ⊢ wp frame (wpE (defs₀ (F := F)) Variants.none c none) Set.univ (bodyAt0 t) (fun _ => bodyPost m c t)
  exact sound_body m c t

/-! ## The run and the frame -/

set_option backward.isDefEq.respectTransparency.types false in
/-- Every weakly fair execution of @main terminates; at the end each array the call tiles over holds what the proof
    data computes, and every other unscoped buffer what the later host lines leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := later_sub) (hfresh := later_alloc) (hkeep := later_keeps)
    (hmain := hmain m Variants.none) (hA := A_eq m) (hΦ := fun _ _ => rfl)

set_option maxHeartbeats 16000000 in
/-- The frame: the program runs to the end and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  frame_of m ρ (dats m) (A_eq m) (run_main m ρ)

end Cert.Kernel.Around

end
-- ==== Proof.KernelIdealAround.lean ====
/-
  The program around its one pallas_call. Before the call the host computes the two node tables the call tiles over
  (the masked node features and the normalised neighbourhood sums, the latter a five-way column concatenation of
  per-destination edge sums) and the transposed, split weight matrices; after it the host gathers the masked rows.
  Here: the buffer contents when the call is entered (`V`), that @main is "host lines, the call, host lines",
  that the later lines touch no array the call tiles over, that no host line writes an argument array, and each
  tiled input's block at a grid point.
-/
import proofs.«106524_j47382079209805_2_alg».proof.Proof.Gen.KernelIdeal.Launch
import proofs.«106524_j47382079209805_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the call is entered -/

/-- Core `c`'s buffer contents after the host lines that precede the call. -/
abbrev V0 (c : Dev nD) : Valuation τ sig (Elt F) := StableHlo.after (List.flatten [hostOps0]) (fun b => m (c, b))
/-- The same, read at one reference. -/
abbrev V (c : Dev nD) (b : Ref sig .tc) : Buf (Elt F) ((c : Thread nD τ).loc b) := V0 m c (Proc.devRef .tc b)

/-- No host line allocates. -/
theorem before_fresh : (hostOps0 : List (HloOp τ sig (Elt F))).Forall fun op => op.fresh = ∅ := by
  simp only [List.Forall]; repeat' constructor
theorem later_fresh : (hostOps1 : List (HloOp τ sig (Elt F))).Forall fun op => op.fresh = ∅ := by
  simp only [List.Forall]; repeat' constructor

/-- @main is the earlier host lines, the call, the later host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The later lines touch only unscoped buffers: arrays of the call, or buffers that bypass it. -/
theorem later_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
theorem later_alloc : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp later_fresh) op hop
/-- Each later line writes its own result buffer only, and none of those is an array the call tiles over. -/
theorem later_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl | rfl | rfl | rfl
  all_goals (intro w; simp only [StableHlo.nullary_writes, StableHlo.unary_writes, StableHlo.binary_writes, StableHlo.ternary_writes, StableHlo.quaternary_writes, StableHlo.reshape_writes, StableHlo.binaryIndexed_writes, StableHlo.nary_writes, Finset.mem_singleton]; refine StableHlo.devRef_ne_of_ne ?_; revert w; decide)

/-! ## No host line writes an argument array -/

theorem entry_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg23 (c : Dev nD) : V m c main_arg23 = m ((c : Thread nD τ).loc main_arg23) :=
  StableHlo.after_of_forall_not_mem (b := Proc.devRef .tc main_arg23) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg24 (c : Dev nD) : V m c main_arg24 = m ((c : Thread nD τ).loc main_arg24) :=
  StableHlo.after_of_forall_not_mem (b := Proc.devRef .tc main_arg24) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg25 (c : Dev nD) : V m c main_arg25 = m ((c : Thread nD τ).loc main_arg25) :=
  StableHlo.after_of_forall_not_mem (b := Proc.devRef .tc main_arg25) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg26 (c : Dev nD) : V m c main_arg26 = m ((c : Thread nD τ).loc main_arg26) :=
  StableHlo.after_of_forall_not_mem (b := Proc.devRef .tc main_arg26) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg27 (c : Dev nD) : V m c main_arg27 = m ((c : Thread nD τ).loc main_arg27) :=
  StableHlo.after_of_forall_not_mem (b := Proc.devRef .tc main_arg27) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg28 (c : Dev nD) : V m c main_arg28 = m ((c : Thread nD τ).loc main_arg28) :=
  StableHlo.after_of_forall_not_mem (b := Proc.devRef .tc main_arg28) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg29 (c : Dev nD) : V m c main_arg29 = m ((c : Thread nD τ).loc main_arg29) :=
  StableHlo.after_of_forall_not_mem (b := Proc.devRef .tc main_arg29) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem entry_main_arg30 (c : Dev nD) : V m c main_arg30 = m ((c : Thread nD τ).loc main_arg30) :=
  StableHlo.after_of_forall_not_mem (b := Proc.devRef .tc main_arg30) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem exit_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact entry_main_arg0 m c
theorem exit_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact entry_main_arg1 m c
theorem exit_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact entry_main_arg2 m c
theorem exit_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact entry_main_arg3 m c
theorem exit_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact entry_main_arg4 m c
theorem exit_main_arg5 (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact entry_main_arg5 m c
theorem exit_main_arg6 (dats : (p : Fin 1) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact entry_main_arg6 m c
theorem exit_main_arg7 (dats : (p : Fin 1) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact entry_main_arg7 m c
theorem exit_main_arg8 (dats : (p : Fin 1) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact entry_main_arg8 m c
theorem exit_main_arg9 (dats : (p : Fin 1) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact entry_main_arg9 m c
theorem exit_main_arg10 (dats : (p : Fin 1) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact entry_main_arg10 m c
theorem exit_main_arg14 (dats : (p : Fin 1) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact entry_main_arg14 m c
theorem exit_main_arg18 (dats : (p : Fin 1) → (c : Dev nD) → Dat τ (Elt F) Unit ℕ (UR sig nD τ) ℕ (cfgs p) c) (c : Dev nD) :
    Pipeline.afterTail₀ cfgs dats 0 (V0 m) [hostOps1] c main_arg18 = m ((c : Thread nD τ).loc main_arg18) := by
  unfold Pipeline.afterTail₀
  rw [StableHlo.after_of_forall_not_mem (b := Proc.devRef .tc main_arg18) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg18 (by exact (by decide : ∀ w, Pipeline.arrRef spec0 w ≠ main_arg18))]
  exact entry_main_arg18 m c
theorem exit_main_arg22 (dats : (p : Fin 1) → (c : Dev nD) → Dat τ (Elt F) Unit ℕ (UR sig nD τ) ℕ (cfgs p) c) (c : Dev nD) :
    Pipeline.afterTail₀ cfgs dats 0 (V0 m) [hostOps1] c main_arg22 = m ((c : Thread nD τ).loc main_arg22) := by
  unfold Pipeline.afterTail₀
  rw [StableHlo.after_of_forall_not_mem (b := Proc.devRef .tc main_arg22) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg22 (by exact (by decide : ∀ w, Pipeline.arrRef spec0 w ≠ main_arg22))]
  exact entry_main_arg22 m c
theorem exit_main_arg26 (dats : (p : Fin 1) → (c : Dev nD) → Dat τ (Elt F) Unit ℕ (UR sig nD τ) ℕ (cfgs p) c) (c : Dev nD) :
    Pipeline.afterTail₀ cfgs dats 0 (V0 m) [hostOps1] c main_arg26 = m ((c : Thread nD τ).loc main_arg26) := by
  unfold Pipeline.afterTail₀
  rw [StableHlo.after_of_forall_not_mem (b := Proc.devRef .tc main_arg26) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg26 (by exact (by decide : ∀ w, Pipeline.arrRef spec0 w ≠ main_arg26))]
  exact entry_main_arg26 m c
theorem exit_main_arg27 (dats : (p : Fin 1) → (c : Dev nD) → Dat τ (Elt F) Unit ℕ (UR sig nD τ) ℕ (cfgs p) c) (c : Dev nD) :
    Pipeline.afterTail₀ cfgs dats 0 (V0 m) [hostOps1] c main_arg27 = m ((c : Thread nD τ).loc main_arg27) := by
  unfold Pipeline.afterTail₀
  rw [StableHlo.after_of_forall_not_mem (b := Proc.devRef .tc main_arg27) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg27 (by exact (by decide : ∀ w, Pipeline.arrRef spec0 w ≠ main_arg27))]
  exact entry_main_arg27 m c

/-! ## A tiled input's block at a grid point -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input's staging buffer holds that block when the body starts, whether the block was fetched at this
    point or has stayed since an earlier one (the weights and biases are fetched once). -/
theorem held0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem held1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem held2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem held3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem held4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem held5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem held6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem held7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem held8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem held9 {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem held10 {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem held11 {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem held12 {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem held13 {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem held14 {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem held15 {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem held16 {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem held17 {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem held18 {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
theorem held19 {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
theorem held20 {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
theorem held21 {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
theorem held22 {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
theorem held23 {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)
theorem held24 {c : Dev nD} (dat : Dat τ (Elt F) Unit ℕ (UR sig nD τ) ℕ cfg0 c) (hA : dat.A 24 = V m c (Pipeline.arrRef spec0 24))
    (hafter : ∀ t, dat.after 24 t = iblk m c 24 t) (t : Fin cfg0.N) (d) : dat.before 24 t d = iblk m c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)
theorem held25 {c : Dev nD} (dat : Dat τ (Elt F) Unit ℕ (UR sig nD τ) ℕ cfg0 c) (hA : dat.A 25 = V m c (Pipeline.arrRef spec0 25))
    (hafter : ∀ t, dat.after 25 t = iblk m c 25 t) (t : Fin cfg0.N) (d) : dat.before 25 t d = iblk m c 25 t :=
  (dat.before_in_eq_fetched 25 rfl (fun _ => rfl) (fun _ _ _ => rfl) (fun t => by rw [hafter]; unfold Dat.blockOf iblk; rw [hA]; try rfl) t d).trans
    (by unfold Dat.fetched Dat.blockOf iblk; rw [hA]; try rfl)
theorem held26 {c : Dev nD} (dat : Dat τ (Elt F) Unit ℕ (UR sig nD τ) ℕ cfg0 c) (hA : dat.A 26 = V m c (Pipeline.arrRef spec0 26))
    (hafter : ∀ t, dat.after 26 t = iblk m c 26 t) (t : Fin cfg0.N) (d) : dat.before 26 t d = iblk m c 26 t :=
  (dat.before_in_eq_fetched 26 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Around

end
-- ==== Proof.KernelIdealBody.lean ====
/-
  One grid point of the node kernel. The body reads a tile of 2000 rows of masked node features and of normalised
  neighbourhood sums and the resident weights, and writes two tiles: the node-class scores and the reconstruction.
  Two encoder layers (linear in [h, a], layer normalisation, relu) give h; the scores are the layer normalisation of a
  linear map of h; the reconstruction is two decoder layers applied to a linear map of h. Every layer's linear map is
  the sum of two matrix products, one contracting h's columns and one the 24 neighbourhood columns.
  Here: the two written tiles as functions of the tiles read, and the body's triple.
-/
import proofs.«106524_j47382079209805_2_alg».proof.Proof.Gen.KernelIdeal.Launch
import proofs.«106524_j47382079209805_2_alg».proof.Proof.Gen.KernelIdeal.Skeleton
import proofs.«106524_j47382079209805_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The rectangles the body loads and stores through: every one is a whole buffer -/

abbrev wholeS2000x10 : Rect S2000x10 := Rect.unit (s := S2000x10) ![0, 0] S2000x10.size inb_S2000x10_S2000x10_0_0
abbrev wholeS2000x24 : Rect S2000x24 := Rect.unit (s := S2000x24) ![0, 0] S2000x24.size inb_S2000x24_S2000x24_0_0
abbrev wholeS10x256 : Rect S10x256 := Rect.unit (s := S10x256) ![0, 0] S10x256.size inb_S10x256_S10x256_0_0
abbrev wholeS24x256 : Rect S24x256 := Rect.unit (s := S24x256) ![0, 0] S24x256.size inb_S24x256_S24x256_0_0
abbrev wholeS256 : Rect S256 := Rect.unit (s := S256) ![0] S256.size inb_S256_S256_0
abbrev wholeS256x512 : Rect S256x512 := Rect.unit (s := S256x512) ![0, 0] S256x512.size inb_S256x512_S256x512_0_0
abbrev wholeS24x512 : Rect S24x512 := Rect.unit (s := S24x512) ![0, 0] S24x512.size inb_S24x512_S24x512_0_0
abbrev wholeS512 : Rect S512 := Rect.unit (s := S512) ![0] S512.size inb_S512_S512_0
abbrev wholeS512x256 : Rect S512x256 := Rect.unit (s := S512x256) ![0, 0] S512x256.size inb_S512x256_S512x256_0_0
abbrev wholeS256x10 : Rect S256x10 := Rect.unit (s := S256x10) ![0, 0] S256x10.size inb_S256x10_S256x10_0_0
abbrev wholeS24x10 : Rect S24x10 := Rect.unit (s := S24x10) ![0, 0] S24x10.size inb_S24x10_S24x10_0_0
abbrev wholeS10 : Rect S10 := Rect.unit (s := S10) ![0] S10.size inb_S10_S10_0
abbrev wholeS512x512 : Rect S512x512 := Rect.unit (s := S512x512) ![0, 0] S512x512.size inb_S512x512_S512x512_0_0
abbrev wholeS512x16 : Rect S512x16 := Rect.unit (s := S512x16) ![0, 0] S512x16.size inb_S512x16_S512x16_0_0
abbrev wholeS16 : Rect S16 := Rect.unit (s := S16) ![0] S16.size inb_S16_S16_0
abbrev wholeS2000x16 : Rect S2000x16 := Rect.unit (s := S2000x16) ![0, 0] S2000x16.size inb_S2000x16_S2000x16_0_0

/-! ## What the body writes, from what it loads -/

/-- The second encoder layer before its shift and relu: normalised pre-activation times the gain. -/
def enc2Scaled (y0 : Vec F S2000x10 .f32) (y1 : Vec F S2000x24 .f32) (y2 : Vec F S10x256 .f32) (y3 : Vec F S24x256 .f32) (y4 : Vec F S256 .f32) (y5 : Vec F S256 .f32) (y6 : Vec F S256 .f32) (y7 : Vec F S256x512 .f32) (y8 : Vec F S24x512 .f32) (y9 : Vec F S512 .f32) (y10 : Vec F S512 .f32) : FVec F S2000x512 .f32 :=
  k0_pay9 (k0_pay1 y1) (k0_pay4 y5) (k0_pay5 y6) (k0_pay6 y1 y0 y2 y3 y4) (k0_pay7 y1 y0 y2 y3 y4) y7 y8 y9 y10

/-- The node-class scores of the tile. -/
def scoresPayload (y0 : Vec F S2000x10 .f32) (y1 : Vec F S2000x24 .f32) (y2 : Vec F S10x256 .f32) (y3 : Vec F S24x256 .f32) (y4 : Vec F S256 .f32) (y5 : Vec F S256 .f32) (y6 : Vec F S256 .f32) (y7 : Vec F S256x512 .f32) (y8 : Vec F S24x512 .f32) (y9 : Vec F S512 .f32) (y10 : Vec F S512 .f32) (y11 : Vec F S512 .f32) (y23 : Vec F S512x16 .f32) (y24 : Vec F S16 .f32) (y25 : Vec F S16 .f32) (y26 : Vec F S16 .f32) : FVec F S2000x16 .f32 :=
  k0_pay11 (k0_pay8 y11) (enc2Scaled y0 y1 y2 y3 y4 y5 y6 y7 y8 y9 y10) y23 y24 y25 y26

/-- The reconstructed node features of the tile. -/
def reconPayload (y0 : Vec F S2000x10 .f32) (y1 : Vec F S2000x24 .f32) (y2 : Vec F S10x256 .f32) (y3 : Vec F S24x256 .f32) (y4 : Vec F S256 .f32) (y5 : Vec F S256 .f32) (y6 : Vec F S256 .f32) (y7 : Vec F S256x512 .f32) (y8 : Vec F S24x512 .f32) (y9 : Vec F S512 .f32) (y10 : Vec F S512 .f32) (y11 : Vec F S512 .f32) (y12 : Vec F S512x256 .f32) (y13 : Vec F S24x256 .f32) (y14 : Vec F S256 .f32) (y15 : Vec F S256 .f32) (y16 : Vec F S256 .f32) (y17 : Vec F S256x10 .f32) (y18 : Vec F S24x10 .f32) (y19 : Vec F S10 .f32) (y20 : Vec F S10 .f32) (y21 : Vec F S10 .f32) (y22 : Vec F S512x512 .f32) : FVec F S2000x10 .f32 :=
  k0_pay15 (k0_pay1 y1)
    (k0_pay14 (k0_pay1 y1) (k0_pay12 y22) (k0_pay13 (k0_pay8 y11) (enc2Scaled y0 y1 y2 y3 y4 y5 y6 y7 y8 y9 y10)) y12 y13 y14 y15 y16)
    y17 y18 y19 y20 y21

/-- The scores buffer after the body: its one store, of the whole tile. -/
def scoresOut (x0 : Vec F S2000x10 .f32) (x1 : Vec F S2000x24 .f32) (x2 : Vec F S10x256 .f32) (x3 : Vec F S24x256 .f32) (x4 : Vec F S256 .f32) (x5 : Vec F S256 .f32) (x6 : Vec F S256 .f32) (x7 : Vec F S256x512 .f32) (x8 : Vec F S24x512 .f32) (x9 : Vec F S512 .f32) (x10 : Vec F S512 .f32) (x11 : Vec F S512 .f32) (x23 : Vec F S512x16 .f32) (x24 : Vec F S16 .f32) (x25 : Vec F S16 .f32) (x26 : Vec F S16 .f32) : Vec F S2000x16 .f32 :=
  View.canon [⟨wholeS2000x16, scoresPayload (View.ld x0 wholeS2000x10) (View.ld x1 wholeS2000x24) (View.ld x2 wholeS10x256) (View.ld x3 wholeS24x256) (View.ld x4 wholeS256) (View.ld x5 wholeS256) (View.ld x6 wholeS256) (View.ld x7 wholeS256x512) (View.ld x8 wholeS24x512) (View.ld x9 wholeS512) (View.ld x10 wholeS512) (View.ld x11 wholeS512) (View.ld x23 wholeS512x16) (View.ld x24 wholeS16) (View.ld x25 wholeS16) (View.ld x26 wholeS16)⟩]

/-- The reconstruction buffer after the body: its one store, of the whole tile. -/
def reconOut (x0 : Vec F S2000x10 .f32) (x1 : Vec F S2000x24 .f32) (x2 : Vec F S10x256 .f32) (x3 : Vec F S24x256 .f32) (x4 : Vec F S256 .f32) (x5 : Vec F S256 .f32) (x6 : Vec F S256 .f32) (x7 : Vec F S256x512 .f32) (x8 : Vec F S24x512 .f32) (x9 : Vec F S512 .f32) (x10 : Vec F S512 .f32) (x11 : Vec F S512 .f32) (x12 : Vec F S512x256 .f32) (x13 : Vec F S24x256 .f32) (x14 : Vec F S256 .f32) (x15 : Vec F S256 .f32) (x16 : Vec F S256 .f32) (x17 : Vec F S256x10 .f32) (x18 : Vec F S24x10 .f32) (x19 : Vec F S10 .f32) (x20 : Vec F S10 .f32) (x21 : Vec F S10 .f32) (x22 : Vec F S512x512 .f32) : Vec F S2000x10 .f32 :=
  View.canon [⟨wholeS2000x10, reconPayload (View.ld x0 wholeS2000x10) (View.ld x1 wholeS2000x24) (View.ld x2 wholeS10x256) (View.ld x3 wholeS24x256) (View.ld x4 wholeS256) (View.ld x5 wholeS256) (View.ld x6 wholeS256) (View.ld x7 wholeS256x512) (View.ld x8 wholeS24x512) (View.ld x9 wholeS512) (View.ld x10 wholeS512) (View.ld x11 wholeS512) (View.ld x12 wholeS512x256) (View.ld x13 wholeS24x256) (View.ld x14 wholeS256) (View.ld x15 wholeS256) (View.ld x16 wholeS256) (View.ld x17 wholeS256x10) (View.ld x18 wholeS24x10) (View.ld x19 wholeS10) (View.ld x20 wholeS10) (View.ld x21 wholeS10) (View.ld x22 wholeS512x512)⟩]

theorem scores_cover (p0 : Vec F S2000x16 .f32) (y : S2000x16.Idx) :
    ∃ pc ∈ ([⟨wholeS2000x16, p0⟩] : List (View.Piece (Elt F) S2000x16 .f32)), y ∈ pc.1.set :=
  View.cover_of_tiled [⟨wholeS2000x16, p0⟩] S2000x16.size (by rfl) y
theorem recon_cover (p0 : Vec F S2000x10 .f32) (y : S2000x10.Idx) :
    ∃ pc ∈ ([⟨wholeS2000x10, p0⟩] : List (View.Piece (Elt F) S2000x10 .f32)), y ∈ pc.1.set :=
  View.cover_of_tiled [⟨wholeS2000x10, p0⟩] S2000x10.size (by rfl) y

/-! ## The body's triple -/

set_option maxHeartbeats 4000000 in
/-- On whole staging buffers, the inputs at contents `xW` and the two outputs at anything, the body runs to the end
    leaving the inputs as they were and the outputs at `scoresOut` and `reconOut` of the inputs. (The body loads each
    output tile before storing it; the loaded value is not used.) -/
theorem sound_kernel (c : Dev nD) (E : Set ℕ) (i : grid0.Coords) (a0 : Memref sig .tc .vmem S2000x10 .f32) (h0 : a0.IsWhole) (a1 : Memref sig .tc .vmem S2000x24 .f32) (h1 : a1.IsWhole) (a2 : Memref sig .tc .vmem S10x256 .f32) (h2 : a2.IsWhole) (a3 : Memref sig .tc .vmem S24x256 .f32) (h3 : a3.IsWhole) (a4 : Memref sig .tc .vmem S256 .f32) (h4 : a4.IsWhole) (a5 : Memref sig .tc .vmem S256 .f32) (h5 : a5.IsWhole) (a6 : Memref sig .tc .vmem S256 .f32) (h6 : a6.IsWhole) (a7 : Memref sig .tc .vmem S256x512 .f32) (h7 : a7.IsWhole) (a8 : Memref sig .tc .vmem S24x512 .f32) (h8 : a8.IsWhole) (a9 : Memref sig .tc .vmem S512 .f32) (h9 : a9.IsWhole) (a10 : Memref sig .tc .vmem S512 .f32) (h10 : a10.IsWhole) (a11 : Memref sig .tc .vmem S512 .f32) (h11 : a11.IsWhole) (a12 : Memref sig .tc .vmem S512x256 .f32) (h12 : a12.IsWhole) (a13 : Memref sig .tc .vmem S24x256 .f32) (h13 : a13.IsWhole) (a14 : Memref sig .tc .vmem S256 .f32) (h14 : a14.IsWhole) (a15 : Memref sig .tc .vmem S256 .f32) (h15 : a15.IsWhole) (a16 : Memref sig .tc .vmem S256 .f32) (h16 : a16.IsWhole) (a17 : Memref sig .tc .vmem S256x10 .f32) (h17 : a17.IsWhole) (a18 : Memref sig .tc .vmem S24x10 .f32) (h18 : a18.IsWhole) (a19 : Memref sig .tc .vmem S10 .f32) (h19 : a19.IsWhole) (a20 : Memref sig .tc .vmem S10 .f32) (h20 : a20.IsWhole) (a21 : Memref sig .tc .vmem S10 .f32) (h21 : a21.IsWhole) (a22 : Memref sig .tc .vmem S512x512 .f32) (h22 : a22.IsWhole) (a23 : Memref sig .tc .vmem S512x16 .f32) (h23 : a23.IsWhole) (a24 : Memref sig .tc .vmem S16 .f32) (h24 : a24.IsWhole) (a25 : Memref sig .tc .vmem S16 .f32) (h25 : a25.IsWhole) (a26 : Memref sig .tc .vmem S16 .f32) (h26 : a26.IsWhole) (a27 : Memref sig .tc .vmem S2000x16 .f32) (h27 : a27.IsWhole) (a28 : Memref sig .tc .vmem S2000x10 .f32) (h28 : a28.IsWhole)
    (x0 : Vec F S2000x10 .f32) (x1 : Vec F S2000x24 .f32) (x2 : Vec F S10x256 .f32) (x3 : Vec F S24x256 .f32) (x4 : Vec F S256 .f32) (x5 : Vec F S256 .f32) (x6 : Vec F S256 .f32) (x7 : Vec F S256x512 .f32) (x8 : Vec F S24x512 .f32) (x9 : Vec F S512 .f32) (x10 : Vec F S512 .f32) (x11 : Vec F S512 .f32) (x12 : Vec F S512x256 .f32) (x13 : Vec F S24x256 .f32) (x14 : Vec F S256 .f32) (x15 : Vec F S256 .f32) (x16 : Vec F S256 .f32) (x17 : Vec F S256x10 .f32) (x18 : Vec F S24x10 .f32) (x19 : Vec F S10 .f32) (x20 : Vec F S10 .f32) (x21 : Vec F S10 .f32) (x22 : Vec F S512x512 .f32) (x23 : Vec F S512x16 .f32) (x24 : Vec F S16 .f32) (x25 : Vec F S16 .f32) (x26 : Vec F S16 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16 ∗ owns (c : Thread nD τ) a17 fullShare x17 ∗ owns (c : Thread nD τ) a18 fullShare x18 ∗ owns (c : Thread nD τ) a19 fullShare x19 ∗ owns (c : Thread nD τ) a20 fullShare x20 ∗ owns (c : Thread nD τ) a21 fullShare x21 ∗ owns (c : Thread nD τ) a22 fullShare x22 ∗ owns (c : Thread nD τ) a23 fullShare x23 ∗ owns (c : Thread nD τ) a24 fullShare x24 ∗ owns (c : Thread nD τ) a25 fullShare x25 ∗ owns (c : Thread nD τ) a26 fullShare x26 ∗ (∃ d, owns (c : Thread nD τ) a27 fullShare d) ∗ (∃ d, owns (c : Thread nD τ) a28 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16 ∗ owns (c : Thread nD τ) a17 fullShare x17 ∗ owns (c : Thread nD τ) a18 fullShare x18 ∗ owns (c : Thread nD τ) a19 fullShare x19 ∗ owns (c : Thread nD τ) a20 fullShare x20 ∗ owns (c : Thread nD τ) a21 fullShare x21 ∗ owns (c : Thread nD τ) a22 fullShare x22 ∗ owns (c : Thread nD τ) a23 fullShare x23 ∗ owns (c : Thread nD τ) a24 fullShare x24 ∗ owns (c : Thread nD τ) a25 fullShare x25 ∗ owns (c : Thread nD τ) a26 fullShare x26
            ∗ owns (c : Thread nD τ) a27 fullShare (scoresOut x0 x1 x2 x3 x4 x5 x6 x7 x8 x9 x10 x11 x23 x24 x25 x26)
            ∗ owns (c : Thread nD τ) a28 fullShare (reconOut x0 x1 x2 x3 x4 x5 x6 x7 x8 x9 x10 x11 x12 x13 x14 x15 x16 x17 x18 x19 x20 x21 x22)) -∗ K ⟨⟩))
      ⊢ wp frame (wpE (defs₀ (F := F)) Variants.none c none) E (cc0__node_kernel i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28) K := by
  simp only [cc0__node_kernel_eq_skeleton]; unfold cc0__node_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%d27, %f27, -, H27⟩, ⟨%d28, %f28, -, H28⟩, Hk⟩
  subst hf0; subst hf1; subst hf2; subst hf3; subst hf4; subst hf5; subst hf6; subst hf7; subst hf8; subst hf9; subst hf10; subst hf11; subst hf12; subst hf13; subst hf14; subst hf15; subst hf16; subst hf17; subst hf18; subst hf19; subst hf20; subst hf21; subst hf22; subst hf23; subst hf24; subst hf25; subst hf26
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists _; isplitr
    swap; · iexact H27
    ipureintro
    exact View.read_writes_eq_canon _ _ _ (scores_cover _)
  iexists _; isplitr
  swap; · iexact H28
  ipureintro
  exact View.read_writes_eq_canon _ _ _ (recon_cover _)

end Cert.KernelIdeal.Around

end
-- ==== Proof.KernelIdealFrame.lean ====
/-
  The whole run of the program: the call's proof data over its 50 grid points (an input's staging buffer keeps its
  block; the two outputs' buffers hold the body's two tiles of that point's input blocks), the body obligation at every
  point, the run of @main, and the frame: every argument array ends as it was launched.
-/
import proofs.«106524_j47382079209805_2_alg».proof.Proof.KernelIdealAround
import proofs.«106524_j47382079209805_2_alg».proof.Proof.KernelIdealBody

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
/-- In a final state of the run every argument array is as launched: one the call tiles over is an input window,
    never written back; any other is untouched by the call and by the host lines on either side. -/
theorem kept_of_post (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30) :=
  ⟨((h c).2 main_arg0 (Pipeline.mem_restRefs_of main_arg0 (by decide) (by decide))).trans (exit_main_arg0 m dats c),
      ((h c).2 main_arg1 (Pipeline.mem_restRefs_of main_arg1 (by decide) (by decide))).trans (exit_main_arg1 m dats c),
      ((h c).2 main_arg2 (Pipeline.mem_restRefs_of main_arg2 (by decide) (by decide))).trans (exit_main_arg2 m dats c),
      ((h c).2 main_arg3 (Pipeline.mem_restRefs_of main_arg3 (by decide) (by decide))).trans (exit_main_arg3 m dats c),
      ((h c).2 main_arg4 (Pipeline.mem_restRefs_of main_arg4 (by decide) (by decide))).trans (exit_main_arg4 m dats c),
      ((h c).2 main_arg5 (Pipeline.mem_restRefs_of main_arg5 (by decide) (by decide))).trans (exit_main_arg5 m dats c),
      ((h c).2 main_arg6 (Pipeline.mem_restRefs_of main_arg6 (by decide) (by decide))).trans (exit_main_arg6 m dats c),
      ((h c).2 main_arg7 (Pipeline.mem_restRefs_of main_arg7 (by decide) (by decide))).trans (exit_main_arg7 m dats c),
      ((h c).2 main_arg8 (Pipeline.mem_restRefs_of main_arg8 (by decide) (by decide))).trans (exit_main_arg8 m dats c),
      ((h c).2 main_arg9 (Pipeline.mem_restRefs_of main_arg9 (by decide) (by decide))).trans (exit_main_arg9 m dats c),
      ((h c).2 main_arg10 (Pipeline.mem_restRefs_of main_arg10 (by decide) (by decide))).trans (exit_main_arg10 m dats c),
      ((h c).1 4).trans (((dats 0 c).arrAt_in 4 rfl _).trans ((hA c 4).trans (entry_main_arg11 m c))),
      ((h c).1 5).trans (((dats 0 c).arrAt_in 5 rfl _).trans ((hA c 5).trans (entry_main_arg12 m c))),
      ((h c).1 6).trans (((dats 0 c).arrAt_in 6 rfl _).trans ((hA c 6).trans (entry_main_arg13 m c))),
      ((h c).2 main_arg14 (Pipeline.mem_restRefs_of main_arg14 (by decide) (by decide))).trans (exit_main_arg14 m dats c),
      ((h c).1 9).trans (((dats 0 c).arrAt_in 9 rfl _).trans ((hA c 9).trans (entry_main_arg15 m c))),
      ((h c).1 10).trans (((dats 0 c).arrAt_in 10 rfl _).trans ((hA c 10).trans (entry_main_arg16 m c))),
      ((h c).1 11).trans (((dats 0 c).arrAt_in 11 rfl _).trans ((hA c 11).trans (entry_main_arg17 m c))),
      ((h c).2 main_arg18 (Pipeline.mem_restRefs_of main_arg18 (by decide) (by decide))).trans (exit_main_arg18 m dats c),
      ((h c).1 14).trans (((dats 0 c).arrAt_in 14 rfl _).trans ((hA c 14).trans (entry_main_arg19 m c))),
      ((h c).1 15).trans (((dats 0 c).arrAt_in 15 rfl _).trans ((hA c 15).trans (entry_main_arg20 m c))),
      ((h c).1 16).trans (((dats 0 c).arrAt_in 16 rfl _).trans ((hA c 16).trans (entry_main_arg21 m c))),
      ((h c).2 main_arg22 (Pipeline.mem_restRefs_of main_arg22 (by decide) (by decide))).trans (exit_main_arg22 m dats c),
      ((h c).1 19).trans (((dats 0 c).arrAt_in 19 rfl _).trans ((hA c 19).trans (entry_main_arg23 m c))),
      ((h c).1 20).trans (((dats 0 c).arrAt_in 20 rfl _).trans ((hA c 20).trans (entry_main_arg24 m c))),
      ((h c).1 21).trans (((dats 0 c).arrAt_in 21 rfl _).trans ((hA c 21).trans (entry_main_arg25 m c))),
      ((h c).2 main_arg26 (Pipeline.mem_restRefs_of main_arg26 (by decide) (by decide))).trans (exit_main_arg26 m dats c),
      ((h c).2 main_arg27 (Pipeline.mem_restRefs_of main_arg27 (by decide) (by decide))).trans (exit_main_arg27 m dats c),
      ((h c).1 24).trans (((dats 0 c).arrAt_in 24 rfl _).trans ((hA c 24).trans (entry_main_arg28 m c))),
      ((h c).1 25).trans (((dats 0 c).arrAt_in 25 rfl _).trans ((hA c 25).trans (entry_main_arg29 m c))),
      ((h c).1 26).trans (((dats 0 c).arrAt_in 26 rfl _).trans ((hA c 26).trans (entry_main_arg30 m c)))⟩

/-- The frame's post from the run's. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  (θ_run defs _ _).mono (fun r h c => kept_of_post m dats hA r h c) h

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => scoresOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 23 t) (iblk m c 24 t) (iblk m c 25 t) (iblk m c 26 t)
    | ⟨28, _⟩ => reconOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    | ⟨_ + 29, h⟩ => absurd h (Nat.not_lt.2 (Nat.le_add_left _ _))
  Φ _ := Pipeline.ΦA spec0 c
  q _ := fullShare
  owed _ := 0

/-- The arrays are the contents at the call's entry (read off the definition, never by unfolding `V`). -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = iblk m c 17 t := by dsimp only [dats]
theorem after18 (c : Dev nD) (t : Fin cfg0.N) : (dats m 0 c).after 18 t = iblk m c 18 t := by dsimp only [dats]
theorem after19 (c : Dev nD) (t : Fin cfg0.N) : (dats m 0 c).after 19 t = iblk m c 19 t := by dsimp only [dats]
theorem after20 (c : Dev nD) (t : Fin cfg0.N) : (dats m 0 c).after 20 t = iblk m c 20 t := by dsimp only [dats]
theorem after21 (c : Dev nD) (t : Fin cfg0.N) : (dats m 0 c).after 21 t = iblk m c 21 t := by dsimp only [dats]
theorem after22 (c : Dev nD) (t : Fin cfg0.N) : (dats m 0 c).after 22 t = iblk m c 22 t := by dsimp only [dats]
theorem after23 (c : Dev nD) (t : Fin cfg0.N) : (dats m 0 c).after 23 t = iblk m c 23 t := by dsimp only [dats]
theorem after24 (c : Dev nD) (t : Fin cfg0.N) : (dats m 0 c).after 24 t = iblk m c 24 t := by dsimp only [dats]
theorem after25 (c : Dev nD) (t : Fin cfg0.N) : (dats m 0 c).after 25 t = iblk m c 25 t := by dsimp only [dats]
theorem after26 (c : Dev nD) (t : Fin cfg0.N) : (dats m 0 c).after 26 t = iblk m c 26 t := by dsimp only [dats]
theorem after27 (c : Dev nD) (t : Fin cfg0.N) : (dats m 0 c).after 27 t = scoresOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 23 t) (iblk m c 24 t) (iblk m c 25 t) (iblk m c 26 t) := by dsimp only [dats]
theorem after28 (c : Dev nD) (t : Fin cfg0.N) : (dats m 0 c).after 28 t = reconOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) := by dsimp only [dats]

theorem before0 (c : Dev nD) (t : Fin cfg0.N) (d) : (dats m 0 c).before 0 t d = iblk m c 0 t :=
  held0 m (dats m 0 c) (A_eq m c 0) (after0 m c) t d
theorem before1 (c : Dev nD) (t : Fin cfg0.N) (d) : (dats m 0 c).before 1 t d = iblk m c 1 t :=
  held1 m (dats m 0 c) (A_eq m c 1) (after1 m c) t d
theorem before2 (c : Dev nD) (t : Fin cfg0.N) (d) : (dats m 0 c).before 2 t d = iblk m c 2 t :=
  held2 m (dats m 0 c) (A_eq m c 2) (after2 m c) t d
theorem before3 (c : Dev nD) (t : Fin cfg0.N) (d) : (dats m 0 c).before 3 t d = iblk m c 3 t :=
  held3 m (dats m 0 c) (A_eq m c 3) (after3 m c) t d
theorem before4 (c : Dev nD) (t : Fin cfg0.N) (d) : (dats m 0 c).before 4 t d = iblk m c 4 t :=
  held4 m (dats m 0 c) (A_eq m c 4) (after4 m c) t d
theorem before5 (c : Dev nD) (t : Fin cfg0.N) (d) : (dats m 0 c).before 5 t d = iblk m c 5 t :=
  held5 m (dats m 0 c) (A_eq m c 5) (after5 m c) t d
theorem before6 (c : Dev nD) (t : Fin cfg0.N) (d) : (dats m 0 c).before 6 t d = iblk m c 6 t :=
  held6 m (dats m 0 c) (A_eq m c 6) (after6 m c) t d
theorem before7 (c : Dev nD) (t : Fin cfg0.N) (d) : (dats m 0 c).before 7 t d = iblk m c 7 t :=
  held7 m (dats m 0 c) (A_eq m c 7) (after7 m c) t d
theorem before8 (c : Dev nD) (t : Fin cfg0.N) (d) : (dats m 0 c).before 8 t d = iblk m c 8 t :=
  held8 m (dats m 0 c) (A_eq m c 8) (after8 m c) t d
theorem before9 (c : Dev nD) (t : Fin cfg0.N) (d) : (dats m 0 c).before 9 t d = iblk m c 9 t :=
  held9 m (dats m 0 c) (A_eq m c 9) (after9 m c) t d
theorem before10 (c : Dev nD) (t : Fin cfg0.N) (d) : (dats m 0 c).before 10 t d = iblk m c 10 t :=
  held10 m (dats m 0 c) (A_eq m c 10) (after10 m c) t d
theorem before11 (c : Dev nD) (t : Fin cfg0.N) (d) : (dats m 0 c).before 11 t d = iblk m c 11 t :=
  held11 m (dats m 0 c) (A_eq m c 11) (after11 m c) t d
theorem before12 (c : Dev nD) (t : Fin cfg0.N) (d) : (dats m 0 c).before 12 t d = iblk m c 12 t :=
  held12 m (dats m 0 c) (A_eq m c 12) (after12 m c) t d
theorem before13 (c : Dev nD) (t : Fin cfg0.N) (d) : (dats m 0 c).before 13 t d = iblk m c 13 t :=
  held13 m (dats m 0 c) (A_eq m c 13) (after13 m c) t d
theorem before14 (c : Dev nD) (t : Fin cfg0.N) (d) : (dats m 0 c).before 14 t d = iblk m c 14 t :=
  held14 m (dats m 0 c) (A_eq m c 14) (after14 m c) t d
theorem before15 (c : Dev nD) (t : Fin cfg0.N) (d) : (dats m 0 c).before 15 t d = iblk m c 15 t :=
  held15 m (dats m 0 c) (A_eq m c 15) (after15 m c) t d
theorem before16 (c : Dev nD) (t : Fin cfg0.N) (d) : (dats m 0 c).before 16 t d = iblk m c 16 t :=
  held16 m (dats m 0 c) (A_eq m c 16) (after16 m c) t d
theorem before17 (c : Dev nD) (t : Fin cfg0.N) (d) : (dats m 0 c).before 17 t d = iblk m c 17 t :=
  held17 m (dats m 0 c) (A_eq m c 17) (after17 m c) t d
theorem before18 (c : Dev nD) (t : Fin cfg0.N) (d) : (dats m 0 c).before 18 t d = iblk m c 18 t :=
  held18 m (dats m 0 c) (A_eq m c 18) (after18 m c) t d
theorem before19 (c : Dev nD) (t : Fin cfg0.N) (d) : (dats m 0 c).before 19 t d = iblk m c 19 t :=
  held19 m (dats m 0 c) (A_eq m c 19) (after19 m c) t d
theorem before20 (c : Dev nD) (t : Fin cfg0.N) (d) : (dats m 0 c).before 20 t d = iblk m c 20 t :=
  held20 m (dats m 0 c) (A_eq m c 20) (after20 m c) t d
theorem before21 (c : Dev nD) (t : Fin cfg0.N) (d) : (dats m 0 c).before 21 t d = iblk m c 21 t :=
  held21 m (dats m 0 c) (A_eq m c 21) (after21 m c) t d
theorem before22 (c : Dev nD) (t : Fin cfg0.N) (d) : (dats m 0 c).before 22 t d = iblk m c 22 t :=
  held22 m (dats m 0 c) (A_eq m c 22) (after22 m c) t d
theorem before23 (c : Dev nD) (t : Fin cfg0.N) (d) : (dats m 0 c).before 23 t d = iblk m c 23 t :=
  held23 m (dats m 0 c) (A_eq m c 23) (after23 m c) t d
theorem before24 (c : Dev nD) (t : Fin cfg0.N) (d) : (dats m 0 c).before 24 t d = iblk m c 24 t :=
  held24 m (dats m 0 c) (A_eq m c 24) (after24 m c) t d
theorem before25 (c : Dev nD) (t : Fin cfg0.N) (d) : (dats m 0 c).before 25 t d = iblk m c 25 t :=
  held25 m (dats m 0 c) (A_eq m c 25) (after25 m c) t d
theorem before26 (c : Dev nD) (t : Fin cfg0.N) (d) : (dats m 0 c).before 26 t d = iblk m c 26 t :=
  held26 m (dats m 0 c) (A_eq m c 26) (after26 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t))

set_option maxHeartbeats 4000000 in
/-- At any point the inputs' buffers hold their blocks, so the body's triple applies; the invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before16, before17, before18, before19, before20, before21, before22, before23, before24, before25, before26]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17, after18, after19, after20, after21, after22, after23, after24, after25, after26, after27, after28]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexists _; iexact H27
  isplitl [H28]; · iexists _; iexact H28
  iintro ⟨H0, H1, H2, H3, H4, H5, H6, H7, H8, H9, H10, H11, H12, H13, H14, H15, H16, H17, H18, H19, H20, H21, H22, H23, H24, H25, H26, H27, H28⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iexact H28

set_option maxHeartbeats 8000000 in
theorem body_obligation (c : Dev nD) : BodyObligation (dats (F := F) m 0 c) (defs₀ (F := F)) Variants.none () Set.univ := fun t => by
  rw [bigSep_W0, bigSep_W0]
  show bodyPre m c t ⊢ wp frame (wpE (defs₀ (F := F)) Variants.none c none) Set.univ (bodyAt0 t) (fun _ => bodyPost m c t)
  exact sound_body m c t

/-! ## The run and the frame -/

set_option backward.isDefEq.respectTransparency.types false in
/-- Every weakly fair execution of @main terminates; at the end each array the call tiles over holds what the proof
    data computes, and every other unscoped buffer what the later host lines leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := later_sub) (hfresh := later_alloc) (hkeep := later_keeps)
    (hmain := hmain m Variants.none) (hA := A_eq m) (hΦ := fun _ _ => rfl)

set_option maxHeartbeats 16000000 in
/-- The frame: the program runs to the end and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  frame_of m ρ (dats m) (A_eq m) (run_main m ρ)

end Cert.KernelIdeal.Around

end
-- ==== Proof.LibNary5.lean ====
/-
  A host operation of five operands (a five-way concatenation) leaves its result buffer at its function of the
  operands' contents, each operand read at its own buffer. The general statement reads the operands through the family
  of references under a binder; with the family a literal list of five references the contents can be named one by
  one, which lets a rewriting pass go on into each operand. A one-pass rewriting tactic that knows this form is
  stated beside it. A concatenation of two, or of five, arrays depends only on those arrays: stated as congruences, so
  that a rewriting pass can go on inside the operands of a concatenation (whose list of operands carries each array
  beside its shape).
-/
import Idealize.ShloMosaic.Lib.StableHlo.Run

noncomputable section

namespace Idealize.ShloMosaic.StableHlo

open Idealize.SL Idealize.SL.Sem

variable {nD : Nat} {τ : Topo} {sig : RefSig} {Val : EltTy → Type}
variable {x a b c e y : Ref sig .tc}

/-- The result of a five-operand operation, each operand's contents at its own reference. -/
theorem nary5_result
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) := by
  rw [nary_result]; congr 1; funext k; fin_cases k <;> rfl

/-- The same, in the form a simplifier pass can use. -/
theorem nary5_result'
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) :=
  nary5_result f hxs hy F

section ConcatCongr
variable {α : Type}
/-- A concatenation of two arrays depends only on the two arrays. -/
theorem concatenate_two_congr {t s₁ s₂ : Shape} (a : Fin t.rank) (x₁ x₁' : s₁.Idx → α) (x₂ x₂' : s₂.Idx → α)
    (h : Shape.Concatenates [s₁, s₂] t a) (e₁ : x₁ = x₁') (e₂ : x₂ = x₂') :
    concatenate t a [⟨s₁, x₁⟩, ⟨s₂, x₂⟩] h = concatenate t a [⟨s₁, x₁'⟩, ⟨s₂, x₂'⟩] h := by
  subst e₁ e₂; rfl
/-- A concatenation of five arrays depends only on the five arrays. -/
theorem concatenate_five_congr {t s₁ s₂ s₃ s₄ s₅ : Shape} (a : Fin t.rank) (x₁ x₁' : s₁.Idx → α) (x₂ x₂' : s₂.Idx → α)
    (x₃ x₃' : s₃.Idx → α) (x₄ x₄' : s₄.Idx → α) (x₅ x₅' : s₅.Idx → α)
    (h : Shape.Concatenates [s₁, s₂, s₃, s₄, s₅] t a) (e₁ : x₁ = x₁') (e₂ : x₂ = x₂') (e₃ : x₃ = x₃') (e₄ : x₄ = x₄') (e₅ : x₅ = x₅') :
    concatenate t a [⟨s₁, x₁⟩, ⟨s₂, x₂⟩, ⟨s₃, x₃⟩, ⟨s₄, x₄⟩, ⟨s₅, x₅⟩] h
      = concatenate t a [⟨s₁, x₁'⟩, ⟨s₂, x₂'⟩, ⟨s₃, x₃'⟩, ⟨s₄, x₄'⟩, ⟨s₅, x₅'⟩] h := by
  subst e₁ e₂ e₃ e₄ e₅; rfl
end ConcatCongr

/-- The buffers after a literal list of host operations, in one simplifier pass, five-operand operations included. -/
macro "after_results_five" : tactic =>
  `(tactic| (simp (disch := decide) only [after_cons, after_nil,
      nullary_result', unary_result', binary_result', ternary_result', quaternary_result', reshape_result', nary5_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.LibColumns.lean ====
/-
  Column forms of a keepdims reduction, read at coordinates: a vector of `a` entries cast to the column `[a, 1]` reads
  its entry `i` at `(i, 0)`, and a column `[a, 1]` broadcast along `b` columns reads, at `(p, c)`, the column at
  `(p, 0)` — so a per-row value (a row maximum, a row sum) laid against every entry of its row is that row's value.
-/
import Idealize.ShloMosaic.Lib.ValueIdx
import Idealize.ShloMosaic.Lib.Pipeline.Value

namespace Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value cast to a column and broadcast along the row reads, at `(p, c)`, the value of row `p`. -/
theorem broadcastTo_column_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Idealize.ShloMosaic.ValueIdx
-- ==== Proof.LibHostColumns.lean ====
/-
  Host forms of a keepdims reduction, read at coordinates. A reduction over the columns of an `[a, b]` array leaves one
  value per row; the index of row `p` with column `k` put back is `(p, k)`. The host lays a per-row value back against
  the rows by two `broadcast_in_dim`s: `[a]` to the column `[a, 1]` (operand axis 0 on result axis 0), then the column
  to `[a, b]` (operand axes on the same result axes, the unit axis repeated). At `(p, c)` the result is the value of
  row `p`.
-/
import Idealize.ShloMosaic.Lib.ValueIdx
import Idealize.ShloMosaic.Lib.Pipeline.Value
import Idealize.ShloMosaic.PureOps.Reduce

namespace Idealize.ShloMosaic.ValueIdx

variable {α : Type}

/-- The reduced index `p` of a reduction over the columns, with column `k` put back, is `(p, k)`. -/
theorem lift_ix1_columns {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- An `[a]` array laid out as the column `[a, 1]` by the host's broadcast reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A column `[a, 1]` laid against `b` columns by the host's broadcast reads, at `(p, c)`, the column at `(p, 0)`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value laid out as a column and then against every column reads, at `(p, c)`, the value of row `p`. -/
theorem broadcastInDim_column_apply {a b : ℕ} (x : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h2 (broadcastInDim ⟨2, ![a, 1]⟩ (![0] : Fin 1 → Fin 2) h1 x) (ix2 p c)
      = x (ix1 p) :=
  (broadcastInDim_a1_ab_apply _ h2 p c).trans (broadcastInDim_a_a1_apply x h1 p 0)

end Idealize.ShloMosaic.ValueIdx
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.NodeSpec.lean ====
/-
  The node network one row at a time, on the extended reals. A row of a layer's input is a function on its columns.
  `lin2` is the affine map of a layer written as two sums (the row's own features against the top rows of the
  transposed weight, the 24 neighbourhood features against the bottom rows) plus the bias; `lnRow` is layer
  normalisation of a row (mean and variance over the row's columns, divided by the width as a float word, the printed
  epsilon added under the reciprocal square root); `relu` is the maximum with zero. The float words are kept as
  printed: both programs print the same ones.
-/
import Idealize.ShloMosaic.PureOps.Ideal
import Idealize.ShloMosaic.Lib.ValueIdx

open scoped BigOperators

noncomputable section

namespace Cert.NodeSpec

open Idealize.ShloMosaic

/-- Float zero, the epsilon, and the four widths, as printed words read at the extended reals. -/
abbrev zeroW : EReal := Ideal.ofBits .f32 0x00000000#32
abbrev epsW : EReal := Ideal.ofBits .f32 0x3727C5AC#32
abbrev w256 : EReal := Ideal.ofBits .f32 0x43800000#32
abbrev w512 : EReal := Ideal.ofBits .f32 0x44000000#32
abbrev w16 : EReal := Ideal.ofBits .f32 0x41800000#32
abbrev w10 : EReal := Ideal.ofBits .f32 0x41200000#32

/-- The mean of a row: its sum divided by the width word. -/
def rowMean {n : ℕ} (cN : EReal) (z : Fin n → EReal) : EReal := Ideal.div (∑ k, z k) cN

/-- Layer normalisation of a row, with gain `g` and shift `β`. -/
def lnRow {n : ℕ} (cN : EReal) (z g β : Fin n → EReal) (j : Fin n) : EReal :=
  (z j - rowMean cN z)
      * Ideal.rsqrt (Ideal.div (∑ k, (z k - rowMean cN z) * (z k - rowMean cN z)) cN + epsW)
      * g j
    + β j

/-- A row times a matrix. -/
def lin1 {d n : ℕ} (h : Fin d → EReal) (W : Fin d → Fin n → EReal) (j : Fin n) : EReal := ∑ k, h k * W k j

/-- A layer's affine map as two products and a bias. -/
def lin2 {d e n : ℕ} (h : Fin d → EReal) (a : Fin e → EReal) (Wh : Fin d → Fin n → EReal) (Wa : Fin e → Fin n → EReal)
    (b : Fin n → EReal) (j : Fin n) : EReal :=
  lin1 h Wh j + lin1 a Wa j + b j

def relu (x : EReal) : EReal := max x zeroW

/-- One layer: affine map, layer normalisation, relu. -/
def layerRow {d e n : ℕ} (cN : EReal) (h : Fin d → EReal) (a : Fin e → EReal) (Wh : Fin d → Fin n → EReal)
    (Wa : Fin e → Fin n → EReal) (b g β : Fin n → EReal) (j : Fin n) : EReal :=
  relu (lnRow cN (lin2 h a Wh Wa b) g β j)

/-- The two encoder layers of a row `x` with neighbourhood row `a`. -/
def encRow (x : Fin 10 → EReal) (a : Fin 24 → EReal)
    (W0h : Fin 10 → Fin 256 → EReal) (W0a : Fin 24 → Fin 256 → EReal) (b0 g0 β0 : Fin 256 → EReal)
    (W1h : Fin 256 → Fin 512 → EReal) (W1a : Fin 24 → Fin 512 → EReal) (b1 g1 β1 : Fin 512 → EReal) : Fin 512 → EReal :=
  layerRow w512 (layerRow w256 x a W0h W0a b0 g0 β0) a W1h W1a b1 g1 β1

/-- The node-class scores of an encoded row `h`. -/
def scoresRow (h : Fin 512 → EReal) (Wn : Fin 512 → Fin 16 → EReal) (bn gn βn : Fin 16 → EReal) : Fin 16 → EReal :=
  lnRow w16 (fun j => lin1 h Wn j + bn j) gn βn

/-- The reconstruction of an encoded row `h` with neighbourhood row `a`: projection, then the two decoder layers. -/
def reconRow (h : Fin 512 → EReal) (a : Fin 24 → EReal) (We : Fin 512 → Fin 512 → EReal)
    (W2h : Fin 512 → Fin 256 → EReal) (W2a : Fin 24 → Fin 256 → EReal) (b2 g2 β2 : Fin 256 → EReal)
    (W3h : Fin 256 → Fin 10 → EReal) (W3a : Fin 24 → Fin 10 → EReal) (b3 g3 β3 : Fin 10 → EReal) : Fin 10 → EReal :=
  layerRow w10 (layerRow w256 (lin1 h We) a W2h W2a b2 g2 β2) a W3h W3a b3 g3 β3

/-- A sum over `d + e` columns of a row laid side by side splits into the two rows' sums. -/
theorem sum_split {d e : ℕ} (f : Fin (d + e) → EReal) :
    ∑ k, f k = (∑ k : Fin d, f (Fin.castAdd e k)) + ∑ k : Fin e, f (Fin.natAdd d k) :=
  Fin.sum_univ_add f

/-! ## Reading arrays: a row of a table, a matrix, a vector, and rows of a transposed weight -/

open Idealize.ShloMosaic.ValueIdx

/-- Row `p` of an `[a, b]` table. -/
def row {a b : ℕ} (X : (⟨2, ![a, b]⟩ : Shape).Idx → EReal) (p : Fin a) : Fin b → EReal := fun k => X (ix2 p k)

/-- An `[a, b]` table as a matrix. -/
def mat {a b : ℕ} (W : (⟨2, ![a, b]⟩ : Shape).Idx → EReal) : Fin a → Fin b → EReal := fun k j => W (ix2 k j)

/-- An `[n]` array as a vector. -/
def vec {n : ℕ} (v : (⟨1, ![n]⟩ : Shape).Idx → EReal) : Fin n → EReal := fun j => v (ix1 j)

/-- Rows `lo … lo + d - 1` of the transpose of an `[o, i]` weight: entry `(k, j)` is `W (j, lo + k)`. -/
def wT {o i : ℕ} (W : (⟨2, ![o, i]⟩ : Shape).Idx → EReal) (lo d : ℕ) (hd : lo + d ≤ i) : Fin d → Fin o → EReal :=
  fun k j => W (ix2 j (⟨lo + k.val, by have := k.isLt; omega⟩ : Fin i))

/-- A sum over the `d + e = n` columns of two rows laid side by side is the sum of the two rows' sums. -/
theorem sum_two {d e n : ℕ} (hn : d + e = n) (f : Fin n → EReal) :
    ∑ k, f k = (∑ k : Fin d, f ⟨k.val, by have := k.isLt; omega⟩) + ∑ k : Fin e, f ⟨d + k.val, by have := k.isLt; omega⟩ := by
  subst hn
  exact Fin.sum_univ_add f

end Cert.NodeSpec

end
-- ==== Proof.TileOps.lean ====
/-
  The kernel body's operations on a tile of R rows and n columns, read at a position (p, q) on the extended reals.
  A resident vector laid along every row reads its entry q; a row sum is the sum over the row's columns; the mean of a
  row laid back along the row is that sum divided by the width word; layer normalisation of the tile is, row by row,
  the row function `lnRow`; a product with a resident matrix into a zero accumulator is the row times the matrix.
-/
import Idealize.ShloMosaic.Lib.ValueIdx
import Idealize.ShloMosaic.Lib.Pipeline.Value
import Idealize.ShloMosaic.Lib.ValueLayout
import Idealize.ShloMosaic.PureOps.Ideal.Laws
import proofs.«106524_j47382079209805_2_alg».proof.Proof.LibColumns
import proofs.«106524_j47382079209805_2_alg».proof.Proof.LibHostColumns
import proofs.«106524_j47382079209805_2_alg».proof.Proof.LibMatmul
import proofs.«106524_j47382079209805_2_alg».proof.Proof.NodeSpec

open scoped BigOperators

noncomputable section

namespace Cert.TileOps

open Idealize.ShloMosaic Idealize.ShloMosaic.ValueIdx Cert.NodeSpec

variable {R n : ℕ}

/-- The reciprocal square root of a tile acts entry by entry. -/
theorem rsqrt_apply {s : Shape} {φ : FTy} (v : FVec Ideal s φ) (i : s.Idx) : rsqrt v i = Ideal.rsqrt (v i) := rfl

/-- A resident `[n]` vector, cast to one row and laid along every row of the tile, reads its entry `q`. -/
theorem rowBroadcast_apply (v : FVec Ideal ⟨1, ![n]⟩ .f32) (sc : (⟨1, ![n]⟩ : Shape).ShapeCasts ⟨2, ![1, n]⟩)
    (bc : (⟨2, ![1, n]⟩ : Shape).Broadcasts ⟨2, ![R, n]⟩) (p : Fin R) (q : Fin n) :
    broadcastTo ⟨2, ![R, n]⟩ (shapeCast ⟨2, ![1, n]⟩ v sc) bc (ix2 p q) = v (ix1 q) :=
  (broadcastTo_1b_ab_apply _ bc p q).trans (shapeCast_a_1a_apply v sc 0 q)

/-- The sum over the columns of row `p`. -/
theorem rowSum_apply (z : FVec Ideal ⟨2, ![R, n]⟩ .f32) (acc : BitVec FTy.f32.bits)
    (red : (⟨2, ![R, n]⟩ : Shape).Reduces [1] ⟨1, ![R]⟩) (hφ : FKind.Formats .f32) (hacc : acc = FKind.add.neutral .f32 hφ)
    (p : Fin R) :
    multiReduction .add [1] ⟨1, ![R]⟩ z acc red hφ hacc (ix1 p) = ∑ k : Fin n, z (ix2 p k) := by
  refine (Ideal.multiReduction_add_single z acc red hφ hacc (ix1 p)).trans ?_
  show (∑ k : Fin n, z (red.lift (ix1 p) k)) = _
  exact Finset.sum_congr rfl fun k _ => congrArg z (lift_ix1_columns red p k)

/-- The mean of row `p`, laid back along the row. -/
theorem rowMean_apply (z : FVec Ideal ⟨2, ![R, n]⟩ .f32) (acc : BitVec FTy.f32.bits) (cN : EReal)
    (red : (⟨2, ![R, n]⟩ : Shape).Reduces [1] ⟨1, ![R]⟩) (hφ : FKind.Formats .f32) (hacc : acc = FKind.add.neutral .f32 hφ)
    (sc : (⟨1, ![R]⟩ : Shape).ShapeCasts ⟨2, ![R, 1]⟩) (bc : (⟨2, ![R, 1]⟩ : Shape).Broadcasts ⟨2, ![R, n]⟩)
    (p : Fin R) (q : Fin n) :
    broadcastTo ⟨2, ![R, n]⟩
        (divf (shapeCast ⟨2, ![R, 1]⟩ (multiReduction .add [1] ⟨1, ![R]⟩ z acc red hφ hacc) sc) (broadcast ⟨2, ![R, 1]⟩ cN)) bc (ix2 p q)
      = rowMean cN (row z p) := by
  refine (broadcastTo_a1_ab_apply _ bc p q).trans ?_
  show Ideal.div (shapeCast ⟨2, ![R, 1]⟩ (multiReduction .add [1] ⟨1, ![R]⟩ z acc red hφ hacc) sc (ix2 p (0 : Fin 1))) cN = _
  rw [shapeCast_a_a1_apply, rowSum_apply]
  rfl

/-- Layer normalisation of a tile, at `(p, q)`: the row function of row `p`. The centred tile is computed twice in
    the body (once under the variance, once for the output), from the same mean. -/
theorem ln_tile (z : FVec Ideal ⟨2, ![R, n]⟩ .f32) (g β : FVec Ideal ⟨1, ![n]⟩ .f32) (acc : BitVec FTy.f32.bits) (cN ce : EReal)
    (hce : ce = epsW)
    (red : (⟨2, ![R, n]⟩ : Shape).Reduces [1] ⟨1, ![R]⟩) (hφ : FKind.Formats .f32) (hacc : acc = FKind.add.neutral .f32 hφ)
    (sc : (⟨1, ![R]⟩ : Shape).ShapeCasts ⟨2, ![R, 1]⟩) (bc : (⟨2, ![R, 1]⟩ : Shape).Broadcasts ⟨2, ![R, n]⟩)
    (sg : (⟨1, ![n]⟩ : Shape).ShapeCasts ⟨2, ![1, n]⟩) (bg : (⟨2, ![1, n]⟩ : Shape).Broadcasts ⟨2, ![R, n]⟩)
    (p : Fin R) (q : Fin n) :
    addf (mulf (mulf
        (subf z (broadcastTo ⟨2, ![R, n]⟩
          (divf (shapeCast ⟨2, ![R, 1]⟩ (multiReduction .add [1] ⟨1, ![R]⟩ z acc red hφ hacc) sc) (broadcast ⟨2, ![R, 1]⟩ cN)) bc))
        (broadcastTo ⟨2, ![R, n]⟩
          (rsqrt (addf
            (divf (shapeCast ⟨2, ![R, 1]⟩ (multiReduction .add [1] ⟨1, ![R]⟩
                (mulf
                  (subf z (broadcastTo ⟨2, ![R, n]⟩
                    (divf (shapeCast ⟨2, ![R, 1]⟩ (multiReduction .add [1] ⟨1, ![R]⟩ z acc red hφ hacc) sc) (broadcast ⟨2, ![R, 1]⟩ cN)) bc))
                  (subf z (broadcastTo ⟨2, ![R, n]⟩
                    (divf (shapeCast ⟨2, ![R, 1]⟩ (multiReduction .add [1] ⟨1, ![R]⟩ z acc red hφ hacc) sc) (broadcast ⟨2, ![R, 1]⟩ cN)) bc)))
                acc red hφ hacc) sc) (broadcast ⟨2, ![R, 1]⟩ cN))
            (broadcast ⟨2, ![R, 1]⟩ ce))) bc))
        (broadcastTo ⟨2, ![R, n]⟩ (shapeCast ⟨2, ![1, n]⟩ g sg) bg))
      (broadcastTo ⟨2, ![R, n]⟩ (shapeCast ⟨2, ![1, n]⟩ β sg) bg) (ix2 p q)
      = lnRow cN (row z p) (vec g) (vec β) q := by
  subst hce
  have hm : ∀ c : Fin n, broadcastTo ⟨2, ![R, n]⟩
        (divf (shapeCast ⟨2, ![R, 1]⟩ (multiReduction .add [1] ⟨1, ![R]⟩ z acc red hφ hacc) sc) (broadcast ⟨2, ![R, 1]⟩ cN)) bc (ix2 p c)
      = rowMean cN (row z p) := fun c => rowMean_apply z acc cN red hφ hacc sc bc p c
  simp only [addf_apply, mulf_apply, subf_apply, rowBroadcast_apply, hm]
  rw [broadcastTo_a1_ab_apply]
  simp only [rsqrt_apply, addf_apply, divf_apply, broadcast_apply]
  rw [shapeCast_a_a1_apply, rowSum_apply]
  simp only [mulf_apply, subf_apply, hm]
  rfl

/-- A tile times a resident matrix, into a zero accumulator: the row times the matrix. -/
theorem matmul_tile {d : ℕ} {φ₁ φ₂ : FTy} (D : DotDims ⟨2, ![R, d]⟩ ⟨2, ![d, n]⟩ ⟨2, ![R, n]⟩)
    (hl : D.lhsContracting = [1]) (hr : D.rhsContracting = [0]) (hln : D.lhsNonContracting = [0])
    (hrn : D.rhsNonContracting = [1]) (hlb : D.lhsBatch = []) (hrb : D.rhsBatch = [])
    (H : FVec Ideal ⟨2, ![R, d]⟩ φ₁) (W : FVec Ideal ⟨2, ![d, n]⟩ φ₂) (p : Fin R) (q : Fin n) :
    matmul D none H W (constant ⟨2, ![R, n]⟩ .f32 0x00000000#32) (ix2 p q) = ∑ k : Fin d, H (ix2 p k) * W (ix2 k q) :=
  matmul_zero_ix2 D hl hr hln hrn hlb hrb none H W p q

end Cert.TileOps

end
-- ==== Proof.KernelTile.lean ====
/-
  The body's two stored tiles, read at a position (p, q): row p of the scores tile is the scores row function of row p
  of the two input tiles and the resident weights, and likewise the reconstruction. Each layer is the tile form of
  `layerRow`: two products into zero accumulators and the bias give `lin2` of the row; the normalisation chain gives
  `lnRow`; the maximum with the zero word is `relu`. The narrowing to bf16 in front of each product is the identity
  on the extended reals.
-/
import proofs.«106524_j47382079209805_2_alg».proof.Proof.Gen.KernelIdeal.Skeleton
import proofs.«106524_j47382079209805_2_alg».proof.Proof.KernelIdealBody
import proofs.«106524_j47382079209805_2_alg».proof.Proof.TileOps

set_option maxRecDepth 16384

open scoped BigOperators

noncomputable section

namespace Cert.KernelIdeal.Tile

open Idealize.ShloMosaic Idealize.ShloMosaic.ValueIdx Cert.NodeSpec Cert.TileOps
open Cert.KernelIdeal Cert.KernelIdeal.Gen Cert.KernelIdeal.Around

/-- Two products into zero accumulators and a bias laid along the rows: `lin2` of the row. -/
theorem lin2_tile {R d e n : ℕ} {φ₁ φ₂ φ₃ φ₄ : FTy}
    (D1 : DotDims ⟨2, ![R, d]⟩ ⟨2, ![d, n]⟩ ⟨2, ![R, n]⟩)
    (a1 : D1.lhsContracting = [1]) (a2 : D1.rhsContracting = [0]) (a3 : D1.lhsNonContracting = [0])
    (a4 : D1.rhsNonContracting = [1]) (a5 : D1.lhsBatch = []) (a6 : D1.rhsBatch = [])
    (D2 : DotDims ⟨2, ![R, e]⟩ ⟨2, ![e, n]⟩ ⟨2, ![R, n]⟩)
    (b1 : D2.lhsContracting = [1]) (b2 : D2.rhsContracting = [0]) (b3 : D2.lhsNonContracting = [0])
    (b4 : D2.rhsNonContracting = [1]) (b5 : D2.lhsBatch = []) (b6 : D2.rhsBatch = [])
    (H : FVec Ideal ⟨2, ![R, d]⟩ φ₁) (Wh : FVec Ideal ⟨2, ![d, n]⟩ φ₂) (A : FVec Ideal ⟨2, ![R, e]⟩ φ₃) (Wa : FVec Ideal ⟨2, ![e, n]⟩ φ₄)
    (b : FVec Ideal ⟨1, ![n]⟩ .f32) (sc : (⟨1, ![n]⟩ : Shape).ShapeCasts ⟨2, ![1, n]⟩) (bc : (⟨2, ![1, n]⟩ : Shape).Broadcasts ⟨2, ![R, n]⟩)
    (p : Fin R) (q : Fin n) :
    addf (addf (matmul D1 none H Wh (constant ⟨2, ![R, n]⟩ .f32 0x00000000#32))
        (matmul D2 none A Wa (constant ⟨2, ![R, n]⟩ .f32 0x00000000#32)))
      (broadcastTo ⟨2, ![R, n]⟩ (shapeCast ⟨2, ![1, n]⟩ b sc) bc) (ix2 p q)
      = lin2 (fun k => H (ix2 p k)) (fun k => A (ix2 p k)) (fun k j => Wh (ix2 k j)) (fun k j => Wa (ix2 k j)) (vec b) q := by
  simp only [addf_apply]
  rw [matmul_tile D1 a1 a2 a3 a4 a5 a6, matmul_tile D2 b1 b2 b3 b4 b5 b6, rowBroadcast_apply]
  rfl

variable (y0 : Vec Ideal S2000x10 .f32) (y1 : Vec Ideal S2000x24 .f32) (y2 : Vec Ideal S10x256 .f32) (y3 : Vec Ideal S24x256 .f32) (y4 : Vec Ideal S256 .f32) (y5 : Vec Ideal S256 .f32) (y6 : Vec Ideal S256 .f32) (y7 : Vec Ideal S256x512 .f32) (y8 : Vec Ideal S24x512 .f32) (y9 : Vec Ideal S512 .f32) (y10 : Vec Ideal S512 .f32) (y11 : Vec Ideal S512 .f32) (y12 : Vec Ideal S512x256 .f32) (y13 : Vec Ideal S24x256 .f32) (y14 : Vec Ideal S256 .f32) (y15 : Vec Ideal S256 .f32) (y16 : Vec Ideal S256 .f32) (y17 : Vec Ideal S256x10 .f32) (y18 : Vec Ideal S24x10 .f32) (y19 : Vec Ideal S10 .f32) (y20 : Vec Ideal S10 .f32) (y21 : Vec Ideal S10 .f32) (y22 : Vec Ideal S512x512 .f32) (y23 : Vec Ideal S512x16 .f32) (y24 : Vec Ideal S16 .f32) (y25 : Vec Ideal S16 .f32) (y26 : Vec Ideal S16 .f32)

/-- The first encoder layer's pre-activation. -/
theorem pre0 (p : Fin 2000) (j : Fin 256) :
    k0_pay2 y1 y0 y2 y3 y4 (ix2 p j) = lin2 (row y0 p) (row y1 p) (mat y2) (mat y3) (vec y4) j := by
  unfold k0_pay2 k0_pay1
  refine (lin2_tile _ rfl rfl rfl rfl rfl rfl _ rfl rfl rfl rfl rfl rfl _ _ _ _ _ _ _ p j).trans ?_
  simp only [truncf_apply, shapeCast_self]
  rfl

/-- The first encoder layer. -/
theorem layer0 (p : Fin 2000) (j : Fin 256) :
    maximumf (addf (mulf (mulf (k0_pay6 y1 y0 y2 y3 y4)
          (broadcastTo S2000x256 (k0_pay7 y1 y0 y2 y3 y4) broadcasts_S2000x1_S2000x256)) (k0_pay4 y5)) (k0_pay5 y6))
        (broadcast S2000x256 (Scalar.ofBits (F := Ideal) .f32 0x00000000#32)) (ix2 p j)
      = layerRow w256 (row y0 p) (row y1 p) (mat y2) (mat y3) (vec y4) (vec y5) (vec y6) j := by
  unfold k0_pay6 k0_pay7 k0_pay3 k0_pay4 k0_pay5 layerRow relu
  rw [maximumf_apply, broadcast_apply]
  refine congrArg₂ max ((ln_tile (k0_pay2 y1 y0 y2 y3 y4) y5 y6 _ _ _ rfl _ _ _ _ _ _ _ p j).trans ?_) rfl
  exact congrArg (fun z => lnRow w256 z (vec y5) (vec y6) j) (funext fun k => pre0 y0 y1 y2 y3 y4 p k)

/-- The encoded tile: both encoder layers. -/
theorem enc_tile (p : Fin 2000) (j : Fin 512) :
    k0_pay10 (k0_pay8 y11) (enc2Scaled y0 y1 y2 y3 y4 y5 y6 y7 y8 y9 y10) (ix2 p j) = encRow (row y0 p) (row y1 p) (mat y2) (mat y3) (vec y4) (vec y5) (vec y6) (mat y7) (mat y8) (vec y9) (vec y10) (vec y11) j := by
  unfold k0_pay10 k0_pay8 enc2Scaled k0_pay9 k0_pay1 encRow
  show _ = relu (lnRow w512 (lin2 (layerRow w256 (row y0 p) (row y1 p) (mat y2) (mat y3) (vec y4) (vec y5) (vec y6)) (row y1 p) (mat y7) (mat y8) (vec y9)) (vec y10) (vec y11) j)
  unfold relu
  rw [maximumf_apply, broadcast_apply]
  refine congrArg₂ max ((ln_tile _ y10 y11 _ _ _ rfl _ _ _ _ _ _ _ p j).trans ?_) rfl
  refine congrArg (fun z => lnRow w512 z (vec y10) (vec y11) j) (funext fun k => ?_)
  refine (lin2_tile _ rfl rfl rfl rfl rfl rfl _ rfl rfl rfl rfl rfl rfl _ _ _ _ _ _ _ p k).trans ?_
  simp only [truncf_apply, shapeCast_self]
  have h0 : ∀ k', (maximumf (addf (mulf (mulf (k0_pay6 y1 y0 y2 y3 y4)
          (broadcastTo S2000x256 (k0_pay7 y1 y0 y2 y3 y4) broadcasts_S2000x1_S2000x256)) (k0_pay4 y5)) (k0_pay5 y6))
        (broadcast S2000x256 (Scalar.ofBits (F := Ideal) .f32 0x00000000#32))) (ix2 p k')
      = layerRow w256 (row y0 p) (row y1 p) (mat y2) (mat y3) (vec y4) (vec y5) (vec y6) k' :=
    fun k' => layer0 y0 y1 y2 y3 y4 y5 y6 p k'
  simp only [h0]
  rfl

/-- The scores tile. -/
theorem scores_tile (p : Fin 2000) (q : Fin 16) :
    scoresPayload y0 y1 y2 y3 y4 y5 y6 y7 y8 y9 y10 y11 y23 y24 y25 y26 (ix2 p q)
      = scoresRow (encRow (row y0 p) (row y1 p) (mat y2) (mat y3) (vec y4) (vec y5) (vec y6) (mat y7) (mat y8) (vec y9) (vec y10) (vec y11)) (mat y23) (vec y24) (vec y25) (vec y26) q := by
  unfold scoresPayload k0_pay11 scoresRow
  refine (ln_tile _ y25 y26 _ _ _ rfl _ _ _ _ _ _ _ p q).trans ?_
  refine congrArg (fun z => lnRow w16 z (vec y25) (vec y26) q) (funext fun k => ?_)
  simp only [row, addf_apply]
  rw [matmul_tile _ rfl rfl rfl rfl rfl rfl, rowBroadcast_apply]
  simp only [truncf_apply, shapeCast_self, enc_tile y0 y1 y2 y3 y4 y5 y6 y7 y8 y9 y10 y11 p]
  rfl

/-- The reconstruction tile. -/
theorem recon_tile (p : Fin 2000) (q : Fin 10) :
    reconPayload y0 y1 y2 y3 y4 y5 y6 y7 y8 y9 y10 y11 y12 y13 y14 y15 y16 y17 y18 y19 y20 y21 y22 (ix2 p q)
      = reconRow (encRow (row y0 p) (row y1 p) (mat y2) (mat y3) (vec y4) (vec y5) (vec y6) (mat y7) (mat y8) (vec y9) (vec y10) (vec y11)) (row y1 p) (mat y22)
          (mat y12) (mat y13) (vec y14) (vec y15) (vec y16) (mat y17) (mat y18) (vec y19) (vec y20) (vec y21) q := by
  unfold reconPayload k0_pay15 reconRow
  show _ = relu (lnRow w10 (lin2 (layerRow w256 (lin1 (encRow (row y0 p) (row y1 p) (mat y2) (mat y3) (vec y4) (vec y5) (vec y6) (mat y7) (mat y8) (vec y9) (vec y10) (vec y11)) (mat y22)) (row y1 p) (mat y12) (mat y13) (vec y14) (vec y15) (vec y16)) (row y1 p) (mat y17) (mat y18) (vec y19)) (vec y20) (vec y21) q)
  unfold relu
  rw [maximumf_apply, broadcast_apply]
  refine congrArg₂ max ((ln_tile _ y20 y21 _ _ _ rfl _ _ _ _ _ _ _ p q).trans ?_) rfl
  refine congrArg (fun z => lnRow w10 z (vec y20) (vec y21) q) (funext fun k => ?_)
  refine (lin2_tile _ rfl rfl rfl rfl rfl rfl _ rfl rfl rfl rfl rfl rfl _ _ _ _ _ _ _ p k).trans ?_
  simp only [truncf_apply, shapeCast_self]
  -- the first decoder layer, then the projection of the encoded row
  have hd : ∀ k' : Fin 256, k0_pay14 (k0_pay1 y1) (k0_pay12 y22) (k0_pay13 (k0_pay8 y11) (enc2Scaled y0 y1 y2 y3 y4 y5 y6 y7 y8 y9 y10)) y12 y13 y14 y15 y16 (ix2 p k')
      = layerRow w256 (lin1 (encRow (row y0 p) (row y1 p) (mat y2) (mat y3) (vec y4) (vec y5) (vec y6) (mat y7) (mat y8) (vec y9) (vec y10) (vec y11)) (mat y22)) (row y1 p) (mat y12) (mat y13) (vec y14) (vec y15) (vec y16) k' := by
    intro k'
    unfold k0_pay14 k0_pay13 k0_pay12 k0_pay1 layerRow relu
    rw [truncf_apply, maximumf_apply, broadcast_apply]
    refine congrArg₂ max ((ln_tile _ y15 y16 _ _ _ rfl _ _ _ _ _ _ _ p k').trans ?_) rfl
    refine congrArg (fun z => lnRow w256 z (vec y15) (vec y16) k') (funext fun k2 => ?_)
    refine (lin2_tile _ rfl rfl rfl rfl rfl rfl _ rfl rfl rfl rfl rfl rfl _ _ _ _ _ _ _ p k2).trans ?_
    simp only [truncf_apply, shapeCast_self]
    have hp : ∀ k3 : Fin 512, matmul dot_S2000x512_S512x512_S2000x512_1_0_0_1_n_n none
          (truncf .bf16 (k0_pay10 (k0_pay8 y11) (enc2Scaled y0 y1 y2 y3 y4 y5 y6 y7 y8 y9 y10)) bitsLt_bf16_f32)
          (truncf .bf16 y22 bitsLt_bf16_f32)
          (constant S2000x512 .f32 0x00000000#32) (ix2 p k3)
        = lin1 (encRow (row y0 p) (row y1 p) (mat y2) (mat y3) (vec y4) (vec y5) (vec y6) (mat y7) (mat y8) (vec y9) (vec y10) (vec y11)) (mat y22) k3 := by
      intro k3
      rw [matmul_tile _ rfl rfl rfl rfl rfl rfl]
      simp only [truncf_apply, shapeCast_self, enc_tile y0 y1 y2 y3 y4 y5 y6 y7 y8 y9 y10 y11 p]
      rfl
    simp only [hp]
    rfl
  have h1 : ∀ k' : Fin 24, k0_pay1 y1 (ix2 p k') = y1 (ix2 p k') := fun k' => by
    unfold k0_pay1
    simp only [truncf_apply, shapeCast_self]
  simp only [hd, h1]
  rfl

end Cert.KernelIdeal.Tile

end
-- ==== Proof.KernelFinalDefs.lean ====
/-
  The two output arrays row by row, as functions of the arrays the call finds: row n of the scores array is the scores
  row function of row n of the masked features and of the neighbourhood sums and of the resident weights, and likewise
  the reconstruction. Also the printed index maps over the fifty grid points: a tiled window moves one block of 2000
  rows per point, a resident window stays at block 0.
-/
import proofs.«106524_j47382079209805_2_alg».proof.Proof.KernelIdealFrame
import proofs.«106524_j47382079209805_2_alg».proof.Proof.KernelTile
import Idealize.ShloMosaic.Lib.Pipeline.Value

set_option maxRecDepth 16384

noncomputable section

namespace Cert.KernelIdeal.Final

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Around Cert.KernelIdeal.Tile Cert.NodeSpec

variable (m : (ℓ : Loc nD τ sig) → Buf (Elt Ideal) ℓ) (c : Dev nD)

theorem hz2 : (![0, 0] : Fin 2 → Nat) = fun _ => 0 := funext fun a => by fin_cases a <;> rfl
theorem hz1 : (![0] : Fin 1 → Nat) = fun _ => 0 := funext fun a => by fin_cases a <;> rfl

/-- The encoded row of node `n`, from the arrays as the call finds them. -/
def encAt (n : Fin 100000) : Fin 512 → EReal := encRow (row (V m c main_v35 : S100000x10.Idx → EReal) n) (row (V m c main_v26 : S100000x24.Idx → EReal) n) (mat (V m c main_v37 : S10x256.Idx → EReal)) (mat (V m c main_v38 : S24x256.Idx → EReal)) (vec (V m c main_arg11 : S256.Idx → EReal)) (vec (V m c main_arg12 : S256.Idx → EReal)) (vec (V m c main_arg13 : S256.Idx → EReal)) (mat (V m c main_v40 : S256x512.Idx → EReal)) (mat (V m c main_v41 : S24x512.Idx → EReal)) (vec (V m c main_arg15 : S512.Idx → EReal)) (vec (V m c main_arg16 : S512.Idx → EReal)) (vec (V m c main_arg17 : S512.Idx → EReal))

/-- The scores array, row by row. -/
def scoresG : S100000x16.Idx → EReal := fun i =>
  scoresRow (encAt m c ⟨(i 0).val, (i 0).isLt⟩) (mat (V m c main_v49 : S512x16.Idx → EReal)) (vec (V m c main_arg28 : S16.Idx → EReal)) (vec (V m c main_arg29 : S16.Idx → EReal)) (vec (V m c main_arg30 : S16.Idx → EReal)) ⟨(i 1).val, (i 1).isLt⟩

/-- The reconstruction array, row by row. -/
def reconG : S100000x10.Idx → EReal := fun i =>
  reconRow (encAt m c ⟨(i 0).val, (i 0).isLt⟩) (row (V m c main_v26 : S100000x24.Idx → EReal) ⟨(i 0).val, (i 0).isLt⟩) (mat (V m c main_v48 : S512x512.Idx → EReal))
    (mat (V m c main_v43 : S512x256.Idx → EReal)) (mat (V m c main_v44 : S24x256.Idx → EReal)) (vec (V m c main_arg19 : S256.Idx → EReal)) (vec (V m c main_arg20 : S256.Idx → EReal)) (vec (V m c main_arg21 : S256.Idx → EReal))
    (mat (V m c main_v46 : S256x10.Idx → EReal)) (mat (V m c main_v47 : S24x10.Idx → EReal)) (vec (V m c main_arg23 : S10.Idx → EReal)) (vec (V m c main_arg24 : S10.Idx → EReal)) (vec (V m c main_arg25 : S10.Idx → EReal)) ⟨(i 1).val, (i 1).isLt⟩

/-- The printed index maps over the grid: the tiled windows move one block of rows per point, the resident ones stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_27.index t (0 : Fin 2) = t.val ∧ win0_27.index t (1 : Fin 2) = 0
    ∧ win0_28.index t (0 : Fin 2) = t.val ∧ win0_28.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_17.index t (0 : Fin 2) = 0 ∧ win0_17.index t (1 : Fin 2) = 0
    ∧ win0_18.index t (0 : Fin 2) = 0 ∧ win0_18.index t (1 : Fin 2) = 0
    ∧ win0_22.index t (0 : Fin 2) = 0 ∧ win0_22.index t (1 : Fin 2) = 0
    ∧ win0_23.index t (0 : Fin 2) = 0 ∧ win0_23.index t (1 : Fin 2) = 0
    ∧ win0_4.index t (0 : Fin 1) = 0
    ∧ win0_5.index t (0 : Fin 1) = 0
    ∧ win0_6.index t (0 : Fin 1) = 0
    ∧ win0_9.index t (0 : Fin 1) = 0
    ∧ win0_10.index t (0 : Fin 1) = 0
    ∧ win0_11.index t (0 : Fin 1) = 0
    ∧ win0_14.index t (0 : Fin 1) = 0
    ∧ win0_15.index t (0 : Fin 1) = 0
    ∧ win0_16.index t (0 : Fin 1) = 0
    ∧ win0_19.index t (0 : Fin 1) = 0
    ∧ win0_20.index t (0 : Fin 1) = 0
    ∧ win0_21.index t (0 : Fin 1) = 0
    ∧ win0_24.index t (0 : Fin 1) = 0
    ∧ win0_25.index t (0 : Fin 1) = 0
    ∧ win0_26.index t (0 : Fin 1) = 0 :=
  (by decide +kernel : ∀ t : Fin grid0.N, _)

/-- A point's rows are rows of the table. -/
theorem row_lt (t : Fin cfg0.N) (p : Fin 2000) : t.val * 2000 + p.val < 100000 := by
  have h1 : t.val < 50 := Nat.lt_of_lt_of_eq t.isLt N_0
  have h2 := p.isLt
  omega

end Cert.KernelIdeal.Final

end
-- ==== Proof.KernelReads1.lean ====
/-
  A window's block at a grid point, read off its array: a resident window's block is its whole array; a tiled input's
  block at point t is rows 2000 t … 2000 t + 1999 of its table. (Part 1 of 4.)
-/
import proofs.«106524_j47382079209805_2_alg».proof.Proof.KernelFinalDefs

set_option maxRecDepth 16384

noncomputable section

namespace Cert.KernelIdeal.Final

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Around Cert.KernelIdeal.Tile Cert.NodeSpec

variable (m : (ℓ : Loc nD τ sig) → Buf (Elt Ideal) ℓ) (c : Dev nD)

theorem tile0 (t : Fin cfg0.N) (p : Fin 2000) (hn : t.val * 2000 + p.val < 100000) :
    row (iblk m c 0 t) p = row (V m c main_v35 : S100000x10.Idx → EReal) ⟨t.val * 2000 + p.val, hn⟩ := by
  obtain ⟨e0_0, e0_1, e1_0, e1_1, e27_0, e27_1, e28_0, e28_1, e2_0, e2_1, e3_0, e3_1, e7_0, e7_1, e8_0, e8_1, e12_0, e12_1, e13_0, e13_1, e17_0, e17_1, e18_0, e18_1, e22_0, e22_1, e23_0, e23_1, e4_0, e5_0, e6_0, e9_0, e10_0, e11_0, e14_0, e15_0, e16_0, e19_0, e20_0, e21_0, e24_0, e25_0, e26_0⟩ := idx_facts t
  funext k
  show V m c main_v35 (((cfg0.win 0).blk t).view.emb (ix2 p k)) = V m c main_v35 (ix2 ⟨t.val * 2000 + p.val, hn⟩ k)
  refine congrArg _ (funext fun a => Fin.ext ?_)
  match a with
  | ⟨0, _⟩ => show win0_0.index t (0 : Fin 2) * 2000 + 1 * p.val = t.val * 2000 + p.val; omega
  | ⟨1, _⟩ => show win0_0.index t (1 : Fin 2) * 10 + 1 * k.val = k.val; omega

theorem res2 (t : Fin cfg0.N) : mat (iblk m c 2 t) = mat (V m c main_v37 : S10x256.Idx → EReal) := by
  obtain ⟨e0_0, e0_1, e1_0, e1_1, e27_0, e27_1, e28_0, e28_1, e2_0, e2_1, e3_0, e3_1, e7_0, e7_1, e8_0, e8_1, e12_0, e12_1, e13_0, e13_1, e17_0, e17_1, e18_0, e18_1, e22_0, e22_1, e23_0, e23_1, e4_0, e5_0, e6_0, e9_0, e10_0, e11_0, e14_0, e15_0, e16_0, e19_0, e20_0, e21_0, e24_0, e25_0, e26_0⟩ := idx_facts t
  funext k j
  show V m c main_v37 (((cfg0.win 2).blk t).view.emb (ix2 k j)) = V m c main_v37 (ix2 k j)
  refine congrArg _ (funext fun a => Fin.ext ?_)
  match a with
  | ⟨0, _⟩ => show win0_2.index t (0 : Fin 2) * 10 + 1 * k.val = k.val; omega
  | ⟨1, _⟩ => show win0_2.index t (1 : Fin 2) * 256 + 1 * j.val = j.val; omega

theorem res3 (t : Fin cfg0.N) : mat (iblk m c 3 t) = mat (V m c main_v38 : S24x256.Idx → EReal) := by
  obtain ⟨e0_0, e0_1, e1_0, e1_1, e27_0, e27_1, e28_0, e28_1, e2_0, e2_1, e3_0, e3_1, e7_0, e7_1, e8_0, e8_1, e12_0, e12_1, e13_0, e13_1, e17_0, e17_1, e18_0, e18_1, e22_0, e22_1, e23_0, e23_1, e4_0, e5_0, e6_0, e9_0, e10_0, e11_0, e14_0, e15_0, e16_0, e19_0, e20_0, e21_0, e24_0, e25_0, e26_0⟩ := idx_facts t
  funext k j
  show V m c main_v38 (((cfg0.win 3).blk t).view.emb (ix2 k j)) = V m c main_v38 (ix2 k j)
  refine congrArg _ (funext fun a => Fin.ext ?_)
  match a with
  | ⟨0, _⟩ => show win0_3.index t (0 : Fin 2) * 24 + 1 * k.val = k.val; omega
  | ⟨1, _⟩ => show win0_3.index t (1 : Fin 2) * 256 + 1 * j.val = j.val; omega

theorem res4 (t : Fin cfg0.N) : vec (iblk m c 4 t) = vec (V m c main_arg11 : S256.Idx → EReal) := by
  obtain ⟨e0_0, e0_1, e1_0, e1_1, e27_0, e27_1, e28_0, e28_1, e2_0, e2_1, e3_0, e3_1, e7_0, e7_1, e8_0, e8_1, e12_0, e12_1, e13_0, e13_1, e17_0, e17_1, e18_0, e18_1, e22_0, e22_1, e23_0, e23_1, e4_0, e5_0, e6_0, e9_0, e10_0, e11_0, e14_0, e15_0, e16_0, e19_0, e20_0, e21_0, e24_0, e25_0, e26_0⟩ := idx_facts t
  funext j
  show V m c main_arg11 (((cfg0.win 4).blk t).view.emb (ix1 j)) = V m c main_arg11 (ix1 j)
  refine congrArg _ (funext fun a => Fin.ext ?_)
  match a with
  | ⟨0, _⟩ => show win0_4.index t (0 : Fin 1) * 256 + 1 * j.val = j.val; omega

theorem res5 (t : Fin cfg0.N) : vec (iblk m c 5 t) = vec (V m c main_arg12 : S256.Idx → EReal) := by
  obtain ⟨e0_0, e0_1, e1_0, e1_1, e27_0, e27_1, e28_0, e28_1, e2_0, e2_1, e3_0, e3_1, e7_0, e7_1, e8_0, e8_1, e12_0, e12_1, e13_0, e13_1, e17_0, e17_1, e18_0, e18_1, e22_0, e22_1, e23_0, e23_1, e4_0, e5_0, e6_0, e9_0, e10_0, e11_0, e14_0, e15_0, e16_0, e19_0, e20_0, e21_0, e24_0, e25_0, e26_0⟩ := idx_facts t
  funext j
  show V m c main_arg12 (((cfg0.win 5).blk t).view.emb (ix1 j)) = V m c main_arg12 (ix1 j)
  refine congrArg _ (funext fun a => Fin.ext ?_)
  match a with
  | ⟨0, _⟩ => show win0_5.index t (0 : Fin 1) * 256 + 1 * j.val = j.val; omega

theorem res6 (t : Fin cfg0.N) : vec (iblk m c 6 t) = vec (V m c main_arg13 : S256.Idx → EReal) := by
  obtain ⟨e0_0, e0_1, e1_0, e1_1, e27_0, e27_1, e28_0, e28_1, e2_0, e2_1, e3_0, e3_1, e7_0, e7_1, e8_0, e8_1, e12_0, e12_1, e13_0, e13_1, e17_0, e17_1, e18_0, e18_1, e22_0, e22_1, e23_0, e23_1, e4_0, e5_0, e6_0, e9_0, e10_0, e11_0, e14_0, e15_0, e16_0, e19_0, e20_0, e21_0, e24_0, e25_0, e26_0⟩ := idx_facts t
  funext j
  show V m c main_arg13 (((cfg0.win 6).blk t).view.emb (ix1 j)) = V m c main_arg13 (ix1 j)
  refine congrArg _ (funext fun a => Fin.ext ?_)
  match a with
  | ⟨0, _⟩ => show win0_6.index t (0 : Fin 1) * 256 + 1 * j.val = j.val; omega

theorem res7 (t : Fin cfg0.N) : mat (iblk m c 7 t) = mat (V m c main_v40 : S256x512.Idx → EReal) := by
  obtain ⟨e0_0, e0_1, e1_0, e1_1, e27_0, e27_1, e28_0, e28_1, e2_0, e2_1, e3_0, e3_1, e7_0, e7_1, e8_0, e8_1, e12_0, e12_1, e13_0, e13_1, e17_0, e17_1, e18_0, e18_1, e22_0, e22_1, e23_0, e23_1, e4_0, e5_0, e6_0, e9_0, e10_0, e11_0, e14_0, e15_0, e16_0, e19_0, e20_0, e21_0, e24_0, e25_0, e26_0⟩ := idx_facts t
  funext k j
  show V m c main_v40 (((cfg0.win 7).blk t).view.emb (ix2 k j)) = V m c main_v40 (ix2 k j)
  refine congrArg _ (funext fun a => Fin.ext ?_)
  match a with
  | ⟨0, _⟩ => show win0_7.index t (0 : Fin 2) * 256 + 1 * k.val = k.val; omega
  | ⟨1, _⟩ => show win0_7.index t (1 : Fin 2) * 512 + 1 * j.val = j.val; omega

end Cert.KernelIdeal.Final

end
-- ==== Proof.KernelReads2.lean ====
/-
  A window's block at a grid point, read off its array: a resident window's block is its whole array; a tiled input's
  block at point t is rows 2000 t … 2000 t + 1999 of its table. (Part 2 of 4.)
-/
import proofs.«106524_j47382079209805_2_alg».proof.Proof.KernelFinalDefs

set_option maxRecDepth 16384

noncomputable section

namespace Cert.KernelIdeal.Final

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Around Cert.KernelIdeal.Tile Cert.NodeSpec

variable (m : (ℓ : Loc nD τ sig) → Buf (Elt Ideal) ℓ) (c : Dev nD)

theorem tile1 (t : Fin cfg0.N) (p : Fin 2000) (hn : t.val * 2000 + p.val < 100000) :
    row (iblk m c 1 t) p = row (V m c main_v26 : S100000x24.Idx → EReal) ⟨t.val * 2000 + p.val, hn⟩ := by
  obtain ⟨e0_0, e0_1, e1_0, e1_1, e27_0, e27_1, e28_0, e28_1, e2_0, e2_1, e3_0, e3_1, e7_0, e7_1, e8_0, e8_1, e12_0, e12_1, e13_0, e13_1, e17_0, e17_1, e18_0, e18_1, e22_0, e22_1, e23_0, e23_1, e4_0, e5_0, e6_0, e9_0, e10_0, e11_0, e14_0, e15_0, e16_0, e19_0, e20_0, e21_0, e24_0, e25_0, e26_0⟩ := idx_facts t
  funext k
  show V m c main_v26 (((cfg0.win 1).blk t).view.emb (ix2 p k)) = V m c main_v26 (ix2 ⟨t.val * 2000 + p.val, hn⟩ k)
  refine congrArg _ (funext fun a => Fin.ext ?_)
  match a with
  | ⟨0, _⟩ => show win0_1.index t (0 : Fin 2) * 2000 + 1 * p.val = t.val * 2000 + p.val; omega
  | ⟨1, _⟩ => show win0_1.index t (1 : Fin 2) * 24 + 1 * k.val = k.val; omega

theorem res8 (t : Fin cfg0.N) : mat (iblk m c 8 t) = mat (V m c main_v41 : S24x512.Idx → EReal) := by
  obtain ⟨e0_0, e0_1, e1_0, e1_1, e27_0, e27_1, e28_0, e28_1, e2_0, e2_1, e3_0, e3_1, e7_0, e7_1, e8_0, e8_1, e12_0, e12_1, e13_0, e13_1, e17_0, e17_1, e18_0, e18_1, e22_0, e22_1, e23_0, e23_1, e4_0, e5_0, e6_0, e9_0, e10_0, e11_0, e14_0, e15_0, e16_0, e19_0, e20_0, e21_0, e24_0, e25_0, e26_0⟩ := idx_facts t
  funext k j
  show V m c main_v41 (((cfg0.win 8).blk t).view.emb (ix2 k j)) = V m c main_v41 (ix2 k j)
  refine congrArg _ (funext fun a => Fin.ext ?_)
  match a with
  | ⟨0, _⟩ => show win0_8.index t (0 : Fin 2) * 24 + 1 * k.val = k.val; omega
  | ⟨1, _⟩ => show win0_8.index t (1 : Fin 2) * 512 + 1 * j.val = j.val; omega

theorem res9 (t : Fin cfg0.N) : vec (iblk m c 9 t) = vec (V m c main_arg15 : S512.Idx → EReal) := by
  obtain ⟨e0_0, e0_1, e1_0, e1_1, e27_0, e27_1, e28_0, e28_1, e2_0, e2_1, e3_0, e3_1, e7_0, e7_1, e8_0, e8_1, e12_0, e12_1, e13_0, e13_1, e17_0, e17_1, e18_0, e18_1, e22_0, e22_1, e23_0, e23_1, e4_0, e5_0, e6_0, e9_0, e10_0, e11_0, e14_0, e15_0, e16_0, e19_0, e20_0, e21_0, e24_0, e25_0, e26_0⟩ := idx_facts t
  funext j
  show V m c main_arg15 (((cfg0.win 9).blk t).view.emb (ix1 j)) = V m c main_arg15 (ix1 j)
  refine congrArg _ (funext fun a => Fin.ext ?_)
  match a with
  | ⟨0, _⟩ => show win0_9.index t (0 : Fin 1) * 512 + 1 * j.val = j.val; omega

theorem res10 (t : Fin cfg0.N) : vec (iblk m c 10 t) = vec (V m c main_arg16 : S512.Idx → EReal) := by
  obtain ⟨e0_0, e0_1, e1_0, e1_1, e27_0, e27_1, e28_0, e28_1, e2_0, e2_1, e3_0, e3_1, e7_0, e7_1, e8_0, e8_1, e12_0, e12_1, e13_0, e13_1, e17_0, e17_1, e18_0, e18_1, e22_0, e22_1, e23_0, e23_1, e4_0, e5_0, e6_0, e9_0, e10_0, e11_0, e14_0, e15_0, e16_0, e19_0, e20_0, e21_0, e24_0, e25_0, e26_0⟩ := idx_facts t
  funext j
  show V m c main_arg16 (((cfg0.win 10).blk t).view.emb (ix1 j)) = V m c main_arg16 (ix1 j)
  refine congrArg _ (funext fun a => Fin.ext ?_)
  match a with
  | ⟨0, _⟩ => show win0_10.index t (0 : Fin 1) * 512 + 1 * j.val = j.val; omega

theorem res11 (t : Fin cfg0.N) : vec (iblk m c 11 t) = vec (V m c main_arg17 : S512.Idx → EReal) := by
  obtain ⟨e0_0, e0_1, e1_0, e1_1, e27_0, e27_1, e28_0, e28_1, e2_0, e2_1, e3_0, e3_1, e7_0, e7_1, e8_0, e8_1, e12_0, e12_1, e13_0, e13_1, e17_0, e17_1, e18_0, e18_1, e22_0, e22_1, e23_0, e23_1, e4_0, e5_0, e6_0, e9_0, e10_0, e11_0, e14_0, e15_0, e16_0, e19_0, e20_0, e21_0, e24_0, e25_0, e26_0⟩ := idx_facts t
  funext j
  show V m c main_arg17 (((cfg0.win 11).blk t).view.emb (ix1 j)) = V m c main_arg17 (ix1 j)
  refine congrArg _ (funext fun a => Fin.ext ?_)
  match a with
  | ⟨0, _⟩ => show win0_11.index t (0 : Fin 1) * 512 + 1 * j.val = j.val; omega

theorem res12 (t : Fin cfg0.N) : mat (iblk m c 12 t) = mat (V m c main_v43 : S512x256.Idx → EReal) := by
  obtain ⟨e0_0, e0_1, e1_0, e1_1, e27_0, e27_1, e28_0, e28_1, e2_0, e2_1, e3_0, e3_1, e7_0, e7_1, e8_0, e8_1, e12_0, e12_1, e13_0, e13_1, e17_0, e17_1, e18_0, e18_1, e22_0, e22_1, e23_0, e23_1, e4_0, e5_0, e6_0, e9_0, e10_0, e11_0, e14_0, e15_0, e16_0, e19_0, e20_0, e21_0, e24_0, e25_0, e26_0⟩ := idx_facts t
  funext k j
  show V m c main_v43 (((cfg0.win 12).blk t).view.emb (ix2 k j)) = V m c main_v43 (ix2 k j)
  refine congrArg _ (funext fun a => Fin.ext ?_)
  match a with
  | ⟨0, _⟩ => show win0_12.index t (0 : Fin 2) * 512 + 1 * k.val = k.val; omega
  | ⟨1, _⟩ => show win0_12.index t (1 : Fin 2) * 256 + 1 * j.val = j.val; omega

theorem res13 (t : Fin cfg0.N) : mat (iblk m c 13 t) = mat (V m c main_v44 : S24x256.Idx → EReal) := by
  obtain ⟨e0_0, e0_1, e1_0, e1_1, e27_0, e27_1, e28_0, e28_1, e2_0, e2_1, e3_0, e3_1, e7_0, e7_1, e8_0, e8_1, e12_0, e12_1, e13_0, e13_1, e17_0, e17_1, e18_0, e18_1, e22_0, e22_1, e23_0, e23_1, e4_0, e5_0, e6_0, e9_0, e10_0, e11_0, e14_0, e15_0, e16_0, e19_0, e20_0, e21_0, e24_0, e25_0, e26_0⟩ := idx_facts t
  funext k j
  show V m c main_v44 (((cfg0.win 13).blk t).view.emb (ix2 k j)) = V m c main_v44 (ix2 k j)
  refine congrArg _ (funext fun a => Fin.ext ?_)
  match a with
  | ⟨0, _⟩ => show win0_13.index t (0 : Fin 2) * 24 + 1 * k.val = k.val; omega
  | ⟨1, _⟩ => show win0_13.index t (1 : Fin 2) * 256 + 1 * j.val = j.val; omega

end Cert.KernelIdeal.Final

end
-- ==== Proof.KernelReads3.lean ====
/-
  A window's block at a grid point, read off its array: a resident window's block is its whole array; a tiled input's
  block at point t is rows 2000 t … 2000 t + 1999 of its table. (Part 3 of 4.)
-/
import proofs.«106524_j47382079209805_2_alg».proof.Proof.KernelFinalDefs

set_option maxRecDepth 16384

noncomputable section

namespace Cert.KernelIdeal.Final

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Around Cert.KernelIdeal.Tile Cert.NodeSpec

variable (m : (ℓ : Loc nD τ sig) → Buf (Elt Ideal) ℓ) (c : Dev nD)

theorem res14 (t : Fin cfg0.N) : vec (iblk m c 14 t) = vec (V m c main_arg19 : S256.Idx → EReal) := by
  obtain ⟨e0_0, e0_1, e1_0, e1_1, e27_0, e27_1, e28_0, e28_1, e2_0, e2_1, e3_0, e3_1, e7_0, e7_1, e8_0, e8_1, e12_0, e12_1, e13_0, e13_1, e17_0, e17_1, e18_0, e18_1, e22_0, e22_1, e23_0, e23_1, e4_0, e5_0, e6_0, e9_0, e10_0, e11_0, e14_0, e15_0, e16_0, e19_0, e20_0, e21_0, e24_0, e25_0, e26_0⟩ := idx_facts t
  funext j
  show V m c main_arg19 (((cfg0.win 14).blk t).view.emb (ix1 j)) = V m c main_arg19 (ix1 j)
  refine congrArg _ (funext fun a => Fin.ext ?_)
  match a with
  | ⟨0, _⟩ => show win0_14.index t (0 : Fin 1) * 256 + 1 * j.val = j.val; omega

theorem res15 (t : Fin cfg0.N) : vec (iblk m c 15 t) = vec (V m c main_arg20 : S256.Idx → EReal) := by
  obtain ⟨e0_0, e0_1, e1_0, e1_1, e27_0, e27_1, e28_0, e28_1, e2_0, e2_1, e3_0, e3_1, e7_0, e7_1, e8_0, e8_1, e12_0, e12_1, e13_0, e13_1, e17_0, e17_1, e18_0, e18_1, e22_0, e22_1, e23_0, e23_1, e4_0, e5_0, e6_0, e9_0, e10_0, e11_0, e14_0, e15_0, e16_0, e19_0, e20_0, e21_0, e24_0, e25_0, e26_0⟩ := idx_facts t
  funext j
  show V m c main_arg20 (((cfg0.win 15).blk t).view.emb (ix1 j)) = V m c main_arg20 (ix1 j)
  refine congrArg _ (funext fun a => Fin.ext ?_)
  match a with
  | ⟨0, _⟩ => show win0_15.index t (0 : Fin 1) * 256 + 1 * j.val = j.val; omega

theorem res16 (t : Fin cfg0.N) : vec (iblk m c 16 t) = vec (V m c main_arg21 : S256.Idx → EReal) := by
  obtain ⟨e0_0, e0_1, e1_0, e1_1, e27_0, e27_1, e28_0, e28_1, e2_0, e2_1, e3_0, e3_1, e7_0, e7_1, e8_0, e8_1, e12_0, e12_1, e13_0, e13_1, e17_0, e17_1, e18_0, e18_1, e22_0, e22_1, e23_0, e23_1, e4_0, e5_0, e6_0, e9_0, e10_0, e11_0, e14_0, e15_0, e16_0, e19_0, e20_0, e21_0, e24_0, e25_0, e26_0⟩ := idx_facts t
  funext j
  show V m c main_arg21 (((cfg0.win 16).blk t).view.emb (ix1 j)) = V m c main_arg21 (ix1 j)
  refine congrArg _ (funext fun a => Fin.ext ?_)
  match a with
  | ⟨0, _⟩ => show win0_16.index t (0 : Fin 1) * 256 + 1 * j.val = j.val; omega

theorem res17 (t : Fin cfg0.N) : mat (iblk m c 17 t) = mat (V m c main_v46 : S256x10.Idx → EReal) := by
  obtain ⟨e0_0, e0_1, e1_0, e1_1, e27_0, e27_1, e28_0, e28_1, e2_0, e2_1, e3_0, e3_1, e7_0, e7_1, e8_0, e8_1, e12_0, e12_1, e13_0, e13_1, e17_0, e17_1, e18_0, e18_1, e22_0, e22_1, e23_0, e23_1, e4_0, e5_0, e6_0, e9_0, e10_0, e11_0, e14_0, e15_0, e16_0, e19_0, e20_0, e21_0, e24_0, e25_0, e26_0⟩ := idx_facts t
  funext k j
  show V m c main_v46 (((cfg0.win 17).blk t).view.emb (ix2 k j)) = V m c main_v46 (ix2 k j)
  refine congrArg _ (funext fun a => Fin.ext ?_)
  match a with
  | ⟨0, _⟩ => show win0_17.index t (0 : Fin 2) * 256 + 1 * k.val = k.val; omega
  | ⟨1, _⟩ => show win0_17.index t (1 : Fin 2) * 10 + 1 * j.val = j.val; omega

theorem res18 (t : Fin cfg0.N) : mat (iblk m c 18 t) = mat (V m c main_v47 : S24x10.Idx → EReal) := by
  obtain ⟨e0_0, e0_1, e1_0, e1_1, e27_0, e27_1, e28_0, e28_1, e2_0, e2_1, e3_0, e3_1, e7_0, e7_1, e8_0, e8_1, e12_0, e12_1, e13_0, e13_1, e17_0, e17_1, e18_0, e18_1, e22_0, e22_1, e23_0, e23_1, e4_0, e5_0, e6_0, e9_0, e10_0, e11_0, e14_0, e15_0, e16_0, e19_0, e20_0, e21_0, e24_0, e25_0, e26_0⟩ := idx_facts t
  funext k j
  show V m c main_v47 (((cfg0.win 18).blk t).view.emb (ix2 k j)) = V m c main_v47 (ix2 k j)
  refine congrArg _ (funext fun a => Fin.ext ?_)
  match a with
  | ⟨0, _⟩ => show win0_18.index t (0 : Fin 2) * 24 + 1 * k.val = k.val; omega
  | ⟨1, _⟩ => show win0_18.index t (1 : Fin 2) * 10 + 1 * j.val = j.val; omega

theorem res19 (t : Fin cfg0.N) : vec (iblk m c 19 t) = vec (V m c main_arg23 : S10.Idx → EReal) := by
  obtain ⟨e0_0, e0_1, e1_0, e1_1, e27_0, e27_1, e28_0, e28_1, e2_0, e2_1, e3_0, e3_1, e7_0, e7_1, e8_0, e8_1, e12_0, e12_1, e13_0, e13_1, e17_0, e17_1, e18_0, e18_1, e22_0, e22_1, e23_0, e23_1, e4_0, e5_0, e6_0, e9_0, e10_0, e11_0, e14_0, e15_0, e16_0, e19_0, e20_0, e21_0, e24_0, e25_0, e26_0⟩ := idx_facts t
  funext j
  show V m c main_arg23 (((cfg0.win 19).blk t).view.emb (ix1 j)) = V m c main_arg23 (ix1 j)
  refine congrArg _ (funext fun a => Fin.ext ?_)
  match a with
  | ⟨0, _⟩ => show win0_19.index t (0 : Fin 1) * 10 + 1 * j.val = j.val; omega

theorem res20 (t : Fin cfg0.N) : vec (iblk m c 20 t) = vec (V m c main_arg24 : S10.Idx → EReal) := by
  obtain ⟨e0_0, e0_1, e1_0, e1_1, e27_0, e27_1, e28_0, e28_1, e2_0, e2_1, e3_0, e3_1, e7_0, e7_1, e8_0, e8_1, e12_0, e12_1, e13_0, e13_1, e17_0, e17_1, e18_0, e18_1, e22_0, e22_1, e23_0, e23_1, e4_0, e5_0, e6_0, e9_0, e10_0, e11_0, e14_0, e15_0, e16_0, e19_0, e20_0, e21_0, e24_0, e25_0, e26_0⟩ := idx_facts t
  funext j
  show V m c main_arg24 (((cfg0.win 20).blk t).view.emb (ix1 j)) = V m c main_arg24 (ix1 j)
  refine congrArg _ (funext fun a => Fin.ext ?_)
  match a with
  | ⟨0, _⟩ => show win0_20.index t (0 : Fin 1) * 10 + 1 * j.val = j.val; omega

end Cert.KernelIdeal.Final

end
-- ==== Proof.KernelReads4.lean ====
/-
  A window's block at a grid point, read off its array: a resident window's block is its whole array; a tiled input's
  block at point t is rows 2000 t … 2000 t + 1999 of its table. (Part 4 of 4.)
-/
import proofs.«106524_j47382079209805_2_alg».proof.Proof.KernelFinalDefs

set_option maxRecDepth 16384

noncomputable section

namespace Cert.KernelIdeal.Final

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Around Cert.KernelIdeal.Tile Cert.NodeSpec

variable (m : (ℓ : Loc nD τ sig) → Buf (Elt Ideal) ℓ) (c : Dev nD)

theorem res21 (t : Fin cfg0.N) : vec (iblk m c 21 t) = vec (V m c main_arg25 : S10.Idx → EReal) := by
  obtain ⟨e0_0, e0_1, e1_0, e1_1, e27_0, e27_1, e28_0, e28_1, e2_0, e2_1, e3_0, e3_1, e7_0, e7_1, e8_0, e8_1, e12_0, e12_1, e13_0, e13_1, e17_0, e17_1, e18_0, e18_1, e22_0, e22_1, e23_0, e23_1, e4_0, e5_0, e6_0, e9_0, e10_0, e11_0, e14_0, e15_0, e16_0, e19_0, e20_0, e21_0, e24_0, e25_0, e26_0⟩ := idx_facts t
  funext j
  show V m c main_arg25 (((cfg0.win 21).blk t).view.emb (ix1 j)) = V m c main_arg25 (ix1 j)
  refine congrArg _ (funext fun a => Fin.ext ?_)
  match a with
  | ⟨0, _⟩ => show win0_21.index t (0 : Fin 1) * 10 + 1 * j.val = j.val; omega

theorem res22 (t : Fin cfg0.N) : mat (iblk m c 22 t) = mat (V m c main_v48 : S512x512.Idx → EReal) := by
  obtain ⟨e0_0, e0_1, e1_0, e1_1, e27_0, e27_1, e28_0, e28_1, e2_0, e2_1, e3_0, e3_1, e7_0, e7_1, e8_0, e8_1, e12_0, e12_1, e13_0, e13_1, e17_0, e17_1, e18_0, e18_1, e22_0, e22_1, e23_0, e23_1, e4_0, e5_0, e6_0, e9_0, e10_0, e11_0, e14_0, e15_0, e16_0, e19_0, e20_0, e21_0, e24_0, e25_0, e26_0⟩ := idx_facts t
  funext k j
  show V m c main_v48 (((cfg0.win 22).blk t).view.emb (ix2 k j)) = V m c main_v48 (ix2 k j)
  refine congrArg _ (funext fun a => Fin.ext ?_)
  match a with
  | ⟨0, _⟩ => show win0_22.index t (0 : Fin 2) * 512 + 1 * k.val = k.val; omega
  | ⟨1, _⟩ => show win0_22.index t (1 : Fin 2) * 512 + 1 * j.val = j.val; omega

theorem res23 (t : Fin cfg0.N) : mat (iblk m c 23 t) = mat (V m c main_v49 : S512x16.Idx → EReal) := by
  obtain ⟨e0_0, e0_1, e1_0, e1_1, e27_0, e27_1, e28_0, e28_1, e2_0, e2_1, e3_0, e3_1, e7_0, e7_1, e8_0, e8_1, e12_0, e12_1, e13_0, e13_1, e17_0, e17_1, e18_0, e18_1, e22_0, e22_1, e23_0, e23_1, e4_0, e5_0, e6_0, e9_0, e10_0, e11_0, e14_0, e15_0, e16_0, e19_0, e20_0, e21_0, e24_0, e25_0, e26_0⟩ := idx_facts t
  funext k j
  show V m c main_v49 (((cfg0.win 23).blk t).view.emb (ix2 k j)) = V m c main_v49 (ix2 k j)
  refine congrArg _ (funext fun a => Fin.ext ?_)
  match a with
  | ⟨0, _⟩ => show win0_23.index t (0 : Fin 2) * 512 + 1 * k.val = k.val; omega
  | ⟨1, _⟩ => show win0_23.index t (1 : Fin 2) * 16 + 1 * j.val = j.val; omega

theorem res24 (t : Fin cfg0.N) : vec (iblk m c 24 t) = vec (V m c main_arg28 : S16.Idx → EReal) := by
  obtain ⟨e0_0, e0_1, e1_0, e1_1, e27_0, e27_1, e28_0, e28_1, e2_0, e2_1, e3_0, e3_1, e7_0, e7_1, e8_0, e8_1, e12_0, e12_1, e13_0, e13_1, e17_0, e17_1, e18_0, e18_1, e22_0, e22_1, e23_0, e23_1, e4_0, e5_0, e6_0, e9_0, e10_0, e11_0, e14_0, e15_0, e16_0, e19_0, e20_0, e21_0, e24_0, e25_0, e26_0⟩ := idx_facts t
  funext j
  show V m c main_arg28 (((cfg0.win 24).blk t).view.emb (ix1 j)) = V m c main_arg28 (ix1 j)
  refine congrArg _ (funext fun a => Fin.ext ?_)
  match a with
  | ⟨0, _⟩ => show win0_24.index t (0 : Fin 1) * 16 + 1 * j.val = j.val; omega

theorem res25 (t : Fin cfg0.N) : vec (iblk m c 25 t) = vec (V m c main_arg29 : S16.Idx → EReal) := by
  obtain ⟨e0_0, e0_1, e1_0, e1_1, e27_0, e27_1, e28_0, e28_1, e2_0, e2_1, e3_0, e3_1, e7_0, e7_1, e8_0, e8_1, e12_0, e12_1, e13_0, e13_1, e17_0, e17_1, e18_0, e18_1, e22_0, e22_1, e23_0, e23_1, e4_0, e5_0, e6_0, e9_0, e10_0, e11_0, e14_0, e15_0, e16_0, e19_0, e20_0, e21_0, e24_0, e25_0, e26_0⟩ := idx_facts t
  funext j
  show V m c main_arg29 (((cfg0.win 25).blk t).view.emb (ix1 j)) = V m c main_arg29 (ix1 j)
  refine congrArg _ (funext fun a => Fin.ext ?_)
  match a with
  | ⟨0, _⟩ => show win0_25.index t (0 : Fin 1) * 16 + 1 * j.val = j.val; omega

theorem res26 (t : Fin cfg0.N) : vec (iblk m c 26 t) = vec (V m c main_arg30 : S16.Idx → EReal) := by
  obtain ⟨e0_0, e0_1, e1_0, e1_1, e27_0, e27_1, e28_0, e28_1, e2_0, e2_1, e3_0, e3_1, e7_0, e7_1, e8_0, e8_1, e12_0, e12_1, e13_0, e13_1, e17_0, e17_1, e18_0, e18_1, e22_0, e22_1, e23_0, e23_1, e4_0, e5_0, e6_0, e9_0, e10_0, e11_0, e14_0, e15_0, e16_0, e19_0, e20_0, e21_0, e24_0, e25_0, e26_0⟩ := idx_facts t
  funext j
  show V m c main_arg30 (((cfg0.win 26).blk t).view.emb (ix1 j)) = V m c main_arg30 (ix1 j)
  refine congrArg _ (funext fun a => Fin.ext ?_)
  match a with
  | ⟨0, _⟩ => show win0_26.index t (0 : Fin 1) * 16 + 1 * j.val = j.val; omega

end Cert.KernelIdeal.Final

end
-- ==== Proof.KernelFlushedS.lean ====
/-
  What grid point t writes back to the scores array is block t of the row-by-row scores function: the body's scores
  tile of the point's input blocks, each block read off its array.
-/
import proofs.«106524_j47382079209805_2_alg».proof.Proof.KernelReads1
import proofs.«106524_j47382079209805_2_alg».proof.Proof.KernelReads2
import proofs.«106524_j47382079209805_2_alg».proof.Proof.KernelReads3
import proofs.«106524_j47382079209805_2_alg».proof.Proof.KernelReads4

set_option maxRecDepth 16384

noncomputable section

namespace Cert.KernelIdeal.Final

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Around Cert.KernelIdeal.Tile Cert.NodeSpec

variable (m : (ℓ : Loc nD τ sig) → Buf (Elt Ideal) ℓ) (c : Dev nD)

set_option maxHeartbeats 8000000 in
/-- What point `t` writes back to the scores array is block `t` of `scoresG`. -/
theorem scores_flushed (t : Fin cfg0.N) :
    (dats m 0 c).flushed 27 t = ((cfg0.win 27).blk t).view.read (Elt Ideal) (scoresG m c) := by
  show (cfg0.win 27).cut (grid0.coords t) ((dats m 0 c).after 27 t) = _
  rw [after27]
  unfold scoresOut
  rw [View.canon_unit_zero hz2]
  simp only [View.ld_unit_zero (S := S2000x10) hz2, View.ld_unit_zero (S := S2000x24) hz2, View.ld_unit_zero (S := S10x256) hz2, View.ld_unit_zero (S := S24x256) hz2, View.ld_unit_zero (S := S256x512) hz2, View.ld_unit_zero (S := S24x512) hz2, View.ld_unit_zero (S := S512x256) hz2, View.ld_unit_zero (S := S256x10) hz2, View.ld_unit_zero (S := S24x10) hz2, View.ld_unit_zero (S := S512x512) hz2, View.ld_unit_zero (S := S512x16) hz2, View.ld_unit_zero (S := S2000x16) hz2, View.ld_unit_zero (S := S256) hz1, View.ld_unit_zero (S := S512) hz1, View.ld_unit_zero (S := S10) hz1, View.ld_unit_zero (S := S16) hz1]
  obtain ⟨e0_0, e0_1, e1_0, e1_1, e27_0, e27_1, e28_0, e28_1, e2_0, e2_1, e3_0, e3_1, e7_0, e7_1, e8_0, e8_1, e12_0, e12_1, e13_0, e13_1, e17_0, e17_1, e18_0, e18_1, e22_0, e22_1, e23_0, e23_1, e4_0, e5_0, e6_0, e9_0, e10_0, e11_0, e14_0, e15_0, e16_0, e19_0, e20_0, e21_0, e24_0, e25_0, e26_0⟩ := idx_facts t
  funext y
  obtain ⟨p, q, rfl⟩ : ∃ (p : Fin 2000) (q : Fin 16), y = ix2 p q := ⟨y 0, y 1, eq_ix2 y⟩
  refine (scores_tile (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 23 t) (iblk m c 24 t) (iblk m c 25 t) (iblk m c 26 t) p q).trans ?_
  show _ = scoresG m c (((cfg0.win 27).blk t).view.emb (ix2 p q))
  have hemb : ((cfg0.win 27).blk t).view.emb (ix2 p q) = (ix2 ⟨t.val * 2000 + p.val, row_lt t p⟩ q : S100000x16.Idx) := by
    funext a; apply Fin.ext
    match a with
    | ⟨0, _⟩ => show win0_27.index t (0 : Fin 2) * 2000 + 1 * p.val = t.val * 2000 + p.val; omega
    | ⟨1, _⟩ => show win0_27.index t (1 : Fin 2) * 16 + 1 * q.val = q.val; omega
  rw [hemb]
  unfold scoresG encAt
  rw [tile0 m c t p (row_lt t p), tile1 m c t p (row_lt t p), res2 m c t, res3 m c t, res4 m c t, res5 m c t, res6 m c t, res7 m c t, res8 m c t, res9 m c t, res10 m c t, res11 m c t, res23 m c t, res24 m c t, res25 m c t, res26 m c t]

end Cert.KernelIdeal.Final

end
-- ==== Proof.KernelFlushedR.lean ====
/-
  What grid point t writes back to the reconstruction array is block t of the row-by-row reconstruction function.
-/
import proofs.«106524_j47382079209805_2_alg».proof.Proof.KernelReads1
import proofs.«106524_j47382079209805_2_alg».proof.Proof.KernelReads2
import proofs.«106524_j47382079209805_2_alg».proof.Proof.KernelReads3
import proofs.«106524_j47382079209805_2_alg».proof.Proof.KernelReads4

set_option maxRecDepth 16384

noncomputable section

namespace Cert.KernelIdeal.Final

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Around Cert.KernelIdeal.Tile Cert.NodeSpec

variable (m : (ℓ : Loc nD τ sig) → Buf (Elt Ideal) ℓ) (c : Dev nD)

set_option maxHeartbeats 8000000 in
/-- What point `t` writes back to the reconstruction array is block `t` of `reconG`. -/
theorem recon_flushed (t : Fin cfg0.N) :
    (dats m 0 c).flushed 28 t = ((cfg0.win 28).blk t).view.read (Elt Ideal) (reconG m c) := by
  show (cfg0.win 28).cut (grid0.coords t) ((dats m 0 c).after 28 t) = _
  rw [after28]
  unfold reconOut
  rw [View.canon_unit_zero hz2]
  simp only [View.ld_unit_zero (S := S2000x10) hz2, View.ld_unit_zero (S := S2000x24) hz2, View.ld_unit_zero (S := S10x256) hz2, View.ld_unit_zero (S := S24x256) hz2, View.ld_unit_zero (S := S256x512) hz2, View.ld_unit_zero (S := S24x512) hz2, View.ld_unit_zero (S := S512x256) hz2, View.ld_unit_zero (S := S256x10) hz2, View.ld_unit_zero (S := S24x10) hz2, View.ld_unit_zero (S := S512x512) hz2, View.ld_unit_zero (S := S512x16) hz2, View.ld_unit_zero (S := S2000x16) hz2, View.ld_unit_zero (S := S256) hz1, View.ld_unit_zero (S := S512) hz1, View.ld_unit_zero (S := S10) hz1, View.ld_unit_zero (S := S16) hz1]
  obtain ⟨e0_0, e0_1, e1_0, e1_1, e27_0, e27_1, e28_0, e28_1, e2_0, e2_1, e3_0, e3_1, e7_0, e7_1, e8_0, e8_1, e12_0, e12_1, e13_0, e13_1, e17_0, e17_1, e18_0, e18_1, e22_0, e22_1, e23_0, e23_1, e4_0, e5_0, e6_0, e9_0, e10_0, e11_0, e14_0, e15_0, e16_0, e19_0, e20_0, e21_0, e24_0, e25_0, e26_0⟩ := idx_facts t
  funext y
  obtain ⟨p, q, rfl⟩ : ∃ (p : Fin 2000) (q : Fin 10), y = ix2 p q := ⟨y 0, y 1, eq_ix2 y⟩
  refine (recon_tile (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) p q).trans ?_
  show _ = reconG m c (((cfg0.win 28).blk t).view.emb (ix2 p q))
  have hemb : ((cfg0.win 28).blk t).view.emb (ix2 p q) = (ix2 ⟨t.val * 2000 + p.val, row_lt t p⟩ q : S100000x10.Idx) := by
    funext a; apply Fin.ext
    match a with
    | ⟨0, _⟩ => show win0_28.index t (0 : Fin 2) * 2000 + 1 * p.val = t.val * 2000 + p.val; omega
    | ⟨1, _⟩ => show win0_28.index t (1 : Fin 2) * 10 + 1 * q.val = q.val; omega
  rw [hemb]
  unfold reconG encAt
  rw [tile0 m c t p (row_lt t p), tile1 m c t p (row_lt t p), res2 m c t, res3 m c t, res4 m c t, res5 m c t, res6 m c t, res7 m c t, res8 m c t, res9 m c t, res10 m c t, res11 m c t, res12 m c t, res13 m c t, res14 m c t, res15 m c t, res16 m c t, res17 m c t, res18 m c t, res19 m c t, res20 m c t, res21 m c t, res22 m c t]

end Cert.KernelIdeal.Final

end
-- ==== Proof.KernelFinal.lean ====
/-
  The fifty blocks of 2000 rows cover all 100000 rows of each output array, so after the run each output array is its
  row-by-row function whole.
-/
import proofs.«106524_j47382079209805_2_alg».proof.Proof.KernelFlushedS
import proofs.«106524_j47382079209805_2_alg».proof.Proof.KernelFlushedR

set_option maxRecDepth 16384

noncomputable section

namespace Cert.KernelIdeal.Final

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Around Cert.KernelIdeal.Tile Cert.NodeSpec

variable (m : (ℓ : Loc nD τ sig) → Buf (Elt Ideal) ℓ) (c : Dev nD)

/-- An index of an output array lies in point `t`'s block iff its row does. -/
theorem mem_blk27 (t : Fin cfg0.N) (i : S100000x16.Idx) :
    i ∈ ((cfg0.win 27).blk t).view.set ↔ ∀ a : Fin 2, win0_27.index t a * S2000x16.size a ≤ (i a).val ∧ (i a).val < win0_27.index t a * S2000x16.size a + S2000x16.size a := by
  show i ∈ ((View.whole main_v50_0).slice (win0_27.rect t)).set ↔ _
  rw [View.set_slice_whole, Rect.mem_set_unit]
  exact Iff.rfl
theorem mem_blk28 (t : Fin cfg0.N) (i : S100000x10.Idx) :
    i ∈ ((cfg0.win 28).blk t).view.set ↔ ∀ a : Fin 2, win0_28.index t a * S2000x10.size a ≤ (i a).val ∧ (i a).val < win0_28.index t a * S2000x10.size a + S2000x10.size a := by
  show i ∈ ((View.whole main_v50_1).slice (win0_28.rect t)).set ↔ _
  rw [View.set_slice_whole, Rect.mem_set_unit]
  exact Iff.rfl

/-- Every row is in the block of the point `row / 2000`. -/
theorem scores_cover (i : S100000x16.Idx) : ∃ t : Fin cfg0.N, (cfg0.win 27).flush t = true ∧ i ∈ ((cfg0.win 27).blk t).view.set := by
  have hi0 : (i 0).val < 100000 := (i 0).isLt
  have hi1 : (i 1).val < 16 := (i 1).isLt
  have hN : cfg0.N = 50 := N_0
  let t : Fin cfg0.N := ⟨(i 0).val / 2000, by rw [hN]; omega⟩
  obtain ⟨e0_0, e0_1, e1_0, e1_1, e27_0, e27_1, e28_0, e28_1, e2_0, e2_1, e3_0, e3_1, e7_0, e7_1, e8_0, e8_1, e12_0, e12_1, e13_0, e13_1, e17_0, e17_1, e18_0, e18_1, e22_0, e22_1, e23_0, e23_1, e4_0, e5_0, e6_0, e9_0, e10_0, e11_0, e14_0, e15_0, e16_0, e19_0, e20_0, e21_0, e24_0, e25_0, e26_0⟩ := idx_facts t
  refine ⟨t, flush0_27 t, ?_⟩
  rw [mem_blk27]
  have ht : t.val = (i 0).val / 2000 := rfl
  intro a
  match a with
  | ⟨0, _⟩ => show win0_27.index t (0 : Fin 2) * 2000 ≤ (i 0).val ∧ (i 0).val < win0_27.index t (0 : Fin 2) * 2000 + 2000; omega
  | ⟨1, _⟩ => show win0_27.index t (1 : Fin 2) * 16 ≤ (i 1).val ∧ (i 1).val < win0_27.index t (1 : Fin 2) * 16 + 16; omega
theorem recon_cover (i : S100000x10.Idx) : ∃ t : Fin cfg0.N, (cfg0.win 28).flush t = true ∧ i ∈ ((cfg0.win 28).blk t).view.set := by
  have hi0 : (i 0).val < 100000 := (i 0).isLt
  have hi1 : (i 1).val < 10 := (i 1).isLt
  have hN : cfg0.N = 50 := N_0
  let t : Fin cfg0.N := ⟨(i 0).val / 2000, by rw [hN]; omega⟩
  obtain ⟨e0_0, e0_1, e1_0, e1_1, e27_0, e27_1, e28_0, e28_1, e2_0, e2_1, e3_0, e3_1, e7_0, e7_1, e8_0, e8_1, e12_0, e12_1, e13_0, e13_1, e17_0, e17_1, e18_0, e18_1, e22_0, e22_1, e23_0, e23_1, e4_0, e5_0, e6_0, e9_0, e10_0, e11_0, e14_0, e15_0, e16_0, e19_0, e20_0, e21_0, e24_0, e25_0, e26_0⟩ := idx_facts t
  refine ⟨t, flush0_28 t, ?_⟩
  rw [mem_blk28]
  have ht : t.val = (i 0).val / 2000 := rfl
  intro a
  match a with
  | ⟨0, _⟩ => show win0_28.index t (0 : Fin 2) * 2000 ≤ (i 0).val ∧ (i 0).val < win0_28.index t (0 : Fin 2) * 2000 + 2000; omega
  | ⟨1, _⟩ => show win0_28.index t (1 : Fin 2) * 10 ≤ (i 1).val ∧ (i 1).val < win0_28.index t (1 : Fin 2) * 10 + 10; omega

/-- The two output arrays after the run. -/
theorem scores_final : (dats m 0 c).arrAt 27 cfg0.N = scoresG m c :=
  (dats m 0 c).arrAt_eq_of_cover 27 (scoresG m c) (fun t _ => scores_flushed m c t) (scores_cover)
theorem recon_final : (dats m 0 c).arrAt 28 cfg0.N = reconG m c :=
  (dats m 0 c).arrAt_eq_of_cover 28 (reconG m c) (fun t _ => recon_flushed m c t) (recon_cover)

end Cert.KernelIdeal.Final

end
-- ==== Proof.KernelHostTerms.lean ====
/-
  The kernel program's host prefix as terms of its arguments: the normalised neighbourhood sums (five per-destination
  edge sums laid side by side as 24 columns, each row scaled by the node's normalisation factor) and the masked node
  features (the mask token written over the masked rows).
-/
import proofs.«106524_j47382079209805_2_alg».proof.KernelIdeal
import proofs.«106524_j47382079209805_2_alg».proof.Proof.Gen.KernelIdeal

noncomputable section

namespace Cert.KernelIdeal.HostTerms

open Idealize.ShloMosaic Cert.KernelIdeal Cert.KernelIdeal.Gen

variable {F : FTy → Type} [FloatOps F]

/-- An index array with negative entries wrapped by the table's 100000 rows, as a column of indices. -/
def wrapE (ix : (⟨S3200000, .i32⟩ : BufTy).Contents (Elt F)) : (⟨S3200000x1, .i32⟩ : BufTy).Contents (Elt F) :=
  broadcastInDim S3200000x1 ![0] bcast_S3200000_S3200000x1_0
    (select (cmpi .slt ix (broadcastInDim S3200000 ![] bcast_S_S3200000 (constantI S_ 32 0#32)))
      (addi ix (broadcastInDim S3200000 ![] bcast_S_S3200000 (constantI S_ 32 100000#32))) ix)

/-- The destination indices as a column (not wrapped: the scatter drops what is out of range). -/
def dstCol (x7 : (⟨S3200000, .i32⟩ : BufTy).Contents (Elt F)) : (⟨S3200000x1, .i32⟩ : BufTy).Contents (Elt F) :=
  broadcastInDim S3200000x1 ![0] bcast_S3200000_S3200000x1_0 x7

/-- The five per-destination sums, side by side. -/
def nbrSums (x0 : (⟨S100000x10, .f32⟩ : BufTy).Contents (Elt F)) (x1 x2 : (⟨S3200000, .f32⟩ : BufTy).Contents (Elt F)) (x3 : (⟨S3200000x8, .f32⟩ : BufTy).Contents (Elt F))
    (x4 : (⟨S3200000x4, .f32⟩ : BufTy).Contents (Elt F)) (x6 x7 : (⟨S3200000, .i32⟩ : BufTy).Contents (Elt F)) : (⟨S100000x24, .f32⟩ : BufTy).Contents (Elt F) :=
  concatenate S100000x24 1
    [⟨S100000x10, Host.scatterAdd scatter_S100000x10_S3200000x1_S3200000x10_1_0_0_1
        (broadcastInDim S100000x10 ![] bcast_S_S100000x10 (constant S_ .f32 0x00000000#32)) (dstCol x7)
        (Host.gather gather_S100000x10_S3200000x1_S3200000x10_1_0_n_n_0_1_110 x0 (wrapE x6))⟩,
     ⟨S100000x1, Host.scatterAdd scatter_S100000x1_S3200000x1_S3200000x1_1_0_0_1
        (broadcastInDim S100000x1 ![] bcast_S_S100000x1 (constant S_ .f32 0x00000000#32)) (dstCol x7)
        (broadcastInDim S3200000x1 ![0] bcast_S3200000_S3200000x1_0 x1)⟩,
     ⟨S100000x1, Host.scatterAdd scatter_S100000x1_S3200000x1_S3200000x1_1_0_0_1
        (broadcastInDim S100000x1 ![] bcast_S_S100000x1 (constant S_ .f32 0x00000000#32)) (dstCol x7)
        (broadcastInDim S3200000x1 ![0] bcast_S3200000_S3200000x1_0 x2)⟩,
     ⟨S100000x8, Host.scatterAdd scatter_S100000x8_S3200000x1_S3200000x8_1_0_0_1
        (broadcastInDim S100000x8 ![] bcast_S_S100000x8 (constant S_ .f32 0x00000000#32)) (dstCol x7) x3⟩,
     ⟨S100000x4, Host.scatterAdd scatter_S100000x4_S3200000x1_S3200000x4_1_0_0_1
        (broadcastInDim S100000x4 ![] bcast_S_S100000x4 (constant S_ .f32 0x00000000#32)) (dstCol x7) x4⟩]
    concatenates_S100000x10_S100000x1_S100000x1_S100000x8_S100000x4_S100000x24_d1

/-- The normalised neighbourhood sums: each row of the sums times that node's factor. -/
def nbrNorm (x0 : (⟨S100000x10, .f32⟩ : BufTy).Contents (Elt F)) (x1 x2 : (⟨S3200000, .f32⟩ : BufTy).Contents (Elt F)) (x3 : (⟨S3200000x8, .f32⟩ : BufTy).Contents (Elt F))
    (x4 : (⟨S3200000x4, .f32⟩ : BufTy).Contents (Elt F)) (x5 : (⟨S100000x1, .f32⟩ : BufTy).Contents (Elt F)) (x6 x7 : (⟨S3200000, .i32⟩ : BufTy).Contents (Elt F)) : (⟨S100000x24, .f32⟩ : BufTy).Contents (Elt F) :=
  mulf (nbrSums x0 x1 x2 x3 x4 x6 x7) (broadcastInDim S100000x24 ![0, 1] bcast_S100000x1_S100000x24_0_1 x5)

/-- The masked node features: the mask token written over the rows the (wrapped) mask indices name. -/
def maskedX (x0 : (⟨S100000x10, .f32⟩ : BufTy).Contents (Elt F)) (x8 : (⟨S20000, .i32⟩ : BufTy).Contents (Elt F)) (x9 : (⟨S1x10, .f32⟩ : BufTy).Contents (Elt F)) : (⟨S100000x10, .f32⟩ : BufTy).Contents (Elt F) :=
  Host.scatter scatter_S100000x10_S20000x1_S20000x10_1_0_0_1 (fun _ b => b) x0
    (broadcastInDim S20000x1 ![0] bcast_S20000_S20000x1_0
      (select (cmpi .slt x8 (broadcastInDim S20000 ![] bcast_S_S20000 (constantI S_ 32 0#32)))
        (addi x8 (broadcastInDim S20000 ![] bcast_S_S20000 (constantI S_ 32 100000#32))) x8))
    (broadcastInDim S20000x10 ![1] bcast_S10_S20000x10_1 (shapeCast S10 x9 shapeCasts_S1x10_S10))

end Cert.KernelIdeal.HostTerms

end
-- ==== Proof.WeightCuts.lean ====
/-
  A weight matrix `[o, i]` transposed and cut along its rows, read as a matrix: entry (k, j) of the cut that starts at
  row `lo` of the transpose is the weight at (j, lo + k); the whole transpose is the cut from row 0.
-/
import Idealize.ShloMosaic.Lib.ValueIdx
import Idealize.ShloMosaic.Lib.Pipeline.Value
import Idealize.ShloMosaic.Lib.ValueLayout
import proofs.«106524_j47382079209805_2_alg».proof.Proof.NodeSpec

noncomputable section

namespace Cert.WeightCuts

open Idealize.ShloMosaic Idealize.ShloMosaic.ValueIdx Cert.NodeSpec

theorem cut_mat {o i d : ℕ} (lo : ℕ) (hd : lo + d ≤ i) (W : (⟨2, ![o, i]⟩ : Shape).Idx → EReal)
    (tr : (⟨2, ![o, i]⟩ : Shape).Transposes [1, 0] ⟨2, ![i, o]⟩) (sl : (⟨2, ![i, o]⟩ : Shape).Slices ![lo, 0] ⟨2, ![d, o]⟩) :
    mat (extractStridedSlice ⟨2, ![d, o]⟩ ![lo, 0] (transpose ⟨2, ![i, o]⟩ [1, 0] W tr) sl) = wT W lo d hd := by
  funext k j
  show extractStridedSlice ⟨2, ![d, o]⟩ ![lo, 0] (transpose ⟨2, ![i, o]⟩ [1, 0] W tr) sl (ix2 k j) = W (ix2 j ⟨lo + k.val, _⟩)
  rw [slice2_axis0_apply lo _ sl k j ⟨lo + k.val, by have := k.isLt; omega⟩ rfl, transpose_ix2_apply]

theorem transpose_mat {o i : ℕ} (W : (⟨2, ![o, i]⟩ : Shape).Idx → EReal)
    (tr : (⟨2, ![o, i]⟩ : Shape).Transposes [1, 0] ⟨2, ![i, o]⟩) :
    mat (transpose ⟨2, ![i, o]⟩ [1, 0] W tr) = wT W 0 i (by omega) := by
  funext k j
  show transpose ⟨2, ![i, o]⟩ [1, 0] W tr (ix2 k j) = W (ix2 j ⟨0 + k.val, _⟩)
  rw [transpose_ix2_apply]
  exact congrArg W (congrArg (ix2 j) (Fin.ext (Nat.zero_add _).symm))

end Cert.WeightCuts

end
-- ==== Proof.KernelEntry.lean ====
/-
  What the arrays the call tiles over hold when it is entered, as terms of the argument arrays: the masked features,
  the normalised neighbourhood sums, and each layer's transposed weight cut into its top rows (against the row's own
  features) and its bottom 24 rows (against the neighbourhood features); the two head matrices are plain transposes.
  Then each cut read as a matrix: entry (k, j) of a cut starting at row `lo` of the transpose is the weight at (j, lo + k).
-/
import proofs.«106524_j47382079209805_2_alg».proof.Proof.KernelIdealAround
import proofs.«106524_j47382079209805_2_alg».proof.Proof.KernelHostTerms
import proofs.«106524_j47382079209805_2_alg».proof.Proof.LibNary5
import proofs.«106524_j47382079209805_2_alg».proof.Proof.NodeSpec
import proofs.«106524_j47382079209805_2_alg».proof.Proof.WeightCuts
import Idealize.ShloMosaic.Lib.ValueLayout

set_option maxRecDepth 16384

noncomputable section

namespace Cert.KernelIdeal.Entry

open Idealize.ShloMosaic Idealize.ShloMosaic.TcCoe Idealize.ShloMosaic.StableHlo Idealize.SL.Sem Idealize.ShloMosaic.ValueIdx
open Cert.KernelIdeal Cert.KernelIdeal.Gen Cert.KernelIdeal.Around Cert.KernelIdeal.HostTerms Cert.NodeSpec

variable {F : FTy → Type} [FloatOps F]
variable (m : (ℓ : Loc nD τ sig) → Buf (Elt F) ℓ) (c : Dev nD)

theorem V_maskedX : V m c main_v35 = maskedX (m ((c : Thread nD τ).loc main_arg0)) (m ((c : Thread nD τ).loc main_arg8)) (m ((c : Thread nD τ).loc main_arg9)) := by
  show StableHlo.after hostOps0 (fun b => m (c, b)) (Proc.devRef .tc main_v35) = _
  after_results_five <;> rfl

theorem V_nbrNorm : V m c main_v26 = nbrNorm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps0 (fun b => m (c, b)) (Proc.devRef .tc main_v26) = _
  after_results_five <;> rfl

theorem V_main_v37 : V m c main_v37 = extractStridedSlice S10x256 ![0, 0] (transpose S34x256 [1, 0] (m ((c : Thread nD τ).loc main_arg10)) transposes_S256x34_S34x256_1_0) slices_S34x256_S10x256_0_0 := by
  show StableHlo.after hostOps0 (fun b => m (c, b)) (Proc.devRef .tc main_v37) = _
  after_results_five <;> rfl
theorem V_main_v38 : V m c main_v38 = extractStridedSlice S24x256 ![10, 0] (transpose S34x256 [1, 0] (m ((c : Thread nD τ).loc main_arg10)) transposes_S256x34_S34x256_1_0) slices_S34x256_S24x256_10_0 := by
  show StableHlo.after hostOps0 (fun b => m (c, b)) (Proc.devRef .tc main_v38) = _
  after_results_five <;> rfl
theorem V_main_v40 : V m c main_v40 = extractStridedSlice S256x512 ![0, 0] (transpose S280x512 [1, 0] (m ((c : Thread nD τ).loc main_arg14)) transposes_S512x280_S280x512_1_0) slices_S280x512_S256x512_0_0 := by
  show StableHlo.after hostOps0 (fun b => m (c, b)) (Proc.devRef .tc main_v40) = _
  after_results_five <;> rfl
theorem V_main_v41 : V m c main_v41 = extractStridedSlice S24x512 ![256, 0] (transpose S280x512 [1, 0] (m ((c : Thread nD τ).loc main_arg14)) transposes_S512x280_S280x512_1_0) slices_S280x512_S24x512_256_0 := by
  show StableHlo.after hostOps0 (fun b => m (c, b)) (Proc.devRef .tc main_v41) = _
  after_results_five <;> rfl
theorem V_main_v43 : V m c main_v43 = extractStridedSlice S512x256 ![0, 0] (transpose S536x256 [1, 0] (m ((c : Thread nD τ).loc main_arg18)) transposes_S256x536_S536x256_1_0) slices_S536x256_S512x256_0_0 := by
  show StableHlo.after hostOps0 (fun b => m (c, b)) (Proc.devRef .tc main_v43) = _
  after_results_five <;> rfl
theorem V_main_v44 : V m c main_v44 = extractStridedSlice S24x256 ![512, 0] (transpose S536x256 [1, 0] (m ((c : Thread nD τ).loc main_arg18)) transposes_S256x536_S536x256_1_0) slices_S536x256_S24x256_512_0 := by
  show StableHlo.after hostOps0 (fun b => m (c, b)) (Proc.devRef .tc main_v44) = _
  after_results_five <;> rfl
theorem V_main_v46 : V m c main_v46 = extractStridedSlice S256x10 ![0, 0] (transpose S280x10 [1, 0] (m ((c : Thread nD τ).loc main_arg22)) transposes_S10x280_S280x10_1_0) slices_S280x10_S256x10_0_0 := by
  show StableHlo.after hostOps0 (fun b => m (c, b)) (Proc.devRef .tc main_v46) = _
  after_results_five <;> rfl
theorem V_main_v47 : V m c main_v47 = extractStridedSlice S24x10 ![256, 0] (transpose S280x10 [1, 0] (m ((c : Thread nD τ).loc main_arg22)) transposes_S10x280_S280x10_1_0) slices_S280x10_S24x10_256_0 := by
  show StableHlo.after hostOps0 (fun b => m (c, b)) (Proc.devRef .tc main_v47) = _
  after_results_five <;> rfl
theorem V_main_v48 : V m c main_v48 = transpose S512x512 [1, 0] (m ((c : Thread nD τ).loc main_arg26)) transposes_S512x512_S512x512_1_0 := by
  show StableHlo.after hostOps0 (fun b => m (c, b)) (Proc.devRef .tc main_v48) = _
  after_results_five <;> rfl
theorem V_main_v49 : V m c main_v49 = transpose S512x16 [1, 0] (m ((c : Thread nD τ).loc main_arg27)) transposes_S16x512_S512x16_1_0 := by
  show StableHlo.after hostOps0 (fun b => m (c, b)) (Proc.devRef .tc main_v49) = _
  after_results_five <;> rfl

/-! ## The same arrays read as matrices and vectors, on the extended reals -/

section AtIdeal

variable (m : (ℓ : Loc nD τ sig) → Buf (Elt Ideal) ℓ) (c : Dev nD)

theorem mat_main_v37 : mat (V m c main_v37 : S10x256.Idx → EReal) = wT (m ((c : Thread nD τ).loc main_arg10) : S256x34.Idx → EReal) 0 10 (by decide) := by
  rw [V_main_v37]; exact Cert.WeightCuts.cut_mat 0 _ _ _ _
theorem mat_main_v38 : mat (V m c main_v38 : S24x256.Idx → EReal) = wT (m ((c : Thread nD τ).loc main_arg10) : S256x34.Idx → EReal) 10 24 (by decide) := by
  rw [V_main_v38]; exact Cert.WeightCuts.cut_mat 10 _ _ _ _
theorem mat_main_v40 : mat (V m c main_v40 : S256x512.Idx → EReal) = wT (m ((c : Thread nD τ).loc main_arg14) : S512x280.Idx → EReal) 0 256 (by decide) := by
  rw [V_main_v40]; exact Cert.WeightCuts.cut_mat 0 _ _ _ _
theorem mat_main_v41 : mat (V m c main_v41 : S24x512.Idx → EReal) = wT (m ((c : Thread nD τ).loc main_arg14) : S512x280.Idx → EReal) 256 24 (by decide) := by
  rw [V_main_v41]; exact Cert.WeightCuts.cut_mat 256 _ _ _ _
theorem mat_main_v43 : mat (V m c main_v43 : S512x256.Idx → EReal) = wT (m ((c : Thread nD τ).loc main_arg18) : S256x536.Idx → EReal) 0 512 (by decide) := by
  rw [V_main_v43]; exact Cert.WeightCuts.cut_mat 0 _ _ _ _
theorem mat_main_v44 : mat (V m c main_v44 : S24x256.Idx → EReal) = wT (m ((c : Thread nD τ).loc main_arg18) : S256x536.Idx → EReal) 512 24 (by decide) := by
  rw [V_main_v44]; exact Cert.WeightCuts.cut_mat 512 _ _ _ _
theorem mat_main_v46 : mat (V m c main_v46 : S256x10.Idx → EReal) = wT (m ((c : Thread nD τ).loc main_arg22) : S10x280.Idx → EReal) 0 256 (by decide) := by
  rw [V_main_v46]; exact Cert.WeightCuts.cut_mat 0 _ _ _ _
theorem mat_main_v47 : mat (V m c main_v47 : S24x10.Idx → EReal) = wT (m ((c : Thread nD τ).loc main_arg22) : S10x280.Idx → EReal) 256 24 (by decide) := by
  rw [V_main_v47]; exact Cert.WeightCuts.cut_mat 256 _ _ _ _
theorem mat_main_v48 : mat (V m c main_v48 : S512x512.Idx → EReal) = wT (m ((c : Thread nD τ).loc main_arg26) : S512x512.Idx → EReal) 0 512 (by decide) := by
  rw [V_main_v48]; exact Cert.WeightCuts.transpose_mat _ _
theorem mat_main_v49 : mat (V m c main_v49 : S512x16.Idx → EReal) = wT (m ((c : Thread nD τ).loc main_arg27) : S16x512.Idx → EReal) 0 512 (by decide) := by
  rw [V_main_v49]; exact Cert.WeightCuts.transpose_mat _ _
theorem vec_main_arg11 : vec (V m c main_arg11 : S256.Idx → EReal) = vec (m ((c : Thread nD τ).loc main_arg11) : S256.Idx → EReal) := by
  rw [entry_main_arg11]
theorem vec_main_arg12 : vec (V m c main_arg12 : S256.Idx → EReal) = vec (m ((c : Thread nD τ).loc main_arg12) : S256.Idx → EReal) := by
  rw [entry_main_arg12]
theorem vec_main_arg13 : vec (V m c main_arg13 : S256.Idx → EReal) = vec (m ((c : Thread nD τ).loc main_arg13) : S256.Idx → EReal) := by
  rw [entry_main_arg13]
theorem vec_main_arg15 : vec (V m c main_arg15 : S512.Idx → EReal) = vec (m ((c : Thread nD τ).loc main_arg15) : S512.Idx → EReal) := by
  rw [entry_main_arg15]
theorem vec_main_arg16 : vec (V m c main_arg16 : S512.Idx → EReal) = vec (m ((c : Thread nD τ).loc main_arg16) : S512.Idx → EReal) := by
  rw [entry_main_arg16]
theorem vec_main_arg17 : vec (V m c main_arg17 : S512.Idx → EReal) = vec (m ((c : Thread nD τ).loc main_arg17) : S512.Idx → EReal) := by
  rw [entry_main_arg17]
theorem vec_main_arg19 : vec (V m c main_arg19 : S256.Idx → EReal) = vec (m ((c : Thread nD τ).loc main_arg19) : S256.Idx → EReal) := by
  rw [entry_main_arg19]
theorem vec_main_arg20 : vec (V m c main_arg20 : S256.Idx → EReal) = vec (m ((c : Thread nD τ).loc main_arg20) : S256.Idx → EReal) := by
  rw [entry_main_arg20]
theorem vec_main_arg21 : vec (V m c main_arg21 : S256.Idx → EReal) = vec (m ((c : Thread nD τ).loc main_arg21) : S256.Idx → EReal) := by
  rw [entry_main_arg21]
theorem vec_main_arg23 : vec (V m c main_arg23 : S10.Idx → EReal) = vec (m ((c : Thread nD τ).loc main_arg23) : S10.Idx → EReal) := by
  rw [entry_main_arg23]
theorem vec_main_arg24 : vec (V m c main_arg24 : S10.Idx → EReal) = vec (m ((c : Thread nD τ).loc main_arg24) : S10.Idx → EReal) := by
  rw [entry_main_arg24]
theorem vec_main_arg25 : vec (V m c main_arg25 : S10.Idx → EReal) = vec (m ((c : Thread nD τ).loc main_arg25) : S10.Idx → EReal) := by
  rw [entry_main_arg25]
theorem vec_main_arg28 : vec (V m c main_arg28 : S16.Idx → EReal) = vec (m ((c : Thread nD τ).loc main_arg28) : S16.Idx → EReal) := by
  rw [entry_main_arg28]
theorem vec_main_arg29 : vec (V m c main_arg29 : S16.Idx → EReal) = vec (m ((c : Thread nD τ).loc main_arg29) : S16.Idx → EReal) := by
  rw [entry_main_arg29]
theorem vec_main_arg30 : vec (V m c main_arg30 : S16.Idx → EReal) = vec (m ((c : Thread nD τ).loc main_arg30) : S16.Idx → EReal) := by
  rw [entry_main_arg30]

end AtIdeal

end Cert.KernelIdeal.Entry

end
-- ==== Proof.RefSpec.lean ====
/-
  The reference's arrays one row at a time, as statements: row n of its encoder output, of its scores and of its
  reconstruction are the row functions of row n of its masked features and neighbourhood sums and of its weights
  (each layer's weight read as the rows of its transpose: the top rows against the row's own features, the bottom 24
  against the neighbourhood features).
-/
import proofs.«106524_j47382079209805_2_alg».proof.Proof.RefRead
import proofs.«106524_j47382079209805_2_alg».proof.Proof.NodeSpec

noncomputable section

namespace Cert.RefSpec

open Idealize.ShloMosaic Idealize.ShloMosaic.ValueIdx Cert.NodeSpec Cert.ReferenceIdeal.ReadP

/-- The encoded row of node `n`, from the reference's arrays. -/
def encAt (x0 : (⟨Cert.ReferenceIdeal.S100000x10, .f32⟩ : BufTy).Contents (Elt Ideal)) (x1 : (⟨Cert.ReferenceIdeal.S3200000, .f32⟩ : BufTy).Contents (Elt Ideal)) (x2 : (⟨Cert.ReferenceIdeal.S3200000, .f32⟩ : BufTy).Contents (Elt Ideal)) (x3 : (⟨Cert.ReferenceIdeal.S3200000x8, .f32⟩ : BufTy).Contents (Elt Ideal)) (x4 : (⟨Cert.ReferenceIdeal.S3200000x4, .f32⟩ : BufTy).Contents (Elt Ideal)) (x5 : (⟨Cert.ReferenceIdeal.S100000x1, .f32⟩ : BufTy).Contents (Elt Ideal)) (x6 : (⟨Cert.ReferenceIdeal.S3200000, .i32⟩ : BufTy).Contents (Elt Ideal)) (x7 : (⟨Cert.ReferenceIdeal.S3200000, .i32⟩ : BufTy).Contents (Elt Ideal)) (x8 : (⟨Cert.ReferenceIdeal.S20000, .i32⟩ : BufTy).Contents (Elt Ideal)) (x9 : (⟨Cert.ReferenceIdeal.S1x10, .f32⟩ : BufTy).Contents (Elt Ideal)) (x10 : (⟨Cert.ReferenceIdeal.S256x34, .f32⟩ : BufTy).Contents (Elt Ideal)) (x11 : (⟨Cert.ReferenceIdeal.S256, .f32⟩ : BufTy).Contents (Elt Ideal)) (x12 : (⟨Cert.ReferenceIdeal.S256, .f32⟩ : BufTy).Contents (Elt Ideal)) (x13 : (⟨Cert.ReferenceIdeal.S256, .f32⟩ : BufTy).Contents (Elt Ideal)) (x14 : (⟨Cert.ReferenceIdeal.S512x280, .f32⟩ : BufTy).Contents (Elt Ideal)) (x15 : (⟨Cert.ReferenceIdeal.S512, .f32⟩ : BufTy).Contents (Elt Ideal)) (x16 : (⟨Cert.ReferenceIdeal.S512, .f32⟩ : BufTy).Contents (Elt Ideal)) (x17 : (⟨Cert.ReferenceIdeal.S512, .f32⟩ : BufTy).Contents (Elt Ideal)) (n : Fin 100000) : Fin 512 → EReal :=
  encRow (row (val_main_v23 (F := Ideal) x0 x8 x9) n) (row (val_main_v14 (F := Ideal) x0 x1 x2 x3 x4 x5 x6 x7) n)
    (wT x10 0 10 (by decide)) (wT x10 10 24 (by decide)) (vec x11) (vec x12) (vec x13)
    (wT x14 0 256 (by decide)) (wT x14 256 24 (by decide)) (vec x15) (vec x16) (vec x17)

/-- Row `n` of the reference's scores. -/
def ScoresRows : Prop := ∀ (x0 : (⟨Cert.ReferenceIdeal.S100000x10, .f32⟩ : BufTy).Contents (Elt Ideal)) (x1 : (⟨Cert.ReferenceIdeal.S3200000, .f32⟩ : BufTy).Contents (Elt Ideal)) (x2 : (⟨Cert.ReferenceIdeal.S3200000, .f32⟩ : BufTy).Contents (Elt Ideal)) (x3 : (⟨Cert.ReferenceIdeal.S3200000x8, .f32⟩ : BufTy).Contents (Elt Ideal)) (x4 : (⟨Cert.ReferenceIdeal.S3200000x4, .f32⟩ : BufTy).Contents (Elt Ideal)) (x5 : (⟨Cert.ReferenceIdeal.S100000x1, .f32⟩ : BufTy).Contents (Elt Ideal)) (x6 : (⟨Cert.ReferenceIdeal.S3200000, .i32⟩ : BufTy).Contents (Elt Ideal)) (x7 : (⟨Cert.ReferenceIdeal.S3200000, .i32⟩ : BufTy).Contents (Elt Ideal)) (x8 : (⟨Cert.ReferenceIdeal.S20000, .i32⟩ : BufTy).Contents (Elt Ideal)) (x9 : (⟨Cert.ReferenceIdeal.S1x10, .f32⟩ : BufTy).Contents (Elt Ideal)) (x10 : (⟨Cert.ReferenceIdeal.S256x34, .f32⟩ : BufTy).Contents (Elt Ideal)) (x11 : (⟨Cert.ReferenceIdeal.S256, .f32⟩ : BufTy).Contents (Elt Ideal)) (x12 : (⟨Cert.ReferenceIdeal.S256, .f32⟩ : BufTy).Contents (Elt Ideal)) (x13 : (⟨Cert.ReferenceIdeal.S256, .f32⟩ : BufTy).Contents (Elt Ideal)) (x14 : (⟨Cert.ReferenceIdeal.S512x280, .f32⟩ : BufTy).Contents (Elt Ideal)) (x15 : (⟨Cert.ReferenceIdeal.S512, .f32⟩ : BufTy).Contents (Elt Ideal)) (x16 : (⟨Cert.ReferenceIdeal.S512, .f32⟩ : BufTy).Contents (Elt Ideal)) (x17 : (⟨Cert.ReferenceIdeal.S512, .f32⟩ : BufTy).Contents (Elt Ideal)) (x27 : (⟨Cert.ReferenceIdeal.S16x512, .f32⟩ : BufTy).Contents (Elt Ideal)) (x28 : (⟨Cert.ReferenceIdeal.S16, .f32⟩ : BufTy).Contents (Elt Ideal)) (x29 : (⟨Cert.ReferenceIdeal.S16, .f32⟩ : BufTy).Contents (Elt Ideal)) (x30 : (⟨Cert.ReferenceIdeal.S16, .f32⟩ : BufTy).Contents (Elt Ideal)) (n : Fin 100000) (q : Fin 16),
  val_main_v114 (F := Ideal) x0 x1 x2 x3 x4 x5 x6 x7 x8 x9 x10 x11 x12 x13 x14 x15 x16 x17 x27 x28 x29 x30 (ix2 n q)
    = scoresRow (encAt x0 x1 x2 x3 x4 x5 x6 x7 x8 x9 x10 x11 x12 x13 x14 x15 x16 x17 n) (wT x27 0 512 (by decide)) (vec x28) (vec x29) (vec x30) q

/-- Row `n` of the reference's reconstruction. -/
def ReconRows : Prop := ∀ (x0 : (⟨Cert.ReferenceIdeal.S100000x10, .f32⟩ : BufTy).Contents (Elt Ideal)) (x1 : (⟨Cert.ReferenceIdeal.S3200000, .f32⟩ : BufTy).Contents (Elt Ideal)) (x2 : (⟨Cert.ReferenceIdeal.S3200000, .f32⟩ : BufTy).Contents (Elt Ideal)) (x3 : (⟨Cert.ReferenceIdeal.S3200000x8, .f32⟩ : BufTy).Contents (Elt Ideal)) (x4 : (⟨Cert.ReferenceIdeal.S3200000x4, .f32⟩ : BufTy).Contents (Elt Ideal)) (x5 : (⟨Cert.ReferenceIdeal.S100000x1, .f32⟩ : BufTy).Contents (Elt Ideal)) (x6 : (⟨Cert.ReferenceIdeal.S3200000, .i32⟩ : BufTy).Contents (Elt Ideal)) (x7 : (⟨Cert.ReferenceIdeal.S3200000, .i32⟩ : BufTy).Contents (Elt Ideal)) (x8 : (⟨Cert.ReferenceIdeal.S20000, .i32⟩ : BufTy).Contents (Elt Ideal)) (x9 : (⟨Cert.ReferenceIdeal.S1x10, .f32⟩ : BufTy).Contents (Elt Ideal)) (x10 : (⟨Cert.ReferenceIdeal.S256x34, .f32⟩ : BufTy).Contents (Elt Ideal)) (x11 : (⟨Cert.ReferenceIdeal.S256, .f32⟩ : BufTy).Contents (Elt Ideal)) (x12 : (⟨Cert.ReferenceIdeal.S256, .f32⟩ : BufTy).Contents (Elt Ideal)) (x13 : (⟨Cert.ReferenceIdeal.S256, .f32⟩ : BufTy).Contents (Elt Ideal)) (x14 : (⟨Cert.ReferenceIdeal.S512x280, .f32⟩ : BufTy).Contents (Elt Ideal)) (x15 : (⟨Cert.ReferenceIdeal.S512, .f32⟩ : BufTy).Contents (Elt Ideal)) (x16 : (⟨Cert.ReferenceIdeal.S512, .f32⟩ : BufTy).Contents (Elt Ideal)) (x17 : (⟨Cert.ReferenceIdeal.S512, .f32⟩ : BufTy).Contents (Elt Ideal)) (x18 : (⟨Cert.ReferenceIdeal.S256x536, .f32⟩ : BufTy).Contents (Elt Ideal)) (x19 : (⟨Cert.ReferenceIdeal.S256, .f32⟩ : BufTy).Contents (Elt Ideal)) (x20 : (⟨Cert.ReferenceIdeal.S256, .f32⟩ : BufTy).Contents (Elt Ideal)) (x21 : (⟨Cert.ReferenceIdeal.S256, .f32⟩ : BufTy).Contents (Elt Ideal)) (x22 : (⟨Cert.ReferenceIdeal.S10x280, .f32⟩ : BufTy).Contents (Elt Ideal)) (x23 : (⟨Cert.ReferenceIdeal.S10, .f32⟩ : BufTy).Contents (Elt Ideal)) (x24 : (⟨Cert.ReferenceIdeal.S10, .f32⟩ : BufTy).Contents (Elt Ideal)) (x25 : (⟨Cert.ReferenceIdeal.S10, .f32⟩ : BufTy).Contents (Elt Ideal)) (x26 : (⟨Cert.ReferenceIdeal.S512x512, .f32⟩ : BufTy).Contents (Elt Ideal)) (n : Fin 100000) (q : Fin 10),
  val_main_v178 (F := Ideal) x0 x1 x2 x3 x4 x5 x6 x7 x8 x9 x10 x11 x12 x13 x14 x15 x16 x17 x18 x19 x20 x21 x22 x23 x24 x25 x26 (ix2 n q)
    = reconRow (encAt x0 x1 x2 x3 x4 x5 x6 x7 x8 x9 x10 x11 x12 x13 x14 x15 x16 x17 n) (row (val_main_v14 (F := Ideal) x0 x1 x2 x3 x4 x5 x6 x7) n) (wT x26 0 512 (by decide))
        (wT x18 0 512 (by decide)) (wT x18 512 24 (by decide)) (vec x19) (vec x20) (vec x21)
        (wT x22 0 256 (by decide)) (wT x22 256 24 (by decide)) (vec x23) (vec x24) (vec x25) q

end Cert.RefSpec

end
-- ==== Proof.Algebraic.lean ====
/-
  The two programs' results are equal on the extended reals. The kernel program's scores array and reconstruction
  array are, row by row, the row functions of the masked features, the neighbourhood sums and the weights as the
  call finds them; those entry arrays are the reference's arrays (the same masking; the per-destination sums of the
  five edge tables laid side by side are the per-destination sum of the tables laid side by side; a cut of a transposed
  weight read as a matrix); and the reference's arrays are the same row functions, the one sum over a concatenated row
  split in two. The gathered rows on both sides are one gather of equal tables at the same wrapped mask indices.
-/
import proofs.«106524_j47382079209805_2_alg».proof.Defs
import proofs.«106524_j47382079209805_2_alg».proof.Proof.KernelFinal
import proofs.«106524_j47382079209805_2_alg».proof.Proof.KernelEntry
import proofs.«106524_j47382079209805_2_alg».proof.Proof.RefSpec

set_option maxRecDepth 16384

noncomputable section

namespace Cert.Alg

open Idealize.ShloMosaic Idealize.ShloMosaic.TcCoe Idealize.SL.Sem Idealize.ShloMosaic.ValueIdx Idealize.ShloMosaic.StableHlo
open Cert.KernelIdeal Cert.KernelIdeal.Gen Cert.KernelIdeal.Around Cert.KernelIdeal.Entry Cert.KernelIdeal.Final
open Cert.KernelIdeal.HostTerms Cert.NodeSpec Cert.ReferenceIdeal.ReadP

/-- The masking is the same host operations in both programs. -/
def MaskedSame : Prop := ∀ (x0 : (⟨Cert.ReferenceIdeal.S100000x10, .f32⟩ : BufTy).Contents (Elt Ideal)) (x8 : (⟨Cert.ReferenceIdeal.S20000, .i32⟩ : BufTy).Contents (Elt Ideal)) (x9 : (⟨Cert.ReferenceIdeal.S1x10, .f32⟩ : BufTy).Contents (Elt Ideal)), maskedX (F := Ideal) x0 x8 x9 = val_main_v23 (F := Ideal) x0 x8 x9
/-- The per-destination sums distribute over the side-by-side layout of the five edge tables. -/
def NbrSame : Prop := ∀ (x0 : (⟨Cert.ReferenceIdeal.S100000x10, .f32⟩ : BufTy).Contents (Elt Ideal)) (x1 : (⟨Cert.ReferenceIdeal.S3200000, .f32⟩ : BufTy).Contents (Elt Ideal)) (x2 : (⟨Cert.ReferenceIdeal.S3200000, .f32⟩ : BufTy).Contents (Elt Ideal)) (x3 : (⟨Cert.ReferenceIdeal.S3200000x8, .f32⟩ : BufTy).Contents (Elt Ideal)) (x4 : (⟨Cert.ReferenceIdeal.S3200000x4, .f32⟩ : BufTy).Contents (Elt Ideal)) (x5 : (⟨Cert.ReferenceIdeal.S100000x1, .f32⟩ : BufTy).Contents (Elt Ideal)) (x6 : (⟨Cert.ReferenceIdeal.S3200000, .i32⟩ : BufTy).Contents (Elt Ideal)) (x7 : (⟨Cert.ReferenceIdeal.S3200000, .i32⟩ : BufTy).Contents (Elt Ideal)), nbrNorm (F := Ideal) x0 x1 x2 x3 x4 x5 x6 x7 = val_main_v14 (F := Ideal) x0 x1 x2 x3 x4 x5 x6 x7

variable (m : (ℓ : Loc nD τ sig) → Buf (Elt Ideal) ℓ) (c : Dev nD)
variable (hX : MaskedSame) (hN : NbrSame) (hS : Cert.RefSpec.ScoresRows) (hR : Cert.RefSpec.ReconRows)

include hX hN in
theorem encAt_eq (n : Fin 100000) : Cert.KernelIdeal.Final.encAt m c n = Cert.RefSpec.encAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) n := by
  unfold Cert.KernelIdeal.Final.encAt Cert.RefSpec.encAt
  rw [V_maskedX, V_nbrNorm, hX, hN, mat_main_v37, mat_main_v38, vec_main_arg11, vec_main_arg12, vec_main_arg13,
    mat_main_v40, mat_main_v41, vec_main_arg15, vec_main_arg16, vec_main_arg17]

include hX hN hS in
theorem scoresG_eq : scoresG m c = val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg27)) (m ((c : Thread nD τ).loc main_arg28)) (m ((c : Thread nD τ).loc main_arg29)) (m ((c : Thread nD τ).loc main_arg30)) := by
  funext i
  obtain ⟨n, q, rfl⟩ : ∃ (n : Fin 100000) (q : Fin 16), i = ix2 n q := ⟨i 0, i 1, eq_ix2 i⟩
  rw [hS]
  show scoresRow (Cert.KernelIdeal.Final.encAt m c n) _ _ _ _ q = _
  rw [encAt_eq m c hX hN n, mat_main_v49, vec_main_arg28, vec_main_arg29, vec_main_arg30]

include hX hN hR in
set_option maxHeartbeats 4000000 in
theorem reconG_eq : reconG m c = val_main_v178 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) := by
  funext i
  rw [show val_main_v178 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) i
      = val_main_v178 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (ix2 (⟨(i 0).val, (i 0).isLt⟩ : Fin 100000) (⟨(i 1).val, (i 1).isLt⟩ : Fin 10))
      from congrArg _ (eq_ix2 i), hR]
  unfold reconG
  rw [encAt_eq m c hX hN ⟨(i 0).val, (i 0).isLt⟩, V_nbrNorm, hN, mat_main_v48, mat_main_v43, mat_main_v44, vec_main_arg19, vec_main_arg20, vec_main_arg21,
    mat_main_v46, mat_main_v47, vec_main_arg23, vec_main_arg24, vec_main_arg25]

include hX hN hR in
/-- The gathered reconstruction rows after the later host lines. -/
theorem tail_pred : Pipeline.afterTail₀ cfgs (dats m) 0 (V0 m) [hostOps1] c main_v57
    = val_main_v185 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) := by
  unfold Pipeline.afterTail₀
  show StableHlo.after hostOps1 _ (Proc.devRef .tc main_v57) = _
  generalize hW : Pipeline.withArrays _ _ _ _ = W
  have w1 : W (Proc.devRef .tc main_v50_1) = (dats m 0 c).arrAt 28 cfg0.N := by
    rw [← hW]; exact Pipeline.withArrays_arr spec0 launch0.win.arr_inj c _ _ 28
  have w2 : W (Proc.devRef .tc main_arg8) = m ((c : Thread nD τ).loc main_arg8) := by
    rw [← hW]
    exact (Pipeline.withArrays_of_ne _ c (V0 m c) _ main_arg8 (by decide : ∀ w, Pipeline.arrRef spec0 w ≠ main_arg8)).trans (entry_main_arg8 m c)
  after_results_five
  rw [w1, w2, recon_final, reconG_eq m c hX hN hR]
  rfl

/-- The gathered original rows after the later host lines. -/
theorem tail_true : Pipeline.afterTail₀ cfgs (dats m) 0 (V0 m) [hostOps1] c main_v64
    = val_main_v192 (F := Ideal) (m ((c : Thread nD τ).loc main_arg0)) (m ((c : Thread nD τ).loc main_arg8)) := by
  unfold Pipeline.afterTail₀
  show StableHlo.after hostOps1 _ (Proc.devRef .tc main_v64) = _
  generalize hW : Pipeline.withArrays _ _ _ _ = W
  have w0 : W (Proc.devRef .tc main_arg0) = m ((c : Thread nD τ).loc main_arg0) := by
    rw [← hW]
    exact (Pipeline.withArrays_of_ne _ c (V0 m c) _ main_arg0 (by decide : ∀ w, Pipeline.arrRef spec0 w ≠ main_arg0)).trans (entry_main_arg0 m c)
  have w2 : W (Proc.devRef .tc main_arg8) = m ((c : Thread nD τ).loc main_arg8) := by
    rw [← hW]
    exact (Pipeline.withArrays_of_ne _ c (V0 m c) _ main_arg8 (by decide : ∀ w, Pipeline.arrRef spec0 w ≠ main_arg8)).trans (entry_main_arg8 m c)
  after_results_five
  rw [w0, w2]
  rfl

include hX hN hS hR in
set_option maxHeartbeats 16000000 in
/-- The kernel program's run: its three results are the reference's three stages of its own arguments, and its
    arguments end as launched. -/
theorem kernel_side (ρ : Dev nD → PrngReg) :
    θ_run (Cert.KernelIdeal.defs (F := Ideal)) (onTc (τ := τ) (main (F := Ideal))) ⟨m, fun _ => 0, ρ⟩ (fun r => ∀ c : Dev nD,
        r.2.mem ((c.tc : Thread nD τ).loc main_v57) = val_main_v185 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26))
        ∧ r.2.mem ((c.tc : Thread nD τ).loc main_v64) = val_main_v192 (F := Ideal) (m ((c.tc : Thread nD τ).loc main_arg0)) (m ((c.tc : Thread nD τ).loc main_arg8))
        ∧ r.2.mem ((c.tc : Thread nD τ).loc main_v50_0) = val_main_v114 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg27)) (m ((c.tc : Thread nD τ).loc main_arg28)) (m ((c.tc : Thread nD τ).loc main_arg29)) (m ((c.tc : Thread nD τ).loc main_arg30))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)
        ∧ r.2.mem ((c.tc : Thread nD τ).loc main_arg17) = m ((c.tc : Thread nD τ).loc main_arg17)
        ∧ r.2.mem ((c.tc : Thread nD τ).loc main_arg18) = m ((c.tc : Thread nD τ).loc main_arg18)
        ∧ r.2.mem ((c.tc : Thread nD τ).loc main_arg19) = m ((c.tc : Thread nD τ).loc main_arg19)
        ∧ r.2.mem ((c.tc : Thread nD τ).loc main_arg20) = m ((c.tc : Thread nD τ).loc main_arg20)
        ∧ r.2.mem ((c.tc : Thread nD τ).loc main_arg21) = m ((c.tc : Thread nD τ).loc main_arg21)
        ∧ r.2.mem ((c.tc : Thread nD τ).loc main_arg22) = m ((c.tc : Thread nD τ).loc main_arg22)
        ∧ r.2.mem ((c.tc : Thread nD τ).loc main_arg23) = m ((c.tc : Thread nD τ).loc main_arg23)
        ∧ r.2.mem ((c.tc : Thread nD τ).loc main_arg24) = m ((c.tc : Thread nD τ).loc main_arg24)
        ∧ r.2.mem ((c.tc : Thread nD τ).loc main_arg25) = m ((c.tc : Thread nD τ).loc main_arg25)
        ∧ r.2.mem ((c.tc : Thread nD τ).loc main_arg26) = m ((c.tc : Thread nD τ).loc main_arg26)
        ∧ r.2.mem ((c.tc : Thread nD τ).loc main_arg27) = m ((c.tc : Thread nD τ).loc main_arg27)
        ∧ r.2.mem ((c.tc : Thread nD τ).loc main_arg28) = m ((c.tc : Thread nD τ).loc main_arg28)
        ∧ r.2.mem ((c.tc : Thread nD τ).loc main_arg29) = m ((c.tc : Thread nD τ).loc main_arg29)
        ∧ r.2.mem ((c.tc : Thread nD τ).loc main_arg30) = m ((c.tc : Thread nD τ).loc main_arg30)) := by
  refine (θ_run Cert.KernelIdeal.defs _ _).mono (fun r h c => ?_) (Cert.KernelIdeal.Around.run_main (F := Ideal) m ρ)
  refine ⟨?_, ?_, ?_, kept_of_post m (dats m) (A_eq m) r h c⟩
  · exact ((h c).2 main_v57 (Pipeline.mem_restRefs_of main_v57 (by decide) (by decide))).trans (tail_pred m c hX hN hR)
  · exact ((h c).2 main_v64 (Pipeline.mem_restRefs_of main_v64 (by decide) (by decide))).trans (tail_true m c)
  · exact ((h c).1 27).trans ((scores_final m c).trans (scoresG_eq m c hX hN hS))

end Cert.Alg

end
-- ==== Proof.LibRowIndex.lean ====
/-
  Indexing the rows of a matrix by a column of row numbers, on the host: which operand row a gathered element reads,
  and where a scattered row lands.

  `x[idx]` of a matrix `x : [N, D]` (or of a vector `x : [N]`) at a column `idx : [E, 1]` of row numbers is a
  `gather` whose start index on the row axis is the row number read SIGNED and CLAMPED into `[0, N − 1]`
  (`rows_operandIdx_row`, `vec_operandIdx`): element `(e, c)` of the result reads row `clamp idx[e]`.
  A row-wise `scatter` of `[E, D]` updates into `[N, D]` at the same kind of column is NOT clamped: update row `e`
  lands on row `n` only if the row number read signed IS `n` (`rowScatter_lands`); any other row number drops it.
-/
import Idealize.ShloMosaic.Lib.ValueIdx

noncomputable section

namespace Idealize.ShloMosaic.RowIndex

open Idealize.ShloMosaic Idealize.ShloMosaic.ValueIdx

/-- Entry `e` of a column `[E, 1]`. -/
abbrev atRow {E : Nat} (e : Fin E) : (⟨2, ![E, 1]⟩ : Shape).Idx := ix2 e (⟨0, Nat.one_pos⟩ : Fin 1)

variable (N D E : Nat)

/-! ## Whole rows of a matrix gathered at a column of row numbers -/

/-- The dimension numbers of `x[idx]` for `x : [N, D]`, `idx : [E, 1]`: the row axis collapsed and indexed, the
    column axis a full-width offset axis. -/
abbrev rowsDims (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Result element `j = (e, c)` reads operand row `clamp idx[e]`. -/
theorem rows_operandIdx_row {w : Nat}
    (wf : GatherDims.WF ⟨2, ![N, D]⟩ ⟨2, ![E, 1]⟩ ⟨2, ![E, D]⟩ [1] [0] [] [0] [] 1 ![1, D])
    (idx : IVec ⟨2, ![E, 1]⟩ w) (j : (⟨2, ![E, D]⟩ : Shape).Idx) :
    ((rowsDims N D E wf).operandIdx j idx 0).val = min (idx (atRow ⟨(j 0).val, idx2_lt0 j⟩)).toInt.toNat (N - 1) := by
  show (rowsDims N D E wf).start j idx 0 + (rowsDims N D E wf).batchCoord j 0 + (rowsDims N D E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsDims N D E wf).startIndexMap from List.mem_singleton.mpr rfl)]
  have hsi : (rowsDims N D E wf).siIdx j ⟨List.idxOf (0 : Fin 2) (rowsDims N D E wf).startIndexMap,
      List.idxOf_lt_length_iff.2 (List.mem_singleton.mpr rfl)⟩ = atRow ⟨(j 0).val, idx2_lt0 j⟩ := by
    funext b; refine Fin.ext ?_
    match b with
    | ⟨0, _⟩ => rfl
    | ⟨1, _⟩ => rfl
  rw [hsi]
  rfl

/-! ## Entries of a vector gathered at a column of positions -/

/-- The dimension numbers of `x[idx]` for `x : [N]`, `idx : [E, 1]`. -/
abbrev vecDims (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result element `e` reads operand entry `clamp idx[e]`. -/
theorem vec_operandIdx {w : Nat} (wf : GatherDims.WF ⟨1, ![N]⟩ ⟨2, ![E, 1]⟩ ⟨1, ![E]⟩ [] [0] [] [0] [] 1 ![1])
    (idx : IVec ⟨2, ![E, 1]⟩ w) (e : (⟨1, ![E]⟩ : Shape).Idx) :
    ((vecDims N E wf).operandIdx e idx 0).val = min (idx (atRow ⟨(e 0).val, (e 0).isLt⟩)).toInt.toNat (N - 1) := by
  show (vecDims N E wf).start e idx 0 + (vecDims N E wf).batchCoord e 0 + (vecDims N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx e ⟨List.idxOf (0 : Fin 1) (vecDims N E wf).startIndexMap,
      List.idxOf_lt_length_iff.2 (List.mem_singleton.mpr rfl)⟩ = atRow ⟨(e 0).val, (e 0).isLt⟩ := by
    funext b; refine Fin.ext ?_
    match b with
    | ⟨0, _⟩ => rfl
    | ⟨1, _⟩ => rfl
  rw [hsi]
  rfl

/-! ## Rows scattered at a column of row numbers -/

/-- The dimension numbers of a row-wise scatter of `[E, D]` updates into `[N, D]` at `idx : [E, 1]`. -/
abbrev rowScatter (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update element `j = (e, c)` that lands on `i = (n, c')` has row number `idx[e]`, read signed, equal to `n`. -/
theorem rowScatter_lands {w : Nat} (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx)
    (h : (rowScatter N D E wf).resultIdx? j idx = some i) :
    (idx (atRow ⟨(j 0).val, idx2_lt0 j⟩)).toInt = ((i 0).val : Int) := by
  have hs : (rowScatter N D E wf).start j idx 0 = (idx (atRow ⟨(j 0).val, idx2_lt0 j⟩)).toInt := by
    unfold ScatterDims.start
    rw [dif_pos (show (0 : Fin 2) ∈ (rowScatter N D E wf).scatterDimsToOperandDims from List.mem_singleton.mpr rfl)]
    have hsi : (rowScatter N D E wf).siIdx j ⟨List.idxOf (0 : Fin 2) (rowScatter N D E wf).scatterDimsToOperandDims,
        List.idxOf_lt_length_iff.2 (List.mem_singleton.mpr rfl)⟩ = atRow ⟨(j 0).val, idx2_lt0 j⟩ := by
      funext b; refine Fin.ext ?_
      match b with
      | ⟨0, _⟩ => rfl
      | ⟨1, _⟩ => rfl
    rw [hsi]
  have hw : (rowScatter N D E wf).window j 0 = 0 := by
    have hk : (0 : Fin 2) ∉ (rowScatter N D E wf).sKept := by
      intro hmem
      have h2 : (0 : Fin 2) ∈ (List.finRange 2).filter (· ∉ ([0] : List (Fin 2))) := hmem
      simp at h2
    unfold ScatterDims.window
    rw [dif_neg hk]
  unfold ScatterDims.resultIdx? at h
  split at h
  · rename_i hb
    have h0 : ((rowScatter N D E wf).start j idx 0 + ((rowScatter N D E wf).window j 0 : Int)).toNat = (i 0).val :=
      congrArg (fun f => (f 0).val) (Option.some.inj h)
    have h1 := (hb 0).1
    rw [hs, hw] at h0 h1
    omega
  · exact absurd h (by simp)

/-! ## A row number already in range -/

/-- A row number that reads signed as a natural `n` below `N` is left alone by wrapping (a negative number gets an offset
    added) and by clamping into `[0, N − 1]`: it is not negative, and it is in range. -/
theorem wrap_clamp_of_toInt_eq {N : Nat} (c off : BitVec 32) (n : Nat) (hn : n < N) (hc : c.toInt = (n : Int)) :
    min (Scalar.select (IntOp.cmpi .slt c 0#32) (IntOp.addi c off) c).toInt.toNat (N - 1) = n := by
  have hlt : ¬ (c.toInt < (0#32 : BitVec 32).toInt) := by
    rw [hc]
    simp
  have hcmp : IntOp.cmpi .slt c 0#32 = 0#1 := by
    show BitVec.ofBool (c.slt 0#32) = 0#1
    rw [BitVec.slt, decide_eq_false hlt]
    rfl
  rw [hcmp]
  show min c.toInt.toNat (N - 1) = n
  rw [hc, Int.toNat_natCast]
  omega

end Idealize.ShloMosaic.RowIndex
-- ==== Proof.NbrSums.lean ====
/-
  The neighbourhood sums of the two programs are the same table.

  One program scatter-adds each of the five edge tables (the gathered source rows with 10 columns, the distance and the
  angle as one column each, the 8 edge features, the 4 discrete columns) into a zero table by destination node and lays
  the five sums side by side; the other lays the five edge tables side by side first (24 columns per edge) and
  scatter-adds once. A row-wise scatter-add reads, at node `n` and column `c`, the operand's entry plus the sum over
  the edges `e` whose destination (read signed, not clamped) is `n` of the update's entry `(e, c)`: update `(e, c)`
  lands on `(n, c')` exactly when the destination of `e` is `n` and `c = c'`. So the scatter-add acts column by
  column, and the sum of tables laid side by side is the sums laid side by side. Both programs then multiply row `n`
  by the node's factor. Nothing here needs the entries to be finite.
-/
import proofs.«106524_j47382079209805_2_alg».proof.Proof.KernelHostTerms
import proofs.«106524_j47382079209805_2_alg».proof.Proof.RefRead
import proofs.«106524_j47382079209805_2_alg».proof.Proof.LibRowIndex
import Idealize.ShloMosaic.Lib.ValueIdx
import Idealize.ShloMosaic.Lib.Pipeline.Value
import Idealize.ShloMosaic.PureOps.Ideal.Laws

open scoped BigOperators

noncomputable section

namespace Cert.NbrSums

open Idealize.ShloMosaic Idealize.ShloMosaic.ValueIdx Idealize.ShloMosaic.RowIndex

/-! ## A row-wise scatter-add read at a node and a column -/

section RowScatter

variable {N D E w : Nat} (wf : ScatterDims.WF ⟨2, ![N, D]⟩ ⟨2, ![E, 1]⟩ ⟨2, ![E, D]⟩ [1] [0] [0] 1)
  (idx : IVec ⟨2, ![E, 1]⟩ w)

/-- On the row axis the window of update `(e, c)` starts at the row number `idx[e]`, read signed. -/
theorem start_row (j : (⟨2, ![E, D]⟩ : Shape).Idx) :
    (rowScatter N D E wf).start j idx 0 = (idx (atRow ⟨(j 0).val, idx2_lt0 j⟩)).toInt := by
  have hmem : (0 : Fin 2) ∈ (rowScatter N D E wf).scatterDimsToOperandDims := List.mem_singleton.mpr rfl
  unfold ScatterDims.start
  rw [dif_pos hmem]
  congr 2
  funext b
  refine Fin.ext ?_
  match b with
  | ⟨0, _⟩ => rfl
  | ⟨1, _⟩ => rfl

/-- The row axis is inserted: the window has no extent there. -/
theorem window_row (j : (⟨2, ![E, D]⟩ : Shape).Idx) : (rowScatter N D E wf).window j 0 = 0 := by
  have hk : (0 : Fin 2) ∉ (rowScatter N D E wf).sKept :=
    show (0 : Fin 2) ∉ (List.finRange 2).filter (· ∉ ([0] : List (Fin 2))) by decide
  unfold ScatterDims.window
  rw [dif_neg hk]

/-- The column axis is not indexed: the window starts at column `0`. -/
theorem start_col (j : (⟨2, ![E, D]⟩ : Shape).Idx) : (rowScatter N D E wf).start j idx 1 = 0 := by
  have hmem : (1 : Fin 2) ∉ (rowScatter N D E wf).scatterDimsToOperandDims :=
    show (1 : Fin 2) ∉ ([0] : List (Fin 2)) by decide
  unfold ScatterDims.start
  rw [dif_neg hmem]

/-- On the column axis the window coordinate of update `(e, c)` is `c`. -/
theorem window_col (j : (⟨2, ![E, D]⟩ : Shape).Idx) : (rowScatter N D E wf).window j 1 = (j 1).val := by
  have hk : (1 : Fin 2) ∈ (rowScatter N D E wf).sKept :=
    show (1 : Fin 2) ∈ (List.finRange 2).filter (· ∉ ([0] : List (Fin 2))) by decide
  unfold ScatterDims.window
  rw [dif_pos hk]
  rfl

/-- Update `(e, c)` lands on `(n, c')` exactly when the row number `idx[e]`, read signed, is `n` and `c = c'`. -/
theorem lands_iff (j : (⟨2, ![E, D]⟩ : Shape).Idx) (i : (⟨2, ![N, D]⟩ : Shape).Idx) :
    (rowScatter N D E wf).resultIdx? j idx = some i ↔
      (idx (atRow ⟨(j 0).val, idx2_lt0 j⟩)).toInt = ((i 0).val : Int) ∧ (j 1).val = (i 1).val := by
  have hi0 : (i 0).val < N := idx2_lt0 i
  have hi1 : (i 1).val < D := idx2_lt1 i
  have hj1 : (j 1).val < D := idx2_lt1 j
  have s0 := start_row wf idx j
  have w0 := window_row wf j
  have s1 := start_col wf idx j
  have w1 := window_col wf j
  unfold ScatterDims.resultIdx?
  split
  · rename_i hb
    constructor
    · intro h
      have e0 : ((rowScatter N D E wf).start j idx 0 + ((rowScatter N D E wf).window j 0 : Int)).toNat = (i 0).val :=
        congrArg (fun f => (f 0).val) (Option.some.inj h)
      have e1 : ((rowScatter N D E wf).start j idx 1 + ((rowScatter N D E wf).window j 1 : Int)).toNat = (i 1).val :=
        congrArg (fun f => (f 1).val) (Option.some.inj h)
      have b0 := (hb 0).1
      rw [s0, w0] at e0 b0
      rw [s1, w1] at e1
      constructor <;> omega
    · rintro ⟨h0, h1⟩
      refine congrArg some (funext fun a => Fin.ext ?_)
      match a with
      | ⟨0, _⟩ =>
        show ((rowScatter N D E wf).start j idx 0 + ((rowScatter N D E wf).window j 0 : Int)).toNat = (i 0).val
        rw [s0, w0, h0]; omega
      | ⟨1, _⟩ =>
        show ((rowScatter N D E wf).start j idx 1 + ((rowScatter N D E wf).window j 1 : Int)).toNat = (i 1).val
        rw [s1, w1]; omega
  · rename_i hb
    constructor
    · intro h; exact absurd h (by simp)
    · rintro ⟨h0, h1⟩
      refine absurd (fun a => ?_) hb
      match a with
      | ⟨0, _⟩ =>
        show 0 ≤ (rowScatter N D E wf).start j idx 0 + ((rowScatter N D E wf).window j 0 : Int) ∧
          (rowScatter N D E wf).start j idx 0 + ((rowScatter N D E wf).window j 0 : Int) < (N : Int)
        rw [s0, w0, h0]; omega
      | ⟨1, _⟩ =>
        show 0 ≤ (rowScatter N D E wf).start j idx 1 + ((rowScatter N D E wf).window j 1 : Int) ∧
          (rowScatter N D E wf).start j idx 1 + ((rowScatter N D E wf).window j 1 : Int) < (D : Int)
        rw [s1, w1]; omega

/-- **The scatter-add at node `n`, column `c`**: the operand's entry plus the sum, over the edges whose row number
    (read signed) is `n`, of the update's entry in column `c`. -/
theorem rowScatterAdd_apply (x : (⟨2, ![N, D]⟩ : Shape).Idx → EReal) (upd : (⟨2, ![E, D]⟩ : Shape).Idx → EReal)
    (n : Fin N) (c : Fin D) :
    Ideal.hostScatterAdd (rowScatter N D E wf) x idx upd (ix2 n c)
      = x (ix2 n c) + ∑ e : Fin E, if (idx (atRow e)).toInt = (n.val : Int) then upd (ix2 e c) else 0 := by
  unfold Ideal.hostScatterAdd
  congr 1
  rw [Finset.sum_filter, sum_idx2]
  refine Finset.sum_congr rfl fun e _ => ?_
  by_cases he : (idx (atRow e)).toInt = (n.val : Int)
  · rw [if_pos he]
    rw [Finset.sum_eq_single c]
    · rw [if_pos ((lands_iff wf idx (ix2 e c) (ix2 n c)).2 ⟨he, rfl⟩)]
    · intro b _ hbc
      rw [if_neg]
      intro h
      exact hbc (Fin.ext ((lands_iff wf idx (ix2 e b) (ix2 n c)).1 h).2)
    · intro h; exact absurd (Finset.mem_univ c) h
  · rw [if_neg he]
    refine Finset.sum_eq_zero fun b _ => ?_
    rw [if_neg]
    intro h
    exact he ((lands_iff wf idx (ix2 e b) (ix2 n c)).1 h).1

end RowScatter

/-! ## Tables laid side by side, read in one of them; the zero table -/

section Pieces

variable {α : Type}

/-- Tables with the same rows laid side by side along the columns: at row `r` and a column `j` that is column `c` of
    piece `k` (the pieces before it take `pre` columns), the result is piece `k` at `(r, c)`. -/
theorem cat_cols_apply {R C : Nat} (xs : List ((s : Shape) × (s.Idx → α)))
    (h : Shape.Concatenates (xs.map (·.1)) (⟨2, ![R, C]⟩ : Shape) 1) (k : Nat) (hk : k < xs.length) (W : Nat)
    (x₁ : (⟨2, ![R, W]⟩ : Shape).Idx → α) (hxk : xs[k] = ⟨(⟨2, ![R, W]⟩ : Shape), x₁⟩) (pre : Nat)
    (hpre : (((xs.take k).map (·.1)).map fun s => if h : s.rank = (⟨2, ![R, C]⟩ : Shape).rank
      then s.size ((1 : Fin (⟨2, ![R, C]⟩ : Shape).rank).cast h.symm) else 0).sum = pre)
    (r : Fin R) (c : Fin W) (j : Fin C) (hj : pre + c.val = j.val) :
    concatenate (⟨2, ![R, C]⟩ : Shape) 1 xs h (ix2 r j) = x₁ (ix2 r c) :=
  concatenate_apply_piece 1 xs h (ix2 r j) k hk _ x₁ hxk rfl pre hpre (ix2 r c)
    (fun b hb => by
      match b with
      | ⟨0, _⟩ => rfl
      | ⟨1, _⟩ => exact absurd rfl hb)
    hj

/-- The zero word laid over a whole table reads the zero word everywhere. -/
theorem zeros_apply {s : Shape} (h : (⟨0, ![]⟩ : Shape).BroadcastsInDim s (![] : Fin 0 → Fin s.rank)) (i : s.Idx) :
    broadcastInDim s (![] : Fin 0 → Fin s.rank) h (constant (F := Ideal) (⟨0, ![]⟩ : Shape) .f32 0x00000000#32) i
      = Ideal.ofBits .f32 0x00000000#32 :=
  broadcastInDim_apply _ h _ i ix0 (fun a => a.elim0)

end Pieces

/-- The host's accumulating row scatter at node `n`, column `c`, on the extended reals. -/
theorem hostRowScatterAdd_apply {N D E w : Nat} {φ : FTy}
    (wf : ScatterDims.WF ⟨2, ![N, D]⟩ ⟨2, ![E, 1]⟩ ⟨2, ![E, D]⟩ [1] [0] [0] 1)
    (d : ScatterDims ⟨2, ![N, D]⟩ ⟨2, ![E, 1]⟩ ⟨2, ![E, D]⟩) (hd : d = rowScatter N D E wf)
    (idx : IVec ⟨2, ![E, 1]⟩ w) (x : FVec Ideal ⟨2, ![N, D]⟩ φ) (upd : FVec Ideal ⟨2, ![E, D]⟩ φ) (n : Fin N) (c : Fin D) :
    Host.scatterAdd d x idx upd (ix2 n c)
      = x (ix2 n c) + ∑ e : Fin E, if (idx (atRow e)).toInt = (n.val : Int) then upd (ix2 e c) else 0 := by
  subst hd
  exact rowScatterAdd_apply wf idx x upd n c

/-- **A scatter-add acts column by column.** If a `W`-column edge table is columns `pre … pre + W − 1` of a
    24-column one, and the two operand tables agree there, then the per-destination sums of the narrow table are the
    same columns of the per-destination sums of the wide one. -/
theorem piece_eq {N E W w : Nat} {φ : FTy} (wfW : ScatterDims.WF ⟨2, ![N, W]⟩ ⟨2, ![E, 1]⟩ ⟨2, ![E, W]⟩ [1] [0] [0] 1)
    (wf24 : ScatterDims.WF ⟨2, ![N, 24]⟩ ⟨2, ![E, 1]⟩ ⟨2, ![E, 24]⟩ [1] [0] [0] 1)
    (dW : ScatterDims ⟨2, ![N, W]⟩ ⟨2, ![E, 1]⟩ ⟨2, ![E, W]⟩) (d24 : ScatterDims ⟨2, ![N, 24]⟩ ⟨2, ![E, 1]⟩ ⟨2, ![E, 24]⟩)
    (hdW : dW = rowScatter N W E wfW) (hd24 : d24 = rowScatter N 24 E wf24) (idx : IVec ⟨2, ![E, 1]⟩ w)
    (zW : FVec Ideal ⟨2, ![N, W]⟩ φ) (z24 : FVec Ideal ⟨2, ![N, 24]⟩ φ)
    (updW : FVec Ideal ⟨2, ![E, W]⟩ φ) (upd24 : FVec Ideal ⟨2, ![E, 24]⟩ φ)
    (n : Fin N) (c : Fin W) (j : Fin 24)
    (hz : zW (ix2 n c) = z24 (ix2 n j)) (hu : ∀ e : Fin E, upd24 (ix2 e j) = updW (ix2 e c)) :
    Host.scatterAdd dW zW idx updW (ix2 n c) = Host.scatterAdd d24 z24 idx upd24 (ix2 n j) := by
  rw [hostRowScatterAdd_apply wfW dW hdW idx zW updW n c, hostRowScatterAdd_apply wf24 d24 hd24 idx z24 upd24 n j, hz]
  congr 1
  refine Finset.sum_congr rfl fun e _ => ?_
  rw [hu e]

open Cert.KernelIdeal.HostTerms Cert.ReferenceIdeal.ReadP

/-! ## The two programs' neighbourhood sums and masked features -/

section Main

variable (x0 : (⟨Cert.KernelIdeal.S100000x10, .f32⟩ : BufTy).Contents (Elt Ideal))
  (x1 x2 : (⟨Cert.KernelIdeal.S3200000, .f32⟩ : BufTy).Contents (Elt Ideal))
  (x3 : (⟨Cert.KernelIdeal.S3200000x8, .f32⟩ : BufTy).Contents (Elt Ideal))
  (x4 : (⟨Cert.KernelIdeal.S3200000x4, .f32⟩ : BufTy).Contents (Elt Ideal))
  (x5 : (⟨Cert.KernelIdeal.S100000x1, .f32⟩ : BufTy).Contents (Elt Ideal))
  (x6 x7 : (⟨Cert.KernelIdeal.S3200000, .i32⟩ : BufTy).Contents (Elt Ideal))
  (x8 : (⟨Cert.KernelIdeal.S20000, .i32⟩ : BufTy).Contents (Elt Ideal))
  (x9 : (⟨Cert.KernelIdeal.S1x10, .f32⟩ : BufTy).Contents (Elt Ideal))

/-- The gathered source rows are the same table in both programs. -/
theorem gathered_eq :
    Host.gather Cert.KernelIdeal.gather_S100000x10_S3200000x1_S3200000x10_1_0_n_n_0_1_110 x0 (wrapE (F := Ideal) x6)
      = val_main_v6 (F := Ideal) x0 x6 := rfl

/-- The destination column is the same in both programs. -/
theorem dst_eq : val_main_v11 (F := Ideal) x7 = dstCol (F := Ideal) x7 := rfl

/-- Columns 0 … 9: the per-destination sums of the gathered source rows. -/
theorem nbrSums_src (n : Fin 100000) (c : Fin 10) (j : Fin 24) (hj : 0 + c.val = j.val) :
    nbrSums (F := Ideal) x0 x1 x2 x3 x4 x6 x7 (ix2 n j) = val_main_v12 (F := Ideal) x0 x1 x2 x3 x4 x6 x7 (ix2 n j) := by
  unfold nbrSums val_main_v12
  rw [dst_eq x7]
  refine (cat_cols_apply _ _ 0 (by show (0 : Nat) < 5; omega) 10 _ rfl 0 rfl n c j hj).trans ?_
  refine piece_eq _ _ _ _ rfl rfl _ _ _ _ _ n c j ?_ ?_
  · exact (zeros_apply _ _).trans (zeros_apply _ _).symm
  · intro e
    unfold val_main_v9
    exact (cat_cols_apply _ _ 0 (by show (0 : Nat) < 5; omega) 10 _ rfl 0 rfl e c j hj).trans
      (congrFun (gathered_eq x0 x6).symm _)

/-- Column 10: the per-destination sums of the edge distances. -/
theorem nbrSums_dist (n : Fin 100000) (c : Fin 1) (j : Fin 24) (hj : 10 + c.val = j.val) :
    nbrSums (F := Ideal) x0 x1 x2 x3 x4 x6 x7 (ix2 n j) = val_main_v12 (F := Ideal) x0 x1 x2 x3 x4 x6 x7 (ix2 n j) := by
  unfold nbrSums val_main_v12
  rw [dst_eq x7]
  refine (cat_cols_apply _ _ 1 (by show (1 : Nat) < 5; omega) 1 _ rfl 10 rfl n c j hj).trans ?_
  refine piece_eq _ _ _ _ rfl rfl _ _ _ _ _ n c j ?_ ?_
  · exact (zeros_apply _ _).trans (zeros_apply _ _).symm
  · intro e
    unfold val_main_v9
    exact (cat_cols_apply _ _ 1 (by show (1 : Nat) < 5; omega) 1 _ rfl 10 rfl e c j hj).trans rfl

/-- Column 11: the per-destination sums of the edge angles. -/
theorem nbrSums_ang (n : Fin 100000) (c : Fin 1) (j : Fin 24) (hj : 11 + c.val = j.val) :
    nbrSums (F := Ideal) x0 x1 x2 x3 x4 x6 x7 (ix2 n j) = val_main_v12 (F := Ideal) x0 x1 x2 x3 x4 x6 x7 (ix2 n j) := by
  unfold nbrSums val_main_v12
  rw [dst_eq x7]
  refine (cat_cols_apply _ _ 2 (by show (2 : Nat) < 5; omega) 1 _ rfl 11 rfl n c j hj).trans ?_
  refine piece_eq _ _ _ _ rfl rfl _ _ _ _ _ n c j ?_ ?_
  · exact (zeros_apply _ _).trans (zeros_apply _ _).symm
  · intro e
    unfold val_main_v9
    exact (cat_cols_apply _ _ 2 (by show (2 : Nat) < 5; omega) 1 _ rfl 11 rfl e c j hj).trans rfl

/-- Columns 12 … 19: the per-destination sums of the eight edge features. -/
theorem nbrSums_feat (n : Fin 100000) (c : Fin 8) (j : Fin 24) (hj : 12 + c.val = j.val) :
    nbrSums (F := Ideal) x0 x1 x2 x3 x4 x6 x7 (ix2 n j) = val_main_v12 (F := Ideal) x0 x1 x2 x3 x4 x6 x7 (ix2 n j) := by
  unfold nbrSums val_main_v12
  rw [dst_eq x7]
  refine (cat_cols_apply _ _ 3 (by show (3 : Nat) < 5; omega) 8 _ rfl 12 rfl n c j hj).trans ?_
  refine piece_eq _ _ _ _ rfl rfl _ _ _ _ _ n c j ?_ ?_
  · exact (zeros_apply _ _).trans (zeros_apply _ _).symm
  · intro e
    unfold val_main_v9
    exact cat_cols_apply _ _ 3 (by show (3 : Nat) < 5; omega) 8 _ rfl 12 rfl e c j hj

/-- Columns 20 … 23: the per-destination sums of the four discrete edge columns. -/
theorem nbrSums_disc (n : Fin 100000) (c : Fin 4) (j : Fin 24) (hj : 20 + c.val = j.val) :
    nbrSums (F := Ideal) x0 x1 x2 x3 x4 x6 x7 (ix2 n j) = val_main_v12 (F := Ideal) x0 x1 x2 x3 x4 x6 x7 (ix2 n j) := by
  unfold nbrSums val_main_v12
  rw [dst_eq x7]
  refine (cat_cols_apply _ _ 4 (by show (4 : Nat) < 5; omega) 4 _ rfl 20 rfl n c j hj).trans ?_
  refine piece_eq _ _ _ _ rfl rfl _ _ _ _ _ n c j ?_ ?_
  · exact (zeros_apply _ _).trans (zeros_apply _ _).symm
  · intro e
    unfold val_main_v9
    exact cat_cols_apply _ _ 4 (by show (4 : Nat) < 5; omega) 4 _ rfl 20 rfl e c j hj

/-- At every node and column the five sums laid side by side are the one sum of the edge tables laid side by side. -/
theorem nbrSums_eq_at (n : Fin 100000) (j : Fin 24) :
    nbrSums (F := Ideal) x0 x1 x2 x3 x4 x6 x7 (ix2 n j) = val_main_v12 (F := Ideal) x0 x1 x2 x3 x4 x6 x7 (ix2 n j) := by
  have hj := j.isLt
  by_cases h0 : j.val < 10
  · exact nbrSums_src x0 x1 x2 x3 x4 x6 x7 n ⟨j.val, h0⟩ j (Nat.zero_add _)
  by_cases h1 : j.val < 11
  · exact nbrSums_dist x0 x1 x2 x3 x4 x6 x7 n ⟨0, Nat.one_pos⟩ j (by show 10 + 0 = j.val; omega)
  by_cases h2 : j.val < 12
  · exact nbrSums_ang x0 x1 x2 x3 x4 x6 x7 n ⟨0, Nat.one_pos⟩ j (by show 11 + 0 = j.val; omega)
  by_cases h3 : j.val < 20
  · exact nbrSums_feat x0 x1 x2 x3 x4 x6 x7 n ⟨j.val - 12, by omega⟩ j (by show 12 + (j.val - 12) = j.val; omega)
  · exact nbrSums_disc x0 x1 x2 x3 x4 x6 x7 n ⟨j.val - 20, by omega⟩ j (by show 20 + (j.val - 20) = j.val; omega)

/-- The neighbourhood sums of the two programs are the same table. -/
theorem nbrSums_eq :
    nbrSums (F := Ideal) x0 x1 x2 x3 x4 x6 x7 = val_main_v12 (F := Ideal) x0 x1 x2 x3 x4 x6 x7 := by
  funext i
  obtain ⟨n, j, rfl⟩ : ∃ (n : Fin 100000) (j : Fin 24), i = ix2 n j := ⟨i 0, i 1, eq_ix2 i⟩
  exact nbrSums_eq_at x0 x1 x2 x3 x4 x6 x7 n j

/-- **The normalised neighbourhood sums agree**: both programs scale row `n` of the same sums by the node's factor. -/
theorem nbrNorm_eq :
    nbrNorm (F := Ideal) x0 x1 x2 x3 x4 x5 x6 x7 = val_main_v14 (F := Ideal) x0 x1 x2 x3 x4 x5 x6 x7 := by
  unfold nbrNorm val_main_v14
  rw [nbrSums_eq x0 x1 x2 x3 x4 x6 x7]
  rfl

/-- **The masked node features agree**: the same operations on the same arguments in both programs. -/
theorem maskedX_eq : maskedX (F := Ideal) x0 x8 x9 = val_main_v23 (F := Ideal) x0 x8 x9 := rfl

end Main

end Cert.NbrSums

end
-- ==== Proof.RefRows.lean ====
/-
  The reference program's node tables one row at a time. Every stage of the reference that carries a node's row
  is read at an index (n, j) and identified with the row functions of the shared specification: a layer's
  concatenation, product with the transposed weight and bias give the affine map written as two sums; the
  twenty-four stages that follow give layer normalisation of that row; the maximum with the broadcast zero is relu.
  The concatenated row against the transposed weight is one sum over d + 24 columns; it splits into the row's own d
  columns against the top rows of the transposed weight and the 24 neighbourhood columns against the bottom rows.
  A host row sum starts from the zero word, which is 0.
-/
import proofs.«106524_j47382079209805_2_alg».proof.Proof.RefRead
import proofs.«106524_j47382079209805_2_alg».proof.Proof.NodeSpec
import proofs.«106524_j47382079209805_2_alg».proof.Proof.RefSpec

open scoped BigOperators

noncomputable section

namespace Cert.RefRows

open Cert.ReferenceIdeal Cert.ReferenceIdeal.Gen Cert.ReferenceIdeal.ReadP Cert.NodeSpec Cert.RefSpec Idealize.ShloMosaic Idealize.ShloMosaic.TcCoe Idealize.SL.Sem Idealize.ShloMosaic.StableHlo Idealize.ShloMosaic.ValueIdx

/-- The sum over the d + e columns of a row laid side by side, against the rows of a transposed weight, is the
    product of the first d columns with the weight's top d rows plus the product of the last e columns with the
    e rows below them. -/
theorem affine_split {a d e m o : ℕ} (hm : d + e = m)
    (C : (⟨2, ![a, m]⟩ : Shape).Idx → EReal) (H : (⟨2, ![a, d]⟩ : Shape).Idx → EReal)
    (A : (⟨2, ![a, e]⟩ : Shape).Idx → EReal) (W : (⟨2, ![o, m]⟩ : Shape).Idx → EReal) (n : Fin a) (j : Fin o)
    (hL : ∀ k : Fin d, C (ix2 n (⟨k.val, by have := k.isLt; omega⟩ : Fin m)) = H (ix2 n k))
    (hR : ∀ k : Fin e, C (ix2 n (⟨d + k.val, by have := k.isLt; omega⟩ : Fin m)) = A (ix2 n k)) :
    ∑ k : Fin m, C (ix2 n k) * W (ix2 j k)
      = lin1 (row H n) (wT W 0 d (by omega)) j + lin1 (row A n) (wT W d e (by omega)) j := by
  rw [sum_two hm]
  unfold lin1 row wT
  refine congrArg₂ (· + ·) (Finset.sum_congr rfl fun k _ => ?_) (Finset.sum_congr rfl fun k _ => ?_)
  · rw [hL k]
    exact congrArg (fun t => H (ix2 n k) * W (ix2 j t)) (Fin.ext (Nat.zero_add k.val).symm)
  · rw [hR k]

variable (x0 : (⟨S100000x10, .f32⟩ : BufTy).Contents (Elt Ideal))
  (x1 : (⟨S3200000, .f32⟩ : BufTy).Contents (Elt Ideal))
  (x2 : (⟨S3200000, .f32⟩ : BufTy).Contents (Elt Ideal))
  (x3 : (⟨S3200000x8, .f32⟩ : BufTy).Contents (Elt Ideal))
  (x4 : (⟨S3200000x4, .f32⟩ : BufTy).Contents (Elt Ideal))
  (x5 : (⟨S100000x1, .f32⟩ : BufTy).Contents (Elt Ideal))
  (x6 : (⟨S3200000, .i32⟩ : BufTy).Contents (Elt Ideal))
  (x7 : (⟨S3200000, .i32⟩ : BufTy).Contents (Elt Ideal))
  (x8 : (⟨S20000, .i32⟩ : BufTy).Contents (Elt Ideal))
  (x9 : (⟨S1x10, .f32⟩ : BufTy).Contents (Elt Ideal))
  (x10 : (⟨S256x34, .f32⟩ : BufTy).Contents (Elt Ideal))
  (x11 : (⟨S256, .f32⟩ : BufTy).Contents (Elt Ideal))
  (x12 : (⟨S256, .f32⟩ : BufTy).Contents (Elt Ideal))
  (x13 : (⟨S256, .f32⟩ : BufTy).Contents (Elt Ideal))
  (x14 : (⟨S512x280, .f32⟩ : BufTy).Contents (Elt Ideal))
  (x15 : (⟨S512, .f32⟩ : BufTy).Contents (Elt Ideal))
  (x16 : (⟨S512, .f32⟩ : BufTy).Contents (Elt Ideal))
  (x17 : (⟨S512, .f32⟩ : BufTy).Contents (Elt Ideal))
  (x18 : (⟨S256x536, .f32⟩ : BufTy).Contents (Elt Ideal))
  (x19 : (⟨S256, .f32⟩ : BufTy).Contents (Elt Ideal))
  (x20 : (⟨S256, .f32⟩ : BufTy).Contents (Elt Ideal))
  (x21 : (⟨S256, .f32⟩ : BufTy).Contents (Elt Ideal))
  (x22 : (⟨S10x280, .f32⟩ : BufTy).Contents (Elt Ideal))
  (x23 : (⟨S10, .f32⟩ : BufTy).Contents (Elt Ideal))
  (x24 : (⟨S10, .f32⟩ : BufTy).Contents (Elt Ideal))
  (x25 : (⟨S10, .f32⟩ : BufTy).Contents (Elt Ideal))
  (x26 : (⟨S512x512, .f32⟩ : BufTy).Contents (Elt Ideal))
  (x27 : (⟨S16x512, .f32⟩ : BufTy).Contents (Elt Ideal))
  (x28 : (⟨S16, .f32⟩ : BufTy).Contents (Elt Ideal))
  (x29 : (⟨S16, .f32⟩ : BufTy).Contents (Elt Ideal))
  (x30 : (⟨S16, .f32⟩ : BufTy).Contents (Elt Ideal))

/-- A row against the rows of a transposed weight is the product with the transposed weight. -/
theorem lin1_wT {o m : ℕ} (W : (⟨2, ![o, m]⟩ : Shape).Idx → EReal) (h : Fin m → EReal) (j : Fin o) :
    ∑ k : Fin m, h k * W (ix2 j k) = lin1 h (wT W 0 m (by omega)) j := by
  unfold lin1 wT
  exact Finset.sum_congr rfl fun k _ => congrArg (fun t => h k * W (ix2 j t)) (Fin.ext (Nat.zero_add k.val).symm)

/-! ## The first encoder layer (stages 24 to 54) -/

/-- The row sum of the affine stage. -/
theorem e0_sum (n : Fin 100000) :
    val_main_v30 (F := Ideal) x0 x1 x2 x3 x4 x5 x6 x7 x8 x9 x10 x11 (ix1 n) = ∑ k : Fin 256, val_main_v29 (F := Ideal) x0 x1 x2 x3 x4 x5 x6 x7 x8 x9 x10 x11 (ix2 n k) := by
  refine (val_main_v30_apply x0 x1 x2 x3 x4 x5 x6 x7 x8 x9 x10 x11 (ix1 n)).trans ?_
  rw [val_main_cst_3_apply, Ideal.ofBits_def, Ideal.ofBits_zero_f32, zero_add]
  refine Finset.sum_congr rfl fun k _ => congrArg (val_main_v29 (F := Ideal) x0 x1 x2 x3 x4 x5 x6 x7 x8 x9 x10 x11) ?_
  funext a; match a with | ⟨0, _⟩ => rfl | ⟨1, _⟩ => rfl

/-- The row mean. -/
theorem e0_mean (n : Fin 100000) :
    val_main_v33 (F := Ideal) x0 x1 x2 x3 x4 x5 x6 x7 x8 x9 x10 x11 (ix2 n (0 : Fin 1)) = rowMean w256 (fun k => val_main_v29 (F := Ideal) x0 x1 x2 x3 x4 x5 x6 x7 x8 x9 x10 x11 (ix2 n k)) := by
  refine (val_main_v33_apply x0 x1 x2 x3 x4 x5 x6 x7 x8 x9 x10 x11 _).trans ?_
  rw [val_main_v31_apply, val_main_v32_apply, val_main_cst_4_apply, Ideal.hostDivf_def, Ideal.ofBits_def]
  have e : idx_main_v31 (ix2 n (0 : Fin 1)) = ix1 n := by funext a; match a with | ⟨0, _⟩ => rfl
  rw [e, e0_sum]
  rfl

/-- The centred row, as the variance reads it. -/
theorem e0_sub1 (n : Fin 100000) (k : Fin 256) :
    val_main_v35 (F := Ideal) x0 x1 x2 x3 x4 x5 x6 x7 x8 x9 x10 x11 (ix2 n k) = val_main_v29 (F := Ideal) x0 x1 x2 x3 x4 x5 x6 x7 x8 x9 x10 x11 (ix2 n k) - rowMean w256 (fun k => val_main_v29 (F := Ideal) x0 x1 x2 x3 x4 x5 x6 x7 x8 x9 x10 x11 (ix2 n k)) := by
  refine (val_main_v35_apply x0 x1 x2 x3 x4 x5 x6 x7 x8 x9 x10 x11 _).trans ?_
  rw [val_main_v34_apply, Ideal.subf_def]
  have e : idx_main_v34 (ix2 n k) = ix2 n (0 : Fin 1) := by funext a; match a with | ⟨0, _⟩ => rfl | ⟨1, _⟩ => rfl
  rw [e, e0_mean]

/-- The centred row, as the normalised row reads it. -/
theorem e0_sub2 (n : Fin 100000) (k : Fin 256) :
    val_main_v42 (F := Ideal) x0 x1 x2 x3 x4 x5 x6 x7 x8 x9 x10 x11 (ix2 n k) = val_main_v29 (F := Ideal) x0 x1 x2 x3 x4 x5 x6 x7 x8 x9 x10 x11 (ix2 n k) - rowMean w256 (fun k => val_main_v29 (F := Ideal) x0 x1 x2 x3 x4 x5 x6 x7 x8 x9 x10 x11 (ix2 n k)) := by
  refine (val_main_v42_apply x0 x1 x2 x3 x4 x5 x6 x7 x8 x9 x10 x11 _).trans ?_
  rw [val_main_v41_apply, Ideal.subf_def]
  have e : idx_main_v41 (ix2 n k) = ix2 n (0 : Fin 1) := by funext a; match a with | ⟨0, _⟩ => rfl | ⟨1, _⟩ => rfl
  rw [e, e0_mean]

/-- The sum of the squared centred row. -/
theorem e0_sqsum (n : Fin 100000) :
    val_main_v37 (F := Ideal) x0 x1 x2 x3 x4 x5 x6 x7 x8 x9 x10 x11 (ix1 n) = (∑ k : Fin 256, (val_main_v29 (F := Ideal) x0 x1 x2 x3 x4 x5 x6 x7 x8 x9 x10 x11 (ix2 n k) - rowMean w256 (fun k => val_main_v29 (F := Ideal) x0 x1 x2 x3 x4 x5 x6 x7 x8 x9 x10 x11 (ix2 n k))) * (val_main_v29 (F := Ideal) x0 x1 x2 x3 x4 x5 x6 x7 x8 x9 x10 x11 (ix2 n k) - rowMean w256 (fun k => val_main_v29 (F := Ideal) x0 x1 x2 x3 x4 x5 x6 x7 x8 x9 x10 x11 (ix2 n k)))) := by
  refine (val_main_v37_apply x0 x1 x2 x3 x4 x5 x6 x7 x8 x9 x10 x11 (ix1 n)).trans ?_
  rw [val_main_cst_5_apply, Ideal.ofBits_def, Ideal.ofBits_zero_f32, zero_add]
  refine Finset.sum_congr rfl fun k _ => ?_
  have e : idx_main_v37 (ix1 n) k = ix2 n k := by funext a; match a with | ⟨0, _⟩ => rfl | ⟨1, _⟩ => rfl
  rw [e, val_main_v36_apply, Ideal.mulf_def, e0_sub1]

/-- The reciprocal square root of the variance plus the epsilon. -/
theorem e0_rsq (n : Fin 100000) :
    val_main_v45 (F := Ideal) x0 x1 x2 x3 x4 x5 x6 x7 x8 x9 x10 x11 (ix2 n (0 : Fin 1)) = Ideal.rsqrt (Ideal.div (∑ k : Fin 256, (val_main_v29 (F := Ideal) x0 x1 x2 x3 x4 x5 x6 x7 x8 x9 x10 x11 (ix2 n k) - rowMean w256 (fun k => val_main_v29 (F := Ideal) x0 x1 x2 x3 x4 x5 x6 x7 x8 x9 x10 x11 (ix2 n k))) * (val_main_v29 (F := Ideal) x0 x1 x2 x3 x4 x5 x6 x7 x8 x9 x10 x11 (ix2 n k) - rowMean w256 (fun k => val_main_v29 (F := Ideal) x0 x1 x2 x3 x4 x5 x6 x7 x8 x9 x10 x11 (ix2 n k)))) w256 + epsW) := by
  refine (val_main_v45_apply x0 x1 x2 x3 x4 x5 x6 x7 x8 x9 x10 x11 _).trans ?_
  rw [val_main_v44_apply, val_main_v43_apply, val_main_cst_7_apply, val_main_v40_apply,
    val_main_v38_apply, val_main_v39_apply, val_main_cst_6_apply]
  have e : idx_main_v38 (ix2 n (0 : Fin 1)) = ix1 n := by funext a; match a with | ⟨0, _⟩ => rfl
  rw [e, e0_sqsum]
  rfl

/-- Layer normalisation of the row of the affine stage. -/
theorem e0_ln (n : Fin 100000) (j : Fin 256) :
    val_main_v53 (F := Ideal) x0 x1 x2 x3 x4 x5 x6 x7 x8 x9 x10 x11 x12 x13 (ix2 n j) = lnRow w256 (fun k => val_main_v29 (F := Ideal) x0 x1 x2 x3 x4 x5 x6 x7 x8 x9 x10 x11 (ix2 n k)) (vec x12) (vec x13) j := by
  refine (val_main_v53_apply x0 x1 x2 x3 x4 x5 x6 x7 x8 x9 x10 x11 x12 x13 _).trans ?_
  rw [val_main_v50_apply, val_main_v47_apply, val_main_v46_apply, val_main_v49_apply,
    val_main_v48_apply, val_main_v52_apply, val_main_v51_apply]
  have e1 : idx_main_v46 (ix2 n j) = ix2 n (0 : Fin 1) := by funext a; match a with | ⟨0, _⟩ => rfl | ⟨1, _⟩ => rfl
  have e2 : idx_main_v48 (idx_main_v49 (ix2 n j)) = ix1 j := by funext a; match a with | ⟨0, _⟩ => rfl
  have e3 : idx_main_v51 (idx_main_v52 (ix2 n j)) = ix1 j := by funext a; match a with | ⟨0, _⟩ => rfl
  rw [e1, e2, e3, e0_sub2, e0_rsq]
  rfl

/-- The concatenated row reads the layer's input row on its first 10 columns. -/
theorem e0_cat_left (n : Fin 100000) (k : Fin 10) :
    val_main_v24 (F := Ideal) x0 x1 x2 x3 x4 x5 x6 x7 x8 x9 (ix2 n (⟨k.val, by have := k.isLt; omega⟩ : Fin 34)) = val_main_v23 (F := Ideal) x0 x8 x9 (ix2 n k) := by
  unfold val_main_v24
  generalize val_main_v23 (F := Ideal) x0 x8 x9 = y0
  generalize val_main_v14 (F := Ideal) x0 x1 x2 x3 x4 x5 x6 x7 = y1
  exact concatenate_pair_apply_left (t := S100000x34) (s₁ := S100000x10) (s₂ := S100000x24) (1 : Fin 2) y0 y1 concatenates_S100000x10_S100000x24_S100000x34_d1
    (ix2 n (⟨k.val, by have := k.isLt; omega⟩ : Fin 34)) rfl (ix2 n k)
    (fun b => by match b with | ⟨0, _⟩ => rfl | ⟨1, _⟩ => rfl)

/-- The concatenated row reads the neighbourhood row on its last 24 columns. -/
theorem e0_cat_right (n : Fin 100000) (k : Fin 24) :
    val_main_v24 (F := Ideal) x0 x1 x2 x3 x4 x5 x6 x7 x8 x9 (ix2 n (⟨10 + k.val, by have := k.isLt; omega⟩ : Fin 34)) = val_main_v14 (F := Ideal) x0 x1 x2 x3 x4 x5 x6 x7 (ix2 n k) := by
  unfold val_main_v24
  generalize val_main_v23 (F := Ideal) x0 x8 x9 = y0
  generalize val_main_v14 (F := Ideal) x0 x1 x2 x3 x4 x5 x6 x7 = y1
  exact concatenate_pair_apply_right (t := S100000x34) (s₁ := S100000x10) (s₂ := S100000x24) (1 : Fin 2) y0 y1 concatenates_S100000x10_S100000x24_S100000x34_d1
    (ix2 n (⟨10 + k.val, by have := k.isLt; omega⟩ : Fin 34)) rfl rfl (ix2 n k)
    (fun b hb => by match b, hb with | ⟨0, _⟩, _ => rfl | ⟨1, _⟩, hb => exact absurd rfl hb)
    (by show k.val + 10 = 10 + k.val; omega)

/-- The product with the transposed weight, as one sum over the concatenated row. -/
theorem e0_dot (n : Fin 100000) (j : Fin 256) :
    val_main_v26 (F := Ideal) x0 x1 x2 x3 x4 x5 x6 x7 x8 x9 x10 (ix2 n j) = ∑ k : Fin 34, val_main_v24 (F := Ideal) x0 x1 x2 x3 x4 x5 x6 x7 x8 x9 (ix2 n k) * x10 (ix2 j k) := by
  refine (val_main_v26_apply x0 x1 x2 x3 x4 x5 x6 x7 x8 x9 x10 (ix2 n j)).trans (Finset.sum_congr rfl fun k _ => ?_)
  rw [val_main_v25_apply]
  refine congrArg₂ (· * ·) (congrArg (val_main_v24 (F := Ideal) x0 x1 x2 x3 x4 x5 x6 x7 x8 x9) ?_) (congrArg x10 ?_)
  · funext a; match a with | ⟨0, _⟩ => rfl | ⟨1, _⟩ => rfl
  · funext a; match a with | ⟨0, _⟩ => rfl | ⟨1, _⟩ => rfl

/-- The bias laid against the rows. -/
theorem e0_bias (n : Fin 100000) (j : Fin 256) : val_main_v28 (F := Ideal) x11 (ix2 n j) = vec x11 j := by
  rw [val_main_v28_apply, val_main_v27_apply]
  refine congrArg x11 ?_
  funext a; match a with | ⟨0, _⟩ => rfl

/-- The affine stage of a row: the row's own columns and the neighbourhood columns against the transposed weight, plus the bias. -/
theorem e0_aff (n : Fin 100000) (j : Fin 256) :
    val_main_v29 (F := Ideal) x0 x1 x2 x3 x4 x5 x6 x7 x8 x9 x10 x11 (ix2 n j)
      = lin2 (row (val_main_v23 (F := Ideal) x0 x8 x9) n) (row (val_main_v14 (F := Ideal) x0 x1 x2 x3 x4 x5 x6 x7) n) (wT x10 0 10 (by decide)) (wT x10 10 24 (by decide)) (vec x11) j := by
  refine (val_main_v29_apply x0 x1 x2 x3 x4 x5 x6 x7 x8 x9 x10 x11 (ix2 n j)).trans ?_
  rw [Ideal.addf_def, e0_dot, e0_bias,
    affine_split (by decide : 10 + 24 = 34) (val_main_v24 (F := Ideal) x0 x1 x2 x3 x4 x5 x6 x7 x8 x9) (val_main_v23 (F := Ideal) x0 x8 x9) (val_main_v14 (F := Ideal) x0 x1 x2 x3 x4 x5 x6 x7) x10 n j
      (e0_cat_left x0 x1 x2 x3 x4 x5 x6 x7 x8 x9 n) (e0_cat_right x0 x1 x2 x3 x4 x5 x6 x7 x8 x9 n)]
  rfl

/-- The maximum with the broadcast zero is relu. -/
theorem e0_relu (n : Fin 100000) (j : Fin 256) :
    val_main_v54 (F := Ideal) x0 x1 x2 x3 x4 x5 x6 x7 x8 x9 x10 x11 x12 x13 (ix2 n j) = relu (val_main_v53 (F := Ideal) x0 x1 x2 x3 x4 x5 x6 x7 x8 x9 x10 x11 x12 x13 (ix2 n j)) := by
  refine (val_main_v54_apply x0 x1 x2 x3 x4 x5 x6 x7 x8 x9 x10 x11 x12 x13 _).trans ?_
  rw [val_main_call0_v0_apply, val_main_call0_cst_apply, Ideal.maximumf_def, Ideal.ofBits_def]
  rfl

/-- The first encoder layer's output row. -/
theorem e0_layer (n : Fin 100000) (j : Fin 256) :
    val_main_v54 (F := Ideal) x0 x1 x2 x3 x4 x5 x6 x7 x8 x9 x10 x11 x12 x13 (ix2 n j) = layerRow w256 (row (val_main_v23 (F := Ideal) x0 x8 x9) n) (row (val_main_v14 (F := Ideal) x0 x1 x2 x3 x4 x5 x6 x7) n) (wT x10 0 10 (by decide)) (wT x10 10 24 (by decide)) (vec x11) (vec x12) (vec x13) j := by
  rw [e0_relu,
    e0_ln,
    show (fun k => val_main_v29 (F := Ideal) x0 x1 x2 x3 x4 x5 x6 x7 x8 x9 x10 x11 (ix2 n k)) = lin2 (row (val_main_v23 (F := Ideal) x0 x8 x9) n) (row (val_main_v14 (F := Ideal) x0 x1 x2 x3 x4 x5 x6 x7) n) (wT x10 0 10 (by decide)) (wT x10 10 24 (by decide)) (vec x11) from funext fun k => e0_aff x0 x1 x2 x3 x4 x5 x6 x7 x8 x9 x10 x11 n k]
  rfl

/-! ## The second encoder layer (stages 55 to 85) -/

/-- The row sum of the affine stage. -/
theorem e1_sum (n : Fin 100000) :
    val_main_v61 (F := Ideal) x0 x1 x2 x3 x4 x5 x6 x7 x8 x9 x10 x11 x12 x13 x14 x15 (ix1 n) = ∑ k : Fin 512, val_main_v60 (F := Ideal) x0 x1 x2 x3 x4 x5 x6 x7 x8 x9 x10 x11 x12 x13 x14 x15 (ix2 n k) := by
  refine (val_main_v61_apply x0 x1 x2 x3 x4 x5 x6 x7 x8 x9 x10 x11 x12 x13 x14 x15 (ix1 n)).trans ?_
  rw [val_main_cst_8_apply, Ideal.ofBits_def, Ideal.ofBits_zero_f32, zero_add]
  refine Finset.sum_congr rfl fun k _ => congrArg (val_main_v60 (F := Ideal) x0 x1 x2 x3 x4 x5 x6 x7 x8 x9 x10 x11 x12 x13 x14 x15) ?_
  funext a; match a with | ⟨0, _⟩ => rfl | ⟨1, _⟩ => rfl

/-- The row mean. -/
theorem e1_mean (n : Fin 100000) :
    val_main_v64 (F := Ideal) x0 x1 x2 x3 x4 x5 x6 x7 x8 x9 x10 x11 x12 x13 x14 x15 (ix2 n (0 : Fin 1)) = rowMean w512 (fun k => val_main_v60 (F := Ideal) x0 x1 x2 x3 x4 x5 x6 x7 x8 x9 x10 x11 x12 x13 x14 x15 (ix2 n k)) := by
  refine (val_main_v64_apply x0 x1 x2 x3 x4 x5 x6 x7 x8 x9 x10 x11 x12 x13 x14 x15 _).trans ?_
  rw [val_main_v62_apply, val_main_v63_apply, val_main_cst_9_apply, Ideal.hostDivf_def, Ideal.ofBits_def]
  have e : idx_main_v62 (ix2 n (0 : Fin 1)) = ix1 n := by funext a; match a with | ⟨0, _⟩ => rfl
  rw [e, e1_sum]
  rfl

/-- The centred row, as the variance reads it. -/
theorem e1_sub1 (n : Fin 100000) (k : Fin 512) :
    val_main_v66 (F := Ideal) x0 x1 x2 x3 x4 x5 x6 x7 x8 x9 x10 x11 x12 x13 x14 x15 (ix2 n k) = val_main_v60 (F := Ideal) x0 x1 x2 x3 x4 x5 x6 x7 x8 x9 x10 x11 x12 x13 x14 x15 (ix2 n k) - rowMean w512 (fun k => val_main_v60 (F := Ideal) x0 x1 x2 x3 x4 x5 x6 x7 x8 x9 x10 x11 x12 x13 x14 x15 (ix2 n k)) := by
  refine (val_main_v66_apply x0 x1 x2 x3 x4 x5 x6 x7 x8 x9 x10 x11 x12 x13 x14 x15 _).trans ?_
  rw [val_main_v65_apply, Ideal.subf_def]
  have e : idx_main_v65 (ix2 n k) = ix2 n (0 : Fin 1) := by funext a; match a with | ⟨0, _⟩ => rfl | ⟨1, _⟩ => rfl
  rw [e, e1_mean]

/-- The centred row, as the normalised row reads it. -/
theorem e1_sub2 (n : Fin 100000) (k : Fin 512) :
    val_main_v73 (F := Ideal) x0 x1 x2 x3 x4 x5 x6 x7 x8 x9 x10 x11 x12 x13 x14 x15 (ix2 n k) = val_main_v60 (F := Ideal) x0 x1 x2 x3 x4 x5 x6 x7 x8 x9 x10 x11 x12 x13 x14 x15 (ix2 n k) - rowMean w512 (fun k => val_main_v60 (F := Ideal) x0 x1 x2 x3 x4 x5 x6 x7 x8 x9 x10 x11 x12 x13 x14 x15 (ix2 n k)) := by
  refine (val_main_v73_apply x0 x1 x2 x3 x4 x5 x6 x7 x8 x9 x10 x11 x12 x13 x14 x15 _).trans ?_
  rw [val_main_v72_apply, Ideal.subf_def]
  have e : idx_main_v72 (ix2 n k) = ix2 n (0 : Fin 1) := by funext a; match a with | ⟨0, _⟩ => rfl | ⟨1, _⟩ => rfl
  rw [e, e1_mean]

/-- The sum of the squared centred row. -/
theorem e1_sqsum (n : Fin 100000) :
    val_main_v68 (F := Ideal) x0 x1 x2 x3 x4 x5 x6 x7 x8 x9 x10 x11 x12 x13 x14 x15 (ix1 n) = (∑ k : Fin 512, (val_main_v60 (F := Ideal) x0 x1 x2 x3 x4 x5 x6 x7 x8 x9 x10 x11 x12 x13 x14 x15 (ix2 n k) - rowMean w512 (fun k => val_main_v60 (F := Ideal) x0 x1 x2 x3 x4 x5 x6 x7 x8 x9 x10 x11 x12 x13 x14 x15 (ix2 n k))) * (val_main_v60 (F := Ideal) x0 x1 x2 x3 x4 x5 x6 x7 x8 x9 x10 x11 x12 x13 x14 x15 (ix2 n k) - rowMean w512 (fun k => val_main_v60 (F := Ideal) x0 x1 x2 x3 x4 x5 x6 x7 x8 x9 x10 x11 x12 x13 x14 x15 (ix2 n k)))) := by
  refine (val_main_v68_apply x0 x1 x2 x3 x4 x5 x6 x7 x8 x9 x10 x11 x12 x13 x14 x15 (ix1 n)).trans ?_
  rw [val_main_cst_10_apply, Ideal.ofBits_def, Ideal.ofBits_zero_f32, zero_add]
  refine Finset.sum_congr rfl fun k _ => ?_
  have e : idx_main_v68 (ix1 n) k = ix2 n k := by funext a; match a with | ⟨0, _⟩ => rfl | ⟨1, _⟩ => rfl
  rw [e, val_main_v67_apply, Ideal.mulf_def, e1_sub1]

/-- The reciprocal square root of the variance plus the epsilon. -/
theorem e1_rsq (n : Fin 100000) :
    val_main_v76 (F := Ideal) x0 x1 x2 x3 x4 x5 x6 x7 x8 x9 x10 x11 x12 x13 x14 x15 (ix2 n (0 : Fin 1)) = Ideal.rsqrt (Ideal.div (∑ k : Fin 512, (val_main_v60 (F := Ideal) x0 x1 x2 x3 x4 x5 x6 x7 x8 x9 x10 x11 x12 x13 x14 x15 (ix2 n k) - rowMean w512 (fun k => val_main_v60 (F := Ideal) x0 x1 x2 x3 x4 x5 x6 x7 x8 x9 x10 x11 x12 x13 x14 x15 (ix2 n k))) * (val_main_v60 (F := Ideal) x0 x1 x2 x3 x4 x5 x6 x7 x8 x9 x10 x11 x12 x13 x14 x15 (ix2 n k) - rowMean w512 (fun k => val_main_v60 (F := Ideal) x0 x1 x2 x3 x4 x5 x6 x7 x8 x9 x10 x11 x12 x13 x14 x15 (ix2 n k)))) w512 + epsW) := by
  refine (val_main_v76_apply x0 x1 x2 x3 x4 x5 x6 x7 x8 x9 x10 x11 x12 x13 x14 x15 _).trans ?_
  rw [val_main_v75_apply, val_main_v74_apply, val_main_cst_12_apply, val_main_v71_apply,
    val_main_v69_apply, val_main_v70_apply, val_main_cst_11_apply]
  have e : idx_main_v69 (ix2 n (0 : Fin 1)) = ix1 n := by funext a; match a with | ⟨0, _⟩ => rfl
  rw [e, e1_sqsum]
  rfl

/-- Layer normalisation of the row of the affine stage. -/
theorem e1_ln (n : Fin 100000) (j : Fin 512) :
    val_main_v84 (F := Ideal) x0 x1 x2 x3 x4 x5 x6 x7 x8 x9 x10 x11 x12 x13 x14 x15 x16 x17 (ix2 n j) = lnRow w512 (fun k => val_main_v60 (F := Ideal) x0 x1 x2 x3 x4 x5 x6 x7 x8 x9 x10 x11 x12 x13 x14 x15 (ix2 n k)) (vec x16) (vec x17) j := by
  refine (val_main_v84_apply x0 x1 x2 x3 x4 x5 x6 x7 x8 x9 x10 x11 x12 x13 x14 x15 x16 x17 _).trans ?_
  rw [val_main_v81_apply, val_main_v78_apply, val_main_v77_apply, val_main_v80_apply,
    val_main_v79_apply, val_main_v83_apply, val_main_v82_apply]
  have e1 : idx_main_v77 (ix2 n j) = ix2 n (0 : Fin 1) := by funext a; match a with | ⟨0, _⟩ => rfl | ⟨1, _⟩ => rfl
  have e2 : idx_main_v79 (idx_main_v80 (ix2 n j)) = ix1 j := by funext a; match a with | ⟨0, _⟩ => rfl
  have e3 : idx_main_v82 (idx_main_v83 (ix2 n j)) = ix1 j := by funext a; match a with | ⟨0, _⟩ => rfl
  rw [e1, e2, e3, e1_sub2, e1_rsq]
  rfl

/-- The concatenated row reads the layer's input row on its first 256 columns. -/
theorem e1_cat_left (n : Fin 100000) (k : Fin 256) :
    val_main_v55 (F := Ideal) x0 x1 x2 x3 x4 x5 x6 x7 x8 x9 x10 x11 x12 x13 (ix2 n (⟨k.val, by have := k.isLt; omega⟩ : Fin 280)) = val_main_v54 (F := Ideal) x0 x1 x2 x3 x4 x5 x6 x7 x8 x9 x10 x11 x12 x13 (ix2 n k) := by
  unfold val_main_v55
  generalize val_main_v54 (F := Ideal) x0 x1 x2 x3 x4 x5 x6 x7 x8 x9 x10 x11 x12 x13 = y0
  generalize val_main_v14 (F := Ideal) x0 x1 x2 x3 x4 x5 x6 x7 = y1
  exact concatenate_pair_apply_left (t := S100000x280) (s₁ := S100000x256) (s₂ := S100000x24) (1 : Fin 2) y0 y1 concatenates_S100000x256_S100000x24_S100000x280_d1
    (ix2 n (⟨k.val, by have := k.isLt; omega⟩ : Fin 280)) rfl (ix2 n k)
    (fun b => by match b with | ⟨0, _⟩ => rfl | ⟨1, _⟩ => rfl)

/-- The concatenated row reads the neighbourhood row on its last 24 columns. -/
theorem e1_cat_right (n : Fin 100000) (k : Fin 24) :
    val_main_v55 (F := Ideal) x0 x1 x2 x3 x4 x5 x6 x7 x8 x9 x10 x11 x12 x13 (ix2 n (⟨256 + k.val, by have := k.isLt; omega⟩ : Fin 280)) = val_main_v14 (F := Ideal) x0 x1 x2 x3 x4 x5 x6 x7 (ix2 n k) := by
  unfold val_main_v55
  generalize val_main_v54 (F := Ideal) x0 x1 x2 x3 x4 x5 x6 x7 x8 x9 x10 x11 x12 x13 = y0
  generalize val_main_v14 (F := Ideal) x0 x1 x2 x3 x4 x5 x6 x7 = y1
  exact concatenate_pair_apply_right (t := S100000x280) (s₁ := S100000x256) (s₂ := S100000x24) (1 : Fin 2) y0 y1 concatenates_S100000x256_S100000x24_S100000x280_d1
    (ix2 n (⟨256 + k.val, by have := k.isLt; omega⟩ : Fin 280)) rfl rfl (ix2 n k)
    (fun b hb => by match b, hb with | ⟨0, _⟩, _ => rfl | ⟨1, _⟩, hb => exact absurd rfl hb)
    (by show k.val + 256 = 256 + k.val; omega)

/-- The product with the transposed weight, as one sum over the concatenated row. -/
theorem e1_dot (n : Fin 100000) (j : Fin 512) :
    val_main_v57 (F := Ideal) x0 x1 x2 x3 x4 x5 x6 x7 x8 x9 x10 x11 x12 x13 x14 (ix2 n j) = ∑ k : Fin 280, val_main_v55 (F := Ideal) x0 x1 x2 x3 x4 x5 x6 x7 x8 x9 x10 x11 x12 x13 (ix2 n k) * x14 (ix2 j k) := by
  refine (val_main_v57_apply x0 x1 x2 x3 x4 x5 x6 x7 x8 x9 x10 x11 x12 x13 x14 (ix2 n j)).trans (Finset.sum_congr rfl fun k _ => ?_)
  rw [val_main_v56_apply]
  refine congrArg₂ (· * ·) (congrArg (val_main_v55 (F := Ideal) x0 x1 x2 x3 x4 x5 x6 x7 x8 x9 x10 x11 x12 x13) ?_) (congrArg x14 ?_)
  · funext a; match a with | ⟨0, _⟩ => rfl | ⟨1, _⟩ => rfl
  · funext a; match a with | ⟨0, _⟩ => rfl | ⟨1, _⟩ => rfl

/-- The bias laid against the rows. -/
theorem e1_bias (n : Fin 100000) (j : Fin 512) : val_main_v59 (F := Ideal) x15 (ix2 n j) = vec x15 j := by
  rw [val_main_v59_apply, val_main_v58_apply]
  refine congrArg x15 ?_
  funext a; match a with | ⟨0, _⟩ => rfl

/-- The affine stage of a row: the row's own columns and the neighbourhood columns against the transposed weight, plus the bias. -/
theorem e1_aff (n : Fin 100000) (j : Fin 512) :
    val_main_v60 (F := Ideal) x0 x1 x2 x3 x4 x5 x6 x7 x8 x9 x10 x11 x12 x13 x14 x15 (ix2 n j)
      = lin2 (row (val_main_v54 (F := Ideal) x0 x1 x2 x3 x4 x5 x6 x7 x8 x9 x10 x11 x12 x13) n) (row (val_main_v14 (F := Ideal) x0 x1 x2 x3 x4 x5 x6 x7) n) (wT x14 0 256 (by decide)) (wT x14 256 24 (by decide)) (vec x15) j := by
  refine (val_main_v60_apply x0 x1 x2 x3 x4 x5 x6 x7 x8 x9 x10 x11 x12 x13 x14 x15 (ix2 n j)).trans ?_
  rw [Ideal.addf_def, e1_dot, e1_bias,
    affine_split (by decide : 256 + 24 = 280) (val_main_v55 (F := Ideal) x0 x1 x2 x3 x4 x5 x6 x7 x8 x9 x10 x11 x12 x13) (val_main_v54 (F := Ideal) x0 x1 x2 x3 x4 x5 x6 x7 x8 x9 x10 x11 x12 x13) (val_main_v14 (F := Ideal) x0 x1 x2 x3 x4 x5 x6 x7) x14 n j
      (e1_cat_left x0 x1 x2 x3 x4 x5 x6 x7 x8 x9 x10 x11 x12 x13 n) (e1_cat_right x0 x1 x2 x3 x4 x5 x6 x7 x8 x9 x10 x11 x12 x13 n)]
  rfl

/-- The maximum with the broadcast zero is relu. -/
theorem e1_relu (n : Fin 100000) (j : Fin 512) :
    val_main_v85 (F := Ideal) x0 x1 x2 x3 x4 x5 x6 x7 x8 x9 x10 x11 x12 x13 x14 x15 x16 x17 (ix2 n j) = relu (val_main_v84 (F := Ideal) x0 x1 x2 x3 x4 x5 x6 x7 x8 x9 x10 x11 x12 x13 x14 x15 x16 x17 (ix2 n j)) := by
  refine (val_main_v85_apply x0 x1 x2 x3 x4 x5 x6 x7 x8 x9 x10 x11 x12 x13 x14 x15 x16 x17 _).trans ?_
  rw [val_main_call1_v0_apply, val_main_call1_cst_apply, Ideal.maximumf_def, Ideal.ofBits_def]
  rfl

/-- The second encoder layer's output row is the encoded row. -/
theorem enc_row (n : Fin 100000) (j : Fin 512) :
    val_main_v85 (F := Ideal) x0 x1 x2 x3 x4 x5 x6 x7 x8 x9 x10 x11 x12 x13 x14 x15 x16 x17 (ix2 n j) = encAt x0 x1 x2 x3 x4 x5 x6 x7 x8 x9 x10 x11 x12 x13 x14 x15 x16 x17 n j := by
  rw [e1_relu,
    e1_ln,
    show (fun k => val_main_v60 (F := Ideal) x0 x1 x2 x3 x4 x5 x6 x7 x8 x9 x10 x11 x12 x13 x14 x15 (ix2 n k)) = lin2 (row (val_main_v54 (F := Ideal) x0 x1 x2 x3 x4 x5 x6 x7 x8 x9 x10 x11 x12 x13) n) (row (val_main_v14 (F := Ideal) x0 x1 x2 x3 x4 x5 x6 x7) n) (wT x14 0 256 (by decide)) (wT x14 256 24 (by decide)) (vec x15) from funext fun k => e1_aff x0 x1 x2 x3 x4 x5 x6 x7 x8 x9 x10 x11 x12 x13 x14 x15 n k,
    show row (val_main_v54 (F := Ideal) x0 x1 x2 x3 x4 x5 x6 x7 x8 x9 x10 x11 x12 x13) n = (layerRow w256 (row (val_main_v23 (F := Ideal) x0 x8 x9) n) (row (val_main_v14 (F := Ideal) x0 x1 x2 x3 x4 x5 x6 x7) n) (wT x10 0 10 (by decide)) (wT x10 10 24 (by decide)) (vec x11) (vec x12) (vec x13)) from funext fun k => e0_layer x0 x1 x2 x3 x4 x5 x6 x7 x8 x9 x10 x11 x12 x13 n k]
  rfl

/-! ## The node-class scores (stages 86 to 114) -/

/-- The encoded row against the transposed score weight. -/
theorem sc_dot (n : Fin 100000) (j : Fin 16) :
    val_main_v87 (F := Ideal) x0 x1 x2 x3 x4 x5 x6 x7 x8 x9 x10 x11 x12 x13 x14 x15 x16 x17 x27 (ix2 n j) = lin1 (encAt x0 x1 x2 x3 x4 x5 x6 x7 x8 x9 x10 x11 x12 x13 x14 x15 x16 x17 n) (wT x27 0 512 (by decide)) j := by
  refine (val_main_v87_apply x0 x1 x2 x3 x4 x5 x6 x7 x8 x9 x10 x11 x12 x13 x14 x15 x16 x17 x27 (ix2 n j)).trans ?_
  refine (Finset.sum_congr rfl fun k _ => ?_).trans (lin1_wT x27 (encAt x0 x1 x2 x3 x4 x5 x6 x7 x8 x9 x10 x11 x12 x13 x14 x15 x16 x17 n) j)
  rw [val_main_v86_apply]
  refine congrArg₂ (· * ·) ((congrArg (val_main_v85 (F := Ideal) x0 x1 x2 x3 x4 x5 x6 x7 x8 x9 x10 x11 x12 x13 x14 x15 x16 x17) ?_).trans (enc_row x0 x1 x2 x3 x4 x5 x6 x7 x8 x9 x10 x11 x12 x13 x14 x15 x16 x17 n k)) (congrArg x27 ?_)
  · funext a; match a with | ⟨0, _⟩ => rfl | ⟨1, _⟩ => rfl
  · funext a; match a with | ⟨0, _⟩ => rfl | ⟨1, _⟩ => rfl

/-- The score bias laid against the rows. -/
theorem sc_bias (n : Fin 100000) (j : Fin 16) : val_main_v89 (F := Ideal) x28 (ix2 n j) = vec x28 j := by
  rw [val_main_v89_apply, val_main_v88_apply]
  refine congrArg x28 ?_
  funext a; match a with | ⟨0, _⟩ => rfl

/-- The affine stage of the scores. -/
theorem sc_aff (n : Fin 100000) (j : Fin 16) :
    val_main_v90 (F := Ideal) x0 x1 x2 x3 x4 x5 x6 x7 x8 x9 x10 x11 x12 x13 x14 x15 x16 x17 x27 x28 (ix2 n j) = lin1 (encAt x0 x1 x2 x3 x4 x5 x6 x7 x8 x9 x10 x11 x12 x13 x14 x15 x16 x17 n) (wT x27 0 512 (by decide)) j + vec x28 j := by
  refine (val_main_v90_apply x0 x1 x2 x3 x4 x5 x6 x7 x8 x9 x10 x11 x12 x13 x14 x15 x16 x17 x27 x28 (ix2 n j)).trans ?_
  rw [Ideal.addf_def, sc_dot, sc_bias]

/-- The row sum of the affine stage. -/
theorem sc_sum (n : Fin 100000) :
    val_main_v91 (F := Ideal) x0 x1 x2 x3 x4 x5 x6 x7 x8 x9 x10 x11 x12 x13 x14 x15 x16 x17 x27 x28 (ix1 n) = ∑ k : Fin 16, val_main_v90 (F := Ideal) x0 x1 x2 x3 x4 x5 x6 x7 x8 x9 x10 x11 x12 x13 x14 x15 x16 x17 x27 x28 (ix2 n k) := by
  refine (val_main_v91_apply x0 x1 x2 x3 x4 x5 x6 x7 x8 x9 x10 x11 x12 x13 x14 x15 x16 x17 x27 x28 (ix1 n)).trans ?_
  rw [val_main_cst_13_apply, Ideal.ofBits_def, Ideal.ofBits_zero_f32, zero_add]
  refine Finset.sum_congr rfl fun k _ => congrArg (val_main_v90 (F := Ideal) x0 x1 x2 x3 x4 x5 x6 x7 x8 x9 x10 x11 x12 x13 x14 x15 x16 x17 x27 x28) ?_
  funext a; match a with | ⟨0, _⟩ => rfl | ⟨1, _⟩ => rfl

/-- The row mean. -/
theorem sc_mean (n : Fin 100000) :
    val_main_v94 (F := Ideal) x0 x1 x2 x3 x4 x5 x6 x7 x8 x9 x10 x11 x12 x13 x14 x15 x16 x17 x27 x28 (ix2 n (0 : Fin 1)) = rowMean w16 (fun k => val_main_v90 (F := Ideal) x0 x1 x2 x3 x4 x5 x6 x7 x8 x9 x10 x11 x12 x13 x14 x15 x16 x17 x27 x28 (ix2 n k)) := by
  refine (val_main_v94_apply x0 x1 x2 x3 x4 x5 x6 x7 x8 x9 x10 x11 x12 x13 x14 x15 x16 x17 x27 x28 _).trans ?_
  rw [val_main_v92_apply, val_main_v93_apply, val_main_cst_14_apply, Ideal.hostDivf_def, Ideal.ofBits_def]
  have e : idx_main_v92 (ix2 n (0 : Fin 1)) = ix1 n := by funext a; match a with | ⟨0, _⟩ => rfl
  rw [e, sc_sum]
  rfl

/-- The centred row, as the variance reads it. -/
theorem sc_sub1 (n : Fin 100000) (k : Fin 16) :
    val_main_v96 (F := Ideal) x0 x1 x2 x3 x4 x5 x6 x7 x8 x9 x10 x11 x12 x13 x14 x15 x16 x17 x27 x28 (ix2 n k) = val_main_v90 (F := Ideal) x0 x1 x2 x3 x4 x5 x6 x7 x8 x9 x10 x11 x12 x13 x14 x15 x16 x17 x27 x28 (ix2 n k) - rowMean w16 (fun k => val_main_v90 (F := Ideal) x0 x1 x2 x3 x4 x5 x6 x7 x8 x9 x10 x11 x12 x13 x14 x15 x16 x17 x27 x28 (ix2 n k)) := by
  refine (val_main_v96_apply x0 x1 x2 x3 x4 x5 x6 x7 x8 x9 x10 x11 x12 x13 x14 x15 x16 x17 x27 x28 _).trans ?_
  rw [val_main_v95_apply, Ideal.subf_def]
  have e : idx_main_v95 (ix2 n k) = ix2 n (0 : Fin 1) := by funext a; match a with | ⟨0, _⟩ => rfl | ⟨1, _⟩ => rfl
  rw [e, sc_mean]

/-- The centred row, as the normalised row reads it. -/
theorem sc_sub2 (n : Fin 100000) (k : Fin 16) :
    val_main_v103 (F := Ideal) x0 x1 x2 x3 x4 x5 x6 x7 x8 x9 x10 x11 x12 x13 x14 x15 x16 x17 x27 x28 (ix2 n k) = val_main_v90 (F := Ideal) x0 x1 x2 x3 x4 x5 x6 x7 x8 x9 x10 x11 x12 x13 x14 x15 x16 x17 x27 x28 (ix2 n k) - rowMean w16 (fun k => val_main_v90 (F := Ideal) x0 x1 x2 x3 x4 x5 x6 x7 x8 x9 x10 x11 x12 x13 x14 x15 x16 x17 x27 x28 (ix2 n k)) := by
  refine (val_main_v103_apply x0 x1 x2 x3 x4 x5 x6 x7 x8 x9 x10 x11 x12 x13 x14 x15 x16 x17 x27 x28 _).trans ?_
  rw [val_main_v102_apply, Ideal.subf_def]
  have e : idx_main_v102 (ix2 n k) = ix2 n (0 : Fin 1) := by funext a; match a with | ⟨0, _⟩ => rfl | ⟨1, _⟩ => rfl
  rw [e, sc_mean]

/-- The sum of the squared centred row. -/
theorem sc_sqsum (n : Fin 100000) :
    val_main_v98 (F := Ideal) x0 x1 x2 x3 x4 x5 x6 x7 x8 x9 x10 x11 x12 x13 x14 x15 x16 x17 x27 x28 (ix1 n) = (∑ k : Fin 16, (val_main_v90 (F := Ideal) x0 x1 x2 x3 x4 x5 x6 x7 x8 x9 x10 x11 x12 x13 x14 x15 x16 x17 x27 x28 (ix2 n k) - rowMean w16 (fun k => val_main_v90 (F := Ideal) x0 x1 x2 x3 x4 x5 x6 x7 x8 x9 x10 x11 x12 x13 x14 x15 x16 x17 x27 x28 (ix2 n k))) * (val_main_v90 (F := Ideal) x0 x1 x2 x3 x4 x5 x6 x7 x8 x9 x10 x11 x12 x13 x14 x15 x16 x17 x27 x28 (ix2 n k) - rowMean w16 (fun k => val_main_v90 (F := Ideal) x0 x1 x2 x3 x4 x5 x6 x7 x8 x9 x10 x11 x12 x13 x14 x15 x16 x17 x27 x28 (ix2 n k)))) := by
  refine (val_main_v98_apply x0 x1 x2 x3 x4 x5 x6 x7 x8 x9 x10 x11 x12 x13 x14 x15 x16 x17 x27 x28 (ix1 n)).trans ?_
  rw [val_main_cst_15_apply, Ideal.ofBits_def, Ideal.ofBits_zero_f32, zero_add]
  refine Finset.sum_congr rfl fun k _ => ?_
  have e : idx_main_v98 (ix1 n) k = ix2 n k := by funext a; match a with | ⟨0, _⟩ => rfl | ⟨1, _⟩ => rfl
  rw [e, val_main_v97_apply, Ideal.mulf_def, sc_sub1]

/-- The reciprocal square root of the variance plus the epsilon. -/
theorem sc_rsq (n : Fin 100000) :
    val_main_v106 (F := Ideal) x0 x1 x2 x3 x4 x5 x6 x7 x8 x9 x10 x11 x12 x13 x14 x15 x16 x17 x27 x28 (ix2 n (0 : Fin 1)) = Ideal.rsqrt (Ideal.div (∑ k : Fin 16, (val_main_v90 (F := Ideal) x0 x1 x2 x3 x4 x5 x6 x7 x8 x9 x10 x11 x12 x13 x14 x15 x16 x17 x27 x28 (ix2 n k) - rowMean w16 (fun k => val_main_v90 (F := Ideal) x0 x1 x2 x3 x4 x5 x6 x7 x8 x9 x10 x11 x12 x13 x14 x15 x16 x17 x27 x28 (ix2 n k))) * (val_main_v90 (F := Ideal) x0 x1 x2 x3 x4 x5 x6 x7 x8 x9 x10 x11 x12 x13 x14 x15 x16 x17 x27 x28 (ix2 n k) - rowMean w16 (fun k => val_main_v90 (F := Ideal) x0 x1 x2 x3 x4 x5 x6 x7 x8 x9 x10 x11 x12 x13 x14 x15 x16 x17 x27 x28 (ix2 n k)))) w16 + epsW) := by
  refine (val_main_v106_apply x0 x1 x2 x3 x4 x5 x6 x7 x8 x9 x10 x11 x12 x13 x14 x15 x16 x17 x27 x28 _).trans ?_
  rw [val_main_v105_apply, val_main_v104_apply, val_main_cst_17_apply, val_main_v101_apply,
    val_main_v99_apply, val_main_v100_apply, val_main_cst_16_apply]
  have e : idx_main_v99 (ix2 n (0 : Fin 1)) = ix1 n := by funext a; match a with | ⟨0, _⟩ => rfl
  rw [e, sc_sqsum]
  rfl

/-- Layer normalisation of the row of the affine stage. -/
theorem sc_ln (n : Fin 100000) (j : Fin 16) :
    val_main_v114 (F := Ideal) x0 x1 x2 x3 x4 x5 x6 x7 x8 x9 x10 x11 x12 x13 x14 x15 x16 x17 x27 x28 x29 x30 (ix2 n j) = lnRow w16 (fun k => val_main_v90 (F := Ideal) x0 x1 x2 x3 x4 x5 x6 x7 x8 x9 x10 x11 x12 x13 x14 x15 x16 x17 x27 x28 (ix2 n k)) (vec x29) (vec x30) j := by
  refine (val_main_v114_apply x0 x1 x2 x3 x4 x5 x6 x7 x8 x9 x10 x11 x12 x13 x14 x15 x16 x17 x27 x28 x29 x30 _).trans ?_
  rw [val_main_v111_apply, val_main_v108_apply, val_main_v107_apply, val_main_v110_apply,
    val_main_v109_apply, val_main_v113_apply, val_main_v112_apply]
  have e1 : idx_main_v107 (ix2 n j) = ix2 n (0 : Fin 1) := by funext a; match a with | ⟨0, _⟩ => rfl | ⟨1, _⟩ => rfl
  have e2 : idx_main_v109 (idx_main_v110 (ix2 n j)) = ix1 j := by funext a; match a with | ⟨0, _⟩ => rfl
  have e3 : idx_main_v112 (idx_main_v113 (ix2 n j)) = ix1 j := by funext a; match a with | ⟨0, _⟩ => rfl
  rw [e1, e2, e3, sc_sub2, sc_rsq]
  rfl

/-- The node-class scores of a node are the score row of its encoded row. -/
theorem scores_row (n : Fin 100000) (q : Fin 16) :
    val_main_v114 (F := Ideal) x0 x1 x2 x3 x4 x5 x6 x7 x8 x9 x10 x11 x12 x13 x14 x15 x16 x17 x27 x28 x29 x30 (ix2 n q)
      = scoresRow (encAt x0 x1 x2 x3 x4 x5 x6 x7 x8 x9 x10 x11 x12 x13 x14 x15 x16 x17 n) (wT x27 0 512 (by decide)) (vec x28) (vec x29) (vec x30) q := by
  rw [sc_ln, show (fun k => val_main_v90 (F := Ideal) x0 x1 x2 x3 x4 x5 x6 x7 x8 x9 x10 x11 x12 x13 x14 x15 x16 x17 x27 x28 (ix2 n k)) = (fun j => lin1 (encAt x0 x1 x2 x3 x4 x5 x6 x7 x8 x9 x10 x11 x12 x13 x14 x15 x16 x17 n) (wT x27 0 512 (by decide)) j + vec x28 j)
    from funext fun k => sc_aff x0 x1 x2 x3 x4 x5 x6 x7 x8 x9 x10 x11 x12 x13 x14 x15 x16 x17 x27 x28 n k]
  rfl

/-! ## The projection (stages 115 and 116) -/

/-- The projection: the encoded row against the transposed projection weight. -/
theorem pr_dot (n : Fin 100000) (j : Fin 512) :
    val_main_v116 (F := Ideal) x0 x1 x2 x3 x4 x5 x6 x7 x8 x9 x10 x11 x12 x13 x14 x15 x16 x17 x26 (ix2 n j) = lin1 (encAt x0 x1 x2 x3 x4 x5 x6 x7 x8 x9 x10 x11 x12 x13 x14 x15 x16 x17 n) (wT x26 0 512 (by decide)) j := by
  refine (val_main_v116_apply x0 x1 x2 x3 x4 x5 x6 x7 x8 x9 x10 x11 x12 x13 x14 x15 x16 x17 x26 (ix2 n j)).trans ?_
  refine (Finset.sum_congr rfl fun k _ => ?_).trans (lin1_wT x26 (encAt x0 x1 x2 x3 x4 x5 x6 x7 x8 x9 x10 x11 x12 x13 x14 x15 x16 x17 n) j)
  rw [val_main_v115_apply]
  refine congrArg₂ (· * ·) ((congrArg (val_main_v85 (F := Ideal) x0 x1 x2 x3 x4 x5 x6 x7 x8 x9 x10 x11 x12 x13 x14 x15 x16 x17) ?_).trans (enc_row x0 x1 x2 x3 x4 x5 x6 x7 x8 x9 x10 x11 x12 x13 x14 x15 x16 x17 n k)) (congrArg x26 ?_)
  · funext a; match a with | ⟨0, _⟩ => rfl | ⟨1, _⟩ => rfl
  · funext a; match a with | ⟨0, _⟩ => rfl | ⟨1, _⟩ => rfl

/-! ## The first decoder layer (stages 117 to 147) -/

/-- The row sum of the affine stage. -/
theorem d0_sum (n : Fin 100000) :
    val_main_v123 (F := Ideal) x0 x1 x2 x3 x4 x5 x6 x7 x8 x9 x10 x11 x12 x13 x14 x15 x16 x17 x18 x19 x26 (ix1 n) = ∑ k : Fin 256, val_main_v122 (F := Ideal) x0 x1 x2 x3 x4 x5 x6 x7 x8 x9 x10 x11 x12 x13 x14 x15 x16 x17 x18 x19 x26 (ix2 n k) := by
  refine (val_main_v123_apply x0 x1 x2 x3 x4 x5 x6 x7 x8 x9 x10 x11 x12 x13 x14 x15 x16 x17 x18 x19 x26 (ix1 n)).trans ?_
  rw [val_main_cst_18_apply, Ideal.ofBits_def, Ideal.ofBits_zero_f32, zero_add]
  refine Finset.sum_congr rfl fun k _ => congrArg (val_main_v122 (F := Ideal) x0 x1 x2 x3 x4 x5 x6 x7 x8 x9 x10 x11 x12 x13 x14 x15 x16 x17 x18 x19 x26) ?_
  funext a; match a with | ⟨0, _⟩ => rfl | ⟨1, _⟩ => rfl

/-- The row mean. -/
theorem d0_mean (n : Fin 100000) :
    val_main_v126 (F := Ideal) x0 x1 x2 x3 x4 x5 x6 x7 x8 x9 x10 x11 x12 x13 x14 x15 x16 x17 x18 x19 x26 (ix2 n (0 : Fin 1)) = rowMean w256 (fun k => val_main_v122 (F := Ideal) x0 x1 x2 x3 x4 x5 x6 x7 x8 x9 x10 x11 x12 x13 x14 x15 x16 x17 x18 x19 x26 (ix2 n k)) := by
  refine (val_main_v126_apply x0 x1 x2 x3 x4 x5 x6 x7 x8 x9 x10 x11 x12 x13 x14 x15 x16 x17 x18 x19 x26 _).trans ?_
  rw [val_main_v124_apply, val_main_v125_apply, val_main_cst_19_apply, Ideal.hostDivf_def, Ideal.ofBits_def]
  have e : idx_main_v124 (ix2 n (0 : Fin 1)) = ix1 n := by funext a; match a with | ⟨0, _⟩ => rfl
  rw [e, d0_sum]
  rfl

/-- The centred row, as the variance reads it. -/
theorem d0_sub1 (n : Fin 100000) (k : Fin 256) :
    val_main_v128 (F := Ideal) x0 x1 x2 x3 x4 x5 x6 x7 x8 x9 x10 x11 x12 x13 x14 x15 x16 x17 x18 x19 x26 (ix2 n k) = val_main_v122 (F := Ideal) x0 x1 x2 x3 x4 x5 x6 x7 x8 x9 x10 x11 x12 x13 x14 x15 x16 x17 x18 x19 x26 (ix2 n k) - rowMean w256 (fun k => val_main_v122 (F := Ideal) x0 x1 x2 x3 x4 x5 x6 x7 x8 x9 x10 x11 x12 x13 x14 x15 x16 x17 x18 x19 x26 (ix2 n k)) := by
  refine (val_main_v128_apply x0 x1 x2 x3 x4 x5 x6 x7 x8 x9 x10 x11 x12 x13 x14 x15 x16 x17 x18 x19 x26 _).trans ?_
  rw [val_main_v127_apply, Ideal.subf_def]
  have e : idx_main_v127 (ix2 n k) = ix2 n (0 : Fin 1) := by funext a; match a with | ⟨0, _⟩ => rfl | ⟨1, _⟩ => rfl
  rw [e, d0_mean]

/-- The centred row, as the normalised row reads it. -/
theorem d0_sub2 (n : Fin 100000) (k : Fin 256) :
    val_main_v135 (F := Ideal) x0 x1 x2 x3 x4 x5 x6 x7 x8 x9 x10 x11 x12 x13 x14 x15 x16 x17 x18 x19 x26 (ix2 n k) = val_main_v122 (F := Ideal) x0 x1 x2 x3 x4 x5 x6 x7 x8 x9 x10 x11 x12 x13 x14 x15 x16 x17 x18 x19 x26 (ix2 n k) - rowMean w256 (fun k => val_main_v122 (F := Ideal) x0 x1 x2 x3 x4 x5 x6 x7 x8 x9 x10 x11 x12 x13 x14 x15 x16 x17 x18 x19 x26 (ix2 n k)) := by
  refine (val_main_v135_apply x0 x1 x2 x3 x4 x5 x6 x7 x8 x9 x10 x11 x12 x13 x14 x15 x16 x17 x18 x19 x26 _).trans ?_
  rw [val_main_v134_apply, Ideal.subf_def]
  have e : idx_main_v134 (ix2 n k) = ix2 n (0 : Fin 1) := by funext a; match a with | ⟨0, _⟩ => rfl | ⟨1, _⟩ => rfl
  rw [e, d0_mean]

/-- The sum of the squared centred row. -/
theorem d0_sqsum (n : Fin 100000) :
    val_main_v130 (F := Ideal) x0 x1 x2 x3 x4 x5 x6 x7 x8 x9 x10 x11 x12 x13 x14 x15 x16 x17 x18 x19 x26 (ix1 n) = (∑ k : Fin 256, (val_main_v122 (F := Ideal) x0 x1 x2 x3 x4 x5 x6 x7 x8 x9 x10 x11 x12 x13 x14 x15 x16 x17 x18 x19 x26 (ix2 n k) - rowMean w256 (fun k => val_main_v122 (F := Ideal) x0 x1 x2 x3 x4 x5 x6 x7 x8 x9 x10 x11 x12 x13 x14 x15 x16 x17 x18 x19 x26 (ix2 n k))) * (val_main_v122 (F := Ideal) x0 x1 x2 x3 x4 x5 x6 x7 x8 x9 x10 x11 x12 x13 x14 x15 x16 x17 x18 x19 x26 (ix2 n k) - rowMean w256 (fun k => val_main_v122 (F := Ideal) x0 x1 x2 x3 x4 x5 x6 x7 x8 x9 x10 x11 x12 x13 x14 x15 x16 x17 x18 x19 x26 (ix2 n k)))) := by
  refine (val_main_v130_apply x0 x1 x2 x3 x4 x5 x6 x7 x8 x9 x10 x11 x12 x13 x14 x15 x16 x17 x18 x19 x26 (ix1 n)).trans ?_
  rw [val_main_cst_20_apply, Ideal.ofBits_def, Ideal.ofBits_zero_f32, zero_add]
  refine Finset.sum_congr rfl fun k _ => ?_
  have e : idx_main_v130 (ix1 n) k = ix2 n k := by funext a; match a with | ⟨0, _⟩ => rfl | ⟨1, _⟩ => rfl
  rw [e, val_main_v129_apply, Ideal.mulf_def, d0_sub1]

/-- The reciprocal square root of the variance plus the epsilon. -/
theorem d0_rsq (n : Fin 100000) :
    val_main_v138 (F := Ideal) x0 x1 x2 x3 x4 x5 x6 x7 x8 x9 x10 x11 x12 x13 x14 x15 x16 x17 x18 x19 x26 (ix2 n (0 : Fin 1)) = Ideal.rsqrt (Ideal.div (∑ k : Fin 256, (val_main_v122 (F := Ideal) x0 x1 x2 x3 x4 x5 x6 x7 x8 x9 x10 x11 x12 x13 x14 x15 x16 x17 x18 x19 x26 (ix2 n k) - rowMean w256 (fun k => val_main_v122 (F := Ideal) x0 x1 x2 x3 x4 x5 x6 x7 x8 x9 x10 x11 x12 x13 x14 x15 x16 x17 x18 x19 x26 (ix2 n k))) * (val_main_v122 (F := Ideal) x0 x1 x2 x3 x4 x5 x6 x7 x8 x9 x10 x11 x12 x13 x14 x15 x16 x17 x18 x19 x26 (ix2 n k) - rowMean w256 (fun k => val_main_v122 (F := Ideal) x0 x1 x2 x3 x4 x5 x6 x7 x8 x9 x10 x11 x12 x13 x14 x15 x16 x17 x18 x19 x26 (ix2 n k)))) w256 + epsW) := by
  refine (val_main_v138_apply x0 x1 x2 x3 x4 x5 x6 x7 x8 x9 x10 x11 x12 x13 x14 x15 x16 x17 x18 x19 x26 _).trans ?_
  rw [val_main_v137_apply, val_main_v136_apply, val_main_cst_22_apply, val_main_v133_apply,
    val_main_v131_apply, val_main_v132_apply, val_main_cst_21_apply]
  have e : idx_main_v131 (ix2 n (0 : Fin 1)) = ix1 n := by funext a; match a with | ⟨0, _⟩ => rfl
  rw [e, d0_sqsum]
  rfl

/-- Layer normalisation of the row of the affine stage. -/
theorem d0_ln (n : Fin 100000) (j : Fin 256) :
    val_main_v146 (F := Ideal) x0 x1 x2 x3 x4 x5 x6 x7 x8 x9 x10 x11 x12 x13 x14 x15 x16 x17 x18 x19 x20 x21 x26 (ix2 n j) = lnRow w256 (fun k => val_main_v122 (F := Ideal) x0 x1 x2 x3 x4 x5 x6 x7 x8 x9 x10 x11 x12 x13 x14 x15 x16 x17 x18 x19 x26 (ix2 n k)) (vec x20) (vec x21) j := by
  refine (val_main_v146_apply x0 x1 x2 x3 x4 x5 x6 x7 x8 x9 x10 x11 x12 x13 x14 x15 x16 x17 x18 x19 x20 x21 x26 _).trans ?_
  rw [val_main_v143_apply, val_main_v140_apply, val_main_v139_apply, val_main_v142_apply,
    val_main_v141_apply, val_main_v145_apply, val_main_v144_apply]
  have e1 : idx_main_v139 (ix2 n j) = ix2 n (0 : Fin 1) := by funext a; match a with | ⟨0, _⟩ => rfl | ⟨1, _⟩ => rfl
  have e2 : idx_main_v141 (idx_main_v142 (ix2 n j)) = ix1 j := by funext a; match a with | ⟨0, _⟩ => rfl
  have e3 : idx_main_v144 (idx_main_v145 (ix2 n j)) = ix1 j := by funext a; match a with | ⟨0, _⟩ => rfl
  rw [e1, e2, e3, d0_sub2, d0_rsq]
  rfl

/-- The concatenated row reads the layer's input row on its first 512 columns. -/
theorem d0_cat_left (n : Fin 100000) (k : Fin 512) :
    val_main_v117 (F := Ideal) x0 x1 x2 x3 x4 x5 x6 x7 x8 x9 x10 x11 x12 x13 x14 x15 x16 x17 x26 (ix2 n (⟨k.val, by have := k.isLt; omega⟩ : Fin 536)) = val_main_v116 (F := Ideal) x0 x1 x2 x3 x4 x5 x6 x7 x8 x9 x10 x11 x12 x13 x14 x15 x16 x17 x26 (ix2 n k) := by
  unfold val_main_v117
  generalize val_main_v116 (F := Ideal) x0 x1 x2 x3 x4 x5 x6 x7 x8 x9 x10 x11 x12 x13 x14 x15 x16 x17 x26 = y0
  generalize val_main_v14 (F := Ideal) x0 x1 x2 x3 x4 x5 x6 x7 = y1
  exact concatenate_pair_apply_left (t := S100000x536) (s₁ := S100000x512) (s₂ := S100000x24) (1 : Fin 2) y0 y1 concatenates_S100000x512_S100000x24_S100000x536_d1
    (ix2 n (⟨k.val, by have := k.isLt; omega⟩ : Fin 536)) rfl (ix2 n k)
    (fun b => by match b with | ⟨0, _⟩ => rfl | ⟨1, _⟩ => rfl)

/-- The concatenated row reads the neighbourhood row on its last 24 columns. -/
theorem d0_cat_right (n : Fin 100000) (k : Fin 24) :
    val_main_v117 (F := Ideal) x0 x1 x2 x3 x4 x5 x6 x7 x8 x9 x10 x11 x12 x13 x14 x15 x16 x17 x26 (ix2 n (⟨512 + k.val, by have := k.isLt; omega⟩ : Fin 536)) = val_main_v14 (F := Ideal) x0 x1 x2 x3 x4 x5 x6 x7 (ix2 n k) := by
  unfold val_main_v117
  generalize val_main_v116 (F := Ideal) x0 x1 x2 x3 x4 x5 x6 x7 x8 x9 x10 x11 x12 x13 x14 x15 x16 x17 x26 = y0
  generalize val_main_v14 (F := Ideal) x0 x1 x2 x3 x4 x5 x6 x7 = y1
  exact concatenate_pair_apply_right (t := S100000x536) (s₁ := S100000x512) (s₂ := S100000x24) (1 : Fin 2) y0 y1 concatenates_S100000x512_S100000x24_S100000x536_d1
    (ix2 n (⟨512 + k.val, by have := k.isLt; omega⟩ : Fin 536)) rfl rfl (ix2 n k)
    (fun b hb => by match b, hb with | ⟨0, _⟩, _ => rfl | ⟨1, _⟩, hb => exact absurd rfl hb)
    (by show k.val + 512 = 512 + k.val; omega)

/-- The product with the transposed weight, as one sum over the concatenated row. -/
theorem d0_dot (n : Fin 100000) (j : Fin 256) :
    val_main_v119 (F := Ideal) x0 x1 x2 x3 x4 x5 x6 x7 x8 x9 x10 x11 x12 x13 x14 x15 x16 x17 x18 x26 (ix2 n j) = ∑ k : Fin 536, val_main_v117 (F := Ideal) x0 x1 x2 x3 x4 x5 x6 x7 x8 x9 x10 x11 x12 x13 x14 x15 x16 x17 x26 (ix2 n k) * x18 (ix2 j k) := by
  refine (val_main_v119_apply x0 x1 x2 x3 x4 x5 x6 x7 x8 x9 x10 x11 x12 x13 x14 x15 x16 x17 x18 x26 (ix2 n j)).trans (Finset.sum_congr rfl fun k _ => ?_)
  rw [val_main_v118_apply]
  refine congrArg₂ (· * ·) (congrArg (val_main_v117 (F := Ideal) x0 x1 x2 x3 x4 x5 x6 x7 x8 x9 x10 x11 x12 x13 x14 x15 x16 x17 x26) ?_) (congrArg x18 ?_)
  · funext a; match a with | ⟨0, _⟩ => rfl | ⟨1, _⟩ => rfl
  · funext a; match a with | ⟨0, _⟩ => rfl | ⟨1, _⟩ => rfl

/-- The bias laid against the rows. -/
theorem d0_bias (n : Fin 100000) (j : Fin 256) : val_main_v121 (F := Ideal) x19 (ix2 n j) = vec x19 j := by
  rw [val_main_v121_apply, val_main_v120_apply]
  refine congrArg x19 ?_
  funext a; match a with | ⟨0, _⟩ => rfl

/-- The affine stage of a row: the row's own columns and the neighbourhood columns against the transposed weight, plus the bias. -/
theorem d0_aff (n : Fin 100000) (j : Fin 256) :
    val_main_v122 (F := Ideal) x0 x1 x2 x3 x4 x5 x6 x7 x8 x9 x10 x11 x12 x13 x14 x15 x16 x17 x18 x19 x26 (ix2 n j)
      = lin2 (row (val_main_v116 (F := Ideal) x0 x1 x2 x3 x4 x5 x6 x7 x8 x9 x10 x11 x12 x13 x14 x15 x16 x17 x26) n) (row (val_main_v14 (F := Ideal) x0 x1 x2 x3 x4 x5 x6 x7) n) (wT x18 0 512 (by decide)) (wT x18 512 24 (by decide)) (vec x19) j := by
  refine (val_main_v122_apply x0 x1 x2 x3 x4 x5 x6 x7 x8 x9 x10 x11 x12 x13 x14 x15 x16 x17 x18 x19 x26 (ix2 n j)).trans ?_
  rw [Ideal.addf_def, d0_dot, d0_bias,
    affine_split (by decide : 512 + 24 = 536) (val_main_v117 (F := Ideal) x0 x1 x2 x3 x4 x5 x6 x7 x8 x9 x10 x11 x12 x13 x14 x15 x16 x17 x26) (val_main_v116 (F := Ideal) x0 x1 x2 x3 x4 x5 x6 x7 x8 x9 x10 x11 x12 x13 x14 x15 x16 x17 x26) (val_main_v14 (F := Ideal) x0 x1 x2 x3 x4 x5 x6 x7) x18 n j
      (d0_cat_left x0 x1 x2 x3 x4 x5 x6 x7 x8 x9 x10 x11 x12 x13 x14 x15 x16 x17 x26 n) (d0_cat_right x0 x1 x2 x3 x4 x5 x6 x7 x8 x9 x10 x11 x12 x13 x14 x15 x16 x17 x26 n)]
  rfl

/-- The maximum with the broadcast zero is relu. -/
theorem d0_relu (n : Fin 100000) (j : Fin 256) :
    val_main_v147 (F := Ideal) x0 x1 x2 x3 x4 x5 x6 x7 x8 x9 x10 x11 x12 x13 x14 x15 x16 x17 x18 x19 x20 x21 x26 (ix2 n j) = relu (val_main_v146 (F := Ideal) x0 x1 x2 x3 x4 x5 x6 x7 x8 x9 x10 x11 x12 x13 x14 x15 x16 x17 x18 x19 x20 x21 x26 (ix2 n j)) := by
  refine (val_main_v147_apply x0 x1 x2 x3 x4 x5 x6 x7 x8 x9 x10 x11 x12 x13 x14 x15 x16 x17 x18 x19 x20 x21 x26 _).trans ?_
  rw [val_main_call2_v0_apply, val_main_call2_cst_apply, Ideal.maximumf_def, Ideal.ofBits_def]
  rfl

/-- The first decoder layer's output row. -/
theorem d0_layer (n : Fin 100000) (j : Fin 256) :
    val_main_v147 (F := Ideal) x0 x1 x2 x3 x4 x5 x6 x7 x8 x9 x10 x11 x12 x13 x14 x15 x16 x17 x18 x19 x20 x21 x26 (ix2 n j) = layerRow w256 (lin1 (encAt x0 x1 x2 x3 x4 x5 x6 x7 x8 x9 x10 x11 x12 x13 x14 x15 x16 x17 n) (wT x26 0 512 (by decide))) (row (val_main_v14 (F := Ideal) x0 x1 x2 x3 x4 x5 x6 x7) n) (wT x18 0 512 (by decide)) (wT x18 512 24 (by decide)) (vec x19) (vec x20) (vec x21) j := by
  rw [d0_relu,
    d0_ln,
    show (fun k => val_main_v122 (F := Ideal) x0 x1 x2 x3 x4 x5 x6 x7 x8 x9 x10 x11 x12 x13 x14 x15 x16 x17 x18 x19 x26 (ix2 n k)) = lin2 (row (val_main_v116 (F := Ideal) x0 x1 x2 x3 x4 x5 x6 x7 x8 x9 x10 x11 x12 x13 x14 x15 x16 x17 x26) n) (row (val_main_v14 (F := Ideal) x0 x1 x2 x3 x4 x5 x6 x7) n) (wT x18 0 512 (by decide)) (wT x18 512 24 (by decide)) (vec x19) from funext fun k => d0_aff x0 x1 x2 x3 x4 x5 x6 x7 x8 x9 x10 x11 x12 x13 x14 x15 x16 x17 x18 x19 x26 n k,
    show row (val_main_v116 (F := Ideal) x0 x1 x2 x3 x4 x5 x6 x7 x8 x9 x10 x11 x12 x13 x14 x15 x16 x17 x26) n = (lin1 (encAt x0 x1 x2 x3 x4 x5 x6 x7 x8 x9 x10 x11 x12 x13 x14 x15 x16 x17 n) (wT x26 0 512 (by decide))) from funext fun k => pr_dot x0 x1 x2 x3 x4 x5 x6 x7 x8 x9 x10 x11 x12 x13 x14 x15 x16 x17 x26 n k]
  rfl

/-! ## The second decoder layer (stages 148 to 178) -/

/-- The row sum of the affine stage. -/
theorem d1_sum (n : Fin 100000) :
    val_main_v154 (F := Ideal) x0 x1 x2 x3 x4 x5 x6 x7 x8 x9 x10 x11 x12 x13 x14 x15 x16 x17 x18 x19 x20 x21 x22 x23 x26 (ix1 n) = ∑ k : Fin 10, val_main_v153 (F := Ideal) x0 x1 x2 x3 x4 x5 x6 x7 x8 x9 x10 x11 x12 x13 x14 x15 x16 x17 x18 x19 x20 x21 x22 x23 x26 (ix2 n k) := by
  refine (val_main_v154_apply x0 x1 x2 x3 x4 x5 x6 x7 x8 x9 x10 x11 x12 x13 x14 x15 x16 x17 x18 x19 x20 x21 x22 x23 x26 (ix1 n)).trans ?_
  rw [val_main_cst_23_apply, Ideal.ofBits_def, Ideal.ofBits_zero_f32, zero_add]
  refine Finset.sum_congr rfl fun k _ => congrArg (val_main_v153 (F := Ideal) x0 x1 x2 x3 x4 x5 x6 x7 x8 x9 x10 x11 x12 x13 x14 x15 x16 x17 x18 x19 x20 x21 x22 x23 x26) ?_
  funext a; match a with | ⟨0, _⟩ => rfl | ⟨1, _⟩ => rfl

/-- The row mean. -/
theorem d1_mean (n : Fin 100000) :
    val_main_v157 (F := Ideal) x0 x1 x2 x3 x4 x5 x6 x7 x8 x9 x10 x11 x12 x13 x14 x15 x16 x17 x18 x19 x20 x21 x22 x23 x26 (ix2 n (0 : Fin 1)) = rowMean w10 (fun k => val_main_v153 (F := Ideal) x0 x1 x2 x3 x4 x5 x6 x7 x8 x9 x10 x11 x12 x13 x14 x15 x16 x17 x18 x19 x20 x21 x22 x23 x26 (ix2 n k)) := by
  refine (val_main_v157_apply x0 x1 x2 x3 x4 x5 x6 x7 x8 x9 x10 x11 x12 x13 x14 x15 x16 x17 x18 x19 x20 x21 x22 x23 x26 _).trans ?_
  rw [val_main_v155_apply, val_main_v156_apply, val_main_cst_24_apply, Ideal.hostDivf_def, Ideal.ofBits_def]
  have e : idx_main_v155 (ix2 n (0 : Fin 1)) = ix1 n := by funext a; match a with | ⟨0, _⟩ => rfl
  rw [e, d1_sum]
  rfl

/-- The centred row, as the variance reads it. -/
theorem d1_sub1 (n : Fin 100000) (k : Fin 10) :
    val_main_v159 (F := Ideal) x0 x1 x2 x3 x4 x5 x6 x7 x8 x9 x10 x11 x12 x13 x14 x15 x16 x17 x18 x19 x20 x21 x22 x23 x26 (ix2 n k) = val_main_v153 (F := Ideal) x0 x1 x2 x3 x4 x5 x6 x7 x8 x9 x10 x11 x12 x13 x14 x15 x16 x17 x18 x19 x20 x21 x22 x23 x26 (ix2 n k) - rowMean w10 (fun k => val_main_v153 (F := Ideal) x0 x1 x2 x3 x4 x5 x6 x7 x8 x9 x10 x11 x12 x13 x14 x15 x16 x17 x18 x19 x20 x21 x22 x23 x26 (ix2 n k)) := by
  refine (val_main_v159_apply x0 x1 x2 x3 x4 x5 x6 x7 x8 x9 x10 x11 x12 x13 x14 x15 x16 x17 x18 x19 x20 x21 x22 x23 x26 _).trans ?_
  rw [val_main_v158_apply, Ideal.subf_def]
  have e : idx_main_v158 (ix2 n k) = ix2 n (0 : Fin 1) := by funext a; match a with | ⟨0, _⟩ => rfl | ⟨1, _⟩ => rfl
  rw [e, d1_mean]

/-- The centred row, as the normalised row reads it. -/
theorem d1_sub2 (n : Fin 100000) (k : Fin 10) :
    val_main_v166 (F := Ideal) x0 x1 x2 x3 x4 x5 x6 x7 x8 x9 x10 x11 x12 x13 x14 x15 x16 x17 x18 x19 x20 x21 x22 x23 x26 (ix2 n k) = val_main_v153 (F := Ideal) x0 x1 x2 x3 x4 x5 x6 x7 x8 x9 x10 x11 x12 x13 x14 x15 x16 x17 x18 x19 x20 x21 x22 x23 x26 (ix2 n k) - rowMean w10 (fun k => val_main_v153 (F := Ideal) x0 x1 x2 x3 x4 x5 x6 x7 x8 x9 x10 x11 x12 x13 x14 x15 x16 x17 x18 x19 x20 x21 x22 x23 x26 (ix2 n k)) := by
  refine (val_main_v166_apply x0 x1 x2 x3 x4 x5 x6 x7 x8 x9 x10 x11 x12 x13 x14 x15 x16 x17 x18 x19 x20 x21 x22 x23 x26 _).trans ?_
  rw [val_main_v165_apply, Ideal.subf_def]
  have e : idx_main_v165 (ix2 n k) = ix2 n (0 : Fin 1) := by funext a; match a with | ⟨0, _⟩ => rfl | ⟨1, _⟩ => rfl
  rw [e, d1_mean]

/-- The sum of the squared centred row. -/
theorem d1_sqsum (n : Fin 100000) :
    val_main_v161 (F := Ideal) x0 x1 x2 x3 x4 x5 x6 x7 x8 x9 x10 x11 x12 x13 x14 x15 x16 x17 x18 x19 x20 x21 x22 x23 x26 (ix1 n) = (∑ k : Fin 10, (val_main_v153 (F := Ideal) x0 x1 x2 x3 x4 x5 x6 x7 x8 x9 x10 x11 x12 x13 x14 x15 x16 x17 x18 x19 x20 x21 x22 x23 x26 (ix2 n k) - rowMean w10 (fun k => val_main_v153 (F := Ideal) x0 x1 x2 x3 x4 x5 x6 x7 x8 x9 x10 x11 x12 x13 x14 x15 x16 x17 x18 x19 x20 x21 x22 x23 x26 (ix2 n k))) * (val_main_v153 (F := Ideal) x0 x1 x2 x3 x4 x5 x6 x7 x8 x9 x10 x11 x12 x13 x14 x15 x16 x17 x18 x19 x20 x21 x22 x23 x26 (ix2 n k) - rowMean w10 (fun k => val_main_v153 (F := Ideal) x0 x1 x2 x3 x4 x5 x6 x7 x8 x9 x10 x11 x12 x13 x14 x15 x16 x17 x18 x19 x20 x21 x22 x23 x26 (ix2 n k)))) := by
  refine (val_main_v161_apply x0 x1 x2 x3 x4 x5 x6 x7 x8 x9 x10 x11 x12 x13 x14 x15 x16 x17 x18 x19 x20 x21 x22 x23 x26 (ix1 n)).trans ?_
  rw [val_main_cst_25_apply, Ideal.ofBits_def, Ideal.ofBits_zero_f32, zero_add]
  refine Finset.sum_congr rfl fun k _ => ?_
  have e : idx_main_v161 (ix1 n) k = ix2 n k := by funext a; match a with | ⟨0, _⟩ => rfl | ⟨1, _⟩ => rfl
  rw [e, val_main_v160_apply, Ideal.mulf_def, d1_sub1]

/-- The reciprocal square root of the variance plus the epsilon. -/
theorem d1_rsq (n : Fin 100000) :
    val_main_v169 (F := Ideal) x0 x1 x2 x3 x4 x5 x6 x7 x8 x9 x10 x11 x12 x13 x14 x15 x16 x17 x18 x19 x20 x21 x22 x23 x26 (ix2 n (0 : Fin 1)) = Ideal.rsqrt (Ideal.div (∑ k : Fin 10, (val_main_v153 (F := Ideal) x0 x1 x2 x3 x4 x5 x6 x7 x8 x9 x10 x11 x12 x13 x14 x15 x16 x17 x18 x19 x20 x21 x22 x23 x26 (ix2 n k) - rowMean w10 (fun k => val_main_v153 (F := Ideal) x0 x1 x2 x3 x4 x5 x6 x7 x8 x9 x10 x11 x12 x13 x14 x15 x16 x17 x18 x19 x20 x21 x22 x23 x26 (ix2 n k))) * (val_main_v153 (F := Ideal) x0 x1 x2 x3 x4 x5 x6 x7 x8 x9 x10 x11 x12 x13 x14 x15 x16 x17 x18 x19 x20 x21 x22 x23 x26 (ix2 n k) - rowMean w10 (fun k => val_main_v153 (F := Ideal) x0 x1 x2 x3 x4 x5 x6 x7 x8 x9 x10 x11 x12 x13 x14 x15 x16 x17 x18 x19 x20 x21 x22 x23 x26 (ix2 n k)))) w10 + epsW) := by
  refine (val_main_v169_apply x0 x1 x2 x3 x4 x5 x6 x7 x8 x9 x10 x11 x12 x13 x14 x15 x16 x17 x18 x19 x20 x21 x22 x23 x26 _).trans ?_
  rw [val_main_v168_apply, val_main_v167_apply, val_main_cst_27_apply, val_main_v164_apply,
    val_main_v162_apply, val_main_v163_apply, val_main_cst_26_apply]
  have e : idx_main_v162 (ix2 n (0 : Fin 1)) = ix1 n := by funext a; match a with | ⟨0, _⟩ => rfl
  rw [e, d1_sqsum]
  rfl

/-- Layer normalisation of the row of the affine stage. -/
theorem d1_ln (n : Fin 100000) (j : Fin 10) :
    val_main_v177 (F := Ideal) x0 x1 x2 x3 x4 x5 x6 x7 x8 x9 x10 x11 x12 x13 x14 x15 x16 x17 x18 x19 x20 x21 x22 x23 x24 x25 x26 (ix2 n j) = lnRow w10 (fun k => val_main_v153 (F := Ideal) x0 x1 x2 x3 x4 x5 x6 x7 x8 x9 x10 x11 x12 x13 x14 x15 x16 x17 x18 x19 x20 x21 x22 x23 x26 (ix2 n k)) (vec x24) (vec x25) j := by
  refine (val_main_v177_apply x0 x1 x2 x3 x4 x5 x6 x7 x8 x9 x10 x11 x12 x13 x14 x15 x16 x17 x18 x19 x20 x21 x22 x23 x24 x25 x26 _).trans ?_
  rw [val_main_v174_apply, val_main_v171_apply, val_main_v170_apply, val_main_v173_apply,
    val_main_v172_apply, val_main_v176_apply, val_main_v175_apply]
  have e1 : idx_main_v170 (ix2 n j) = ix2 n (0 : Fin 1) := by funext a; match a with | ⟨0, _⟩ => rfl | ⟨1, _⟩ => rfl
  have e2 : idx_main_v172 (idx_main_v173 (ix2 n j)) = ix1 j := by funext a; match a with | ⟨0, _⟩ => rfl
  have e3 : idx_main_v175 (idx_main_v176 (ix2 n j)) = ix1 j := by funext a; match a with | ⟨0, _⟩ => rfl
  rw [e1, e2, e3, d1_sub2, d1_rsq]
  rfl

/-- The concatenated row reads the layer's input row on its first 256 columns. -/
theorem d1_cat_left (n : Fin 100000) (k : Fin 256) :
    val_main_v148 (F := Ideal) x0 x1 x2 x3 x4 x5 x6 x7 x8 x9 x10 x11 x12 x13 x14 x15 x16 x17 x18 x19 x20 x21 x26 (ix2 n (⟨k.val, by have := k.isLt; omega⟩ : Fin 280)) = val_main_v147 (F := Ideal) x0 x1 x2 x3 x4 x5 x6 x7 x8 x9 x10 x11 x12 x13 x14 x15 x16 x17 x18 x19 x20 x21 x26 (ix2 n k) := by
  unfold val_main_v148
  generalize val_main_v147 (F := Ideal) x0 x1 x2 x3 x4 x5 x6 x7 x8 x9 x10 x11 x12 x13 x14 x15 x16 x17 x18 x19 x20 x21 x26 = y0
  generalize val_main_v14 (F := Ideal) x0 x1 x2 x3 x4 x5 x6 x7 = y1
  exact concatenate_pair_apply_left (t := S100000x280) (s₁ := S100000x256) (s₂ := S100000x24) (1 : Fin 2) y0 y1 concatenates_S100000x256_S100000x24_S100000x280_d1
    (ix2 n (⟨k.val, by have := k.isLt; omega⟩ : Fin 280)) rfl (ix2 n k)
    (fun b => by match b with | ⟨0, _⟩ => rfl | ⟨1, _⟩ => rfl)

/-- The concatenated row reads the neighbourhood row on its last 24 columns. -/
theorem d1_cat_right (n : Fin 100000) (k : Fin 24) :
    val_main_v148 (F := Ideal) x0 x1 x2 x3 x4 x5 x6 x7 x8 x9 x10 x11 x12 x13 x14 x15 x16 x17 x18 x19 x20 x21 x26 (ix2 n (⟨256 + k.val, by have := k.isLt; omega⟩ : Fin 280)) = val_main_v14 (F := Ideal) x0 x1 x2 x3 x4 x5 x6 x7 (ix2 n k) := by
  unfold val_main_v148
  generalize val_main_v147 (F := Ideal) x0 x1 x2 x3 x4 x5 x6 x7 x8 x9 x10 x11 x12 x13 x14 x15 x16 x17 x18 x19 x20 x21 x26 = y0
  generalize val_main_v14 (F := Ideal) x0 x1 x2 x3 x4 x5 x6 x7 = y1
  exact concatenate_pair_apply_right (t := S100000x280) (s₁ := S100000x256) (s₂ := S100000x24) (1 : Fin 2) y0 y1 concatenates_S100000x256_S100000x24_S100000x280_d1
    (ix2 n (⟨256 + k.val, by have := k.isLt; omega⟩ : Fin 280)) rfl rfl (ix2 n k)
    (fun b hb => by match b, hb with | ⟨0, _⟩, _ => rfl | ⟨1, _⟩, hb => exact absurd rfl hb)
    (by show k.val + 256 = 256 + k.val; omega)

/-- The product with the transposed weight, as one sum over the concatenated row. -/
theorem d1_dot (n : Fin 100000) (j : Fin 10) :
    val_main_v150 (F := Ideal) x0 x1 x2 x3 x4 x5 x6 x7 x8 x9 x10 x11 x12 x13 x14 x15 x16 x17 x18 x19 x20 x21 x22 x26 (ix2 n j) = ∑ k : Fin 280, val_main_v148 (F := Ideal) x0 x1 x2 x3 x4 x5 x6 x7 x8 x9 x10 x11 x12 x13 x14 x15 x16 x17 x18 x19 x20 x21 x26 (ix2 n k) * x22 (ix2 j k) := by
  refine (val_main_v150_apply x0 x1 x2 x3 x4 x5 x6 x7 x8 x9 x10 x11 x12 x13 x14 x15 x16 x17 x18 x19 x20 x21 x22 x26 (ix2 n j)).trans (Finset.sum_congr rfl fun k _ => ?_)
  rw [val_main_v149_apply]
  refine congrArg₂ (· * ·) (congrArg (val_main_v148 (F := Ideal) x0 x1 x2 x3 x4 x5 x6 x7 x8 x9 x10 x11 x12 x13 x14 x15 x16 x17 x18 x19 x20 x21 x26) ?_) (congrArg x22 ?_)
  · funext a; match a with | ⟨0, _⟩ => rfl | ⟨1, _⟩ => rfl
  · funext a; match a with | ⟨0, _⟩ => rfl | ⟨1, _⟩ => rfl

/-- The bias laid against the rows. -/
theorem d1_bias (n : Fin 100000) (j : Fin 10) : val_main_v152 (F := Ideal) x23 (ix2 n j) = vec x23 j := by
  rw [val_main_v152_apply, val_main_v151_apply]
  refine congrArg x23 ?_
  funext a; match a with | ⟨0, _⟩ => rfl

/-- The affine stage of a row: the row's own columns and the neighbourhood columns against the transposed weight, plus the bias. -/
theorem d1_aff (n : Fin 100000) (j : Fin 10) :
    val_main_v153 (F := Ideal) x0 x1 x2 x3 x4 x5 x6 x7 x8 x9 x10 x11 x12 x13 x14 x15 x16 x17 x18 x19 x20 x21 x22 x23 x26 (ix2 n j)
      = lin2 (row (val_main_v147 (F := Ideal) x0 x1 x2 x3 x4 x5 x6 x7 x8 x9 x10 x11 x12 x13 x14 x15 x16 x17 x18 x19 x20 x21 x26) n) (row (val_main_v14 (F := Ideal) x0 x1 x2 x3 x4 x5 x6 x7) n) (wT x22 0 256 (by decide)) (wT x22 256 24 (by decide)) (vec x23) j := by
  refine (val_main_v153_apply x0 x1 x2 x3 x4 x5 x6 x7 x8 x9 x10 x11 x12 x13 x14 x15 x16 x17 x18 x19 x20 x21 x22 x23 x26 (ix2 n j)).trans ?_
  rw [Ideal.addf_def, d1_dot, d1_bias,
    affine_split (by decide : 256 + 24 = 280) (val_main_v148 (F := Ideal) x0 x1 x2 x3 x4 x5 x6 x7 x8 x9 x10 x11 x12 x13 x14 x15 x16 x17 x18 x19 x20 x21 x26) (val_main_v147 (F := Ideal) x0 x1 x2 x3 x4 x5 x6 x7 x8 x9 x10 x11 x12 x13 x14 x15 x16 x17 x18 x19 x20 x21 x26) (val_main_v14 (F := Ideal) x0 x1 x2 x3 x4 x5 x6 x7) x22 n j
      (d1_cat_left x0 x1 x2 x3 x4 x5 x6 x7 x8 x9 x10 x11 x12 x13 x14 x15 x16 x17 x18 x19 x20 x21 x26 n) (d1_cat_right x0 x1 x2 x3 x4 x5 x6 x7 x8 x9 x10 x11 x12 x13 x14 x15 x16 x17 x18 x19 x20 x21 x26 n)]
  rfl

/-- The maximum with the broadcast zero is relu. -/
theorem d1_relu (n : Fin 100000) (j : Fin 10) :
    val_main_v178 (F := Ideal) x0 x1 x2 x3 x4 x5 x6 x7 x8 x9 x10 x11 x12 x13 x14 x15 x16 x17 x18 x19 x20 x21 x22 x23 x24 x25 x26 (ix2 n j) = relu (val_main_v177 (F := Ideal) x0 x1 x2 x3 x4 x5 x6 x7 x8 x9 x10 x11 x12 x13 x14 x15 x16 x17 x18 x19 x20 x21 x22 x23 x24 x25 x26 (ix2 n j)) := by
  refine (val_main_v178_apply x0 x1 x2 x3 x4 x5 x6 x7 x8 x9 x10 x11 x12 x13 x14 x15 x16 x17 x18 x19 x20 x21 x22 x23 x24 x25 x26 _).trans ?_
  rw [val_main_call3_v0_apply, val_main_call3_cst_apply, Ideal.maximumf_def, Ideal.ofBits_def]
  rfl

/-- The reconstruction of a node is the reconstruction row of its encoded row and its neighbourhood row. -/
theorem recon_row (n : Fin 100000) (j : Fin 10) :
    val_main_v178 (F := Ideal) x0 x1 x2 x3 x4 x5 x6 x7 x8 x9 x10 x11 x12 x13 x14 x15 x16 x17 x18 x19 x20 x21 x22 x23 x24 x25 x26 (ix2 n j)
      = reconRow (encAt x0 x1 x2 x3 x4 x5 x6 x7 x8 x9 x10 x11 x12 x13 x14 x15 x16 x17 n) (row (val_main_v14 (F := Ideal) x0 x1 x2 x3 x4 x5 x6 x7) n) (wT x26 0 512 (by decide)) (wT x18 0 512 (by decide)) (wT x18 512 24 (by decide)) (vec x19) (vec x20) (vec x21)
        (wT x22 0 256 (by decide)) (wT x22 256 24 (by decide)) (vec x23) (vec x24) (vec x25) j := by
  rw [d1_relu,
    d1_ln,
    show (fun k => val_main_v153 (F := Ideal) x0 x1 x2 x3 x4 x5 x6 x7 x8 x9 x10 x11 x12 x13 x14 x15 x16 x17 x18 x19 x20 x21 x22 x23 x26 (ix2 n k)) = lin2 (row (val_main_v147 (F := Ideal) x0 x1 x2 x3 x4 x5 x6 x7 x8 x9 x10 x11 x12 x13 x14 x15 x16 x17 x18 x19 x20 x21 x26) n) (row (val_main_v14 (F := Ideal) x0 x1 x2 x3 x4 x5 x6 x7) n) (wT x22 0 256 (by decide)) (wT x22 256 24 (by decide)) (vec x23) from funext fun k => d1_aff x0 x1 x2 x3 x4 x5 x6 x7 x8 x9 x10 x11 x12 x13 x14 x15 x16 x17 x18 x19 x20 x21 x22 x23 x26 n k,
    show row (val_main_v147 (F := Ideal) x0 x1 x2 x3 x4 x5 x6 x7 x8 x9 x10 x11 x12 x13 x14 x15 x16 x17 x18 x19 x20 x21 x26) n = (layerRow w256 (lin1 (encAt x0 x1 x2 x3 x4 x5 x6 x7 x8 x9 x10 x11 x12 x13 x14 x15 x16 x17 n) (wT x26 0 512 (by decide))) (row (val_main_v14 (F := Ideal) x0 x1 x2 x3 x4 x5 x6 x7) n) (wT x18 0 512 (by decide)) (wT x18 512 24 (by decide)) (vec x19) (vec x20) (vec x21)) from funext fun k => d0_layer x0 x1 x2 x3 x4 x5 x6 x7 x8 x9 x10 x11 x12 x13 x14 x15 x16 x17 x18 x19 x20 x21 x26 n k]
  rfl

/-! ## The two row statements -/

theorem scoresRows : Cert.RefSpec.ScoresRows :=
  fun x0 x1 x2 x3 x4 x5 x6 x7 x8 x9 x10 x11 x12 x13 x14 x15 x16 x17 x27 x28 x29 x30 n q => scores_row x0 x1 x2 x3 x4 x5 x6 x7 x8 x9 x10 x11 x12 x13 x14 x15 x16 x17 x27 x28 x29 x30 n q

theorem reconRows : Cert.RefSpec.ReconRows :=
  fun x0 x1 x2 x3 x4 x5 x6 x7 x8 x9 x10 x11 x12 x13 x14 x15 x16 x17 x18 x19 x20 x21 x22 x23 x24 x25 x26 n q => recon_row x0 x1 x2 x3 x4 x5 x6 x7 x8 x9 x10 x11 x12 x13 x14 x15 x16 x17 x18 x19 x20 x21 x22 x23 x24 x25 x26 n q

end Cert.RefRows

end
-- ==== Proof.lean ====
/-
  The certificate of the node kernel against its reference.
  Frames: the kernel's two printings run to the end leaving every argument array as launched (the call's 50 grid
  points each run the body on whole staging buffers; no host line writes an argument); the reference's frame is its run
  with the results dropped. The idealisation rewrote nothing, so `preserves` is trivial. The algebraic claim: on the
  extended reals the kernel program's three results are the reference's three stages of the same arguments — its two
  tiled output arrays are, row by row, the same row functions as the reference's arrays, the one sum over a row of
  [features, neighbourhood sums] against a transposed weight split into its two parts, and the per-destination sums of the
  five edge tables laid side by side being the per-destination sum of the tables laid side by side.
-/
import proofs.«106524_j47382079209805_2_alg».proof.Defs
import proofs.«106524_j47382079209805_2_alg».proof.Proof.KernelFrame
import proofs.«106524_j47382079209805_2_alg».proof.Proof.KernelIdealFrame
import proofs.«106524_j47382079209805_2_alg».proof.Proof.Gen.ReferenceIdeal
import proofs.«106524_j47382079209805_2_alg».proof.Proof.RefRun
import proofs.«106524_j47382079209805_2_alg».proof.Proof.RefRead
import proofs.«106524_j47382079209805_2_alg».proof.Proof.Gen.Pre_finite_inputs
import proofs.«106524_j47382079209805_2_alg».proof.Proof.Algebraic
import proofs.«106524_j47382079209805_2_alg».proof.Proof.NbrSums
import proofs.«106524_j47382079209805_2_alg».proof.Proof.RefRows
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Around.frame m ρ

theorem frame_kernelIdeal : Cert.frame_KernelIdeal := fun m ρ _ => Cert.KernelIdeal.Around.frame m ρ

theorem frame_reference : Cert.frame_ReferenceIdeal := fun m ρ _ =>
  (θ_run Cert.ReferenceIdeal.defs _ _).mono (fun _ h c => (h c).2.2.2) (Cert.ReferenceIdeal.ValueP.run (F := Ideal) m ρ)

theorem preserves : Cert.preserves_Kernel_KernelIdeal := trivial

/-- The reference run's named result terms are the stages the row lemmas speak of. -/
theorem res_pred_eq (m' : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v185 m' c = Cert.ReferenceIdeal.ReadP.val_main_v185 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26)) := by
  unfold Cert.ReferenceIdeal.ValueP.res_main_v185; rfl
theorem res_scores_eq (m' : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v114 m' c = Cert.ReferenceIdeal.ReadP.val_main_v114 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg27)) (m' ((c.tc : Thread Cert.ReferenceIdeal.nD Cert.ReferenceIdeal.τ).loc Cert.ReferenceIdeal.main_arg28)) (m' ((c.tc : Thread Cert.ReferenceIdeal.nD Cert.ReferenceIdeal.τ).loc Cert.ReferenceIdeal.main_arg29)) (m' ((c.tc : Thread Cert.ReferenceIdeal.nD Cert.ReferenceIdeal.τ).loc Cert.ReferenceIdeal.main_arg30)) := by
  unfold Cert.ReferenceIdeal.ValueP.res_main_v114; rfl

set_option maxHeartbeats 16000000 in
theorem algebraic : Cert.algebraic_KernelIdeal_ReferenceIdeal := by
  intro m ρ m' ρ' _ hagree
  refine ⟨_, _, _, Cert.Alg.kernel_side m (fun x0 x8 x9 => Cert.NbrSums.maskedX_eq x0 x8 x9)
    (fun x0 x1 x2 x3 x4 x5 x6 x7 => Cert.NbrSums.nbrNorm_eq x0 x1 x2 x3 x4 x5 x6 x7)
    Cert.RefRows.scoresRows Cert.RefRows.reconRows ρ, ?_⟩
  refine (θ_run Cert.ReferenceIdeal.defs _ _).mono (fun r h c => ⟨?_, ?_, ?_, (h c).2.2.2⟩)
    (Cert.ReferenceIdeal.ValueP.run (F := Ideal) m' ρ')
  · refine ((h c).1.trans ((res_pred_eq m' c).trans ?_))
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2.1, (hagree c).2.2.2.2.2.2.2.2.2.2.2.2.2.2.2.2.2.2.2.2.2.2.2.2.1, (hagree c).2.2.2.2.2.2.2.2.2.2.2.2.2.2.2.2.2.2.2.2.2.2.2.2.2.1, (hagree c).2.2.2.2.2.2.2.2.2.2.2.2.2.2.2.2.2.2.2.2.2.2.2.2.2.2.1]
  · refine ((h c).2.1.trans ((Cert.ReferenceIdeal.ReadP.val_main_v192_eq _ _).trans ?_))
    rw [(hagree c).1, (hagree c).2.2.2.2.2.2.2.2.1]
  · refine ((h c).2.2.1.trans ((res_scores_eq m' c).trans ?_))
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.2.2.2.2.2.2.2.2.2.1, (hagree c).2.2.2.2.2.2.2.2.2.2.2.2.2.2.2.2.2.2.2.2.2.2.2.2.2.2.2.2.1, (hagree c).2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
